-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.named_const.Statement Cert.KernelIdeal.κ "inv_sqrt_hd" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x240000 : Shape := ⟨2, ![2, 240000]⟩
abbrev S240000x64 : Shape := ⟨2, ![240000, 64]⟩
abbrev S240000 : Shape := ⟨1, ![240000]⟩
abbrev S64x256 : Shape := ⟨2, ![64, 256]⟩
abbrev S256 : Shape := ⟨1, ![256]⟩
abbrev S256x256 : Shape := ⟨2, ![256, 256]⟩
abbrev S1 : Shape := ⟨1, ![1]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S240000x64 : S_.BroadcastsInDim S240000x64 (![] : Fin 0 → Fin S240000x64.rank)
  reducesTo_S240000x64_S_d0_1 : S240000x64.ReducesTo [0, 1] S_
  bcast_S_S240000 : S_.BroadcastsInDim S240000 (![] : Fin 0 → Fin S240000.rank)
  reducesTo_S240000_S_d0 : S240000.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg15 : FVec F S256 .f32) (main_arg16 : FVec F S256x256 .f32) (main_arg17 : FVec F S256 .f32) (main_arg18 : FVec F S1 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg16
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_v83 main_v84 main_cst_32

def fn_part3 {F : FTy → Type} [FloatOps F] (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg15 main_arg16 main_arg17 main_arg18 main_v63 main_v67

def fn_part2 {F : FTy → Type} [FloatOps F] (main_arg8 : FVec F S256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_v48 main_v49 main_v50

def fn_part1 {F : FTy → Type} [FloatOps F] (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S1 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S20000x256 .f32) (main_arg1 : IVec S2x240000 32) (main_arg2 : FVec F S240000x64 .f32) (main_arg3 : FVec F S240000 .f32) (main_arg4 : FVec F S64x256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S1 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S240000x64 .f32 := Host.absf main_arg2
  let main_cst_0 : FVec F S_ .f32 := constant S_ .f32 0x7F800000#32
  let main_v5 : FVec F S240000x64 .f32 := broadcastInDim S240000x64 ![] bcast_S_S240000x64 main_cst_0
  let main_v6 : IVec S240000x64 1 := cmpf .olt main_v4 main_v5
  let main_c_1 : IVec S_ 1 := constantI S_ 1 1#1
  let main_v7 : IVec S_ 1 := (fun x v => Host.reduce IntOp.andi x v reducesTo_S240000x64_S_d0_1 h_S_) main_v6 main_c_1
  let main_v8 : IVec S_ 1 := andi main_v3 main_v7
  let main_v9 : FVec F S240000 .f32 := Host.absf main_arg3
  let main_cst_2 : FVec F S_ .f32 := constant S_ .f32 0x7F800000#32
  let main_v10 : FVec F S240000 .f32 := broadcastInDim S240000 ![] bcast_S_S240000 main_cst_2
  let main_v11 : IVec S240000 1 := cmpf .olt main_v9 main_v10
  let main_c_3 : IVec S_ 1 := constantI S_ 1 1#1
  let main_v12 : IVec S_ 1 := (fun x v => Host.reduce IntOp.andi x v reducesTo_S240000_S_d0 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S20000x256 : Shape := ⟨2, ![20000, 256]⟩
abbrev S2x240000 : Shape := ⟨2, ![2, 240000]⟩
abbrev S240000x64 : Shape := ⟨2, ![240000, 64]⟩
abbrev S240000 : Shape := ⟨1, ![240000]⟩
abbrev S64x256 : Shape := ⟨2, ![64, 256]⟩
abbrev S256 : Shape := ⟨1, ![256]⟩
abbrev S256x256 : Shape := ⟨2, ![256, 256]⟩
abbrev S1 : Shape := ⟨1, ![1]⟩
abbrev S1x240000 : Shape := ⟨2, ![1, 240000]⟩
abbrev S1x256 : Shape := ⟨2, ![1, 256]⟩
abbrev S1x1 : Shape := ⟨2, ![1, 1]⟩
abbrev S256x768 : Shape := ⟨2, ![256, 768]⟩
abbrev S768 : Shape := ⟨1, ![768]⟩
abbrev S1x768 : Shape := ⟨2, ![1, 768]⟩
abbrev S8x8 : Shape := ⟨2, ![8, 8]⟩
abbrev S_ : Shape := ⟨0, ![]⟩
abbrev S8x32x8 : Shape := ⟨3, ![8, 32, 8]⟩
abbrev S256x8 : Shape := ⟨2, ![256, 8]⟩
abbrev S8x256 : Shape := ⟨2, ![8, 256]⟩
abbrev S2000x256 : Shape := ⟨2, ![2000, 256]⟩
abbrev S2000 : Shape := ⟨1, ![2000]⟩
abbrev S2000x1 : Shape := ⟨2, ![2000, 1]⟩
abbrev S2000x768 : Shape := ⟨2, ![2000, 768]⟩
abbrev S240000x1 : Shape := ⟨2, ![240000, 1]⟩
abbrev S240000x256 : Shape := ⟨2, ![240000, 256]⟩
abbrev S2000x64 : Shape := ⟨2, ![2000, 64]⟩
abbrev S2000x8 : Shape := ⟨2, ![2000, 8]⟩

abbrev nBuf : Space → Nat
  | .hbm => 90
  | .vmem => 43
  | .smem => 0
  | _ => 0

abbrev bufTy : (tb : Table) → Fin (tcTables nBuf tb) → BufTy
  | .hbm, ⟨0, _⟩ => ⟨S20000x256, .f32⟩
  | .hbm, ⟨1, _⟩ => ⟨S2x240000, .i32⟩
  | .hbm, ⟨2, _⟩ => ⟨S240000x64, .f32⟩
  | .hbm, ⟨3, _⟩ => ⟨S240000, .f32⟩
  | .hbm, ⟨4, _⟩ => ⟨S64x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S1, .f32⟩
  | .hbm, ⟨19, _⟩ => ⟨S1x240000, .i32⟩
  | .hbm, ⟨20, _⟩ => ⟨S240000, .i32⟩
  | .hbm, ⟨21, _⟩ => ⟨S1x240000, .i32⟩
  | .hbm, ⟨22, _⟩ => ⟨S240000, .i32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x1, .f32⟩
  | .hbm, ⟨29, _⟩ => ⟨S256x768, .f32⟩
  | .hbm, ⟨30, _⟩ => ⟨S768, .f32⟩
  | .hbm, ⟨31, _⟩ => ⟨S1x768, .f32⟩
  | .hbm, ⟨32, _⟩ => ⟨S8x8, .i32⟩
  | .hbm, ⟨33, _⟩ => ⟨S8x8, .i32⟩
  | .hbm, ⟨34, _⟩ => ⟨S_, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S8x8, .f32⟩
  | .hbm, ⟨39, _⟩ => ⟨S8x32x8, .f32⟩
  | .hbm, ⟨40, _⟩ => ⟨S256x8, .f32⟩
  | .hbm, ⟨41, _⟩ => ⟨S8x256, .f32⟩
  | .hbm, ⟨42, _⟩ => ⟨S20000x256, .bf16⟩
  | .hbm, ⟨43, _⟩ => ⟨S20000x256, .bf16⟩
  | .hbm, ⟨44, _⟩ => ⟨S20000x256, .bf16⟩
  | .hbm, ⟨45, _⟩ => ⟨S20000x256, .bf16⟩
  | .hbm, ⟨46, _⟩ => ⟨S_, .i32⟩
  | .hbm, ⟨47, _⟩ => ⟨S240000, .i32⟩
  | .hbm, ⟨48, _⟩ => ⟨S240000, .i1⟩
  | .hbm, ⟨49, _⟩ => ⟨S_, .i32⟩
  | .hbm, ⟨50, _⟩ => ⟨S240000, .i32⟩
  | .hbm, ⟨51, _⟩ => ⟨S240000, .i32⟩
  | .hbm, ⟨52, _⟩ => ⟨S240000, .i32⟩
  | .hbm, ⟨53, _⟩ => ⟨S240000x1, .i32⟩
  | .hbm, ⟨54, _⟩ => ⟨S240000x256, .bf16⟩
  | .hbm, ⟨55, _⟩ => ⟨S_, .i32⟩
  | .hbm, ⟨56, _⟩ => ⟨S240000, .i32⟩
  | .hbm, ⟨57, _⟩ => ⟨S240000, .i1⟩
  | .hbm, ⟨58, _⟩ => ⟨S_, .i32⟩
  | .hbm, ⟨59, _⟩ => ⟨S240000, .i32⟩
  | .hbm, ⟨60, _⟩ => ⟨S240000, .i32⟩
  | .hbm, ⟨61, _⟩ => ⟨S240000, .i32⟩
  | .hbm, ⟨62, _⟩ => ⟨S240000x1, .i32⟩
  | .hbm, ⟨63, _⟩ => ⟨S240000x256, .bf16⟩
  | .hbm, ⟨64, _⟩ => ⟨S_, .i32⟩
  | .hbm, ⟨65, _⟩ => ⟨S240000, .i32⟩
  | .hbm, ⟨66, _⟩ => ⟨S240000, .i1⟩
  | .hbm, ⟨67, _⟩ => ⟨S_, .i32⟩
  | .hbm, ⟨68, _⟩ => ⟨S240000, .i32⟩
  | .hbm, ⟨69, _⟩ => ⟨S240000, .i32⟩
  | .hbm, ⟨70, _⟩ => ⟨S240000, .i32⟩
  | .hbm, ⟨71, _⟩ => ⟨S240000x1, .i32⟩
  | .hbm, ⟨72, _⟩ => ⟨S240000x256, .bf16⟩
  | .hbm, ⟨73, _⟩ => ⟨S_, .i32⟩
  | .hbm, ⟨74, _⟩ => ⟨S240000, .i32⟩
  | .hbm, ⟨75, _⟩ => ⟨S240000, .i1⟩
  | .hbm, ⟨76, _⟩ => ⟨S_, .i32⟩
  | .hbm, ⟨77, _⟩ => ⟨S240000, .i32⟩
  | .hbm, ⟨78, _⟩ => ⟨S240000, .i32⟩
  | .hbm, ⟨79, _⟩ => ⟨S240000, .i32⟩
  | .hbm, ⟨80, _⟩ => ⟨S240000x1, .i32⟩
  | .hbm, ⟨81, _⟩ => ⟨S240000x256, .bf16⟩
  | .hbm, ⟨82, _⟩ => ⟨S240000x1, .f32⟩
  | .hbm, ⟨83, _⟩ => ⟨S240000x256, .bf16⟩
  | .hbm, ⟨84, _⟩ => ⟨S240000x256, .f32⟩
  | .hbm, ⟨85, _⟩ => ⟨S_, .f32⟩
  | .hbm, ⟨86, _⟩ => ⟨S20000x256, .f32⟩
  | .hbm, ⟨87, _⟩ => ⟨S240000x1, .i32⟩
  | .hbm, ⟨88, _⟩ => ⟨S20000x256, .f32⟩
  | .hbm, ⟨89, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S1x256, .f32⟩
  | .local _ .vmem, ⟨3, _⟩ => ⟨S1x256, .f32⟩
  | .local _ .vmem, ⟨4, _⟩ => ⟨S256x768, .f32⟩
  | .local _ .vmem, ⟨5, _⟩ => ⟨S1x768, .f32⟩
  | .local _ .vmem, ⟨6, _⟩ => ⟨S2000x256, .bf16⟩
  | .local _ .vmem, ⟨7, _⟩ => ⟨S2000x256, .bf16⟩
  | .local _ .vmem, ⟨8, _⟩ => ⟨S2000x256, .bf16⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S2000x256, .bf16⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S2000x256, .bf16⟩
  | .local _ .vmem, ⟨19, _⟩ => ⟨S2000x256, .bf16⟩
  | .local _ .vmem, ⟨20, _⟩ => ⟨S2000x256, .bf16⟩
  | .local _ .vmem, ⟨21, _⟩ => ⟨S2000x256, .bf16⟩
  | .local _ .vmem, ⟨22, _⟩ => ⟨S2000x256, .bf16⟩
  | .local _ .vmem, ⟨23, _⟩ => ⟨S2000x256, .bf16⟩
  | .local _ .vmem, ⟨24, _⟩ => ⟨S2000x256, .bf16⟩
  | .local _ .vmem, ⟨25, _⟩ => ⟨S2000x256, .bf16⟩
  | .local _ .vmem, ⟨26, _⟩ => ⟨S64x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S1x1, .f32⟩
  | .local _ .vmem, ⟨31, _⟩ => ⟨S256x8, .f32⟩
  | .local _ .vmem, ⟨32, _⟩ => ⟨S8x256, .f32⟩
  | .local _ .vmem, ⟨33, _⟩ => ⟨S2000x256, .bf16⟩
  | .local _ .vmem, ⟨34, _⟩ => ⟨S2000x256, .bf16⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S256x256, .f32⟩
  | .local _ .vmem, ⟨40, _⟩ => ⟨S1x256, .f32⟩
  | .local _ .vmem, ⟨41, _⟩ => ⟨S2000x256, .f32⟩
  | .local _ .vmem, ⟨42, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_v22_2 : Ref sig .tc := ⟨.hbm, 44, rfl⟩
abbrev main_v22_3 : Ref sig .tc := ⟨.hbm, 45, rfl⟩
abbrev main_c_0 : Ref sig .tc := ⟨.hbm, 46, rfl⟩
abbrev main_v23 : Ref sig .tc := ⟨.hbm, 47, rfl⟩
abbrev main_v24 : Ref sig .tc := ⟨.hbm, 48, rfl⟩
abbrev main_c_1 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_2 : Ref sig .tc := ⟨.hbm, 55, rfl⟩
abbrev main_v30 : Ref sig .tc := ⟨.hbm, 56, rfl⟩
abbrev main_v31 : Ref sig .tc := ⟨.hbm, 57, rfl⟩
abbrev main_c_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_4 : Ref sig .tc := ⟨.hbm, 64, rfl⟩
abbrev main_v37 : Ref sig .tc := ⟨.hbm, 65, rfl⟩
abbrev main_v38 : Ref sig .tc := ⟨.hbm, 66, rfl⟩
abbrev main_c_5 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_6 : Ref sig .tc := ⟨.hbm, 73, rfl⟩
abbrev main_v44 : Ref sig .tc := ⟨.hbm, 74, rfl⟩
abbrev main_v45 : Ref sig .tc := ⟨.hbm, 75, rfl⟩
abbrev main_c_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg13_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg4_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem13_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem3_0 : DmaSem sig := 40
abbrev cc2_sem4_0 : DmaSem sig := 41
abbrev cc2_sem4_1 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![120], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S64x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x8 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S8x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x240000_S1x240000_0_0 : S2x240000.Slices ![0, 0] S1x240000
  shapeCasts_S1x240000_S240000 : S1x240000.ShapeCasts S240000
  slices_S2x240000_S1x240000_1_0 : S2x240000.Slices ![1, 0] S1x240000
  shapeCasts_S256_S1x256 : S256.ShapeCasts S1x256
  shapeCasts_S1_S1x1 : S1.ShapeCasts S1x1
  concatenates_S256x256_S256x256_S256x256_S256x768_d1 : Shape.Concatenates [S256x256, S256x256, S256x256] S256x768 1
  concatenates_S256_S256_S256_S768_d0 : Shape.Concatenates [S256, S256, S256] S768 0
  shapeCasts_S768_S1x768 : S768.ShapeCasts S1x768
  bcast_S_S8x8 : S_.BroadcastsInDim S8x8 (![] : Fin 0 → Fin S8x8.rank)
  bcast_S8x8_S8x32x8_0_2 : S8x8.BroadcastsInDim S8x32x8 (![0, 2] : Fin 2 → Fin S8x32x8.rank)
  shapeCasts_S8x32x8_S256x8 : S8x32x8.ShapeCasts S256x8
  transposes_S256x8_S8x256_1_0 : S256x8.Transposes [1, 0] S8x256
  inb_S2000x256_S2000x256_0_0 : ∀ a, (![0, 0] : Fin 2 → Nat) a + S2000x256.size a ≤ S2000x256.size a
  h_S2000x256 : 0 < S2000x256.numel
  reduces_S2000x256_S2000 : S2000x256.Reduces [1] S2000
  shapeCasts_S2000_S2000x1 : S2000.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bitsLt_bf16_f32 : FTy.bits .bf16 < FTy.bits .f32
  packedbf16_S2000x256_S2000x256_0_0 : (Rect.unit (s := S2000x256) ![0, 0] S2000x256.size inb_S2000x256_S2000x256_0_0).PackedRows (EltTy.packing .bf16)
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  slices_S2000x768_o0_0_S2000x256 : S2000x768.Slices ![0, 0] S2000x256
  slices_S2000x768_o0_256_S2000x256 : S2000x768.Slices ![0, 256] S2000x256
  slices_S2000x768_o0_512_S2000x256 : S2000x768.Slices ![0, 512] S2000x256
  bcast_S_S240000 : S_.BroadcastsInDim S240000 (![] : Fin 0 → Fin S240000.rank)
  bcast_S240000_S240000x1_0 : S240000.BroadcastsInDim S240000x1 (![0] : Fin 1 → Fin S240000x1.rank)
  shapeCasts_S240000_S240000x1 : S240000.ShapeCasts S240000x1
  inb_S2000x64_S2000x64_0_0 : ∀ a, (![0, 0] : Fin 2 → Nat) a + S2000x64.size a ≤ S2000x64.size a
  h_S2000x64 : 0 < S2000x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S64x256_S64x256_0_0 : ∀ a, (![0, 0] : Fin 2 → Nat) a + S64x256.size a ≤ S64x256.size a
  h_S64x256 : 0 < S64x256.numel
  inb_S256x256_S256x256_0_0 : ∀ a, (![0, 0] : Fin 2 → Nat) a + S256x256.size a ≤ S256x256.size a
  h_S256x256 : 0 < S256x256.numel
  shapeCasts_S2000x256_S2000x256 : S2000x256.ShapeCasts S2000x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  broadcasts_S2000x1_S2000x8 : S2000x1.Broadcasts S2000x8
  reduces_S2000x8_S2000 : S2000x8.Reduces [1] S2000
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  bcast_S_S20000x256 : S_.BroadcastsInDim S20000x256 (![] : Fin 0 → Fin S20000x256.rank)
  dot_S2000x256_S256x768_S2000x768_1_0_0_1_n_n_wf : DotDims.WF S2000x256 S256x768 S2000x768 [1] [0] [0] [1] [] []
  gather_S20000x256_S240000x1_S240000x256_1_0_n_n_0_1_1256_wf : GatherDims.WF S20000x256 S240000x1 S240000x256 [1] [0] [] [0] [] 1 ![1, 256]
  dot_S2000x64_S64x256_S2000x256_1_0_0_1_n_n_wf : DotDims.WF S2000x64 S64x256 S2000x256 [1] [0] [0] [1] [] []
  dot_S2000x256_S256x256_S2000x256_1_0_0_1_n_n_wf : DotDims.WF S2000x256 S256x256 S2000x256 [1] [0] [0] [1] [] []
  dot_S2000x256_S256x8_S2000x8_1_0_0_1_n_n_wf : DotDims.WF S2000x256 S256x8 S2000x8 [1] [0] [0] [1] [] []
  dot_S2000x8_S8x256_S2000x256_1_0_0_1_n_n_wf : DotDims.WF S2000x8 S8x256 S2000x256 [1] [0] [0] [1] [] []
  scatter_S20000x256_S240000x1_S240000x256_1_0_0_1_wf : ScatterDims.WF S20000x256 S240000x1 S240000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .bf16 = 32 ∨ (Rect.block (s := S20000x256) S2000x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S20000x256.size a
  hwx0_6 : ∀ i : grid0.Coords, EltTy.bits .bf16 = 32 ∨ (Rect.block (s := S20000x256) S2000x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S20000x256.size a
  hwx0_7 : ∀ i : grid0.Coords, EltTy.bits .bf16 = 32 ∨ (Rect.block (s := S20000x256) S2000x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S20000x256.size a
  hwx0_8 : ∀ i : grid0.Coords, EltTy.bits .bf16 = 32 ∨ (Rect.block (s := S20000x256) S2000x256.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S240000x64.size a
  hwx1_0 : ∀ i : grid1.Coords, EltTy.bits .f32 = 32 ∨ (Rect.block (s := S240000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S240000x1.size a
  hwx1_1 : ∀ i : grid1.Coords, EltTy.bits .f32 = 32 ∨ (Rect.block (s := S240000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S240000x256.size a
  hwx1_2 : ∀ i : grid1.Coords, EltTy.bits .bf16 = 32 ∨ (Rect.block (s := S240000x256) S2000x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S240000x256.size a
  hwx1_3 : ∀ i : grid1.Coords, EltTy.bits .bf16 = 32 ∨ (Rect.block (s := S240000x256) S2000x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S240000x256.size a
  hwx1_4 : ∀ i : grid1.Coords, EltTy.bits .bf16 = 32 ∨ (Rect.block (s := S240000x256) S2000x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S240000x256.size a
  hwx1_5 : ∀ i : grid1.Coords, EltTy.bits .bf16 = 32 ∨ (Rect.block (s := S240000x256) S2000x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x256.size a ≤ S64x256.size a
  hwx1_6 : ∀ i : grid1.Coords, EltTy.bits .f32 = 32 ∨ (Rect.block (s := S64x256) S64x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S256x256.size a
  hwx1_8 : ∀ i : grid1.Coords, EltTy.bits .f32 = 32 ∨ (Rect.block (s := S256x256) S256x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x8.size a ≤ S256x8.size a
  hwx1_11 : ∀ i : grid1.Coords, EltTy.bits .f32 = 32 ∨ (Rect.block (s := S256x8) S256x8.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S8x256.size a ≤ S8x256.size a
  hwx1_12 : ∀ i : grid1.Coords, EltTy.bits .f32 = 32 ∨ (Rect.block (s := S8x256) S8x256.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x256.size a ≤ S240000x256.size a
  hwx1_13 : ∀ i : grid1.Coords, EltTy.bits .bf16 = 32 ∨ (Rect.block (s := S240000x256) S2000x256.size (cc1_transform_13 i) (hinb1_13 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S20000x256.size a
  hwx2_4 : ∀ i : grid2.Coords, EltTy.bits .f32 = 32 ∨ (Rect.block (s := S20000x256) S2000x256.size (cc2_transform_4 i) (hinb2_4 i)).WholeWords (EltTy.packing .f32)

variable [Facts₀]

def dot_S2000x256_S256x768_S2000x768_1_0_0_1_n_n : DotDims S2000x256 S256x768 S2000x768 where
  lhsContracting := [1]
  rhsContracting := [0]
  lhsNonContracting := [0]
  rhsNonContracting := [1]
  lhsBatch := []
  rhsBatch := []
  wf := dot_S2000x256_S256x768_S2000x768_1_0_0_1_n_n_wf
def gather_S20000x256_S240000x1_S240000x256_1_0_n_n_0_1_1256 : GatherDims S20000x256 S240000x1 S240000x256 where
  offsetDims := [1]
  collapsedSliceDims := [0]
  operandBatchingDims := []
  startIndicesBatchingDims := []
  startIndexMap := [0]
  indexVectorDim := 1
  sliceSizes := ![1, 256]
  wf := gather_S20000x256_S240000x1_S240000x256_1_0_n_n_0_1_1256_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x8_S2000x8_1_0_0_1_n_n : DotDims S2000x256 S256x8 S2000x8 where
  lhsContracting := [1]
  rhsContracting := [0]
  lhsNonContracting := [0]
  rhsNonContracting := [1]
  lhsBatch := []
  rhsBatch := []
  wf := dot_S2000x256_S256x8_S2000x8_1_0_0_1_n_n_wf
def dot_S2000x8_S8x256_S2000x256_1_0_0_1_n_n : DotDims S2000x8 S8x256 S2000x256 where
  lhsContracting := [1]
  rhsContracting := [0]
  lhsNonContracting := [0]
  rhsNonContracting := [1]
  lhsBatch := []
  rhsBatch := []
  wf := dot_S2000x8_S8x256_S2000x256_1_0_0_1_n_n_wf
def scatter_S20000x256_S240000x1_S240000x256_1_0_0_1 : ScatterDims S20000x256 S240000x1 S240000x256 where
  updateWindowDims := [1]
  insertedWindowDims := [0]
  scatterDimsToOperandDims := [0]
  indexVectorDim := 1
  wf := scatter_S20000x256_S240000x1_S240000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_2) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v22_3) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg2) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S2000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v50) S2000x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S64x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg6) S256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v9) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v20) S256x8.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v21) S8x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v52) S2000x256.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_arg0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S20000x256 : Shape := ⟨2, ![20000, 256]⟩
abbrev S2x240000 : Shape := ⟨2, ![2, 240000]⟩
abbrev S240000x64 : Shape := ⟨2, ![240000, 64]⟩
abbrev S240000 : Shape := ⟨1, ![240000]⟩
abbrev S64x256 : Shape := ⟨2, ![64, 256]⟩
abbrev S256 : Shape := ⟨1, ![256]⟩
abbrev S256x256 : Shape := ⟨2, ![256, 256]⟩
abbrev S1 : Shape := ⟨1, ![1]⟩
abbrev S1x240000 : Shape := ⟨2, ![1, 240000]⟩
abbrev S_ : Shape := ⟨0, ![]⟩
abbrev S20000 : Shape := ⟨1, ![20000]⟩
abbrev S20000x1 : Shape := ⟨2, ![20000, 1]⟩
abbrev S1x256 : Shape := ⟨2, ![1, 256]⟩
abbrev S240000x256 : Shape := ⟨2, ![240000, 256]⟩
abbrev S240000x1 : Shape := ⟨2, ![240000, 1]⟩
abbrev S20000x8x32 : Shape := ⟨3, ![20000, 8, 32]⟩
abbrev S240000x8x32 : Shape := ⟨3, ![240000, 8, 32]⟩
abbrev S240000x8 : Shape := ⟨2, ![240000, 8]⟩
abbrev S240000x8x1 : Shape := ⟨3, ![240000, 8, 1]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S20000x256, .f32⟩
  | 1 => ⟨S2x240000, .i32⟩
  | 2 => ⟨S240000x64, .f32⟩
  | 3 => ⟨S240000, .f32⟩
  | 4 => ⟨S64x256, .f32⟩
  | 5 => ⟨S256, .f32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S1, .f32⟩
  | 19 => ⟨S1x240000, .i32⟩
  | 20 => ⟨S240000, .i32⟩
  | 21 => ⟨S1x240000, .i32⟩
  | 22 => ⟨S240000, .i32⟩
  | 23 => ⟨S_, .f32⟩
  | 24 => ⟨S20000, .f32⟩
  | 25 => ⟨S20000x1, .f32⟩
  | 26 => ⟨S_, .f32⟩
  | 27 => ⟨S20000x1, .f32⟩
  | 28 => ⟨S20000x1, .f32⟩
  | 29 => ⟨S20000x256, .f32⟩
  | 30 => ⟨S20000x256, .f32⟩
  | 31 => ⟨S20000x256, .f32⟩
  | 32 => ⟨S_, .f32⟩
  | 33 => ⟨S20000, .f32⟩
  | 34 => ⟨S20000x1, .f32⟩
  | 35 => ⟨S_, .f32⟩
  | 36 => ⟨S20000x1, .f32⟩
  | 37 => ⟨S20000x1, .f32⟩
  | 38 => ⟨S20000x256, .f32⟩
  | 39 => ⟨S20000x256, .f32⟩
  | 40 => ⟨S_, .f32⟩
  | 41 => ⟨S20000x1, .f32⟩
  | 42 => ⟨S20000x1, .f32⟩
  | 43 => ⟨S20000x1, .f32⟩
  | 44 => ⟨S20000x256, .f32⟩
  | 45 => ⟨S20000x256, .f32⟩
  | 46 => ⟨S1x256, .f32⟩
  | 47 => ⟨S20000x256, .f32⟩
  | 48 => ⟨S20000x256, .f32⟩
  | 49 => ⟨S1x256, .f32⟩
  | 50 => ⟨S20000x256, .f32⟩
  | 51 => ⟨S20000x256, .f32⟩
  | 52 => ⟨S240000x256, .f32⟩
  | 53 => ⟨S1x256, .f32⟩
  | 54 => ⟨S240000x256, .f32⟩
  | 55 => ⟨S240000x256, .f32⟩
  | 56 => ⟨S240000x256, .f32⟩
  | 57 => ⟨S240000x256, .f32⟩
  | 58 => ⟨S_, .f32⟩
  | 59 => ⟨S240000x256, .f32⟩
  | 60 => ⟨S240000x256, .f32⟩
  | 61 => ⟨S_, .f32⟩
  | 62 => ⟨S240000x256, .f32⟩
  | 63 => ⟨S240000x256, .f32⟩
  | 64 => ⟨S240000x256, .f32⟩
  | 65 => ⟨S240000x256, .f32⟩
  | 66 => ⟨S1x256, .f32⟩
  | 67 => ⟨S240000x256, .f32⟩
  | 68 => ⟨S240000x256, .f32⟩
  | 69 => ⟨S240000x1, .f32⟩
  | 70 => ⟨S240000x256, .f32⟩
  | 71 => ⟨S240000x256, .f32⟩
  | 72 => ⟨S_, .i32⟩
  | 73 => ⟨S240000, .i32⟩
  | 74 => ⟨S240000, .i1⟩
  | 75 => ⟨S_, .i32⟩
  | 76 => ⟨S240000, .i32⟩
  | 77 => ⟨S240000, .i32⟩
  | 78 => ⟨S240000, .i32⟩
  | 79 => ⟨S240000x1, .i32⟩
  | 80 => ⟨S240000x256, .f32⟩
  | 81 => ⟨S240000x256, .f32⟩
  | 82 => ⟨S20000x256, .f32⟩
  | 83 => ⟨S1x256, .f32⟩
  | 84 => ⟨S20000x256, .f32⟩
  | 85 => ⟨S20000x256, .f32⟩
  | 86 => ⟨S20000x8x32, .f32⟩
  | 87 => ⟨S20000x256, .f32⟩
  | 88 => ⟨S1x256, .f32⟩
  | 89 => ⟨S20000x256, .f32⟩
  | 90 => ⟨S20000x256, .f32⟩
  | 91 => ⟨S20000x8x32, .f32⟩
  | 92 => ⟨S20000x256, .f32⟩
  | 93 => ⟨S1x256, .f32⟩
  | 94 => ⟨S20000x256, .f32⟩
  | 95 => ⟨S20000x256, .f32⟩
  | 96 => ⟨S20000x8x32, .f32⟩
  | 97 => ⟨S_, .i32⟩
  | 98 => ⟨S240000, .i32⟩
  | 99 => ⟨S240000, .i1⟩
  | 100 => ⟨S_, .i32⟩
  | 101 => ⟨S240000, .i32⟩
  | 102 => ⟨S240000, .i32⟩
  | 103 => ⟨S240000, .i32⟩
  | 104 => ⟨S240000x1, .i32⟩
  | 105 => ⟨S240000x8x32, .f32⟩
  | 106 => ⟨S_, .i32⟩
  | 107 => ⟨S240000, .i32⟩
  | 108 => ⟨S240000, .i1⟩
  | 109 => ⟨S_, .i32⟩
  | 110 => ⟨S240000, .i32⟩
  | 111 => ⟨S240000, .i32⟩
  | 112 => ⟨S240000, .i32⟩
  | 113 => ⟨S240000x1, .i32⟩
  | 114 => ⟨S240000x8x32, .f32⟩
  | 115 => ⟨S_, .i32⟩
  | 116 => ⟨S240000, .i32⟩
  | 117 => ⟨S240000, .i1⟩
  | 118 => ⟨S_, .i32⟩
  | 119 => ⟨S240000, .i32⟩
  | 120 => ⟨S240000, .i32⟩
  | 121 => ⟨S240000, .i32⟩
  | 122 => ⟨S240000x1, .i32⟩
  | 123 => ⟨S240000x8x32, .f32⟩
  | 124 => ⟨S240000x8x32, .f32⟩
  | 125 => ⟨S_, .f32⟩
  | 126 => ⟨S240000x8, .f32⟩
  | 127 => ⟨S_, .f32⟩
  | _ => ⟨S20000x256, .f32⟩

abbrev hbmTy0_1 (i : Nat) : BufTy := match i % 128 with
  | 0 => ⟨S240000x8, .f32⟩
  | 1 => ⟨S240000x8, .f32⟩
  | 2 => ⟨S240000x1, .f32⟩
  | 3 => ⟨S240000x8, .f32⟩
  | 4 => ⟨S240000x8, .f32⟩
  | 5 => ⟨S_, .f32⟩
  | 6 => ⟨S240000, .f32⟩
  | 7 => ⟨S_, .f32⟩
  | 8 => ⟨S240000, .f32⟩
  | 9 => ⟨S240000, .f32⟩
  | 10 => ⟨S240000x1, .f32⟩
  | 11 => ⟨S240000x8, .f32⟩
  | 12 => ⟨S240000x8, .f32⟩
  | 13 => ⟨S240000x8, .f32⟩
  | 14 => ⟨S_, .f32⟩
  | 15 => ⟨S240000, .f32⟩
  | 16 => ⟨S240000x1, .f32⟩
  | 17 => ⟨S240000x8, .f32⟩
  | 18 => ⟨S240000x8, .f32⟩
  | 19 => ⟨S240000x8x1, .f32⟩
  | 20 => ⟨S240000x8x32, .f32⟩
  | 21 => ⟨S240000x8x32, .f32⟩
  | 22 => ⟨S240000x256, .f32⟩
  | 23 => ⟨S1x1, .f32⟩
  | 24 => ⟨S240000x256, .f32⟩
  | 25 => ⟨S240000x256, .f32⟩
  | 26 => ⟨S240000x256, .f32⟩
  | 27 => ⟨S_, .f32⟩
  | 28 => ⟨S20000x256, .f32⟩
  | 29 => ⟨S240000x1, .i32⟩
  | 30 => ⟨S20000x256, .f32⟩
  | 31 => ⟨S20000x256, .f32⟩
  | 32 => ⟨S20000x256, .f32⟩
  | 33 => ⟨S1x256, .f32⟩
  | 34 => ⟨S20000x256, .f32⟩
  | 35 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c : Ref sig .tc := ⟨.hbm, 72, rfl⟩
abbrev main_v40 : Ref sig .tc := ⟨.hbm, 73, rfl⟩
abbrev main_v41 : Ref sig .tc := ⟨.hbm, 74, rfl⟩
abbrev main_c_4 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_5 : Ref sig .tc := ⟨.hbm, 97, rfl⟩
abbrev main_v63 : Ref sig .tc := ⟨.hbm, 98, rfl⟩
abbrev main_v64 : Ref sig .tc := ⟨.hbm, 99, rfl⟩
abbrev main_c_6 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_7 : Ref sig .tc := ⟨.hbm, 106, rfl⟩
abbrev main_v70 : Ref sig .tc := ⟨.hbm, 107, rfl⟩
abbrev main_v71 : Ref sig .tc := ⟨.hbm, 108, rfl⟩
abbrev main_c_8 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_9 : Ref sig .tc := ⟨.hbm, 115, rfl⟩
abbrev main_v77 : Ref sig .tc := ⟨.hbm, 116, rfl⟩
abbrev main_v78 : Ref sig .tc := ⟨.hbm, 117, rfl⟩
abbrev main_c_10 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_11 : Ref sig .tc := ⟨.hbm, 125, rfl⟩
abbrev main_v85 : Ref sig .tc := ⟨.hbm, 126, rfl⟩
abbrev main_cst_12 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_13 : Ref sig .tc := ⟨.hbm, 133, rfl⟩
abbrev main_v91 : Ref sig .tc := ⟨.hbm, 134, rfl⟩
abbrev main_cst_14 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_15 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_16 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩

abbrev nD : Nat := 1
abbrev τ : Topo := Topo.v7x

variable {F : FTy → Type} [FloatOps F]

class Facts₀ : Prop where
  slices_S2x240000_S1x240000_0_0 : S2x240000.Slices ![0, 0] S1x240000
  shapeCasts_S1x240000_S240000 : S1x240000.ShapeCasts S240000
  slices_S2x240000_S1x240000_1_0 : S2x240000.Slices ![1, 0] S1x240000
  reducesTo_S20000x256_S20000_d1 : S20000x256.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S1x256_S240000x256_0_1 : S1x256.BroadcastsInDim S240000x256 (![0, 1] : Fin 2 → Fin S240000x256.rank)
  bcast_S_S240000x256 : S_.BroadcastsInDim S240000x256 (![] : Fin 0 → Fin S240000x256.rank)
  bcast_S240000_S240000x1_0 : S240000.BroadcastsInDim S240000x1 (![0] : Fin 1 → Fin S240000x1.rank)
  bcast_S240000x1_S240000x256_0_1 : S240000x1.BroadcastsInDim S240000x256 (![0, 1] : Fin 2 → Fin S240000x256.rank)
  bcast_S_S240000 : S_.BroadcastsInDim S240000 (![] : Fin 0 → Fin S240000.rank)
  shapeCasts_S20000x256_S20000x8x32 : S20000x256.ShapeCasts S20000x8x32
  reducesTo_S240000x8x32_S240000x8_d2 : S240000x8x32.ReducesTo [2] S240000x8
  bcast_S_S240000x8 : S_.BroadcastsInDim S240000x8 (![] : Fin 0 → Fin S240000x8.rank)
  bcast_S240000x1_S240000x8_0_1 : S240000x1.BroadcastsInDim S240000x8 (![0, 1] : Fin 2 → Fin S240000x8.rank)
  reducesTo_S240000x8_S240000_d1 : S240000x8.ReducesTo [1] S240000
  bcast_S240000x8_S240000x8x1_0_1 : S240000x8.BroadcastsInDim S240000x8x1 (![0, 1] : Fin 2 → Fin S240000x8x1.rank)
  bcast_S240000x8x1_S240000x8x32_0_1_2 : S240000x8x1.BroadcastsInDim S240000x8x32 (![0, 1, 2] : Fin 3 → Fin S240000x8x32.rank)
  shapeCasts_S240000x8x32_S240000x256 : S240000x8x32.ShapeCasts S240000x256
  bcast_S1_S1x1_1 : S1.BroadcastsInDim S1x1 (![1] : Fin 1 → Fin S1x1.rank)
  bcast_S1x1_S240000x256_0_1 : S1x1.BroadcastsInDim S240000x256 (![0, 1] : Fin 2 → Fin S240000x256.rank)
  bcast_S_S20000x256 : S_.BroadcastsInDim S20000x256 (![] : Fin 0 → Fin S20000x256.rank)
  dot_S240000x64_S64x256_S240000x256_1_0_0_1_n_n_wf : DotDims.WF S240000x64 S64x256 S240000x256 [1] [0] [0] [1] [] []
  dot_S240000x256_S256x256_S240000x256_1_0_0_1_n_n_wf : DotDims.WF S240000x256 S256x256 S240000x256 [1] [0] [0] [1] [] []
  gather_S20000x256_S240000x1_S240000x256_1_0_n_n_0_1_1256_wf : GatherDims.WF S20000x256 S240000x1 S240000x256 [1] [0] [] [0] [] 1 ![1, 256]
  dot_S20000x256_S256x256_S20000x256_1_0_0_1_n_n_wf : DotDims.WF S20000x256 S256x256 S20000x256 [1] [0] [0] [1] [] []
  gather_S20000x8x32_S240000x1_S240000x8x32_12_0_n_n_0_1_1832_wf : GatherDims.WF S20000x8x32 S240000x1 S240000x8x32 [1, 2] [0] [] [0] [] 1 ![1, 8, 32]
  scatter_S20000x256_S240000x1_S240000x256_1_0_0_1_wf : ScatterDims.WF S20000x256 S240000x1 S240000x256 [1] [0] [0] 1

variable [Facts₀]

def dot_S240000x64_S64x256_S240000x256_1_0_0_1_n_n : DotDims S240000x64 S64x256 S240000x256 where
  lhsContracting := [1]
  rhsContracting := [0]
  lhsNonContracting := [0]
  rhsNonContracting := [1]
  lhsBatch := []
  rhsBatch := []
  wf := dot_S240000x64_S64x256_S240000x256_1_0_0_1_n_n_wf
def dot_S240000x256_S256x256_S240000x256_1_0_0_1_n_n : DotDims S240000x256 S256x256 S240000x256 where
  lhsContracting := [1]
  rhsContracting := [0]
  lhsNonContracting := [0]
  rhsNonContracting := [1]
  lhsBatch := []
  rhsBatch := []
  wf := dot_S240000x256_S256x256_S240000x256_1_0_0_1_n_n_wf
def gather_S20000x256_S240000x1_S240000x256_1_0_n_n_0_1_1256 : GatherDims S20000x256 S240000x1 S240000x256 where
  offsetDims := [1]
  collapsedSliceDims := [0]
  operandBatchingDims := []
  startIndicesBatchingDims := []
  startIndexMap := [0]
  indexVectorDim := 1
  sliceSizes := ![1, 256]
  wf := gather_S20000x256_S240000x1_S240000x256_1_0_n_n_0_1_1256_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x8x32_S240000x1_S240000x8x32_12_0_n_n_0_1_1832 : GatherDims S20000x8x32 S240000x1 S240000x8x32 where
  offsetDims := [1, 2]
  collapsedSliceDims := [0]
  operandBatchingDims := []
  startIndicesBatchingDims := []
  startIndexMap := [0]
  indexVectorDim := 1
  sliceSizes := ![1, 8, 32]
  wf := gather_S20000x8x32_S240000x1_S240000x8x32_12_0_n_n_0_1_1832_wf
def scatter_S20000x256_S240000x1_S240000x256_1_0_0_1 : ScatterDims S20000x256 S240000x1 S240000x256 where
  updateWindowDims := [1]
  insertedWindowDims := [0]
  scatterDimsToOperandDims := [0]
  indexVectorDim := 1
  wf := scatter_S20000x256_S240000x1_S240000x256_1_0_0_1_wf

class Facts : Prop extends Facts₀ where

variable [Facts]
-- ==== Proof.OutsI.lean ====
/-
  The three pipelined regions' blocks, what each body leaves in its output buffers as a term of the blocks it loads, and
  the proof data each pipeline's launch theorem is instantiated at — stated at a parameter V, the contents of the core's
  buffers when the region is entered, and generic in the float instance.
-/
import proofs.«175260_j20066087207295_2_alg».proof.Proof.Gen.KernelIdeal.Launch
import proofs.«175260_j20066087207295_2_alg».proof.Proof.Gen.KernelIdeal.Skeleton
import proofs.«175260_j20066087207295_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Whole-buffer rectangles: every load and store of the three bodies is of a whole staging buffer -/

abbrev r_S2000x256 : Rect S2000x256 := Rect.unit (s := S2000x256) ![0, 0] S2000x256.size inb_S2000x256_S2000x256_0_0
abbrev r_S1x256 : Rect S1x256 := Rect.unit (s := S1x256) ![0, 0] S1x256.size inb_S1x256_S1x256_0_0
abbrev r_S256x768 : Rect S256x768 := Rect.unit (s := S256x768) ![0, 0] S256x768.size inb_S256x768_S256x768_0_0
abbrev r_S1x768 : Rect S1x768 := Rect.unit (s := S1x768) ![0, 0] S1x768.size inb_S1x768_S1x768_0_0
abbrev r_S2000x64 : Rect S2000x64 := Rect.unit (s := S2000x64) ![0, 0] S2000x64.size inb_S2000x64_S2000x64_0_0
abbrev r_S2000x1 : Rect S2000x1 := Rect.unit (s := S2000x1) ![0, 0] S2000x1.size inb_S2000x1_S2000x1_0_0
abbrev r_S64x256 : Rect S64x256 := Rect.unit (s := S64x256) ![0, 0] S64x256.size inb_S64x256_S64x256_0_0
abbrev r_S256x256 : Rect S256x256 := Rect.unit (s := S256x256) ![0, 0] S256x256.size inb_S256x256_S256x256_0_0
abbrev r_S1x1 : Rect S1x1 := Rect.unit (s := S1x1) ![0, 0] S1x1.size inb_S1x1_S1x1_0_0
abbrev r_S256x8 : Rect S256x8 := Rect.unit (s := S256x8) ![0, 0] S256x8.size inb_S256x8_S256x8_0_0
abbrev r_S8x256 : Rect S8x256 := Rect.unit (s := S8x256) ![0, 0] S8x256.size inb_S8x256_S8x256_0_0

/-! ## What each body leaves in its output buffers, from the blocks it loads

  Node stage (region 0): the normalised rows from the feature block and the two affine rows; the fused product of the
  normalised rows with the 256-by-768 weight block plus the bias row, cut into its three 256-column slices.
  Edge stage (region 1): one message block from the thirteen input blocks.
  Output stage (region 2): the feature block plus the mapped aggregate block. -/

def out0_5 (x0 : Vec F S2000x256 .f32) (x1 x2 : Vec F S1x256 .f32) : Vec F S2000x256 .bf16 :=
  View.canon [⟨r_S2000x256, k0_pay4 (View.ld x0 r_S2000x256) (View.ld x1 r_S1x256) (View.ld x2 r_S1x256)⟩]
def out0_6 (x0 : Vec F S2000x256 .f32) (x1 x2 : Vec F S1x256 .f32) (x3 : Vec F S256x768 .f32) (x4 : Vec F S1x768 .f32) : Vec F S2000x256 .bf16 :=
  View.canon [⟨r_S2000x256, k0_pay6 (View.ld x0 r_S2000x256) (View.ld x1 r_S1x256) (View.ld x2 r_S1x256) (View.ld x3 r_S256x768) (View.ld x4 r_S1x768)⟩]
def out0_7 (x0 : Vec F S2000x256 .f32) (x1 x2 : Vec F S1x256 .f32) (x3 : Vec F S256x768 .f32) (x4 : Vec F S1x768 .f32) : Vec F S2000x256 .bf16 :=
  View.canon [⟨r_S2000x256, k0_pay1 (k0_pay5 (View.ld x0 r_S2000x256) (View.ld x1 r_S1x256) (View.ld x2 r_S1x256) (View.ld x3 r_S256x768) (View.ld x4 r_S1x768))⟩]
def out0_8 (x0 : Vec F S2000x256 .f32) (x1 x2 : Vec F S1x256 .f32) (x3 : Vec F S256x768 .f32) (x4 : Vec F S1x768 .f32) : Vec F S2000x256 .bf16 :=
  View.canon [⟨r_S2000x256, k0_pay2 (k0_pay5 (View.ld x0 r_S2000x256) (View.ld x1 r_S1x256) (View.ld x2 r_S1x256) (View.ld x3 r_S256x768) (View.ld x4 r_S1x768))⟩]

/-- Region 1's output block from its thirteen input blocks, in window order: radial features, cutoff column, the gathered
    normalised / query / key / value rows, first weights and bias, second weights and bias, gate, the 256-by-8 head
    indicator and its transpose. -/
def out1_13 (x0 : Vec F S2000x64 .f32) (x1 : Vec F S2000x1 .f32) (x2 x3 x4 x5 : Vec F S2000x256 .bf16)
    (x6 : Vec F S64x256 .f32) (x7 : Vec F S1x256 .f32) (x8 : Vec F S256x256 .f32) (x9 : Vec F S1x256 .f32)
    (x10 : Vec F S1x1 .f32) (x11 : Vec F S256x8 .f32) (x12 : Vec F S8x256 .f32) : Vec F S2000x256 .bf16 :=
  View.canon [⟨r_S2000x256, k1_pay1 (k1_pay2 (View.ld x1 r_S2000x1))
    (k1_pay3 (View.ld x0 r_S2000x64) (View.ld x1 r_S2000x1) (View.ld x6 r_S64x256) (View.ld x7 r_S1x256) (View.ld x8 r_S256x256) (View.ld x9 r_S1x256) (View.ld x2 r_S2000x256))
    (k1_pay4 (View.ld x3 r_S2000x256) (View.ld x4 r_S2000x256) (View.ld x11 r_S256x8)) (View.ld x12 r_S8x256) (View.ld x5 r_S2000x256) (View.ld x10 r_S1x1)⟩]

/-- Region 2's output block: window order is features, aggregate, weights, bias row. -/
def out2_4 (x0 x1 : Vec F S2000x256 .f32) (x2 : Vec F S256x256 .f32) (x3 : Vec F S1x256 .f32) : Vec F S2000x256 .f32 :=
  View.canon [⟨r_S2000x256, k2_pay1 (View.ld x1 r_S2000x256) (View.ld x2 r_S256x256) (View.ld x3 r_S1x256) (View.ld x0 r_S2000x256)⟩]

section AtEntry
-- the TensorCore's buffer contents when a region is entered: the parameter each region's half is stated at
variable (V : (c : Dev nD) → (b : Ref sig .tc) → Buf (Elt F) ((c : Thread nD τ).loc b))

/-- Window w's block at grid point t of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window w's block at grid point t of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window w's block at grid point t of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The pipelines' proof data: arrays as found; after the body every input buffer still holds its block and every
    output buffer the body's term of the input blocks; the invariant is the scoped rest and the generator register;
    nothing owed; full shares. -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
    | ⟨8, _⟩ => out0_8 (iblk0 V c 0 t) (iblk0 V c 1 t) (iblk0 V c 2 t) (iblk0 V c 3 t) (iblk0 V c 4 t)
  Φ _ := Pipeline.ΦA spec0 c
  q _ := fullShare
  owed _ := 0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

end AtEntry

end Cert.KernelIdeal.Hand

end
-- ==== Proof.FoldI.lean ====
/-
  The contents of a core's buffers at each boundary between @main's items, as a fold from the launch memory: a stretch of
  host operations applies them in order; a pipelined region leaves each of its arrays at what its write-backs leave
  and every other buffer as it found it. Generic in the float instance.
-/
import proofs.«175260_j20066087207295_2_alg».proof.Proof.OutsI

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F] [Named F]
variable (m : (ℓ : Loc nD τ sig) → Buf (Elt F) ℓ)

/-- Core c's buffers at launch. -/
abbrev W0 : Dev nD → Valuation τ sig (Elt F) := fun c b => m ((c : Dev nD), b)
/-- After the first host stretch: region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch: region 2's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: the contents @main returns from. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

end Cert.KernelIdeal.Hand

end
-- ==== Proof.RunI.lean ====
/-
  The run of @main as six segments, three stretches of host operations and the three pipelined regions between them,
  over the thread state "every unscoped buffer whole at the boundary's contents, the generator register at some state,
  nothing owed", and the launch over those segments: from any memory with zero counters every weakly fair execution
  terminates and every unscoped buffer of every core ends at the last boundary's contents. Each region's body obligation
  is a hypothesis here. Also: every argument array is, at the last boundary, what it was at launch. Generic in the float
  instance.
-/
import proofs.«175260_j20066087207295_2_alg».proof.Proof.OutsI
import proofs.«175260_j20066087207295_2_alg».proof.Proof.FoldI
import proofs.«175260_j20066087207295_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

namespace R

variable (m : (ℓ : Loc nD τ sig) → Buf (Elt F) ℓ)

/-! ## What each item of @main leaves unchanged -/

/-- A buffer no operation of the first host stretch writes keeps its contents across it. -/
theorem W1_keep (c : Dev nD) (r : Ref sig .tc) (h : r ∉ hostOps0_W) : W1 m c (Proc.devRef .tc r) = W0 m c (Proc.devRef .tc r) :=
  StableHlo.after_of_writes_sub hostOps0 _ hostOps0_writes h
/-- A buffer no operation of the second host stretch writes keeps its contents across it. -/
theorem W3_keep (c : Dev nD) (r : Ref sig .tc) (h : r ∉ hostOps1_W) : W3 m c (Proc.devRef .tc r) = W2 m c (Proc.devRef .tc r) :=
  StableHlo.after_of_writes_sub hostOps1 _ hostOps1_writes h
/-- A buffer no operation of the third host stretch writes keeps its contents across it. -/
theorem W5_keep (c : Dev nD) (r : Ref sig .tc) (h : r ∉ hostOps2_W) : W5 m c (Proc.devRef .tc r) = W4 m c (Proc.devRef .tc r) :=
  StableHlo.after_of_writes_sub hostOps2 _ hostOps2_writes h

/-- A buffer that is no output array of region 0 leaves the region as it entered: either it is no array of the region at
    all, or it is the array of an input window, which is never written back. -/
theorem W2_reg (c : Dev nD) (r : Ref sig .tc) (h : ∀ w, (cfg0.win w).isOut = true → Pipeline.arrRef spec0 w ≠ r) :
    W2 m c (Proc.devRef .tc r) = W1 m c (Proc.devRef .tc r) := by
  by_cases hr : ∃ w, Pipeline.arrRef spec0 w = r
  · obtain ⟨w, rfl⟩ := hr
    have hin : (cfg0.win w).isOut = false := by
      cases hw : (cfg0.win w).isOut with
      | false => rfl
      | true => exact absurd rfl (h w hw)
    exact (W2_arr m c w).trans (((dat0 (V1 m) c).arrAt_in w hin _).trans (A_eq0 (V1 m) c w))
  · exact W2_of_ne m c r fun w e => hr ⟨w, e⟩

/-- A buffer that is no output array of region 1 leaves the region as it entered: either it is no array of the region at
    all, or it is the array of an input window, which is never written back. -/
theorem W4_reg (c : Dev nD) (r : Ref sig .tc) (h : ∀ w, (cfg1.win w).isOut = true → Pipeline.arrRef spec1 w ≠ r) :
    W4 m c (Proc.devRef .tc r) = W3 m c (Proc.devRef .tc r) := by
  by_cases hr : ∃ w, Pipeline.arrRef spec1 w = r
  · obtain ⟨w, rfl⟩ := hr
    have hin : (cfg1.win w).isOut = false := by
      cases hw : (cfg1.win w).isOut with
      | false => rfl
      | true => exact absurd rfl (h w hw)
    exact (W4_arr m c w).trans (((dat1 (V3 m) c).arrAt_in w hin _).trans (A_eq1 (V3 m) c w))
  · exact W4_of_ne m c r fun w e => hr ⟨w, e⟩

/-- A buffer that is no output array of region 2 leaves the region as it entered: either it is no array of the region at
    all, or it is the array of an input window, which is never written back. -/
theorem W6_reg (c : Dev nD) (r : Ref sig .tc) (h : ∀ w, (cfg2.win w).isOut = true → Pipeline.arrRef spec2 w ≠ r) :
    W6 m c (Proc.devRef .tc r) = W5 m c (Proc.devRef .tc r) := by
  by_cases hr : ∃ w, Pipeline.arrRef spec2 w = r
  · obtain ⟨w, rfl⟩ := hr
    have hin : (cfg2.win w).isOut = false := by
      cases hw : (cfg2.win w).isOut with
      | false => rfl
      | true => exact absurd rfl (h w hw)
    exact (W6_arr m c w).trans (((dat2 (V5 m) c).arrAt_in w hin _).trans (A_eq2 (V5 m) c w))
  · exact W6_of_ne m c r fun w e => hr ⟨w, e⟩

/-- A buffer that no host operation writes and that is no output array of any region holds, at the last boundary, its
    launch contents: the fold walks back through the six items. -/
theorem W6_keep (c : Dev nD) (r : Ref sig .tc) (h0 : r ∉ hostOps0_W) (h1 : r ∉ hostOps1_W) (h2 : r ∉ hostOps2_W)
    (k0 : ∀ w, (cfg0.win w).isOut = true → Pipeline.arrRef spec0 w ≠ r)
    (k1 : ∀ w, (cfg1.win w).isOut = true → Pipeline.arrRef spec1 w ≠ r)
    (k2 : ∀ w, (cfg2.win w).isOut = true → Pipeline.arrRef spec2 w ≠ r) :
    W6 m c (Proc.devRef .tc r) = m ((c : Thread nD τ).loc r) :=
  calc W6 m c (Proc.devRef .tc r)
    _ = W5 m c (Proc.devRef .tc r) := W6_reg m c r k2
    _ = W4 m c (Proc.devRef .tc r) := W5_keep m c r h2
    _ = W3 m c (Proc.devRef .tc r) := W4_reg m c r k1
    _ = W2 m c (Proc.devRef .tc r) := W3_keep m c r h1
    _ = W1 m c (Proc.devRef .tc r) := W2_reg m c r k0
    _ = W0 m c (Proc.devRef .tc r) := W1_keep m c r h0
    _ = m ((c : Thread nD τ).loc r) := rfl

end R

/-! ## The arguments end as launched: no host operation writes one, and a region reads one through an input window or
    not at all -/

theorem W6_main_arg0 (m : (ℓ : Loc nD τ sig) → Buf (Elt F) ℓ) (c : Dev nD) : W6 m c (Proc.devRef .tc main_arg0) = m ((c : Thread nD τ).loc main_arg0) :=
  R.W6_keep m c main_arg0 (by decide) (by decide) (by decide) (by decide) (by decide) (by decide)
theorem W6_main_arg1 (m : (ℓ : Loc nD τ sig) → Buf (Elt F) ℓ) (c : Dev nD) : W6 m c (Proc.devRef .tc main_arg1) = m ((c : Thread nD τ).loc main_arg1) :=
  R.W6_keep m c main_arg1 (by decide) (by decide) (by decide) (by decide) (by decide) (by decide)
theorem W6_main_arg2 (m : (ℓ : Loc nD τ sig) → Buf (Elt F) ℓ) (c : Dev nD) : W6 m c (Proc.devRef .tc main_arg2) = m ((c : Thread nD τ).loc main_arg2) :=
  R.W6_keep m c main_arg2 (by decide) (by decide) (by decide) (by decide) (by decide) (by decide)
theorem W6_main_arg3 (m : (ℓ : Loc nD τ sig) → Buf (Elt F) ℓ) (c : Dev nD) : W6 m c (Proc.devRef .tc main_arg3) = m ((c : Thread nD τ).loc main_arg3) :=
  R.W6_keep m c main_arg3 (by decide) (by decide) (by decide) (by decide) (by decide) (by decide)
theorem W6_main_arg4 (m : (ℓ : Loc nD τ sig) → Buf (Elt F) ℓ) (c : Dev nD) : W6 m c (Proc.devRef .tc main_arg4) = m ((c : Thread nD τ).loc main_arg4) :=
  R.W6_keep m c main_arg4 (by decide) (by decide) (by decide) (by decide) (by decide) (by decide)
theorem W6_main_arg5 (m : (ℓ : Loc nD τ sig) → Buf (Elt F) ℓ) (c : Dev nD) : W6 m c (Proc.devRef .tc main_arg5) = m ((c : Thread nD τ).loc main_arg5) :=
  R.W6_keep m c main_arg5 (by decide) (by decide) (by decide) (by decide) (by decide) (by decide)
theorem W6_main_arg6 (m : (ℓ : Loc nD τ sig) → Buf (Elt F) ℓ) (c : Dev nD) : W6 m c (Proc.devRef .tc main_arg6) = m ((c : Thread nD τ).loc main_arg6) :=
  R.W6_keep m c main_arg6 (by decide) (by decide) (by decide) (by decide) (by decide) (by decide)
theorem W6_main_arg7 (m : (ℓ : Loc nD τ sig) → Buf (Elt F) ℓ) (c : Dev nD) : W6 m c (Proc.devRef .tc main_arg7) = m ((c : Thread nD τ).loc main_arg7) :=
  R.W6_keep m c main_arg7 (by decide) (by decide) (by decide) (by decide) (by decide) (by decide)
theorem W6_main_arg8 (m : (ℓ : Loc nD τ sig) → Buf (Elt F) ℓ) (c : Dev nD) : W6 m c (Proc.devRef .tc main_arg8) = m ((c : Thread nD τ).loc main_arg8) :=
  R.W6_keep m c main_arg8 (by decide) (by decide) (by decide) (by decide) (by decide) (by decide)
theorem W6_main_arg9 (m : (ℓ : Loc nD τ sig) → Buf (Elt F) ℓ) (c : Dev nD) : W6 m c (Proc.devRef .tc main_arg9) = m ((c : Thread nD τ).loc main_arg9) :=
  R.W6_keep m c main_arg9 (by decide) (by decide) (by decide) (by decide) (by decide) (by decide)
theorem W6_main_arg10 (m : (ℓ : Loc nD τ sig) → Buf (Elt F) ℓ) (c : Dev nD) : W6 m c (Proc.devRef .tc main_arg10) = m ((c : Thread nD τ).loc main_arg10) :=
  R.W6_keep m c main_arg10 (by decide) (by decide) (by decide) (by decide) (by decide) (by decide)
theorem W6_main_arg11 (m : (ℓ : Loc nD τ sig) → Buf (Elt F) ℓ) (c : Dev nD) : W6 m c (Proc.devRef .tc main_arg11) = m ((c : Thread nD τ).loc main_arg11) :=
  R.W6_keep m c main_arg11 (by decide) (by decide) (by decide) (by decide) (by decide) (by decide)
theorem W6_main_arg12 (m : (ℓ : Loc nD τ sig) → Buf (Elt F) ℓ) (c : Dev nD) : W6 m c (Proc.devRef .tc main_arg12) = m ((c : Thread nD τ).loc main_arg12) :=
  R.W6_keep m c main_arg12 (by decide) (by decide) (by decide) (by decide) (by decide) (by decide)
theorem W6_main_arg13 (m : (ℓ : Loc nD τ sig) → Buf (Elt F) ℓ) (c : Dev nD) : W6 m c (Proc.devRef .tc main_arg13) = m ((c : Thread nD τ).loc main_arg13) :=
  R.W6_keep m c main_arg13 (by decide) (by decide) (by decide) (by decide) (by decide) (by decide)
theorem W6_main_arg14 (m : (ℓ : Loc nD τ sig) → Buf (Elt F) ℓ) (c : Dev nD) : W6 m c (Proc.devRef .tc main_arg14) = m ((c : Thread nD τ).loc main_arg14) :=
  R.W6_keep m c main_arg14 (by decide) (by decide) (by decide) (by decide) (by decide) (by decide)
theorem W6_main_arg15 (m : (ℓ : Loc nD τ sig) → Buf (Elt F) ℓ) (c : Dev nD) : W6 m c (Proc.devRef .tc main_arg15) = m ((c : Thread nD τ).loc main_arg15) :=
  R.W6_keep m c main_arg15 (by decide) (by decide) (by decide) (by decide) (by decide) (by decide)
theorem W6_main_arg16 (m : (ℓ : Loc nD τ sig) → Buf (Elt F) ℓ) (c : Dev nD) : W6 m c (Proc.devRef .tc main_arg16) = m ((c : Thread nD τ).loc main_arg16) :=
  R.W6_keep m c main_arg16 (by decide) (by decide) (by decide) (by decide) (by decide) (by decide)
theorem W6_main_arg17 (m : (ℓ : Loc nD τ sig) → Buf (Elt F) ℓ) (c : Dev nD) : W6 m c (Proc.devRef .tc main_arg17) = m ((c : Thread nD τ).loc main_arg17) :=
  R.W6_keep m c main_arg17 (by decide) (by decide) (by decide) (by decide) (by decide) (by decide)
theorem W6_main_arg18 (m : (ℓ : Loc nD τ sig) → Buf (Elt F) ℓ) (c : Dev nD) : W6 m c (Proc.devRef .tc main_arg18) = m ((c : Thread nD τ).loc main_arg18) :=
  R.W6_keep m c main_arg18 (by decide) (by decide) (by decide) (by decide) (by decide) (by decide)

namespace R

variable (m : (ℓ : Loc nD τ sig) → Buf (Elt F) ℓ)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev Rd (c : Dev nD) : sProp 𝕄 := iprop((∃ r, prngReg c r) ∗ ∃ W, owes (c : Thread nD τ) (0 : CellTallies nD τ sig Unit) W)
/-- A host stretch as a segment: over the unscoped references from the contents `W`, the rider beside them; it leaves
    those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
/-- The last thread state without the dues: every unscoped buffer at the last boundary's contents, the generator
    register at some state. -/
abbrev Tₙ (c : Dev nD) : sProp 𝕄 := iprop(StableHlo.held (c : Thread nD τ) (Pipeline.ucRefs τ sig) (W6 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left with every unscoped buffer
    at the next boundary's contents. Its arrays are split out of the unscoped buffers at entry and put back at
    the exit contents; the generator register goes into the pipeline's invariant and comes back; nothing is owed;
    the kernel has no semaphore of its own. The body obligation is the hypothesis, at the entry contents. -/
def reg0
    (hb : ∀ (V : (c : Dev nD) → (b : Ref sig .tc) → Buf (Elt F) ((c : Thread nD τ).loc b)) (c : Dev nD), BodyObligation (dat0 (F := F) V c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb (V1 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left with every unscoped buffer
    at the next boundary's contents. Its arrays are split out of the unscoped buffers at entry and put back at
    the exit contents; the generator register goes into the pipeline's invariant and comes back; nothing is owed;
    the kernel has no semaphore of its own. The body obligation is the hypothesis, at the entry contents. -/
def reg1
    (hb : ∀ (V : (c : Dev nD) → (b : Ref sig .tc) → Buf (Elt F) ((c : Thread nD τ).loc b)) (c : Dev nD), BodyObligation (dat1 (F := F) V c) (defs₀ (F := F)) Variants.none () Set.univ) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb (V3 m) c).loose
  hwaits := Pipeline.hwaits_of_owed_zero _ _ _ _ L lv 1 fun _ _ => rfl
  pre c := iprop(StableHlo.held (c : Thread nD τ) (Pipeline.ucRefs τ sig) (W3 m c) ∗ Rd c)
  post c := iprop(StableHlo.held (c : Thread nD τ) (Pipeline.ucRefs τ sig) (W4 m c) ∗ Rd c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W5`, left with every unscoped buffer
    at the next boundary's contents. Its arrays are split out of the unscoped buffers at entry and put back at
    the exit contents; the generator register goes into the pipeline's invariant and comes back; nothing is owed;
    the kernel has no semaphore of its own. The body obligation is the hypothesis, at the entry contents. -/
def reg2
    (hb : ∀ (V : (c : Dev nD) → (b : Ref sig .tc) → Buf (Elt F) ((c : Thread nD τ).loc b)) (c : Dev nD), BodyObligation (dat2 (F := F) V c) (defs₀ (F := F)) Variants.none () Set.univ) :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb (V5 m) c).loose
  hwaits := Pipeline.hwaits_of_owed_zero _ _ _ _ L lv 2 fun _ _ => rfl
  pre c := iprop(StableHlo.held (c : Thread nD τ) (Pipeline.ucRefs τ sig) (W5 m c) ∗ Rd c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments -/

/-- @main's six segments in order: a host segment per stretch from its boundary's contents, a region per pipelined call. -/
abbrev segs (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1),
    .host (hseg hostOps2 hostOps2_sub hostOps2_fresh (W4 m)),
    .region (reg2 m hb2) ]

/-- @main is the run of the segments: it is the chain of its items, and the segments' run is the chain of their programs. -/
theorem main_run (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) (c : Dev nD) :
    main (F := F) c = Pipeline.Seg.run (segs m hb0 hb1 hb2) := (main_chain c).trans (by chain_rfl)

end R

-- the launch theorem's implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and in every final state every unscoped buffer of every core holds the
    last boundary's contents. The launch over the six segments; the last thread state is read against the final state. -/
theorem run
    (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m c b) :=
  Pipeline.θ_run_regions_kit (pcfgs (F := F)) R.adm (R.pdats m) () cellOf_inj emb₁ defs₀ R.𝒱₀ R.L R.lv m ρ main (R.segs m hb0 hb1 hb2)
    (fun c Q => by rw [R.main_run m hb0 hb1 hb2 c])
    (by simp only [R.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R.Rd c)) (Tₙ := R.Tₙ m)
    (hch := ⟨fun _ => .rfl, fun _ => .rfl, fun _ => .rfl, fun _ => .rfl, fun _ => .rfl, fun _ => .rfl, fun _ => .rfl⟩)
    (hinit := by
      refine Pipeline.initEach R.L R.lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun _ h => h)

end Cert.KernelIdeal.Hand

end
-- ==== Proof.Body0I.lean ====
/-
  The node stage (region 0) at a generic grid point: every input window's current staging buffer holds the window's block
  of the entry contents; the body, run on whole staging buffers, gives the five inputs back as found and leaves in the four
  output buffers the normalised rows and the three 256-column slices of their fused product with the weight block plus the
  bias row; hence the pipeline's body obligation for the region's proof data.
-/
import proofs.«175260_j20066087207295_2_alg».proof.Proof.OutsI

-- membership in a whole-buffer rectangle of these extents is checked by evaluation, one step per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

namespace B0

/-! ## The input windows' staging buffers hold their blocks -/

/-- Input window 0's current staging buffer holds its block at every grid point, whether or not the window is fetched
    there, for any proof data whose array is the entry contents and whose body leaves the block in place: where it is
    not fetched its block index has not moved since the point before. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every grid point, whether or not the window is fetched
    there, for any proof data whose array is the entry contents and whose body leaves the block in place: where it is
    not fetched its block index has not moved since the point before. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every grid point, whether or not the window is fetched
    there, for any proof data whose array is the entry contents and whose body leaves the block in place: where it is
    not fetched its block index has not moved since the point before. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every grid point, whether or not the window is fetched
    there, for any proof data whose array is the entry contents and whose body leaves the block in place: where it is
    not fetched its block index has not moved since the point before. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every grid point, whether or not the window is fetched
    there, for any proof data whose array is the entry contents and whose body leaves the block in place: where it is
    not fetched its block index has not moved since the point before. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The one store into each output buffer covers it -/

/-- A single piece over the whole-buffer rectangle tiles the buffer (checked by evaluation), so it covers it. -/
theorem cover0 (p0 : Vec F S2000x256 .bf16) (y : S2000x256.Idx) :
    ∃ pc ∈ ([⟨r_S2000x256, p0⟩] : List (View.Piece (Elt F) S2000x256 .bf16)), y ∈ pc.1.set :=
  View.cover_of_tiled [⟨r_S2000x256, p0⟩] S2000x256.size (by rfl) y

/-! ## The body's triple -/

set_option maxHeartbeats 2000000 in
/-- The body on whole staging buffers, the five inputs' at read contents x0 … x4 and the four outputs' at anything, runs to
    the continuation holding the inputs' as they were and each output's at its term of the inputs: the body is its skeleton
    (its first part loads the five inputs and stores the normalised rows; the rest stores the three slices), and before each
    store it loads the buffer it is about to overwrite, whatever that holds. -/
theorem sound_kernel0 (c : Dev nD) (E : Set ℕ) (i : grid0.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S256x768 .f32) (harg4 : arg4.IsWhole)
    (arg5 : Memref sig .tc .vmem S1x768 .f32) (harg5 : arg5.IsWhole)
    (arg6 : Memref sig .tc .vmem S2000x256 .bf16) (harg6 : arg6.IsWhole)
    (arg7 : Memref sig .tc .vmem S2000x256 .bf16) (harg7 : arg7.IsWhole)
    (arg8 : Memref sig .tc .vmem S2000x256 .bf16) (harg8 : arg8.IsWhole)
    (arg9 : Memref sig .tc .vmem S2000x256 .bf16) (harg9 : arg9.IsWhole)
    (x0 : Vec F S2000x256 .f32) (x1 : Vec F S1x256 .f32) (x2 : Vec F S1x256 .f32) (x3 : Vec F S256x768 .f32) (x4 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2)
            ∗ owns (c : Thread nD τ) arg7 fullShare (out0_6 x0 x1 x2 x3 x4)
            ∗ owns (c : Thread nD τ) arg8 fullShare (out0_7 x0 x1 x2 x3 x4)
            ∗ owns (c : Thread nD τ) arg9 fullShare (out0_8 x0 x1 x2 x3 x4)) -∗ K ⟨⟩))
      ⊢ wp frame (wpE (defs₀ (F := F)) Variants.none c none) E (cc0__node_kernel i arg1 harg1 arg2 harg2 arg3 harg3 arg4 harg4 arg5 harg5 arg6 harg6 arg7 harg7 arg8 harg8 arg9 harg9) K := by
  simp only [cc0__node_kernel_eq_skeleton]; unfold cc0__node_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

/-! ## The proof data, window by window -/

/-- What the body leaves, window by window: the proof data's case split reduced at each numeral. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) :
    (dat0 V c).after 7 t = out0_7 (iblk0 V c 0 t) (iblk0 V c 1 t) (iblk0 V c 2 t) (iblk0 V c 3 t) (iblk0 V c 4 t) := by dsimp only [dat0]
theorem after0_8 (c : Dev nD) (t : Fin cfg0.N) :
    (dat0 V c).after 8 t = out0_8 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t: the invariant, what the core owes, and the windows' current staging buffers one
    by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' staging buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end B0

/-- The pipeline's body obligation for region 0, at every grid point. -/
theorem body_obligation0 (c : Dev nD) : BodyObligation (dat0 (F := F) V c) (defs₀ (F := F)) Variants.none () Set.univ := fun t => by
  rw [bigSep_W0, bigSep_W0]
  exact B0.sound_body0 V c t

end Cert.KernelIdeal.Hand

end
-- ==== Proof.Body1aI.lean ====
/-
  The edge stage (region 1): what its body finds in each of the thirteen input windows' staging buffers. An input window's
  current buffer holds that window's block at the grid point whether or not the pipeline fetched it there: a window fetched
  at every point holds the block just fetched; a resident window (its block index constant over the grid, fetched at the
  first point only) still holds the first point's block, which is every point's. Stated for any proof data whose arrays
  are the region-entry contents V and whose body leaves each input block in place, then at the edge stage's proof data.
-/
import proofs.«175260_j20066087207295_2_alg».proof.Proof.OutsI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

namespace B1

section AtEntry
-- the TensorCore's buffer contents when the region is entered
variable (V : (c : Dev nD) → (b : Ref sig .tc) → Buf (Elt F) ((c : Thread nD τ).loc b))

/-! ## An input window's current buffer holds its block at every point, fetched there or not

  For any proof data over the edge stage's configuration whose array for the window is V's and whose body leaves the window's
  block in place: at a point where the window is not fetched its block index has not moved since the point before, so the
  buffer's contents — the previous point's block, kept by the body — are this point's block. No window is cut or idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## What the edge stage's proof data say the body leaves, window by window (the definition's match reduced) -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t) := by dsimp only [dat1]

/-! ## So at the edge stage's proof data every input's current buffer holds its block at every point -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

end AtEntry

end B1

end Cert.KernelIdeal.Hand

end
-- ==== Proof.Body1bI.lean ====
/-
  The edge stage (region 1): its body's triple. On fourteen whole staging memrefs — the thirteen inputs' at read contents
  x0 … x12, the output's at any contents — the body runs to the continuation holding every input's memref as it was and the
  output's at the one whole-buffer piece whose payload is the body's value of the thirteen input blocks. The body loads
  every input once, loads the output buffer (a value it never uses) and stores the whole output buffer once; one store of
  the whole buffer covers it, so what the buffer reads afterwards does not depend on what it held.
-/
import proofs.«175260_j20066087207295_2_alg».proof.Proof.OutsI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

namespace B1

/-! ## The output buffer's one store covers it -/

/-- A single piece over the whole 2000-by-256 rectangle tiles the buffer (checked by evaluation), so it covers it. -/
theorem cover1_13 (p0 : Vec F S2000x256 .bf16) (y : S2000x256.Idx) :
    ∃ pc ∈ ([⟨r_S2000x256, p0⟩] : List (View.Piece (Elt F) S2000x256 .bf16)), y ∈ pc.1.set :=
  View.cover_of_tiled [⟨r_S2000x256, p0⟩] S2000x256.size (by rfl) y

/-! ## The body's triple -/

set_option maxHeartbeats 1000000 in
/-- The edge stage's body at any grid coordinate, on whole staging memrefs: the printed function and its printed part are
    their skeletons of memory operations over pure payloads; the run reads each input through its whole-buffer rectangle
    and leaves the output buffer at the store's payload over whatever it held, which reads as the canonical contents of
    the one covering piece. -/
theorem sound_kernel1 (c : Dev nD) (E : Set ℕ) (i : grid1.Coords) (arg1 : Memref sig .tc .vmem S2000x64 .f32) (harg1 : arg1.IsWhole) (arg2 : Memref sig .tc .vmem S2000x1 .f32) (harg2 : arg2.IsWhole) (arg3 : Memref sig .tc .vmem S2000x256 .bf16) (harg3 : arg3.IsWhole) (arg4 : Memref sig .tc .vmem S2000x256 .bf16) (harg4 : arg4.IsWhole) (arg5 : Memref sig .tc .vmem S2000x256 .bf16) (harg5 : arg5.IsWhole) (arg6 : Memref sig .tc .vmem S2000x256 .bf16) (harg6 : arg6.IsWhole) (arg7 : Memref sig .tc .vmem S64x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S256x8 .f32) (harg12 : arg12.IsWhole) (arg13 : Memref sig .tc .vmem S8x256 .f32) (harg13 : arg13.IsWhole) (arg14 : Memref sig .tc .vmem S2000x256 .bf16) (harg14 : arg14.IsWhole)
    (x0 : Vec F S2000x64 .f32) (x1 : Vec F S2000x1 .f32) (x2 : Vec F S2000x256 .bf16) (x3 : Vec F S2000x256 .bf16) (x4 : Vec F S2000x256 .bf16) (x5 : Vec F S2000x256 .bf16) (x6 : Vec F S64x256 .f32) (x7 : Vec F S1x256 .f32) (x8 : Vec F S256x256 .f32) (x9 : Vec F S1x256 .f32) (x10 : Vec F S1x1 .f32) (x11 : Vec F S256x8 .f32) (x12 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out1_13 x0 x1 x2 x3 x4 x5 x6 x7 x8 x9 x10 x11 x12)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover1_13 _)

end B1

end Cert.KernelIdeal.Hand

end
-- ==== Proof.Body1I.lean ====
/-
  The edge stage (region 1): the body obligation of its pipeline's proof data at the region-entry contents V. At every grid
  point the pipeline calls the body with the invariant, the core's debts and every window's current staging buffer at what
  it then holds; each input's buffer holds its block at the point, so the body's triple applies at the thirteen input
  blocks, and it returns every input's buffer as it was and the output's at the body's value of the input blocks; the
  invariant and the debts pass through unread.
-/
import proofs.«175260_j20066087207295_2_alg».proof.Proof.Body1aI
import proofs.«175260_j20066087207295_2_alg».proof.Proof.Body1bI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section AtEntry
-- the TensorCore's buffer contents when the region is entered
variable (V : (c : Dev nD) → (b : Ref sig .tc) → Buf (Elt F) ((c : Thread nD τ).loc b))

namespace B1

/-- What the body is called with at point t: the invariant, the core's debts, and each window's current buffer at what it
    holds before the body, the windows one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- What it returns: the invariant and debts at the next point, each window's current buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in
/-- The body at any point: every input's memref holds its block there, so the body's triple applies at the blocks; the
    invariant and the core's debts do not change from a point to the next and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end B1

/-- The library's body obligation for the edge stage's proof data, at every grid point: the obligation's separating
    product over the fourteen windows written out, then the body at the point. -/
theorem body_obligation1 (c : Dev nD) :
    BodyObligation (dat1 (F := F) V c) (defs₀ (F := F)) Variants.none () Set.univ := fun t => by
  rw [bigSep_W1, bigSep_W1]
  exact B1.sound_body1 V c t

end AtEntry

end Cert.KernelIdeal.Hand

end
-- ==== Proof.Body2I.lean ====
/-
  The output stage (region 2) at a generic grid point: every input window's current staging buffer holds the window's
  block of the entry contents; the body, run on whole staging buffers, gives the inputs back as found and leaves in the
  output buffer the sum of the feature block with the mapped aggregate block; hence the pipeline's body obligation for the
  region's proof data.
-/
import proofs.«175260_j20066087207295_2_alg».proof.Proof.OutsI

-- membership in a whole-buffer rectangle of these extents is checked by evaluation, one step per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

namespace B2

/-! ## The input windows' staging buffers hold their blocks -/

/-- Input window 0's current staging buffer holds its block at every grid point, whether or not the window is fetched
    there, for any proof data whose array is the entry contents and whose body leaves the block in place: where it is
    not fetched its block index has not moved since the point before. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every grid point, whether or not the window is fetched
    there, for any proof data whose array is the entry contents and whose body leaves the block in place: where it is
    not fetched its block index has not moved since the point before. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every grid point, whether or not the window is fetched
    there, for any proof data whose array is the entry contents and whose body leaves the block in place: where it is
    not fetched its block index has not moved since the point before. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every grid point, whether or not the window is fetched
    there, for any proof data whose array is the entry contents and whose body leaves the block in place: where it is
    not fetched its block index has not moved since the point before. The window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The one store of the body covers the output buffer -/

/-- A single piece over the whole-buffer rectangle tiles the buffer (checked by evaluation), so it covers it. -/
theorem cover2_4 (p0 : Vec F S2000x256 .f32) (y : S2000x256.Idx) :
    ∃ pc ∈ ([⟨r_S2000x256, p0⟩] : List (View.Piece (Elt F) S2000x256 .f32)), y ∈ pc.1.set :=
  View.cover_of_tiled [⟨r_S2000x256, p0⟩] S2000x256.size (by rfl) y

/-! ## The body's triple -/

set_option maxHeartbeats 1000000 in
/-- The body on whole staging buffers, the four inputs' at read contents x0 … x3 and the output's at anything, runs to the
    continuation holding the inputs' as they were and the output's at out2_4 of the inputs: the body is its skeleton of
    five loads (the last a dead load of the output buffer) and one whole-buffer store. -/
theorem sound_kernel2 (c : Dev nD) (E : Set ℕ) (i : grid2.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole)
    (x0 : Vec F S2000x256 .f32) (x1 : Vec F S2000x256 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__output_kernel i arg1 harg1 arg2 harg2 arg3 harg3 arg4 harg4 arg5 harg5) K := by
  simp only [cc2__output_kernel_eq_skeleton]; unfold cc2__output_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The proof data, window by window -/

/-- What the body leaves, window by window: the proof data's case split reduced at each numeral. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point t: the invariant, what the core owes, and the windows' current staging buffers one
    by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' staging buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end B2

/-- The pipeline's body obligation for region 2, at every grid point. -/
theorem body_obligation2 (c : Dev nD) : BodyObligation (dat2 (F := F) V c) (defs₀ (F := F)) Variants.none () Set.univ := fun t => by
  rw [bigSep_W2, bigSep_W2]
  exact B2.sound_body2 V c t

end Cert.KernelIdeal.Hand

end
-- ==== Proof.OutsK.lean ====
/-
  The three pipelined regions' blocks, what each body leaves in its output buffers as a term of the blocks it loads, and
  the proof data each pipeline's launch theorem is instantiated at — stated at a parameter V, the contents of the core's
  buffers when the region is entered, and generic in the float instance.
-/
import proofs.«175260_j20066087207295_2_alg».proof.Proof.Gen.Kernel.Launch
import proofs.«175260_j20066087207295_2_alg».proof.Proof.Gen.Kernel.Skeleton
import proofs.«175260_j20066087207295_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer rectangles: every load and store of the three bodies is of a whole staging buffer -/

abbrev r_S2000x256 : Rect S2000x256 := Rect.unit (s := S2000x256) ![0, 0] S2000x256.size inb_S2000x256_S2000x256_0_0
abbrev r_S1x256 : Rect S1x256 := Rect.unit (s := S1x256) ![0, 0] S1x256.size inb_S1x256_S1x256_0_0
abbrev r_S256x768 : Rect S256x768 := Rect.unit (s := S256x768) ![0, 0] S256x768.size inb_S256x768_S256x768_0_0
abbrev r_S1x768 : Rect S1x768 := Rect.unit (s := S1x768) ![0, 0] S1x768.size inb_S1x768_S1x768_0_0
abbrev r_S2000x64 : Rect S2000x64 := Rect.unit (s := S2000x64) ![0, 0] S2000x64.size inb_S2000x64_S2000x64_0_0
abbrev r_S2000x1 : Rect S2000x1 := Rect.unit (s := S2000x1) ![0, 0] S2000x1.size inb_S2000x1_S2000x1_0_0
abbrev r_S64x256 : Rect S64x256 := Rect.unit (s := S64x256) ![0, 0] S64x256.size inb_S64x256_S64x256_0_0
abbrev r_S256x256 : Rect S256x256 := Rect.unit (s := S256x256) ![0, 0] S256x256.size inb_S256x256_S256x256_0_0
abbrev r_S1x1 : Rect S1x1 := Rect.unit (s := S1x1) ![0, 0] S1x1.size inb_S1x1_S1x1_0_0
abbrev r_S256x8 : Rect S256x8 := Rect.unit (s := S256x8) ![0, 0] S256x8.size inb_S256x8_S256x8_0_0
abbrev r_S8x256 : Rect S8x256 := Rect.unit (s := S8x256) ![0, 0] S8x256.size inb_S8x256_S8x256_0_0

/-! ## What each body leaves in its output buffers, from the blocks it loads

  Node stage (region 0): the normalised rows from the feature block and the two affine rows; the fused product of the
  normalised rows with the 256-by-768 weight block plus the bias row, cut into its three 256-column slices.
  Edge stage (region 1): one message block from the thirteen input blocks.
  Output stage (region 2): the feature block plus the mapped aggregate block. -/

def out0_5 (x0 : Vec F S2000x256 .f32) (x1 x2 : Vec F S1x256 .f32) : Vec F S2000x256 .bf16 :=
  View.canon [⟨r_S2000x256, k0_pay4 (View.ld x0 r_S2000x256) (View.ld x1 r_S1x256) (View.ld x2 r_S1x256)⟩]
def out0_6 (x0 : Vec F S2000x256 .f32) (x1 x2 : Vec F S1x256 .f32) (x3 : Vec F S256x768 .f32) (x4 : Vec F S1x768 .f32) : Vec F S2000x256 .bf16 :=
  View.canon [⟨r_S2000x256, k0_pay6 (View.ld x0 r_S2000x256) (View.ld x1 r_S1x256) (View.ld x2 r_S1x256) (View.ld x3 r_S256x768) (View.ld x4 r_S1x768)⟩]
def out0_7 (x0 : Vec F S2000x256 .f32) (x1 x2 : Vec F S1x256 .f32) (x3 : Vec F S256x768 .f32) (x4 : Vec F S1x768 .f32) : Vec F S2000x256 .bf16 :=
  View.canon [⟨r_S2000x256, k0_pay1 (k0_pay5 (View.ld x0 r_S2000x256) (View.ld x1 r_S1x256) (View.ld x2 r_S1x256) (View.ld x3 r_S256x768) (View.ld x4 r_S1x768))⟩]
def out0_8 (x0 : Vec F S2000x256 .f32) (x1 x2 : Vec F S1x256 .f32) (x3 : Vec F S256x768 .f32) (x4 : Vec F S1x768 .f32) : Vec F S2000x256 .bf16 :=
  View.canon [⟨r_S2000x256, k0_pay2 (k0_pay5 (View.ld x0 r_S2000x256) (View.ld x1 r_S1x256) (View.ld x2 r_S1x256) (View.ld x3 r_S256x768) (View.ld x4 r_S1x768))⟩]

/-- Region 1's output block from its thirteen input blocks, in window order: radial features, cutoff column, the gathered
    normalised / query / key / value rows, first weights and bias, second weights and bias, gate, the 256-by-8 head
    indicator and its transpose. -/
def out1_13 (x0 : Vec F S2000x64 .f32) (x1 : Vec F S2000x1 .f32) (x2 x3 x4 x5 : Vec F S2000x256 .bf16)
    (x6 : Vec F S64x256 .f32) (x7 : Vec F S1x256 .f32) (x8 : Vec F S256x256 .f32) (x9 : Vec F S1x256 .f32)
    (x10 : Vec F S1x1 .f32) (x11 : Vec F S256x8 .f32) (x12 : Vec F S8x256 .f32) : Vec F S2000x256 .bf16 :=
  View.canon [⟨r_S2000x256, k1_pay1 (k1_pay2 (View.ld x1 r_S2000x1))
    (k1_pay3 (View.ld x0 r_S2000x64) (View.ld x1 r_S2000x1) (View.ld x6 r_S64x256) (View.ld x7 r_S1x256) (View.ld x8 r_S256x256) (View.ld x9 r_S1x256) (View.ld x2 r_S2000x256))
    (k1_pay4 (View.ld x3 r_S2000x256) (View.ld x4 r_S2000x256) (View.ld x11 r_S256x8)) (View.ld x12 r_S8x256) (View.ld x5 r_S2000x256) (View.ld x10 r_S1x1)⟩]

/-- Region 2's output block: window order is features, aggregate, weights, bias row. -/
def out2_4 (x0 x1 : Vec F S2000x256 .f32) (x2 : Vec F S256x256 .f32) (x3 : Vec F S1x256 .f32) : Vec F S2000x256 .f32 :=
  View.canon [⟨r_S2000x256, k2_pay1 (View.ld x1 r_S2000x256) (View.ld x2 r_S256x256) (View.ld x3 r_S1x256) (View.ld x0 r_S2000x256)⟩]

section AtEntry
-- the TensorCore's buffer contents when a region is entered: the parameter each region's half is stated at
variable (V : (c : Dev nD) → (b : Ref sig .tc) → Buf (Elt F) ((c : Thread nD τ).loc b))

/-- Window w's block at grid point t of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window w's block at grid point t of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window w's block at grid point t of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The pipelines' proof data: arrays as found; after the body every input buffer still holds its block and every
    output buffer the body's term of the input blocks; the invariant is the scoped rest and the generator register;
    nothing owed; full shares. -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
    | ⟨8, _⟩ => out0_8 (iblk0 V c 0 t) (iblk0 V c 1 t) (iblk0 V c 2 t) (iblk0 V c 3 t) (iblk0 V c 4 t)
  Φ _ := Pipeline.ΦA spec0 c
  q _ := fullShare
  owed _ := 0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

end AtEntry

end Cert.Kernel.Hand

end
-- ==== Proof.FoldK.lean ====
/-
  The contents of a core's buffers at each boundary between @main's items, as a fold from the launch memory: a stretch of
  host operations applies them in order; a pipelined region leaves each of its arrays at what its write-backs leave
  and every other buffer as it found it. Generic in the float instance.
-/
import proofs.«175260_j20066087207295_2_alg».proof.Proof.OutsK

set_option maxRecDepth 16384

noncomputable section

namespace Cert.Kernel.Hand

open Idealize.ShloMosaic Idealize.ShloMosaic.TcCoe Idealize.ShloMosaic.Tactic
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

/-- Core c's buffers at launch. -/
abbrev W0 : Dev nD → Valuation τ sig (Elt F) := fun c b => m ((c : Dev nD), b)
/-- After the first host stretch: region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch: region 2's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: the contents @main returns from. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

end Cert.Kernel.Hand

end
-- ==== Proof.RunK.lean ====
/-
  The run of @main as six segments, three stretches of host operations and the three pipelined regions between them,
  over the thread state "every unscoped buffer whole at the boundary's contents, the generator register at some state,
  nothing owed", and the launch over those segments: from any memory with zero counters every weakly fair execution
  terminates and every unscoped buffer of every core ends at the last boundary's contents. Each region's body obligation
  is a hypothesis here. Also: every argument array is, at the last boundary, what it was at launch. Generic in the float
  instance.
-/
import proofs.«175260_j20066087207295_2_alg».proof.Proof.OutsK
import proofs.«175260_j20066087207295_2_alg».proof.Proof.FoldK
import proofs.«175260_j20066087207295_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

namespace R

variable (m : (ℓ : Loc nD τ sig) → Buf (Elt F) ℓ)

/-! ## What each item of @main leaves unchanged -/

/-- A buffer no operation of the first host stretch writes keeps its contents across it. -/
theorem W1_keep (c : Dev nD) (r : Ref sig .tc) (h : r ∉ hostOps0_W) : W1 m c (Proc.devRef .tc r) = W0 m c (Proc.devRef .tc r) :=
  StableHlo.after_of_writes_sub hostOps0 _ hostOps0_writes h
/-- A buffer no operation of the second host stretch writes keeps its contents across it. -/
theorem W3_keep (c : Dev nD) (r : Ref sig .tc) (h : r ∉ hostOps1_W) : W3 m c (Proc.devRef .tc r) = W2 m c (Proc.devRef .tc r) :=
  StableHlo.after_of_writes_sub hostOps1 _ hostOps1_writes h
/-- A buffer no operation of the third host stretch writes keeps its contents across it. -/
theorem W5_keep (c : Dev nD) (r : Ref sig .tc) (h : r ∉ hostOps2_W) : W5 m c (Proc.devRef .tc r) = W4 m c (Proc.devRef .tc r) :=
  StableHlo.after_of_writes_sub hostOps2 _ hostOps2_writes h

/-- A buffer that is no output array of region 0 leaves the region as it entered: either it is no array of the region at
    all, or it is the array of an input window, which is never written back. -/
theorem W2_reg (c : Dev nD) (r : Ref sig .tc) (h : ∀ w, (cfg0.win w).isOut = true → Pipeline.arrRef spec0 w ≠ r) :
    W2 m c (Proc.devRef .tc r) = W1 m c (Proc.devRef .tc r) := by
  by_cases hr : ∃ w, Pipeline.arrRef spec0 w = r
  · obtain ⟨w, rfl⟩ := hr
    have hin : (cfg0.win w).isOut = false := by
      cases hw : (cfg0.win w).isOut with
      | false => rfl
      | true => exact absurd rfl (h w hw)
    exact (W2_arr m c w).trans (((dat0 (V1 m) c).arrAt_in w hin _).trans (A_eq0 (V1 m) c w))
  · exact W2_of_ne m c r fun w e => hr ⟨w, e⟩

/-- A buffer that is no output array of region 1 leaves the region as it entered: either it is no array of the region at
    all, or it is the array of an input window, which is never written back. -/
theorem W4_reg (c : Dev nD) (r : Ref sig .tc) (h : ∀ w, (cfg1.win w).isOut = true → Pipeline.arrRef spec1 w ≠ r) :
    W4 m c (Proc.devRef .tc r) = W3 m c (Proc.devRef .tc r) := by
  by_cases hr : ∃ w, Pipeline.arrRef spec1 w = r
  · obtain ⟨w, rfl⟩ := hr
    have hin : (cfg1.win w).isOut = false := by
      cases hw : (cfg1.win w).isOut with
      | false => rfl
      | true => exact absurd rfl (h w hw)
    exact (W4_arr m c w).trans (((dat1 (V3 m) c).arrAt_in w hin _).trans (A_eq1 (V3 m) c w))
  · exact W4_of_ne m c r fun w e => hr ⟨w, e⟩

/-- A buffer that is no output array of region 2 leaves the region as it entered: either it is no array of the region at
    all, or it is the array of an input window, which is never written back. -/
theorem W6_reg (c : Dev nD) (r : Ref sig .tc) (h : ∀ w, (cfg2.win w).isOut = true → Pipeline.arrRef spec2 w ≠ r) :
    W6 m c (Proc.devRef .tc r) = W5 m c (Proc.devRef .tc r) := by
  by_cases hr : ∃ w, Pipeline.arrRef spec2 w = r
  · obtain ⟨w, rfl⟩ := hr
    have hin : (cfg2.win w).isOut = false := by
      cases hw : (cfg2.win w).isOut with
      | false => rfl
      | true => exact absurd rfl (h w hw)
    exact (W6_arr m c w).trans (((dat2 (V5 m) c).arrAt_in w hin _).trans (A_eq2 (V5 m) c w))
  · exact W6_of_ne m c r fun w e => hr ⟨w, e⟩

/-- A buffer that no host operation writes and that is no output array of any region holds, at the last boundary, its
    launch contents: the fold walks back through the six items. -/
theorem W6_keep (c : Dev nD) (r : Ref sig .tc) (h0 : r ∉ hostOps0_W) (h1 : r ∉ hostOps1_W) (h2 : r ∉ hostOps2_W)
    (k0 : ∀ w, (cfg0.win w).isOut = true → Pipeline.arrRef spec0 w ≠ r)
    (k1 : ∀ w, (cfg1.win w).isOut = true → Pipeline.arrRef spec1 w ≠ r)
    (k2 : ∀ w, (cfg2.win w).isOut = true → Pipeline.arrRef spec2 w ≠ r) :
    W6 m c (Proc.devRef .tc r) = m ((c : Thread nD τ).loc r) :=
  calc W6 m c (Proc.devRef .tc r)
    _ = W5 m c (Proc.devRef .tc r) := W6_reg m c r k2
    _ = W4 m c (Proc.devRef .tc r) := W5_keep m c r h2
    _ = W3 m c (Proc.devRef .tc r) := W4_reg m c r k1
    _ = W2 m c (Proc.devRef .tc r) := W3_keep m c r h1
    _ = W1 m c (Proc.devRef .tc r) := W2_reg m c r k0
    _ = W0 m c (Proc.devRef .tc r) := W1_keep m c r h0
    _ = m ((c : Thread nD τ).loc r) := rfl

end R

/-! ## The arguments end as launched: no host operation writes one, and a region reads one through an input window or
    not at all -/

theorem W6_main_arg0 (m : (ℓ : Loc nD τ sig) → Buf (Elt F) ℓ) (c : Dev nD) : W6 m c (Proc.devRef .tc main_arg0) = m ((c : Thread nD τ).loc main_arg0) :=
  R.W6_keep m c main_arg0 (by decide) (by decide) (by decide) (by decide) (by decide) (by decide)
theorem W6_main_arg1 (m : (ℓ : Loc nD τ sig) → Buf (Elt F) ℓ) (c : Dev nD) : W6 m c (Proc.devRef .tc main_arg1) = m ((c : Thread nD τ).loc main_arg1) :=
  R.W6_keep m c main_arg1 (by decide) (by decide) (by decide) (by decide) (by decide) (by decide)
theorem W6_main_arg2 (m : (ℓ : Loc nD τ sig) → Buf (Elt F) ℓ) (c : Dev nD) : W6 m c (Proc.devRef .tc main_arg2) = m ((c : Thread nD τ).loc main_arg2) :=
  R.W6_keep m c main_arg2 (by decide) (by decide) (by decide) (by decide) (by decide) (by decide)
theorem W6_main_arg3 (m : (ℓ : Loc nD τ sig) → Buf (Elt F) ℓ) (c : Dev nD) : W6 m c (Proc.devRef .tc main_arg3) = m ((c : Thread nD τ).loc main_arg3) :=
  R.W6_keep m c main_arg3 (by decide) (by decide) (by decide) (by decide) (by decide) (by decide)
theorem W6_main_arg4 (m : (ℓ : Loc nD τ sig) → Buf (Elt F) ℓ) (c : Dev nD) : W6 m c (Proc.devRef .tc main_arg4) = m ((c : Thread nD τ).loc main_arg4) :=
  R.W6_keep m c main_arg4 (by decide) (by decide) (by decide) (by decide) (by decide) (by decide)
theorem W6_main_arg5 (m : (ℓ : Loc nD τ sig) → Buf (Elt F) ℓ) (c : Dev nD) : W6 m c (Proc.devRef .tc main_arg5) = m ((c : Thread nD τ).loc main_arg5) :=
  R.W6_keep m c main_arg5 (by decide) (by decide) (by decide) (by decide) (by decide) (by decide)
theorem W6_main_arg6 (m : (ℓ : Loc nD τ sig) → Buf (Elt F) ℓ) (c : Dev nD) : W6 m c (Proc.devRef .tc main_arg6) = m ((c : Thread nD τ).loc main_arg6) :=
  R.W6_keep m c main_arg6 (by decide) (by decide) (by decide) (by decide) (by decide) (by decide)
theorem W6_main_arg7 (m : (ℓ : Loc nD τ sig) → Buf (Elt F) ℓ) (c : Dev nD) : W6 m c (Proc.devRef .tc main_arg7) = m ((c : Thread nD τ).loc main_arg7) :=
  R.W6_keep m c main_arg7 (by decide) (by decide) (by decide) (by decide) (by decide) (by decide)
theorem W6_main_arg8 (m : (ℓ : Loc nD τ sig) → Buf (Elt F) ℓ) (c : Dev nD) : W6 m c (Proc.devRef .tc main_arg8) = m ((c : Thread nD τ).loc main_arg8) :=
  R.W6_keep m c main_arg8 (by decide) (by decide) (by decide) (by decide) (by decide) (by decide)
theorem W6_main_arg9 (m : (ℓ : Loc nD τ sig) → Buf (Elt F) ℓ) (c : Dev nD) : W6 m c (Proc.devRef .tc main_arg9) = m ((c : Thread nD τ).loc main_arg9) :=
  R.W6_keep m c main_arg9 (by decide) (by decide) (by decide) (by decide) (by decide) (by decide)
theorem W6_main_arg10 (m : (ℓ : Loc nD τ sig) → Buf (Elt F) ℓ) (c : Dev nD) : W6 m c (Proc.devRef .tc main_arg10) = m ((c : Thread nD τ).loc main_arg10) :=
  R.W6_keep m c main_arg10 (by decide) (by decide) (by decide) (by decide) (by decide) (by decide)
theorem W6_main_arg11 (m : (ℓ : Loc nD τ sig) → Buf (Elt F) ℓ) (c : Dev nD) : W6 m c (Proc.devRef .tc main_arg11) = m ((c : Thread nD τ).loc main_arg11) :=
  R.W6_keep m c main_arg11 (by decide) (by decide) (by decide) (by decide) (by decide) (by decide)
theorem W6_main_arg12 (m : (ℓ : Loc nD τ sig) → Buf (Elt F) ℓ) (c : Dev nD) : W6 m c (Proc.devRef .tc main_arg12) = m ((c : Thread nD τ).loc main_arg12) :=
  R.W6_keep m c main_arg12 (by decide) (by decide) (by decide) (by decide) (by decide) (by decide)
theorem W6_main_arg13 (m : (ℓ : Loc nD τ sig) → Buf (Elt F) ℓ) (c : Dev nD) : W6 m c (Proc.devRef .tc main_arg13) = m ((c : Thread nD τ).loc main_arg13) :=
  R.W6_keep m c main_arg13 (by decide) (by decide) (by decide) (by decide) (by decide) (by decide)
theorem W6_main_arg14 (m : (ℓ : Loc nD τ sig) → Buf (Elt F) ℓ) (c : Dev nD) : W6 m c (Proc.devRef .tc main_arg14) = m ((c : Thread nD τ).loc main_arg14) :=
  R.W6_keep m c main_arg14 (by decide) (by decide) (by decide) (by decide) (by decide) (by decide)
theorem W6_main_arg15 (m : (ℓ : Loc nD τ sig) → Buf (Elt F) ℓ) (c : Dev nD) : W6 m c (Proc.devRef .tc main_arg15) = m ((c : Thread nD τ).loc main_arg15) :=
  R.W6_keep m c main_arg15 (by decide) (by decide) (by decide) (by decide) (by decide) (by decide)
theorem W6_main_arg16 (m : (ℓ : Loc nD τ sig) → Buf (Elt F) ℓ) (c : Dev nD) : W6 m c (Proc.devRef .tc main_arg16) = m ((c : Thread nD τ).loc main_arg16) :=
  R.W6_keep m c main_arg16 (by decide) (by decide) (by decide) (by decide) (by decide) (by decide)
theorem W6_main_arg17 (m : (ℓ : Loc nD τ sig) → Buf (Elt F) ℓ) (c : Dev nD) : W6 m c (Proc.devRef .tc main_arg17) = m ((c : Thread nD τ).loc main_arg17) :=
  R.W6_keep m c main_arg17 (by decide) (by decide) (by decide) (by decide) (by decide) (by decide)
theorem W6_main_arg18 (m : (ℓ : Loc nD τ sig) → Buf (Elt F) ℓ) (c : Dev nD) : W6 m c (Proc.devRef .tc main_arg18) = m ((c : Thread nD τ).loc main_arg18) :=
  R.W6_keep m c main_arg18 (by decide) (by decide) (by decide) (by decide) (by decide) (by decide)

namespace R

variable (m : (ℓ : Loc nD τ sig) → Buf (Elt F) ℓ)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev Rd (c : Dev nD) : sProp 𝕄 := iprop((∃ r, prngReg c r) ∗ ∃ W, owes (c : Thread nD τ) (0 : CellTallies nD τ sig Unit) W)
/-- A host stretch as a segment: over the unscoped references from the contents `W`, the rider beside them; it leaves
    those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
/-- The last thread state without the dues: every unscoped buffer at the last boundary's contents, the generator
    register at some state. -/
abbrev Tₙ (c : Dev nD) : sProp 𝕄 := iprop(StableHlo.held (c : Thread nD τ) (Pipeline.ucRefs τ sig) (W6 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left with every unscoped buffer
    at the next boundary's contents. Its arrays are split out of the unscoped buffers at entry and put back at
    the exit contents; the generator register goes into the pipeline's invariant and comes back; nothing is owed;
    the kernel has no semaphore of its own. The body obligation is the hypothesis, at the entry contents. -/
def reg0
    (hb : ∀ (V : (c : Dev nD) → (b : Ref sig .tc) → Buf (Elt F) ((c : Thread nD τ).loc b)) (c : Dev nD), BodyObligation (dat0 (F := F) V c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb (V1 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left with every unscoped buffer
    at the next boundary's contents. Its arrays are split out of the unscoped buffers at entry and put back at
    the exit contents; the generator register goes into the pipeline's invariant and comes back; nothing is owed;
    the kernel has no semaphore of its own. The body obligation is the hypothesis, at the entry contents. -/
def reg1
    (hb : ∀ (V : (c : Dev nD) → (b : Ref sig .tc) → Buf (Elt F) ((c : Thread nD τ).loc b)) (c : Dev nD), BodyObligation (dat1 (F := F) V c) (defs₀ (F := F)) Variants.none () Set.univ) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb (V3 m) c).loose
  hwaits := Pipeline.hwaits_of_owed_zero _ _ _ _ L lv 1 fun _ _ => rfl
  pre c := iprop(StableHlo.held (c : Thread nD τ) (Pipeline.ucRefs τ sig) (W3 m c) ∗ Rd c)
  post c := iprop(StableHlo.held (c : Thread nD τ) (Pipeline.ucRefs τ sig) (W4 m c) ∗ Rd c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W5`, left with every unscoped buffer
    at the next boundary's contents. Its arrays are split out of the unscoped buffers at entry and put back at
    the exit contents; the generator register goes into the pipeline's invariant and comes back; nothing is owed;
    the kernel has no semaphore of its own. The body obligation is the hypothesis, at the entry contents. -/
def reg2
    (hb : ∀ (V : (c : Dev nD) → (b : Ref sig .tc) → Buf (Elt F) ((c : Thread nD τ).loc b)) (c : Dev nD), BodyObligation (dat2 (F := F) V c) (defs₀ (F := F)) Variants.none () Set.univ) :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb (V5 m) c).loose
  hwaits := Pipeline.hwaits_of_owed_zero _ _ _ _ L lv 2 fun _ _ => rfl
  pre c := iprop(StableHlo.held (c : Thread nD τ) (Pipeline.ucRefs τ sig) (W5 m c) ∗ Rd c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments -/

/-- @main's six segments in order: a host segment per stretch from its boundary's contents, a region per pipelined call. -/
abbrev segs (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1),
    .host (hseg hostOps2 hostOps2_sub hostOps2_fresh (W4 m)),
    .region (reg2 m hb2) ]

/-- @main is the run of the segments: it is the chain of its items, and the segments' run is the chain of their programs. -/
theorem main_run (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) (c : Dev nD) :
    main (F := F) c = Pipeline.Seg.run (segs m hb0 hb1 hb2) := (main_chain c).trans (by chain_rfl)

end R

-- the launch theorem's implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and in every final state every unscoped buffer of every core holds the
    last boundary's contents. The launch over the six segments; the last thread state is read against the final state. -/
theorem run
    (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m c b) :=
  Pipeline.θ_run_regions_kit (pcfgs (F := F)) R.adm (R.pdats m) () cellOf_inj emb₁ defs₀ R.𝒱₀ R.L R.lv m ρ main (R.segs m hb0 hb1 hb2)
    (fun c Q => by rw [R.main_run m hb0 hb1 hb2 c])
    (by simp only [R.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R.Rd c)) (Tₙ := R.Tₙ m)
    (hch := ⟨fun _ => .rfl, fun _ => .rfl, fun _ => .rfl, fun _ => .rfl, fun _ => .rfl, fun _ => .rfl, fun _ => .rfl⟩)
    (hinit := by
      refine Pipeline.initEach R.L R.lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun _ h => h)

end Cert.Kernel.Hand

end
-- ==== Proof.Body0K.lean ====
/-
  The node stage (region 0) at a generic grid point: every input window's current staging buffer holds the window's block
  of the entry contents; the body, run on whole staging buffers, gives the five inputs back as found and leaves in the four
  output buffers the normalised rows and the three 256-column slices of their fused product with the weight block plus the
  bias row; hence the pipeline's body obligation for the region's proof data.
-/
import proofs.«175260_j20066087207295_2_alg».proof.Proof.OutsK

-- membership in a whole-buffer rectangle of these extents is checked by evaluation, one step per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

namespace B0

/-! ## The input windows' staging buffers hold their blocks -/

/-- Input window 0's current staging buffer holds its block at every grid point, whether or not the window is fetched
    there, for any proof data whose array is the entry contents and whose body leaves the block in place: where it is
    not fetched its block index has not moved since the point before. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every grid point, whether or not the window is fetched
    there, for any proof data whose array is the entry contents and whose body leaves the block in place: where it is
    not fetched its block index has not moved since the point before. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every grid point, whether or not the window is fetched
    there, for any proof data whose array is the entry contents and whose body leaves the block in place: where it is
    not fetched its block index has not moved since the point before. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every grid point, whether or not the window is fetched
    there, for any proof data whose array is the entry contents and whose body leaves the block in place: where it is
    not fetched its block index has not moved since the point before. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every grid point, whether or not the window is fetched
    there, for any proof data whose array is the entry contents and whose body leaves the block in place: where it is
    not fetched its block index has not moved since the point before. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The one store into each output buffer covers it -/

/-- A single piece over the whole-buffer rectangle tiles the buffer (checked by evaluation), so it covers it. -/
theorem cover0 (p0 : Vec F S2000x256 .bf16) (y : S2000x256.Idx) :
    ∃ pc ∈ ([⟨r_S2000x256, p0⟩] : List (View.Piece (Elt F) S2000x256 .bf16)), y ∈ pc.1.set :=
  View.cover_of_tiled [⟨r_S2000x256, p0⟩] S2000x256.size (by rfl) y

/-! ## The body's triple -/

set_option maxHeartbeats 2000000 in
/-- The body on whole staging buffers, the five inputs' at read contents x0 … x4 and the four outputs' at anything, runs to
    the continuation holding the inputs' as they were and each output's at its term of the inputs: the body is its skeleton
    (its first part loads the five inputs and stores the normalised rows; the rest stores the three slices), and before each
    store it loads the buffer it is about to overwrite, whatever that holds. -/
theorem sound_kernel0 (c : Dev nD) (E : Set ℕ) (i : grid0.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S256x768 .f32) (harg4 : arg4.IsWhole)
    (arg5 : Memref sig .tc .vmem S1x768 .f32) (harg5 : arg5.IsWhole)
    (arg6 : Memref sig .tc .vmem S2000x256 .bf16) (harg6 : arg6.IsWhole)
    (arg7 : Memref sig .tc .vmem S2000x256 .bf16) (harg7 : arg7.IsWhole)
    (arg8 : Memref sig .tc .vmem S2000x256 .bf16) (harg8 : arg8.IsWhole)
    (arg9 : Memref sig .tc .vmem S2000x256 .bf16) (harg9 : arg9.IsWhole)
    (x0 : Vec F S2000x256 .f32) (x1 : Vec F S1x256 .f32) (x2 : Vec F S1x256 .f32) (x3 : Vec F S256x768 .f32) (x4 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2)
            ∗ owns (c : Thread nD τ) arg7 fullShare (out0_6 x0 x1 x2 x3 x4)
            ∗ owns (c : Thread nD τ) arg8 fullShare (out0_7 x0 x1 x2 x3 x4)
            ∗ owns (c : Thread nD τ) arg9 fullShare (out0_8 x0 x1 x2 x3 x4)) -∗ K ⟨⟩))
      ⊢ wp frame (wpE (defs₀ (F := F)) Variants.none c none) E (cc0__node_kernel i arg1 harg1 arg2 harg2 arg3 harg3 arg4 harg4 arg5 harg5 arg6 harg6 arg7 harg7 arg8 harg8 arg9 harg9) K := by
  simp only [cc0__node_kernel_eq_skeleton]; unfold cc0__node_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

/-! ## The proof data, window by window -/

/-- What the body leaves, window by window: the proof data's case split reduced at each numeral. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) :
    (dat0 V c).after 7 t = out0_7 (iblk0 V c 0 t) (iblk0 V c 1 t) (iblk0 V c 2 t) (iblk0 V c 3 t) (iblk0 V c 4 t) := by dsimp only [dat0]
theorem after0_8 (c : Dev nD) (t : Fin cfg0.N) :
    (dat0 V c).after 8 t = out0_8 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t: the invariant, what the core owes, and the windows' current staging buffers one
    by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' staging buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end B0

/-- The pipeline's body obligation for region 0, at every grid point. -/
theorem body_obligation0 (c : Dev nD) : BodyObligation (dat0 (F := F) V c) (defs₀ (F := F)) Variants.none () Set.univ := fun t => by
  rw [bigSep_W0, bigSep_W0]
  exact B0.sound_body0 V c t

end Cert.Kernel.Hand

end
-- ==== Proof.Body1aK.lean ====
/-
  The edge stage (region 1): what its body finds in each of the thirteen input windows' staging buffers. An input window's
  current buffer holds that window's block at the grid point whether or not the pipeline fetched it there: a window fetched
  at every point holds the block just fetched; a resident window (its block index constant over the grid, fetched at the
  first point only) still holds the first point's block, which is every point's. Stated for any proof data whose arrays
  are the region-entry contents V and whose body leaves each input block in place, then at the edge stage's proof data.
-/
import proofs.«175260_j20066087207295_2_alg».proof.Proof.OutsK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

namespace B1

section AtEntry
-- the TensorCore's buffer contents when the region is entered
variable (V : (c : Dev nD) → (b : Ref sig .tc) → Buf (Elt F) ((c : Thread nD τ).loc b))

/-! ## An input window's current buffer holds its block at every point, fetched there or not

  For any proof data over the edge stage's configuration whose array for the window is V's and whose body leaves the window's
  block in place: at a point where the window is not fetched its block index has not moved since the point before, so the
  buffer's contents — the previous point's block, kept by the body — are this point's block. No window is cut or idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## What the edge stage's proof data say the body leaves, window by window (the definition's match reduced) -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t) := by dsimp only [dat1]

/-! ## So at the edge stage's proof data every input's current buffer holds its block at every point -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

end AtEntry

end B1

end Cert.Kernel.Hand

end
-- ==== Proof.Body1bK.lean ====
/-
  The edge stage (region 1): its body's triple. On fourteen whole staging memrefs — the thirteen inputs' at read contents
  x0 … x12, the output's at any contents — the body runs to the continuation holding every input's memref as it was and the
  output's at the one whole-buffer piece whose payload is the body's value of the thirteen input blocks. The body loads
  every input once, loads the output buffer (a value it never uses) and stores the whole output buffer once; one store of
  the whole buffer covers it, so what the buffer reads afterwards does not depend on what it held.
-/
import proofs.«175260_j20066087207295_2_alg».proof.Proof.OutsK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

namespace B1

/-! ## The output buffer's one store covers it -/

/-- A single piece over the whole 2000-by-256 rectangle tiles the buffer (checked by evaluation), so it covers it. -/
theorem cover1_13 (p0 : Vec F S2000x256 .bf16) (y : S2000x256.Idx) :
    ∃ pc ∈ ([⟨r_S2000x256, p0⟩] : List (View.Piece (Elt F) S2000x256 .bf16)), y ∈ pc.1.set :=
  View.cover_of_tiled [⟨r_S2000x256, p0⟩] S2000x256.size (by rfl) y

/-! ## The body's triple -/

set_option maxHeartbeats 1000000 in
/-- The edge stage's body at any grid coordinate, on whole staging memrefs: the printed function and its printed part are
    their skeletons of memory operations over pure payloads; the run reads each input through its whole-buffer rectangle
    and leaves the output buffer at the store's payload over whatever it held, which reads as the canonical contents of
    the one covering piece. -/
theorem sound_kernel1 (c : Dev nD) (E : Set ℕ) (i : grid1.Coords) (arg1 : Memref sig .tc .vmem S2000x64 .f32) (harg1 : arg1.IsWhole) (arg2 : Memref sig .tc .vmem S2000x1 .f32) (harg2 : arg2.IsWhole) (arg3 : Memref sig .tc .vmem S2000x256 .bf16) (harg3 : arg3.IsWhole) (arg4 : Memref sig .tc .vmem S2000x256 .bf16) (harg4 : arg4.IsWhole) (arg5 : Memref sig .tc .vmem S2000x256 .bf16) (harg5 : arg5.IsWhole) (arg6 : Memref sig .tc .vmem S2000x256 .bf16) (harg6 : arg6.IsWhole) (arg7 : Memref sig .tc .vmem S64x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S256x8 .f32) (harg12 : arg12.IsWhole) (arg13 : Memref sig .tc .vmem S8x256 .f32) (harg13 : arg13.IsWhole) (arg14 : Memref sig .tc .vmem S2000x256 .bf16) (harg14 : arg14.IsWhole)
    (x0 : Vec F S2000x64 .f32) (x1 : Vec F S2000x1 .f32) (x2 : Vec F S2000x256 .bf16) (x3 : Vec F S2000x256 .bf16) (x4 : Vec F S2000x256 .bf16) (x5 : Vec F S2000x256 .bf16) (x6 : Vec F S64x256 .f32) (x7 : Vec F S1x256 .f32) (x8 : Vec F S256x256 .f32) (x9 : Vec F S1x256 .f32) (x10 : Vec F S1x1 .f32) (x11 : Vec F S256x8 .f32) (x12 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out1_13 x0 x1 x2 x3 x4 x5 x6 x7 x8 x9 x10 x11 x12)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover1_13 _)

end B1

end Cert.Kernel.Hand

end
-- ==== Proof.Body1K.lean ====
/-
  The edge stage (region 1): the body obligation of its pipeline's proof data at the region-entry contents V. At every grid
  point the pipeline calls the body with the invariant, the core's debts and every window's current staging buffer at what
  it then holds; each input's buffer holds its block at the point, so the body's triple applies at the thirteen input
  blocks, and it returns every input's buffer as it was and the output's at the body's value of the input blocks; the
  invariant and the debts pass through unread.
-/
import proofs.«175260_j20066087207295_2_alg».proof.Proof.Body1aK
import proofs.«175260_j20066087207295_2_alg».proof.Proof.Body1bK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section AtEntry
-- the TensorCore's buffer contents when the region is entered
variable (V : (c : Dev nD) → (b : Ref sig .tc) → Buf (Elt F) ((c : Thread nD τ).loc b))

namespace B1

/-- What the body is called with at point t: the invariant, the core's debts, and each window's current buffer at what it
    holds before the body, the windows one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- What it returns: the invariant and debts at the next point, each window's current buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in
/-- The body at any point: every input's memref holds its block there, so the body's triple applies at the blocks; the
    invariant and the core's debts do not change from a point to the next and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end B1

/-- The library's body obligation for the edge stage's proof data, at every grid point: the obligation's separating
    product over the fourteen windows written out, then the body at the point. -/
theorem body_obligation1 (c : Dev nD) :
    BodyObligation (dat1 (F := F) V c) (defs₀ (F := F)) Variants.none () Set.univ := fun t => by
  rw [bigSep_W1, bigSep_W1]
  exact B1.sound_body1 V c t

end AtEntry

end Cert.Kernel.Hand

end
-- ==== Proof.Body2K.lean ====
/-
  The output stage (region 2) at a generic grid point: every input window's current staging buffer holds the window's
  block of the entry contents; the body, run on whole staging buffers, gives the inputs back as found and leaves in the
  output buffer the sum of the feature block with the mapped aggregate block; hence the pipeline's body obligation for the
  region's proof data.
-/
import proofs.«175260_j20066087207295_2_alg».proof.Proof.OutsK

-- membership in a whole-buffer rectangle of these extents is checked by evaluation, one step per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

namespace B2

/-! ## The input windows' staging buffers hold their blocks -/

/-- Input window 0's current staging buffer holds its block at every grid point, whether or not the window is fetched
    there, for any proof data whose array is the entry contents and whose body leaves the block in place: where it is
    not fetched its block index has not moved since the point before. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every grid point, whether or not the window is fetched
    there, for any proof data whose array is the entry contents and whose body leaves the block in place: where it is
    not fetched its block index has not moved since the point before. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every grid point, whether or not the window is fetched
    there, for any proof data whose array is the entry contents and whose body leaves the block in place: where it is
    not fetched its block index has not moved since the point before. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every grid point, whether or not the window is fetched
    there, for any proof data whose array is the entry contents and whose body leaves the block in place: where it is
    not fetched its block index has not moved since the point before. The window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The one store of the body covers the output buffer -/

/-- A single piece over the whole-buffer rectangle tiles the buffer (checked by evaluation), so it covers it. -/
theorem cover2_4 (p0 : Vec F S2000x256 .f32) (y : S2000x256.Idx) :
    ∃ pc ∈ ([⟨r_S2000x256, p0⟩] : List (View.Piece (Elt F) S2000x256 .f32)), y ∈ pc.1.set :=
  View.cover_of_tiled [⟨r_S2000x256, p0⟩] S2000x256.size (by rfl) y

/-! ## The body's triple -/

set_option maxHeartbeats 1000000 in
/-- The body on whole staging buffers, the four inputs' at read contents x0 … x3 and the output's at anything, runs to the
    continuation holding the inputs' as they were and the output's at out2_4 of the inputs: the body is its skeleton of
    five loads (the last a dead load of the output buffer) and one whole-buffer store. -/
theorem sound_kernel2 (c : Dev nD) (E : Set ℕ) (i : grid2.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole)
    (x0 : Vec F S2000x256 .f32) (x1 : Vec F S2000x256 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__output_kernel i arg1 harg1 arg2 harg2 arg3 harg3 arg4 harg4 arg5 harg5) K := by
  simp only [cc2__output_kernel_eq_skeleton]; unfold cc2__output_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The proof data, window by window -/

/-- What the body leaves, window by window: the proof data's case split reduced at each numeral. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point t: the invariant, what the core owes, and the windows' current staging buffers one
    by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' staging buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end B2

/-- The pipeline's body obligation for region 2, at every grid point. -/
theorem body_obligation2 (c : Dev nD) : BodyObligation (dat2 (F := F) V c) (defs₀ (F := F)) Variants.none () Set.univ := fun t => by
  rw [bigSep_W2, bigSep_W2]
  exact B2.sound_body2 V c t

end Cert.Kernel.Hand

end
-- ==== Proof.Consts.lean ====
/-
  The two float constants the proof evaluates, as the extended reals their patterns denote.

  The word 0x40B504F3 is the f32 nearest the square root of 32: sign 0, exponent 129, significand 1 + 3474675 / 2^23,
  that is 11863283 / 2^21. The score of a head is divided by it; the product with its reciprocal 2097152 / 11863283
  is the same extended real, for every extended real, because the divisor is a nonzero real.
-/
import Idealize.ShloMosaic.PureOps.Ideal

noncomputable section

namespace Cert.Hyb

open Idealize.ShloMosaic

/-- The word 0x40B504F3 denotes 11863283 / 2097152. -/
theorem ofBits_sqrt32 : Ideal.ofBits .f32 0x40B504F3#32 = ((11863283 / 2097152 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

/-- Dividing by what the word 0x40B504F3 denotes is multiplying by 2097152 / 11863283, on every extended real. -/
theorem scale_eq (x : EReal) :
    x * ((2097152 / 11863283 : ℝ) : EReal) = Ideal.div x (Ideal.ofBits .f32 0x40B504F3#32) := by
  rw [ofBits_sqrt32, Ideal.div_coe (by norm_num : (11863283 / 2097152 : ℝ) ≠ 0)]
  have h : (1 / (11863283 / 2097152 : ℝ)) = (2097152 / 11863283 : ℝ) := by norm_num
  rw [h]

end Cert.Hyb

end
-- ==== Proof.LibRowIndex.lean ====
/-
  Row scatters and row gathers read at an index.

  jax's `segment_sum(data, ids, num_segments = N)` prints as a `stablehlo.scatter` with an `add` body whose scatter
  indices are the `E` words `ids` as an `[E, 1]` array: update row `e` is added to operand row `ids[e]`, read signed,
  when that is a row number, and dropped otherwise (`land`). jax's `x[ids]` prints as a `stablehlo.gather` over the
  same `[E, 1]` array of start indices: result row `e` is operand row `ids[e]`, read signed and clamped into
  `[0, N - 1]` (`pick`). This file states both, for a matrix of rows (`[N, C]`, updates / result `[E, C]`) and for a
  plain vector (`[N]`, updates / result `[E]`), at one element, and the one fact that joins them: an index that lands
  on row `n` picks row `n`.
-/
import Idealize.ShloMosaic.PureOps.Ideal
import Idealize.ShloMosaic.PureOps.Contract
import Idealize.ShloMosaic.Lib.ValueIdx

noncomputable section

open scoped BigOperators

namespace Cert.Lib.RowIndex

open Idealize.ShloMosaic Idealize.ShloMosaic.ValueIdx

/-! ## Where an index word lands, and which row it picks -/

/-- The row an index word names among `N` rows when it is read signed and NOT clamped: `some` row when the signed
    value is in `[0, N)`, `none` otherwise (a scatter drops such an update). -/
def land (N : Nat) {w : Nat} (c : BitVec w) : Option (Fin N) :=
  if h : 0 ≤ c.toInt ∧ c.toInt < (N : Int) then some ⟨c.toInt.toNat, by omega⟩ else none

/-- The row an index word names among `N` rows when it is read signed and clamped into `[0, N - 1]` (a gather
    clamps its start index). -/
def pick (N : Nat) (hN : 0 < N) {w : Nat} (c : BitVec w) : Fin N :=
  ⟨min c.toInt.toNat (N - 1), by omega⟩

/-- An index word that lands on row `n` picks row `n`. -/
theorem pick_of_land {N : Nat} (hN : 0 < N) {w : Nat} (c : BitVec w) (n : Fin N) (h : land N c = some n) :
    pick N hN c = n := by
  unfold land at h
  split at h
  · rename_i hc
    obtain rfl : (⟨c.toInt.toNat, _⟩ : Fin N) = n := Option.some.inj h
    refine Fin.ext ?_
    show min c.toInt.toNat (N - 1) = c.toInt.toNat
    omega
  · exact absurd h (by simp)

/-- A word that lands somewhere is not negative. -/
theorem toInt_nonneg_of_land {N : Nat} {w : Nat} (c : BitVec w) (n : Fin N) (h : land N c = some n) :
    0 ≤ c.toInt := by
  unfold land at h
  split at h
  · rename_i hc
    exact hc.1
  · exact absurd h (by simp)

/-! ## The dimension numbers -/

/-- `segment_sum` of rows: operand `[N, C]`, scatter indices `[E, 1]`, updates `[E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `segment_sum` of scalars: operand `[N]`, scatter indices `[E, 1]`, updates `[E]`. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- `x[ids]` of a matrix of rows: operand `[N, C]`, start indices `[E, 1]`, result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[ids]` of a vector: operand `[N]`, start indices `[E, 1]`, result `[E]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-! ## The scatters at an element (extended reals) -/

/-- Axis 0 of a row scatter's window start: the index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e h) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 of a row scatter's window start: zero (the index names rows only). -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (1 : Fin 2) = 0 := by
  unfold ScatterDims.start
  rw [dif_neg (show ¬ (1 : Fin 2) ∈ ([0] : List (Fin 2)) by decide)]

/-- Axis 0 of a row scatter's window coordinate: zero (a window is one row). -/
theorem rowScatter_window_zero {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (0 : Fin 2) = 0 := by
  unfold ScatterDims.window
  have hm : ¬ (0 : Fin 2) ∈ (rowScatter N E C wf).sKept :=
    (show ¬ (0 : Fin 2) ∈ (List.finRange 2).filter (fun a => a ∉ ([0] : List (Fin 2))) by decide)
  rw [dif_neg hm]

/-- Axis 1 of a row scatter's window coordinate: the update's column. -/
theorem rowScatter_window_one {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (1 : Fin 2) = h.val := by
  unfold ScatterDims.window
  have hm : (1 : Fin 2) ∈ (rowScatter N E C wf).sKept :=
    (show (1 : Fin 2) ∈ (List.finRange 2).filter (fun a => a ∉ ([0] : List (Fin 2))) by decide)
  rw [dif_pos hm]
  rfl

/-- Where update element `(e, h)` of a row scatter goes: row `land` of its index word, column `h`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).resultIdx? (ix2 e h) idx
      = (land N (idx (ix2 e (0 : Fin 1)))).map (fun n => ix2 n h) := by
  have h00 := rowScatter_start_zero wf idx e h
  have h01 := rowScatter_start_one wf idx e h
  have h10 := rowScatter_window_zero wf e h
  have h11 := rowScatter_window_one wf e h
  have hC : (h.val : Int) < (C : Int) := by exact_mod_cast h.isLt
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 2, 0 ≤ (rowScatter N E C wf).start (ix2 e h) idx a + ((rowScatter N E C wf).window (ix2 e h) a : Int)
        ∧ (rowScatter N E C wf).start (ix2 e h) idx a + ((rowScatter N E C wf).window (ix2 e h) a : Int)
          < ((⟨2, ![N, C]⟩ : Shape).size a : Int) := by
      intro a
      match a with
      | ⟨0, _⟩ =>
        show 0 ≤ (rowScatter N E C wf).start (ix2 e h) idx (0 : Fin 2) + ((rowScatter N E C wf).window (ix2 e h) (0 : Fin 2) : Int)
          ∧ (rowScatter N E C wf).start (ix2 e h) idx (0 : Fin 2) + ((rowScatter N E C wf).window (ix2 e h) (0 : Fin 2) : Int) < (N : Int)
        rw [h00, h10]; simpa using hc
      | ⟨1, _⟩ =>
        show 0 ≤ (rowScatter N E C wf).start (ix2 e h) idx (1 : Fin 2) + ((rowScatter N E C wf).window (ix2 e h) (1 : Fin 2) : Int)
          ∧ (rowScatter N E C wf).start (ix2 e h) idx (1 : Fin 2) + ((rowScatter N E C wf).window (ix2 e h) (1 : Fin 2) : Int) < (C : Int)
        rw [h01, h11]; omega
    rw [dif_pos hall]
    congr 1
    funext a
    refine Fin.ext ?_
    match a with
    | ⟨0, _⟩ =>
      show ((rowScatter N E C wf).start (ix2 e h) idx (0 : Fin 2) + ((rowScatter N E C wf).window (ix2 e h) (0 : Fin 2) : Int)).toNat
        = (idx (ix2 e (0 : Fin 1))).toInt.toNat
      rw [h00, h10]; simp
    | ⟨1, _⟩ =>
      show ((rowScatter N E C wf).start (ix2 e h) idx (1 : Fin 2) + ((rowScatter N E C wf).window (ix2 e h) (1 : Fin 2) : Int)).toNat
        = h.val
      rw [h01, h11]; simp
  · rw [dif_neg hc, Option.map_none]
    unfold ScatterDims.resultIdx?
    rw [dif_neg]
    intro hall
    have := hall (0 : Fin 2)
    rw [h00, h10] at this
    exact hc (by simpa using this)

/-- Update element `j` of a row scatter goes to `(n, h)` exactly when its index word lands on `n` and its
    column is `h`. -/
theorem rowScatter_resultIdx_eq_some_iff {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (n : Fin N) (h : Fin C) :
    (rowScatter N E C wf).resultIdx? j idx = some (ix2 n h)
      ↔ land N (idx (ix2 (j 0) (0 : Fin 1))) = some n ∧ j 1 = h := by
  obtain ⟨e, h', rfl⟩ : ∃ (e : Fin E) (h' : Fin C), j = ix2 e h' := ⟨j 0, j 1, eq_ix2 j⟩
  rw [rowScatter_resultIdx wf idx e h']
  show Option.map (fun m => ix2 m h') (land N (idx (ix2 e (0 : Fin 1)))) = some (ix2 n h)
    ↔ land N (idx (ix2 e (0 : Fin 1))) = some n ∧ h' = h
  constructor
  · intro hh
    obtain ⟨m, hm, hmn⟩ := Option.map_eq_some_iff.mp hh
    have h0 : m = n := congrFun hmn (0 : Fin 2)
    have h1 : h' = h := congrFun hmn (1 : Fin 2)
    exact ⟨by rw [hm, h0], h1⟩
  · rintro ⟨hl, rfl⟩
    rw [hl]
    rfl

/-- Row `n`, column `h` of a row scatter-add: the operand's element plus the sum, over the update rows `e` whose
    index word lands on `n`, of the update's element `(e, h)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (h : Fin C) :
    Host.scatterAdd (rowScatter N E C wf) x idx upd (ix2 n h)
      = (x (ix2 n h) + ∑ e ∈ Finset.univ.filter (fun e : Fin E => land N (idx (ix2 e (0 : Fin 1))) = some n),
          upd (ix2 e h) : EReal) := by
  show (x (ix2 n h) + ∑ j ∈ Finset.univ.filter
      (fun j => (rowScatter N E C wf).resultIdx? j idx = some (ix2 n h)), upd j : EReal) = _
  congr 1
  refine Finset.sum_nbij' (fun j => j 0) (fun e => ix2 e h) ?_ ?_ ?_ ?_ ?_
  · intro j hj
    have hj' := (rowScatter_resultIdx_eq_some_iff wf idx j n h).mp (Finset.mem_filter.mp hj).2
    exact Finset.mem_filter.mpr ⟨Finset.mem_univ _, hj'.1⟩
  · intro e he
    have he' : land N (idx (ix2 e (0 : Fin 1))) = some n := (Finset.mem_filter.mp he).2
    exact Finset.mem_filter.mpr ⟨Finset.mem_univ _,
      (rowScatter_resultIdx_eq_some_iff wf idx (ix2 e h) n h).mpr ⟨he', rfl⟩⟩
  · intro j hj
    have hj' := (rowScatter_resultIdx_eq_some_iff wf idx j n h).mp (Finset.mem_filter.mp hj).2
    show ix2 (j 0) h = j
    rw [← hj'.2]
    exact (eq_ix2 j).symm
  · intro e _
    rfl
  · intro j hj
    have hj' := (rowScatter_resultIdx_eq_some_iff wf idx j n h).mp (Finset.mem_filter.mp hj).2
    show upd j = upd (ix2 (j 0) h)
    rw [← hj'.2]
    exact congrArg upd (eq_ix2 j)

/-- A scalar scatter's window start: the index word, read signed. -/
theorem vecScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- A scalar scatter's window coordinate: zero (a window is one element). -/
theorem vecScatter_window {N E : Nat}
    (wf : ScatterDims.WF ⟨1, ![N]⟩ ⟨2, ![E, 1]⟩ ⟨1, ![E]⟩ [] [0] [0] 1) (e : Fin E) :
    (vecScatter N E wf).window (ix1 e) (0 : Fin 1) = 0 := by
  unfold ScatterDims.window
  have hm : ¬ (0 : Fin 1) ∈ (vecScatter N E wf).sKept :=
    (show ¬ (0 : Fin 1) ∈ (List.finRange 1).filter (fun a => a ∉ ([0] : List (Fin 1))) by decide)
  rw [dif_neg hm]

/-- Where update `e` of a scalar scatter goes: element `land` of its index word. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (land N (idx (ix2 e (0 : Fin 1)))).map (fun n => ix1 n) := by
  have h00 := vecScatter_start wf idx e
  have h10 := vecScatter_window wf e
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 1, 0 ≤ (vecScatter N E wf).start (ix1 e) idx a + ((vecScatter N E wf).window (ix1 e) a : Int)
        ∧ (vecScatter N E wf).start (ix1 e) idx a + ((vecScatter N E wf).window (ix1 e) a : Int)
          < ((⟨1, ![N]⟩ : Shape).size a : Int) := by
      intro a
      obtain rfl : a = 0 := Subsingleton.elim _ _
      show 0 ≤ (vecScatter N E wf).start (ix1 e) idx (0 : Fin 1) + ((vecScatter N E wf).window (ix1 e) (0 : Fin 1) : Int)
        ∧ (vecScatter N E wf).start (ix1 e) idx (0 : Fin 1) + ((vecScatter N E wf).window (ix1 e) (0 : Fin 1) : Int) < (N : Int)
      rw [h00, h10]; simpa using hc
    rw [dif_pos hall]
    congr 1
    funext a
    refine Fin.ext ?_
    obtain rfl : a = 0 := Subsingleton.elim _ _
    show ((vecScatter N E wf).start (ix1 e) idx (0 : Fin 1) + ((vecScatter N E wf).window (ix1 e) (0 : Fin 1) : Int)).toNat
      = (idx (ix2 e (0 : Fin 1))).toInt.toNat
    rw [h00, h10]; simp
  · rw [dif_neg hc, Option.map_none]
    unfold ScatterDims.resultIdx?
    rw [dif_neg]
    intro hall
    have := hall (0 : Fin 1)
    rw [h00, h10] at this
    exact hc (by simpa using this)

/-- Update `j` of a scalar scatter goes to element `n` exactly when its index word lands on `n`. -/
theorem vecScatter_resultIdx_eq_some_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (n : Fin N) :
    (vecScatter N E wf).resultIdx? j idx = some (ix1 n) ↔ land N (idx (ix2 (j 0) (0 : Fin 1))) = some n := by
  obtain ⟨e, rfl⟩ : ∃ e : Fin E, j = ix1 e := ⟨j 0, eq_ix1 j⟩
  rw [vecScatter_resultIdx wf idx e]
  show Option.map (fun m => ix1 m) (land N (idx (ix2 e (0 : Fin 1)))) = some (ix1 n)
    ↔ land N (idx (ix2 e (0 : Fin 1))) = some n
  constructor
  · intro hh
    obtain ⟨m, hm, hmn⟩ := Option.map_eq_some_iff.mp hh
    have h0 : m = n := congrFun hmn (0 : Fin 1)
    rw [hm, h0]
  · intro hl
    rw [hl]
    rfl

/-- Element `n` of a scalar scatter-add: the operand's element plus the sum, over the updates `e` whose index word
    lands on `n`, of update `e`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = (x (ix1 n) + ∑ e ∈ Finset.univ.filter (fun e : Fin E => land N (idx (ix2 e (0 : Fin 1))) = some n),
          upd (ix1 e) : EReal) := by
  show (x (ix1 n) + ∑ j ∈ Finset.univ.filter
      (fun j => (vecScatter N E wf).resultIdx? j idx = some (ix1 n)), upd j : EReal) = _
  congr 1
  refine Finset.sum_nbij' (fun j => j 0) (fun e => ix1 e) ?_ ?_ ?_ ?_ ?_
  · intro j hj
    exact Finset.mem_filter.mpr ⟨Finset.mem_univ _,
      (vecScatter_resultIdx_eq_some_iff wf idx j n).mp (Finset.mem_filter.mp hj).2⟩
  · intro e he
    have he' : land N (idx (ix2 e (0 : Fin 1))) = some n := (Finset.mem_filter.mp he).2
    exact Finset.mem_filter.mpr ⟨Finset.mem_univ _,
      (vecScatter_resultIdx_eq_some_iff wf idx (ix1 e) n).mpr he'⟩
  · intro j _
    exact (eq_ix1 j).symm
  · intro e _
    rfl
  · intro j _
    exact congrArg upd (eq_ix1 j)

/-! ## The gathers at an element (any element type) -/

/-- Axis 0 of the operand index of a row gather: the row the index word picks. -/
theorem rowGather_operandIdx_zero {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (0 : Fin 2)).val = (pick N hN (idx (ix2 e (0 : Fin 1)))).val := by
  show (rowGather N E C wf).start (ix2 e h) idx (0 : Fin 2) + (rowGather N E C wf).batchCoord (ix2 e h) (0 : Fin 2)
    + (rowGather N E C wf).offCoord (ix2 e h) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx (ix2 e h) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Axis 1 of the operand index of a row gather: the result's column. -/
theorem rowGather_operandIdx_one {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (1 : Fin 2)).val = h.val := by
  show (rowGather N E C wf).start (ix2 e h) idx (1 : Fin 2) + (rowGather N E C wf).batchCoord (ix2 e h) (1 : Fin 2)
    + (rowGather N E C wf).offCoord (ix2 e h) (1 : Fin 2) = _
  rw [GatherDims.batchCoord_eq_zero _ _ _ List.not_mem_nil]
  have hs : (rowGather N E C wf).start (ix2 e h) idx (1 : Fin 2) = 0 := by
    unfold GatherDims.start
    rw [dif_neg (show ¬ (1 : Fin 2) ∈ ([0] : List (Fin 2)) by decide)]
  rw [hs]
  simp only [Nat.add_zero, Nat.zero_add]
  unfold GatherDims.offCoord
  rw [dif_pos ((GatherDims.mem_sKept _ _).mpr ⟨show ¬ (1 : Fin 2) ∈ ([0] : List (Fin 2)) by decide, List.not_mem_nil⟩)]
  rfl

/-- Row `e`, column `h` of a row gather: the operand at the row the index word picks, column `h`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (h : Fin C) :
    Host.gather (rowGather N E C wf) x idx (ix2 e h) = x (ix2 (pick N hN (idx (ix2 e (0 : Fin 1)))) h) := by
  unfold Host.gather
  congr 1
  funext a
  refine Fin.ext ?_
  match a with
  | ⟨0, _⟩ => exact rowGather_operandIdx_zero hN wf idx e h
  | ⟨1, _⟩ => exact rowGather_operandIdx_one wf idx e h

/-- Element `e` of a vector gather: the operand at the element the index word picks. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (pick N hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowIndex

end
-- ==== Proof.Spec.lean ====
/-
  The mathematics both programs compute, stated once over the extended reals, index by index, with no program in sight.

  A graph layer on 20000 nodes with 256 features and 240000 directed edges (row e, col e):
  * every node's feature row is normalised (mean and variance over its 256 entries, an rsqrt, an affine map);
  * three linear maps of the normalised rows give the query, key and value rows (8 heads of 32 columns each);
  * every edge weighs the normalised row of its col node by a two-layer perceptron of its radial features times its
    cutoff, and adds gate times an attention message: per head the dot product of the row node's query with the col
    node's key over the head's 32 columns, divided by a constant and times the cutoff; a softmax over the 8 heads;
    each head's weight times the col node's value on that head's columns;
  * the edge messages are summed into their row nodes, mapped linearly, and added to the input.

  A matrix is a function of its index; a gathered matrix reads the row an index word picks. The edge and output stages are
  stated for any number of rows: each row's result depends on that row alone, so a block of rows and the whole array are
  two instances.
-/
import Idealize.ShloMosaic.PureOps.Ideal
import Idealize.ShloMosaic.Lib.ValueIdx
import proofs.«175260_j20066087207295_2_alg».proof.Proof.LibRowIndex

noncomputable section

namespace Cert.Hyb

open Idealize.ShloMosaic Idealize.ShloMosaic.ValueIdx Cert.Lib.RowIndex

/-- An a-by-b matrix of extended reals, as a function of its index. -/
abbrev Mat (a b : Nat) : Type := (⟨2, ![a, b]⟩ : Shape).Idx → EReal

/-- A column of 32-bit index words, one per edge. -/
abbrev IdxCol : Type := IVec (⟨2, ![240000, 1]⟩ : Shape) 32

/-- The extended real an f32 word denotes. -/
abbrev lit (w : BitVec 32) : EReal := Ideal.ofBits .f32 w

/-- The head a feature column belongs to: heads are consecutive runs of 32 columns. -/
def hd (j : Fin 256) : Fin 8 := ⟨j.val / 32, by have := j.isLt; omega⟩

/-- Column d of head h. -/
def hcol (h : Fin 8) (d : Fin 32) : Fin 256 := ⟨32 * h.val + d.val, by have := h.isLt; have := d.isLt; omega⟩

theorem hd_hcol (h : Fin 8) (d : Fin 32) : hd (hcol h d) = h := by
  refine Fin.ext ?_; show (32 * h.val + d.val) / 32 = h.val; have := d.isLt; omega

/-! ## Node stage -/

/-- The mean of row i: the sum of its 256 entries from zero, divided by 256. -/
def rowMean {n : Nat} (A : Mat n 256) (i : Fin n) : EReal :=
  Ideal.div (lit 0x00000000#32 + ∑ k : Fin 256, A (ix2 i k)) (lit 0x43800000#32)

/-- Row i centred at its mean. -/
def centred {n : Nat} (A : Mat n 256) (i : Fin n) (k : Fin 256) : EReal := A (ix2 i k) - rowMean A i

/-- The variance of row i: the mean of the squares of the centred entries. -/
def rowVar {n : Nat} (A : Mat n 256) (i : Fin n) : EReal :=
  Ideal.div (lit 0x00000000#32 + ∑ k : Fin 256, centred A i k * centred A i k) (lit 0x43800000#32)

/-- The normalised rows: centred, times rsqrt (variance + eps), times the weight, plus the bias. -/
def layerNorm {n : Nat} (x : Mat n 256) (lw lb : Fin 256 → EReal) : Mat n 256 := fun j =>
  centred x (j 0) (j 1) * Ideal.rsqrt (rowVar x (j 0) + lit 0x3727C5AC#32) * lw (j 1) + lb (j 1)

/-- A linear map of the rows: (A W)(i, c) + b c. -/
def lin {m k n : Nat} (A : Mat m k) (W : Mat k n) (b : Fin n → EReal) : Mat m n := fun j =>
  (∑ q : Fin k, A (ix2 (j 0) q) * W (ix2 q (j 1))) + b (j 1)

/-- Slice s of a 768-column weight block's columns: columns 256 s … 256 s + 255. -/
def colSlice (W : Mat 256 768) (s : Fin 3) : Mat 256 256 := fun j =>
  W (ix2 (j 0) (⟨256 * s.val + (j 1).val, by have hs := s.isLt; have hj : (j 1).val < 256 := (j 1).isLt; omega⟩ : Fin 768))

/-- The matching slice of a 768-entry bias row. -/
def rowSlice (b : Fin 768 → EReal) (s : Fin 3) : Fin 256 → EReal := fun k =>
  b ⟨256 * s.val + k.val, by have := s.isLt; have := k.isLt; omega⟩

/-! ## Edge stage -/

/-- x times its logistic. -/
def silu (x : EReal) : EReal := x * Ideal.logistic x

/-- The per-edge weights: a two-layer perceptron of the radial features, times the edge's cutoff. -/
def wphys {n : Nat} (rbf : Mat n 64) (w1 : Mat 64 256) (b1 : Fin 256 → EReal) (w2 : Mat 256 256) (b2 : Fin 256 → EReal)
    (cut : Fin n → EReal) : Mat n 256 := fun j =>
  lin (fun i => silu (lin rbf w1 b1 i)) w2 b2 j * cut (j 0)

/-- Head h's score on edge e: the dot product of the query and key rows over the head's 32 columns, from zero, divided by
    the constant the word 0x40B504F3 denotes, times the edge's cutoff. -/
def scores {n : Nat} (q k : Mat n 256) (cut : Fin n → EReal) : Mat n 8 := fun j =>
  Ideal.div (lit 0x00000000#32 + ∑ d : Fin 32, q (ix2 (j 0) (hcol (j 1) d)) * k (ix2 (j 0) (hcol (j 1) d))) (lit 0x40B504F3#32)
    * cut (j 0)

/-- The largest of an edge's 8 scores, from minus infinity. -/
def smax {n : Nat} (s : Mat n 8) (e : Fin n) : EReal :=
  Finset.univ.fold max (lit 0xFF800000#32) (fun h : Fin 8 => s (ix2 e h))

/-- exp of a score less the edge's largest. -/
def sexp {n : Nat} (s : Mat n 8) (e : Fin n) (h : Fin 8) : EReal := Ideal.exp (s (ix2 e h) - smax s e)

/-- The softmax over the 8 heads. -/
def attn {n : Nat} (s : Mat n 8) (e : Fin n) (h : Fin 8) : EReal :=
  Ideal.div (sexp s e h) (lit 0x00000000#32 + ∑ h' : Fin 8, sexp s e h')

/-- An edge's message: the weighted normalised row plus gate times the attention-weighted value row. -/
def combined {n : Nat} (xnc vc wp : Mat n 256) (s : Mat n 8) (g : EReal) : Mat n 256 := fun j =>
  xnc j * wp j + g * (attn s (j 0) (hd (j 1)) * vc j)

/-- The rows of A the index words pick, one per edge. -/
def gath (A : Mat 20000 256) (idx : IdxCol) : Mat 240000 256 := fun j =>
  A (ix2 (pick 20000 (by decide) (idx (ix2 (j 0) (0 : Fin 1)))) (j 1))

/-! ## Output stage -/

/-- The input plus the linearly mapped aggregate. -/
def outF {n : Nat} (x aggr : Mat n 256) (wo : Mat 256 256) (bo : Fin 256 → EReal) : Mat n 256 := fun j =>
  x j + lin aggr wo bo j

/-! ## The whole layer -/

/-- Every edge's message from the arguments, given the two columns of index words. -/
def messages (x : Mat 20000 256) (rowI colI : IdxCol) (rbf : Mat 240000 64) (cut : Fin 240000 → EReal)
    (w1 : Mat 64 256) (b1 : Fin 256 → EReal) (w2 : Mat 256 256) (b2 lw lb : Fin 256 → EReal)
    (wq : Mat 256 256) (bq : Fin 256 → EReal) (wk : Mat 256 256) (bk : Fin 256 → EReal)
    (wv : Mat 256 256) (bv : Fin 256 → EReal) (g : EReal) : Mat 240000 256 :=
  let xn := layerNorm x lw lb
  combined (gath xn colI) (gath (lin xn wv bv) colI) (wphys rbf w1 b1 w2 b2 cut)
    (scores (gath (lin xn wq bq) rowI) (gath (lin xn wk bk) colI) cut) g

end Cert.Hyb

end
-- ==== Proof.Claims.lean ====
/-
  The five claims. Each program's frame: the run of @main over its segments leaves every unscoped buffer at the last
  boundary's contents, and every argument array is there what it was at launch. The idealization's one rewrite: the
  named constant is, at the ideal instance, the rational its table gives it, and multiplying by that rational is dividing
  by what the reference's divisor word denotes. The algebraic claim: both programs run, the kernel's result array ends
  at the last boundary's contents and the reference's at its composed term of the arguments; given that both are one
  function of the argument arrays, the results are equal.
-/
import proofs.«175260_j20066087207295_2_alg».proof.Defs
import proofs.«175260_j20066087207295_2_alg».proof.Proof.RunI
import proofs.«175260_j20066087207295_2_alg».proof.Proof.Body0I
import proofs.«175260_j20066087207295_2_alg».proof.Proof.Body1I
import proofs.«175260_j20066087207295_2_alg».proof.Proof.Body2I
import proofs.«175260_j20066087207295_2_alg».proof.Proof.RunK
import proofs.«175260_j20066087207295_2_alg».proof.Proof.Body0K
import proofs.«175260_j20066087207295_2_alg».proof.Proof.Body1K
import proofs.«175260_j20066087207295_2_alg».proof.Proof.Body2K
import proofs.«175260_j20066087207295_2_alg».proof.Proof.Gen.ReferenceIdeal.Read
import proofs.«175260_j20066087207295_2_alg».proof.Proof.Gen.Pre_finite_inputs
import proofs.«175260_j20066087207295_2_alg».proof.Proof.Consts
import proofs.«175260_j20066087207295_2_alg».proof.Proof.Spec

set_option maxRecDepth 16384

noncomputable section

namespace Cert.Proof.Claims

open Idealize.ShloMosaic Idealize.ShloMosaic.TcCoe Idealize.SL.Sem
open Idealize.ShloMosaic.Pipeline (BodyObligation)

/-! ## The arguments, read off a final memory -/

/-- In a memory holding every unscoped buffer of the idealized kernel at the last boundary's contents, every argument array holds its launch contents. -/
theorem args_ki (m : (ℓ : Loc Cert.KernelIdeal.nD Cert.KernelIdeal.τ Cert.KernelIdeal.sig) → Buf (Elt Ideal) ℓ) (s : MemSt Cert.KernelIdeal.nD Cert.KernelIdeal.τ Cert.KernelIdeal.sig (Elt Ideal))
    (h : ∀ c : Dev Cert.KernelIdeal.nD, ∀ b ∈ Pipeline.ucRefs Cert.KernelIdeal.τ Cert.KernelIdeal.sig, s.mem (((c : Thread Cert.KernelIdeal.nD Cert.KernelIdeal.τ)).1, b) = Cert.KernelIdeal.Hand.W6 m c b) (c : Dev Cert.KernelIdeal.nD) :
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ s.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ s.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ s.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ s.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ s.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ s.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ s.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ s.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ s.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ s.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ s.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ s.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ s.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ s.mem ((c.tc : Thread Cert.KernelIdeal.nD Cert.KernelIdeal.τ).loc Cert.KernelIdeal.main_arg18) = m ((c.tc : Thread Cert.KernelIdeal.nD Cert.KernelIdeal.τ).loc Cert.KernelIdeal.main_arg18) :=
  ⟨(h c _ (Cert.KernelIdeal.Hand.mem_uc Cert.KernelIdeal.main_arg0 (by decide))).trans (Cert.KernelIdeal.Hand.W6_main_arg0 m c),
    (h c _ (Cert.KernelIdeal.Hand.mem_uc Cert.KernelIdeal.main_arg1 (by decide))).trans (Cert.KernelIdeal.Hand.W6_main_arg1 m c),
    (h c _ (Cert.KernelIdeal.Hand.mem_uc Cert.KernelIdeal.main_arg2 (by decide))).trans (Cert.KernelIdeal.Hand.W6_main_arg2 m c),
    (h c _ (Cert.KernelIdeal.Hand.mem_uc Cert.KernelIdeal.main_arg3 (by decide))).trans (Cert.KernelIdeal.Hand.W6_main_arg3 m c),
    (h c _ (Cert.KernelIdeal.Hand.mem_uc Cert.KernelIdeal.main_arg4 (by decide))).trans (Cert.KernelIdeal.Hand.W6_main_arg4 m c),
    (h c _ (Cert.KernelIdeal.Hand.mem_uc Cert.KernelIdeal.main_arg5 (by decide))).trans (Cert.KernelIdeal.Hand.W6_main_arg5 m c),
    (h c _ (Cert.KernelIdeal.Hand.mem_uc Cert.KernelIdeal.main_arg6 (by decide))).trans (Cert.KernelIdeal.Hand.W6_main_arg6 m c),
    (h c _ (Cert.KernelIdeal.Hand.mem_uc Cert.KernelIdeal.main_arg7 (by decide))).trans (Cert.KernelIdeal.Hand.W6_main_arg7 m c),
    (h c _ (Cert.KernelIdeal.Hand.mem_uc Cert.KernelIdeal.main_arg8 (by decide))).trans (Cert.KernelIdeal.Hand.W6_main_arg8 m c),
    (h c _ (Cert.KernelIdeal.Hand.mem_uc Cert.KernelIdeal.main_arg9 (by decide))).trans (Cert.KernelIdeal.Hand.W6_main_arg9 m c),
    (h c _ (Cert.KernelIdeal.Hand.mem_uc Cert.KernelIdeal.main_arg10 (by decide))).trans (Cert.KernelIdeal.Hand.W6_main_arg10 m c),
    (h c _ (Cert.KernelIdeal.Hand.mem_uc Cert.KernelIdeal.main_arg11 (by decide))).trans (Cert.KernelIdeal.Hand.W6_main_arg11 m c),
    (h c _ (Cert.KernelIdeal.Hand.mem_uc Cert.KernelIdeal.main_arg12 (by decide))).trans (Cert.KernelIdeal.Hand.W6_main_arg12 m c),
    (h c _ (Cert.KernelIdeal.Hand.mem_uc Cert.KernelIdeal.main_arg13 (by decide))).trans (Cert.KernelIdeal.Hand.W6_main_arg13 m c),
    (h c _ (Cert.KernelIdeal.Hand.mem_uc Cert.KernelIdeal.main_arg14 (by decide))).trans (Cert.KernelIdeal.Hand.W6_main_arg14 m c),
    (h c _ (Cert.KernelIdeal.Hand.mem_uc Cert.KernelIdeal.main_arg15 (by decide))).trans (Cert.KernelIdeal.Hand.W6_main_arg15 m c),
    (h c _ (Cert.KernelIdeal.Hand.mem_uc Cert.KernelIdeal.main_arg16 (by decide))).trans (Cert.KernelIdeal.Hand.W6_main_arg16 m c),
    (h c _ (Cert.KernelIdeal.Hand.mem_uc Cert.KernelIdeal.main_arg17 (by decide))).trans (Cert.KernelIdeal.Hand.W6_main_arg17 m c),
    (h c _ (Cert.KernelIdeal.Hand.mem_uc Cert.KernelIdeal.main_arg18 (by decide))).trans (Cert.KernelIdeal.Hand.W6_main_arg18 m c)⟩

/-- The same for the kernel as printed, at the bit-exact instance. -/
theorem args_k (m : (ℓ : Loc Cert.Kernel.nD Cert.Kernel.τ Cert.Kernel.sig) → Buf (Elt Bits) ℓ) (s : MemSt Cert.Kernel.nD Cert.Kernel.τ Cert.Kernel.sig (Elt Bits))
    (h : ∀ c : Dev Cert.Kernel.nD, ∀ b ∈ Pipeline.ucRefs Cert.Kernel.τ Cert.Kernel.sig, s.mem (((c : Thread Cert.Kernel.nD Cert.Kernel.τ)).1, b) = Cert.Kernel.Hand.W6 m c b) (c : Dev Cert.Kernel.nD) :
    s.mem ((c.tc : Thread Cert.Kernel.nD Cert.Kernel.τ).loc Cert.Kernel.main_arg0) = m ((c.tc : Thread Cert.Kernel.nD Cert.Kernel.τ).loc Cert.Kernel.main_arg0)
      ∧ s.mem ((c.tc : Thread Cert.Kernel.nD Cert.Kernel.τ).loc Cert.Kernel.main_arg1) = m ((c.tc : Thread Cert.Kernel.nD Cert.Kernel.τ).loc Cert.Kernel.main_arg1)
      ∧ s.mem ((c.tc : Thread Cert.Kernel.nD Cert.Kernel.τ).loc Cert.Kernel.main_arg2) = m ((c.tc : Thread Cert.Kernel.nD Cert.Kernel.τ).loc Cert.Kernel.main_arg2)
      ∧ s.mem ((c.tc : Thread Cert.Kernel.nD Cert.Kernel.τ).loc Cert.Kernel.main_arg3) = m ((c.tc : Thread Cert.Kernel.nD Cert.Kernel.τ).loc Cert.Kernel.main_arg3)
      ∧ s.mem ((c.tc : Thread Cert.Kernel.nD Cert.Kernel.τ).loc Cert.Kernel.main_arg4) = m ((c.tc : Thread Cert.Kernel.nD Cert.Kernel.τ).loc Cert.Kernel.main_arg4)
      ∧ s.mem ((c.tc : Thread Cert.Kernel.nD Cert.Kernel.τ).loc Cert.Kernel.main_arg5) = m ((c.tc : Thread Cert.Kernel.nD Cert.Kernel.τ).loc Cert.Kernel.main_arg5)
      ∧ s.mem ((c.tc : Thread Cert.Kernel.nD Cert.Kernel.τ).loc Cert.Kernel.main_arg6) = m ((c.tc : Thread Cert.Kernel.nD Cert.Kernel.τ).loc Cert.Kernel.main_arg6)
      ∧ s.mem ((c.tc : Thread Cert.Kernel.nD Cert.Kernel.τ).loc Cert.Kernel.main_arg7) = m ((c.tc : Thread Cert.Kernel.nD Cert.Kernel.τ).loc Cert.Kernel.main_arg7)
      ∧ s.mem ((c.tc : Thread Cert.Kernel.nD Cert.Kernel.τ).loc Cert.Kernel.main_arg8) = m ((c.tc : Thread Cert.Kernel.nD Cert.Kernel.τ).loc Cert.Kernel.main_arg8)
      ∧ s.mem ((c.tc : Thread Cert.Kernel.nD Cert.Kernel.τ).loc Cert.Kernel.main_arg9) = m ((c.tc : Thread Cert.Kernel.nD Cert.Kernel.τ).loc Cert.Kernel.main_arg9)
      ∧ s.mem ((c.tc : Thread Cert.Kernel.nD Cert.Kernel.τ).loc Cert.Kernel.main_arg10) = m ((c.tc : Thread Cert.Kernel.nD Cert.Kernel.τ).loc Cert.Kernel.main_arg10)
      ∧ s.mem ((c.tc : Thread Cert.Kernel.nD Cert.Kernel.τ).loc Cert.Kernel.main_arg11) = m ((c.tc : Thread Cert.Kernel.nD Cert.Kernel.τ).loc Cert.Kernel.main_arg11)
      ∧ s.mem ((c.tc : Thread Cert.Kernel.nD Cert.Kernel.τ).loc Cert.Kernel.main_arg12) = m ((c.tc : Thread Cert.Kernel.nD Cert.Kernel.τ).loc Cert.Kernel.main_arg12)
      ∧ s.mem ((c.tc : Thread Cert.Kernel.nD Cert.Kernel.τ).loc Cert.Kernel.main_arg13) = m ((c.tc : Thread Cert.Kernel.nD Cert.Kernel.τ).loc Cert.Kernel.main_arg13)
      ∧ s.mem ((c.tc : Thread Cert.Kernel.nD Cert.Kernel.τ).loc Cert.Kernel.main_arg14) = m ((c.tc : Thread Cert.Kernel.nD Cert.Kernel.τ).loc Cert.Kernel.main_arg14)
      ∧ s.mem ((c.tc : Thread Cert.Kernel.nD Cert.Kernel.τ).loc Cert.Kernel.main_arg15) = m ((c.tc : Thread Cert.Kernel.nD Cert.Kernel.τ).loc Cert.Kernel.main_arg15)
      ∧ s.mem ((c.tc : Thread Cert.Kernel.nD Cert.Kernel.τ).loc Cert.Kernel.main_arg16) = m ((c.tc : Thread Cert.Kernel.nD Cert.Kernel.τ).loc Cert.Kernel.main_arg16)
      ∧ s.mem ((c.tc : Thread Cert.Kernel.nD Cert.Kernel.τ).loc Cert.Kernel.main_arg17) = m ((c.tc : Thread Cert.Kernel.nD Cert.Kernel.τ).loc Cert.Kernel.main_arg17)
      ∧ s.mem ((c.tc : Thread Cert.Kernel.nD Cert.Kernel.τ).loc Cert.Kernel.main_arg18) = m ((c.tc : Thread Cert.Kernel.nD Cert.Kernel.τ).loc Cert.Kernel.main_arg18) :=
  ⟨(h c _ (Cert.Kernel.Hand.mem_uc Cert.Kernel.main_arg0 (by decide))).trans (Cert.Kernel.Hand.W6_main_arg0 m c),
    (h c _ (Cert.Kernel.Hand.mem_uc Cert.Kernel.main_arg1 (by decide))).trans (Cert.Kernel.Hand.W6_main_arg1 m c),
    (h c _ (Cert.Kernel.Hand.mem_uc Cert.Kernel.main_arg2 (by decide))).trans (Cert.Kernel.Hand.W6_main_arg2 m c),
    (h c _ (Cert.Kernel.Hand.mem_uc Cert.Kernel.main_arg3 (by decide))).trans (Cert.Kernel.Hand.W6_main_arg3 m c),
    (h c _ (Cert.Kernel.Hand.mem_uc Cert.Kernel.main_arg4 (by decide))).trans (Cert.Kernel.Hand.W6_main_arg4 m c),
    (h c _ (Cert.Kernel.Hand.mem_uc Cert.Kernel.main_arg5 (by decide))).trans (Cert.Kernel.Hand.W6_main_arg5 m c),
    (h c _ (Cert.Kernel.Hand.mem_uc Cert.Kernel.main_arg6 (by decide))).trans (Cert.Kernel.Hand.W6_main_arg6 m c),
    (h c _ (Cert.Kernel.Hand.mem_uc Cert.Kernel.main_arg7 (by decide))).trans (Cert.Kernel.Hand.W6_main_arg7 m c),
    (h c _ (Cert.Kernel.Hand.mem_uc Cert.Kernel.main_arg8 (by decide))).trans (Cert.Kernel.Hand.W6_main_arg8 m c),
    (h c _ (Cert.Kernel.Hand.mem_uc Cert.Kernel.main_arg9 (by decide))).trans (Cert.Kernel.Hand.W6_main_arg9 m c),
    (h c _ (Cert.Kernel.Hand.mem_uc Cert.Kernel.main_arg10 (by decide))).trans (Cert.Kernel.Hand.W6_main_arg10 m c),
    (h c _ (Cert.Kernel.Hand.mem_uc Cert.Kernel.main_arg11 (by decide))).trans (Cert.Kernel.Hand.W6_main_arg11 m c),
    (h c _ (Cert.Kernel.Hand.mem_uc Cert.Kernel.main_arg12 (by decide))).trans (Cert.Kernel.Hand.W6_main_arg12 m c),
    (h c _ (Cert.Kernel.Hand.mem_uc Cert.Kernel.main_arg13 (by decide))).trans (Cert.Kernel.Hand.W6_main_arg13 m c),
    (h c _ (Cert.Kernel.Hand.mem_uc Cert.Kernel.main_arg14 (by decide))).trans (Cert.Kernel.Hand.W6_main_arg14 m c),
    (h c _ (Cert.Kernel.Hand.mem_uc Cert.Kernel.main_arg15 (by decide))).trans (Cert.Kernel.Hand.W6_main_arg15 m c),
    (h c _ (Cert.Kernel.Hand.mem_uc Cert.Kernel.main_arg16 (by decide))).trans (Cert.Kernel.Hand.W6_main_arg16 m c),
    (h c _ (Cert.Kernel.Hand.mem_uc Cert.Kernel.main_arg17 (by decide))).trans (Cert.Kernel.Hand.W6_main_arg17 m c),
    (h c _ (Cert.Kernel.Hand.mem_uc Cert.Kernel.main_arg18 (by decide))).trans (Cert.Kernel.Hand.W6_main_arg18 m c)⟩

/-! ## The frames -/

/-- The idealized kernel runs and its arguments end unchanged: the run over the six segments, the three bodies'
    obligations discharged, each argument read back through the fold. -/
theorem frame_ki : Cert.frame_KernelIdeal := fun m ρ _ =>
  (θ_run Cert.KernelIdeal.defs _ _).mono (fun r h c => args_ki m r.2 h c)
    (Cert.KernelIdeal.Hand.run (F := Ideal) Cert.KernelIdeal.Hand.body_obligation0 Cert.KernelIdeal.Hand.body_obligation1
      Cert.KernelIdeal.Hand.body_obligation2 m ρ)

/-- The kernel as printed runs and its arguments end unchanged: the same run at the bit-exact instance. -/
theorem frame_k : Cert.frame_Kernel := fun m ρ _ =>
  (θ_run Cert.Kernel.defs _ _).mono (fun r h c => args_k m r.2 h c)
    (Cert.Kernel.Hand.run (F := Bits) Cert.Kernel.Hand.body_obligation0 Cert.Kernel.Hand.body_obligation1
      Cert.Kernel.Hand.body_obligation2 m ρ)

/-- The reference runs and its arguments end unchanged: its run as one stretch of host operations. -/
theorem frame_ri : Cert.frame_ReferenceIdeal := fun m ρ _ =>
  (θ_run Cert.ReferenceIdeal.defs _ _).mono (fun _ h c => (h c).2) (Cert.ReferenceIdeal.Value.run (F := Ideal) m ρ)

/-! ## The idealization's one rewrite -/

/-- The table gives the name the rational 2097152 / 11863283, and the printed constant is that value at the ideal instance. -/
theorem preserves : Cert.preserves_Kernel_KernelIdeal :=
  IdealRules.named_const.statement Cert.KernelIdeal.κ "inv_sqrt_hd" .f32 0x3E3504F3#32 ((2097152 / 11863283 : ℝ) : EReal) rfl

/-- The named constant denotes 2097152 / 11863283 at the ideal instance. -/
theorem inv_sqrt_hd : Named.named (F := Ideal) Cert.KernelIdeal.κ "inv_sqrt_hd" (φ := .f32) 0x3E3504F3#32 = ((2097152 / 11863283 : ℝ) : EReal) :=
  IdealRules.named_const.ideal_named_scalar _ _ _ _ rfl

/-- The kernel's product with the named constant is the reference's quotient by its divisor word, on every extended real. -/
theorem hscale : ∀ x : EReal, x * Named.named (F := Ideal) Cert.KernelIdeal.κ "inv_sqrt_hd" (φ := .f32) 0x3E3504F3#32 = Ideal.div x (Cert.Hyb.lit 0x40B504F3#32) :=
  fun x => by rw [inv_sqrt_hd]; exact Cert.Hyb.scale_eq x

/-! ## The algebraic claim, from the two value results -/

/-- The two launch memories agree on every argument array, on core c. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)

section Algebraic

-- what the kernel's result array holds at the last boundary, and the reference's composed term, each as a function of its
-- launch memory; that each is (hK, hR); and that on agreeing arguments the two are one value (hG)
variable (GK : (m : (ℓ : Loc Cert.KernelIdeal.nD Cert.KernelIdeal.τ Cert.KernelIdeal.sig) → Buf (Elt Ideal) ℓ) → (c : Dev Cert.KernelIdeal.nD) →
    Buf (Elt Ideal) ((c.tc : Thread Cert.KernelIdeal.nD Cert.KernelIdeal.τ).loc Cert.KernelIdeal.main_v57))
  (GR : (m' : (ℓ : Loc Cert.ReferenceIdeal.nD Cert.ReferenceIdeal.τ Cert.ReferenceIdeal.sig) → Buf (Elt Ideal) ℓ) → (c : Dev Cert.ReferenceIdeal.nD) →
    Buf (Elt Ideal) ((c.tc : Thread Cert.ReferenceIdeal.nD Cert.ReferenceIdeal.τ).loc Cert.ReferenceIdeal.main_v117))
  (hK : ∀ (m : (ℓ : Loc Cert.KernelIdeal.nD Cert.KernelIdeal.τ Cert.KernelIdeal.sig) → Buf (Elt Ideal) ℓ) (c : Dev Cert.KernelIdeal.nD),
    Cert.KernelIdeal.Hand.W6 m c (Proc.devRef .tc Cert.KernelIdeal.main_v57) = GK m c)
  (hR : ∀ (m' : (ℓ : Loc Cert.ReferenceIdeal.nD Cert.ReferenceIdeal.τ Cert.ReferenceIdeal.sig) → Buf (Elt Ideal) ℓ) (c : Dev Cert.ReferenceIdeal.nD),
    Cert.ReferenceIdeal.Value.res_main_v117 m' c = GR m' c)
  (hG : ∀ (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD),
    Agree m m' c → GR m' c = GK m c)
include hK hR hG

/-- At the ideal instance, from memories agreeing on the arguments, both programs run, the kernel's result array and the
    reference's end at one value, and the arguments end unchanged on both sides. -/
theorem algebraic : Cert.algebraic_KernelIdeal_ReferenceIdeal := by
  intro m ρ m' ρ' _ hagree
  refine ⟨fun c => GK m c, ?_, ?_⟩
  · exact (θ_run Cert.KernelIdeal.defs _ _).mono
      (fun r h c => ⟨(h c _ (Cert.KernelIdeal.Hand.mem_uc Cert.KernelIdeal.main_v57 (by decide))).trans (hK m c), args_ki m r.2 h c⟩)
      (Cert.KernelIdeal.Hand.run (F := Ideal) Cert.KernelIdeal.Hand.body_obligation0 Cert.KernelIdeal.Hand.body_obligation1
        Cert.KernelIdeal.Hand.body_obligation2 m ρ)
  · exact (θ_run Cert.ReferenceIdeal.defs _ _).mono
      (fun _ h c => ⟨(h c).1.trans ((hR m' c).trans (hG m m' c (hagree c))), (h c).2⟩)
      (Cert.ReferenceIdeal.Value.run (F := Ideal) m' ρ')

end Algebraic

end Cert.Proof.Claims

end
-- ==== Proof.HostB.lean ====
/-
  What the second stretch of host operations leaves in the buffers the edge stage reads, and the buffers that are carried
  unchanged to the stage that reads them, at the exact instance.

  The two index columns are computed from the 2-by-240000 edge-index argument: a row slice, flattened to a vector; every
  word below zero raised by the number of nodes; the vector laid out as a 240000-by-1 column. Four row gathers read the
  node stage's four result matrices at these columns: the normalised, key and value rows at the col index, the query rows
  at the row index; a gathered matrix holds, in row e, the row of the operand that edge e's index word picks. The cutoff
  vector is recast as a column. Every other input of the edge and output stages is an argument or a result of the first
  host stretch that no later operation writes and no earlier stage has as a result.
-/
import proofs.«175260_j20066087207295_2_alg».proof.Proof.RunI
import proofs.«175260_j20066087207295_2_alg».proof.Proof.Gen.KernelIdeal.Regions
import proofs.«175260_j20066087207295_2_alg».proof.Proof.Spec
import proofs.«175260_j20066087207295_2_alg».proof.Proof.LibRowIndex
import Idealize.ShloMosaic.Lib.Pipeline.Value
import Idealize.ShloMosaic.Lib.ValueLayout

set_option maxRecDepth 16384

noncomputable section

namespace Cert.KernelIdeal.Val.H

open Cert.KernelIdeal Cert.KernelIdeal.Gen Cert.KernelIdeal.Hand Cert.Hyb Cert.Lib.RowIndex
open Idealize.ShloMosaic Idealize.ShloMosaic.ValueIdx Idealize.ShloMosaic.TcCoe
open Idealize.SL Idealize.SL.Sem

variable (m : (ℓ : Loc nD τ sig) → Buf (Elt Ideal) ℓ) (c : Dev nD)

/-! ## The index columns -/

/-- The row-index column as the program computes it from the edge-index argument: row 0 of the 2-by-240000 array flattened to
    a vector, each word below zero raised by the number of nodes, then laid out as a 240000-by-1 column. -/
def kRowI (a1 : IVec S2x240000 32) : IdxCol :=
  broadcastInDim S240000x1 ![0] bcast_S240000_S240000x1_0
    (select
      (cmpi .slt (shapeCast S240000 (extractStridedSlice S1x240000 ![0, 0] a1 slices_S2x240000_S1x240000_0_0) shapeCasts_S1x240000_S240000)
        (broadcastInDim S240000 ![] bcast_S_S240000 (constantI S_ 32 0#32)))
      (addi (shapeCast S240000 (extractStridedSlice S1x240000 ![0, 0] a1 slices_S2x240000_S1x240000_0_0) shapeCasts_S1x240000_S240000)
        (broadcastInDim S240000 ![] bcast_S_S240000 (constantI S_ 32 20000#32)))
      (shapeCast S240000 (extractStridedSlice S1x240000 ![0, 0] a1 slices_S2x240000_S1x240000_0_0) shapeCasts_S1x240000_S240000))

/-- The col-index column: the same from row 1 of the edge-index argument. -/
def kColI (a1 : IVec S2x240000 32) : IdxCol :=
  broadcastInDim S240000x1 ![0] bcast_S240000_S240000x1_0
    (select
      (cmpi .slt (shapeCast S240000 (extractStridedSlice S1x240000 ![1, 0] a1 slices_S2x240000_S1x240000_1_0) shapeCasts_S1x240000_S240000)
        (broadcastInDim S240000 ![] bcast_S_S240000 (constantI S_ 32 0#32)))
      (addi (shapeCast S240000 (extractStridedSlice S1x240000 ![1, 0] a1 slices_S2x240000_S1x240000_1_0) shapeCasts_S1x240000_S240000)
        (broadcastInDim S240000 ![] bcast_S_S240000 (constantI S_ 32 20000#32)))
      (shapeCast S240000 (extractStridedSlice S1x240000 ![1, 0] a1 slices_S2x240000_S1x240000_1_0) shapeCasts_S1x240000_S240000))

namespace B

/-- A flat vector of index words normalised (a word below zero raised by the number of nodes) and laid out as a column. -/
def nrm (v : IVec S240000 32) : IdxCol :=
  broadcastInDim S240000x1 ![0] bcast_S240000_S240000x1_0
    (select (cmpi .slt v (broadcastInDim S240000 ![] bcast_S_S240000 (constantI S_ 32 0#32)))
      (addi v (broadcastInDim S240000 ![] bcast_S_S240000 (constantI S_ 32 20000#32))) v)

/-- Row r of the edge-index argument as a flat vector. -/
def flat0 (a1 : IVec S2x240000 32) : IVec S240000 32 :=
  shapeCast S240000 (extractStridedSlice S1x240000 ![0, 0] a1 slices_S2x240000_S1x240000_0_0) shapeCasts_S1x240000_S240000
def flat1 (a1 : IVec S2x240000 32) : IVec S240000 32 :=
  shapeCast S240000 (extractStridedSlice S1x240000 ![1, 0] a1 slices_S2x240000_S1x240000_1_0) shapeCasts_S1x240000_S240000

theorem kRowI_eq (a1 : IVec S2x240000 32) : kRowI a1 = nrm (flat0 a1) := rfl
theorem kColI_eq (a1 : IVec S2x240000 32) : kColI a1 = nrm (flat1 a1) := rfl

/-- What the first host stretch leaves in the two flat index vectors. -/
theorem v1_term (W : Valuation τ sig (Elt Ideal)) :
    StableHlo.after hostOps0 W (Proc.devRef .tc main_v1) = flat0 (W (Proc.devRef .tc main_arg1)) := by
  after_results_simp
  rfl
theorem v3_term (W : Valuation τ sig (Elt Ideal)) :
    StableHlo.after hostOps0 W (Proc.devRef .tc main_v3) = flat1 (W (Proc.devRef .tc main_arg1)) := by
  after_results_simp
  rfl

/-- The two flat index vectors when the second host stretch starts: the first stretch's, untouched by the node stage. -/
theorem v1_at2 : W2 m c (Proc.devRef .tc main_v1) = flat0 (m ((c : Thread nD τ).loc main_arg1)) :=
  (R.W2_reg m c main_v1 (by decide)).trans (v1_term (W0 m c))
theorem v3_at2 : W2 m c (Proc.devRef .tc main_v3) = flat1 (m ((c : Thread nD τ).loc main_arg1)) :=
  (R.W2_reg m c main_v3 (by decide)).trans (v3_term (W0 m c))

/-- What the second host stretch leaves in the four index columns. -/
theorem v28_term (W : Valuation τ sig (Elt Ideal)) :
    StableHlo.after hostOps1 W (Proc.devRef .tc main_v28) = nrm (W (Proc.devRef .tc main_v3)) := by
  after_results_simp
  rfl
theorem v35_term (W : Valuation τ sig (Elt Ideal)) :
    StableHlo.after hostOps1 W (Proc.devRef .tc main_v35) = nrm (W (Proc.devRef .tc main_v1)) := by
  after_results_simp
  rfl
theorem v42_term (W : Valuation τ sig (Elt Ideal)) :
    StableHlo.after hostOps1 W (Proc.devRef .tc main_v42) = nrm (W (Proc.devRef .tc main_v3)) := by
  after_results_simp
  rfl
theorem v49_term (W : Valuation τ sig (Elt Ideal)) :
    StableHlo.after hostOps1 W (Proc.devRef .tc main_v49) = nrm (W (Proc.devRef .tc main_v3)) := by
  after_results_simp
  rfl

end B

theorem v28_entry : W3 m c (Proc.devRef .tc main_v28) = kColI (m ((c : Thread nD τ).loc main_arg1)) :=
  (B.v28_term (W2 m c)).trans (congrArg B.nrm (B.v3_at2 m c))
theorem v42_entry : W3 m c (Proc.devRef .tc main_v42) = kColI (m ((c : Thread nD τ).loc main_arg1)) :=
  (B.v42_term (W2 m c)).trans (congrArg B.nrm (B.v3_at2 m c))
theorem v49_entry : W3 m c (Proc.devRef .tc main_v49) = kColI (m ((c : Thread nD τ).loc main_arg1)) :=
  (B.v49_term (W2 m c)).trans (congrArg B.nrm (B.v3_at2 m c))
theorem v35_entry : W3 m c (Proc.devRef .tc main_v35) = kRowI (m ((c : Thread nD τ).loc main_arg1)) :=
  (B.v35_term (W2 m c)).trans (congrArg B.nrm (B.v1_at2 m c))

/-! ## The four row gathers -/

namespace B

/-- A row gather of a 20000-by-256 matrix at a column of index words is the matrix of the rows the words pick. -/
theorem gather_eq_gath (x : Mat 20000 256) (idx : IdxCol) :
    @Eq (Mat 240000 256) (Host.gather gather_S20000x256_S240000x1_S240000x256_1_0_n_n_0_1_1256 x idx) (gath x idx) := by
  funext j
  rw [eq_ix2 j]
  exact gather_rows_apply (by decide) gather_S20000x256_S240000x1_S240000x256_1_0_n_n_0_1_1256_wf x idx (j 0) (j 1)

/-- What the second host stretch leaves in the four gathered arrays. -/
theorem v29_term (W : Valuation τ sig (Elt Ideal)) :
    StableHlo.after hostOps1 W (Proc.devRef .tc main_v29)
      = Host.gather gather_S20000x256_S240000x1_S240000x256_1_0_n_n_0_1_1256 (W (Proc.devRef .tc main_v22_0)) (nrm (W (Proc.devRef .tc main_v3))) := by
  after_results_simp
  rfl
theorem v36_term (W : Valuation τ sig (Elt Ideal)) :
    StableHlo.after hostOps1 W (Proc.devRef .tc main_v36)
      = Host.gather gather_S20000x256_S240000x1_S240000x256_1_0_n_n_0_1_1256 (W (Proc.devRef .tc main_v22_1)) (nrm (W (Proc.devRef .tc main_v1))) := by
  after_results_simp
  rfl
theorem v43_term (W : Valuation τ sig (Elt Ideal)) :
    StableHlo.after hostOps1 W (Proc.devRef .tc main_v43)
      = Host.gather gather_S20000x256_S240000x1_S240000x256_1_0_n_n_0_1_1256 (W (Proc.devRef .tc main_v22_2)) (nrm (W (Proc.devRef .tc main_v3))) := by
  after_results_simp
  rfl
theorem v50_term (W : Valuation τ sig (Elt Ideal)) :
    StableHlo.after hostOps1 W (Proc.devRef .tc main_v50)
      = Host.gather gather_S20000x256_S240000x1_S240000x256_1_0_n_n_0_1_1256 (W (Proc.devRef .tc main_v22_3)) (nrm (W (Proc.devRef .tc main_v3))) := by
  after_results_simp
  rfl

end B

theorem in1_2 : @Eq (Mat 240000 256) (V3 m c (Pipeline.arrRef spec1 2))
    (gath (W2 m c (Proc.devRef .tc main_v22_0)) (kColI (m ((c : Thread nD τ).loc main_arg1)))) :=
  ((B.v29_term (W2 m c)).trans (congrArg (fun v => Host.gather gather_S20000x256_S240000x1_S240000x256_1_0_n_n_0_1_1256 (W2 m c (Proc.devRef .tc main_v22_0)) (B.nrm v)) (B.v3_at2 m c))).trans
    (B.gather_eq_gath _ _)
theorem in1_3 : @Eq (Mat 240000 256) (V3 m c (Pipeline.arrRef spec1 3))
    (gath (W2 m c (Proc.devRef .tc main_v22_1)) (kRowI (m ((c : Thread nD τ).loc main_arg1)))) :=
  ((B.v36_term (W2 m c)).trans (congrArg (fun v => Host.gather gather_S20000x256_S240000x1_S240000x256_1_0_n_n_0_1_1256 (W2 m c (Proc.devRef .tc main_v22_1)) (B.nrm v)) (B.v1_at2 m c))).trans
    (B.gather_eq_gath _ _)
theorem in1_4 : @Eq (Mat 240000 256) (V3 m c (Pipeline.arrRef spec1 4))
    (gath (W2 m c (Proc.devRef .tc main_v22_2)) (kColI (m ((c : Thread nD τ).loc main_arg1)))) :=
  ((B.v43_term (W2 m c)).trans (congrArg (fun v => Host.gather gather_S20000x256_S240000x1_S240000x256_1_0_n_n_0_1_1256 (W2 m c (Proc.devRef .tc main_v22_2)) (B.nrm v)) (B.v3_at2 m c))).trans
    (B.gather_eq_gath _ _)
theorem in1_5 : @Eq (Mat 240000 256) (V3 m c (Pipeline.arrRef spec1 5))
    (gath (W2 m c (Proc.devRef .tc main_v22_3)) (kColI (m ((c : Thread nD τ).loc main_arg1)))) :=
  ((B.v50_term (W2 m c)).trans (congrArg (fun v => Host.gather gather_S20000x256_S240000x1_S240000x256_1_0_n_n_0_1_1256 (W2 m c (Proc.devRef .tc main_v22_3)) (B.nrm v)) (B.v3_at2 m c))).trans
    (B.gather_eq_gath _ _)

namespace B
/-- What the second host stretch leaves in the cutoff column's buffer: the cutoff vector recast. -/
theorem v51_term (W : Valuation τ sig (Elt Ideal)) :
    StableHlo.after hostOps1 W (Proc.devRef .tc main_v51)
      = shapeCast S240000x1 (W (Proc.devRef .tc main_arg3)) shapeCasts_S240000_S240000x1 := by
  after_results_simp
  rfl
end B

/-! ## The edge stage's other inputs -/

/-- The radial features: an argument, written by nothing before the edge stage. -/
theorem in1_0 : V3 m c (Pipeline.arrRef spec1 0) = m ((c : Thread nD τ).loc main_arg2) :=
  (R.W3_keep m c main_arg2 (by decide)).trans <| (R.W2_reg m c main_arg2 (by decide)).trans <| R.W1_keep m c main_arg2 (by decide)

/-- The cutoff column: the cutoff vector recast from 240000 entries to 240000-by-1, entry for entry. -/
theorem in1_1 (e : Fin 240000) :
    V3 m c (Pipeline.arrRef spec1 1) (ix2 e (0 : Fin 1)) = m ((c : Thread nD τ).loc main_arg3) (ix1 e) := by
  show StableHlo.after hostOps1 (W2 m c) (Proc.devRef .tc main_v51) (ix2 e (0 : Fin 1)) = _
  rw [B.v51_term]
  refine (shapeCast_apply _ _ (ix2 e (0 : Fin 1)) (ix1 e) ?_).trans ?_
  · rw [Shape.rowMajor_val_one, Shape.rowMajor_val_two]; show e.val = e.val * 1 + 0; omega
  · exact congrFun ((R.W2_reg m c main_arg3 (by decide)).trans (R.W1_keep m c main_arg3 (by decide))) (ix1 e)

/-- The two weight matrices: arguments. -/
theorem in1_6 : V3 m c (Pipeline.arrRef spec1 6) = m ((c : Thread nD τ).loc main_arg4) :=
  (R.W3_keep m c main_arg4 (by decide)).trans <| (R.W2_reg m c main_arg4 (by decide)).trans <| R.W1_keep m c main_arg4 (by decide)
theorem in1_8 : V3 m c (Pipeline.arrRef spec1 8) = m ((c : Thread nD τ).loc main_arg6) :=
  (R.W3_keep m c main_arg6 (by decide)).trans <| (R.W2_reg m c main_arg6 (by decide)).trans <| R.W1_keep m c main_arg6 (by decide)

/-- The two bias rows, the gate and the two head-indicator matrices: written by the first host stretch, touched neither by the
    node stage nor by the second stretch. -/
theorem in1_7 : V3 m c (Pipeline.arrRef spec1 7) = W1 m c (Proc.devRef .tc main_v7) :=
  (R.W3_keep m c main_v7 (by decide)).trans (R.W2_reg m c main_v7 (by decide))
theorem in1_9 : V3 m c (Pipeline.arrRef spec1 9) = W1 m c (Proc.devRef .tc main_v8) :=
  (R.W3_keep m c main_v8 (by decide)).trans (R.W2_reg m c main_v8 (by decide))
theorem in1_10 : V3 m c (Pipeline.arrRef spec1 10) = W1 m c (Proc.devRef .tc main_v9) :=
  (R.W3_keep m c main_v9 (by decide)).trans (R.W2_reg m c main_v9 (by decide))
theorem in1_11 : V3 m c (Pipeline.arrRef spec1 11) = W1 m c (Proc.devRef .tc main_v20) :=
  (R.W3_keep m c main_v20 (by decide)).trans (R.W2_reg m c main_v20 (by decide))
theorem in1_12 : V3 m c (Pipeline.arrRef spec1 12) = W1 m c (Proc.devRef .tc main_v21) :=
  (R.W3_keep m c main_v21 (by decide)).trans (R.W2_reg m c main_v21 (by decide))

/-! ## The output stage's inputs other than the aggregate -/

/-- The node features and the output weights: arguments. -/
theorem in2_0 : V5 m c (Pipeline.arrRef spec2 0) = m ((c : Thread nD τ).loc main_arg0) :=
  (R.W5_keep m c main_arg0 (by decide)).trans <| (R.W4_reg m c main_arg0 (by decide)).trans <| (R.W3_keep m c main_arg0 (by decide)).trans <|
    (R.W2_reg m c main_arg0 (by decide)).trans <| R.W1_keep m c main_arg0 (by decide)
theorem in2_2 : V5 m c (Pipeline.arrRef spec2 2) = m ((c : Thread nD τ).loc main_arg16) :=
  (R.W5_keep m c main_arg16 (by decide)).trans <| (R.W4_reg m c main_arg16 (by decide)).trans <| (R.W3_keep m c main_arg16 (by decide)).trans <|
    (R.W2_reg m c main_arg16 (by decide)).trans <| R.W1_keep m c main_arg16 (by decide)
/-- The output bias row: written by the first host stretch, carried unchanged to the output stage. -/
theorem in2_3 : V5 m c (Pipeline.arrRef spec2 3) = W1 m c (Proc.devRef .tc main_v6) :=
  (R.W5_keep m c main_v6 (by decide)).trans <| (R.W4_reg m c main_v6 (by decide)).trans <| (R.W3_keep m c main_v6 (by decide)).trans <|
    R.W2_reg m c main_v6 (by decide)
/-- The flat row-index vector, likewise: the scatter-add's index column is built from it. -/
theorem v1_kept : W5 m c (Proc.devRef .tc main_v1) = W1 m c (Proc.devRef .tc main_v1) :=
  (R.W5_keep m c main_v1 (by decide)).trans <| (R.W4_reg m c main_v1 (by decide)).trans <| (R.W3_keep m c main_v1 (by decide)).trans <|
    R.W2_reg m c main_v1 (by decide)

end Cert.KernelIdeal.Val.H

end
-- ==== Proof.LibSlabIndex.lean ====
/-
  Slab scatters and slab gathers read at an index.

  When the rows of the operand are themselves `[A, B]` slabs, jax's `segment_sum(data, ids, num_segments = N)` prints
  as a `stablehlo.scatter` with an `add` body over an operand `[N, A, B]`, the `E` words `ids` as an `[E, 1]` array of
  scatter indices, and updates `[E, A, B]`: update slab `e` is added to operand slab `ids[e]`, read signed, when that
  is a slab number, and dropped otherwise (`land`). jax's `x[ids]` prints as a `stablehlo.gather` over the same
  `[E, 1]` array of start indices with slice sizes `[1, A, B]`: result slab `e` is operand slab `ids[e]`, read signed
  and clamped into `[0, N - 1]` (`pick`). This file states both at one element `(n, a, b)`; the sum over the update
  elements that land on `(n, a, b)` is re-indexed as a sum over the update slabs `e` whose index word lands on `n`.
-/
import Idealize.ShloMosaic.PureOps.Ideal
import Idealize.ShloMosaic.PureOps.Contract
import Idealize.ShloMosaic.Lib.ValueIdx
import proofs.«175260_j20066087207295_2_alg».proof.Proof.LibRowIndex

noncomputable section

open scoped BigOperators

namespace Cert.Lib.SlabIndex

open Idealize.ShloMosaic Idealize.ShloMosaic.ValueIdx Cert.Lib.RowIndex

/-! ## The dimension numbers -/

/-- `segment_sum` of slabs: operand `[N, A, B]`, scatter indices `[E, 1]`, updates `[E, A, B]`. -/
abbrev slabScatter (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

/-- `x[ids]` of an array of slabs: operand `[N, A, B]`, start indices `[E, 1]`, result `[E, A, B]`. -/
abbrev slabGather (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-! ## The scatter at an element (extended reals) -/

/-- Axis 0 of a slab scatter's window start: the index word, read signed. -/
theorem slabScatter_start_zero {N E A B w : Nat}
    (wf : ScatterDims.WF ⟨3, ![N, A, B]⟩ ⟨2, ![E, 1]⟩ ⟨3, ![E, A, B]⟩ [1, 2] [0] [0] 1)
    (idx : IVec ⟨2, ![E, 1]⟩ w) (e : Fin E) (a : Fin A) (b : Fin B) :
    (slabScatter N E A B wf).start (ix3 e a b) idx (0 : Fin 3) = (idx (ix2 e (0 : Fin 1))).toInt := by
  unfold ScatterDims.start
  rw [dif_pos (show (0 : Fin 3) ∈ (slabScatter N E A B wf).scatterDimsToOperandDims from List.mem_singleton.mpr rfl)]
  have hsi : (slabScatter N E A B wf).siIdx (ix3 e a b) ⟨List.idxOf (0 : Fin 3) (slabScatter N E A B wf).scatterDimsToOperandDims,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]

/-- Axis 1 of a slab scatter's window start: zero (the index names slabs only). -/
theorem slabScatter_start_one {N E A B w : Nat}
    (wf : ScatterDims.WF ⟨3, ![N, A, B]⟩ ⟨2, ![E, 1]⟩ ⟨3, ![E, A, B]⟩ [1, 2] [0] [0] 1)
    (idx : IVec ⟨2, ![E, 1]⟩ w) (e : Fin E) (a : Fin A) (b : Fin B) :
    (slabScatter N E A B wf).start (ix3 e a b) idx (1 : Fin 3) = 0 := by
  unfold ScatterDims.start
  rw [dif_neg (show ¬ (1 : Fin 3) ∈ ([0] : List (Fin 3)) by decide)]

/-- Axis 2 of a slab scatter's window start: zero. -/
theorem slabScatter_start_two {N E A B w : Nat}
    (wf : ScatterDims.WF ⟨3, ![N, A, B]⟩ ⟨2, ![E, 1]⟩ ⟨3, ![E, A, B]⟩ [1, 2] [0] [0] 1)
    (idx : IVec ⟨2, ![E, 1]⟩ w) (e : Fin E) (a : Fin A) (b : Fin B) :
    (slabScatter N E A B wf).start (ix3 e a b) idx (2 : Fin 3) = 0 := by
  unfold ScatterDims.start
  rw [dif_neg (show ¬ (2 : Fin 3) ∈ ([0] : List (Fin 3)) by decide)]

/-- Axis 0 of a slab scatter's window coordinate: zero (a window is one slab). -/
theorem slabScatter_window_zero {N E A B : Nat}
    (wf : ScatterDims.WF ⟨3, ![N, A, B]⟩ ⟨2, ![E, 1]⟩ ⟨3, ![E, A, B]⟩ [1, 2] [0] [0] 1)
    (e : Fin E) (a : Fin A) (b : Fin B) :
    (slabScatter N E A B wf).window (ix3 e a b) (0 : Fin 3) = 0 := by
  unfold ScatterDims.window
  have hm : ¬ (0 : Fin 3) ∈ (slabScatter N E A B wf).sKept :=
    (show ¬ (0 : Fin 3) ∈ (List.finRange 3).filter (fun c => c ∉ ([0] : List (Fin 3))) by decide)
  rw [dif_neg hm]

/-- Axis 1 of a slab scatter's window coordinate: the update's first slab coordinate. -/
theorem slabScatter_window_one {N E A B : Nat}
    (wf : ScatterDims.WF ⟨3, ![N, A, B]⟩ ⟨2, ![E, 1]⟩ ⟨3, ![E, A, B]⟩ [1, 2] [0] [0] 1)
    (e : Fin E) (a : Fin A) (b : Fin B) :
    (slabScatter N E A B wf).window (ix3 e a b) (1 : Fin 3) = a.val := by
  unfold ScatterDims.window
  have hm : (1 : Fin 3) ∈ (slabScatter N E A B wf).sKept :=
    (show (1 : Fin 3) ∈ (List.finRange 3).filter (fun c => c ∉ ([0] : List (Fin 3))) by decide)
  rw [dif_pos hm]
  rfl

/-- Axis 2 of a slab scatter's window coordinate: the update's second slab coordinate. -/
theorem slabScatter_window_two {N E A B : Nat}
    (wf : ScatterDims.WF ⟨3, ![N, A, B]⟩ ⟨2, ![E, 1]⟩ ⟨3, ![E, A, B]⟩ [1, 2] [0] [0] 1)
    (e : Fin E) (a : Fin A) (b : Fin B) :
    (slabScatter N E A B wf).window (ix3 e a b) (2 : Fin 3) = b.val := by
  unfold ScatterDims.window
  have hm : (2 : Fin 3) ∈ (slabScatter N E A B wf).sKept :=
    (show (2 : Fin 3) ∈ (List.finRange 3).filter (fun c => c ∉ ([0] : List (Fin 3))) by decide)
  rw [dif_pos hm]
  rfl

/-- Where update element `(e, a, b)` of a slab scatter goes: slab `land` of its index word, place `(a, b)`. -/
theorem slabScatter_resultIdx {N E A B w : Nat}
    (wf : ScatterDims.WF ⟨3, ![N, A, B]⟩ ⟨2, ![E, 1]⟩ ⟨3, ![E, A, B]⟩ [1, 2] [0] [0] 1)
    (idx : IVec ⟨2, ![E, 1]⟩ w) (e : Fin E) (a : Fin A) (b : Fin B) :
    (slabScatter N E A B wf).resultIdx? (ix3 e a b) idx
      = (land N (idx (ix2 e (0 : Fin 1)))).map (fun n => ix3 n a b) := by
  have h00 := slabScatter_start_zero wf idx e a b
  have h01 := slabScatter_start_one wf idx e a b
  have h02 := slabScatter_start_two wf idx e a b
  have h10 := slabScatter_window_zero wf e a b
  have h11 := slabScatter_window_one wf e a b
  have h12 := slabScatter_window_two wf e a b
  have hA : (a.val : Int) < (A : Int) := by exact_mod_cast a.isLt
  have hB : (b.val : Int) < (B : Int) := by exact_mod_cast b.isLt
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ c : Fin 3, 0 ≤ (slabScatter N E A B wf).start (ix3 e a b) idx c + ((slabScatter N E A B wf).window (ix3 e a b) c : Int)
        ∧ (slabScatter N E A B wf).start (ix3 e a b) idx c + ((slabScatter N E A B wf).window (ix3 e a b) c : Int)
          < ((⟨3, ![N, A, B]⟩ : Shape).size c : Int) := by
      intro c
      match c with
      | ⟨0, _⟩ =>
        show 0 ≤ (slabScatter N E A B wf).start (ix3 e a b) idx (0 : Fin 3) + ((slabScatter N E A B wf).window (ix3 e a b) (0 : Fin 3) : Int)
          ∧ (slabScatter N E A B wf).start (ix3 e a b) idx (0 : Fin 3) + ((slabScatter N E A B wf).window (ix3 e a b) (0 : Fin 3) : Int) < (N : Int)
        rw [h00, h10]; simpa using hc
      | ⟨1, _⟩ =>
        show 0 ≤ (slabScatter N E A B wf).start (ix3 e a b) idx (1 : Fin 3) + ((slabScatter N E A B wf).window (ix3 e a b) (1 : Fin 3) : Int)
          ∧ (slabScatter N E A B wf).start (ix3 e a b) idx (1 : Fin 3) + ((slabScatter N E A B wf).window (ix3 e a b) (1 : Fin 3) : Int) < (A : Int)
        rw [h01, h11]; omega
      | ⟨2, _⟩ =>
        show 0 ≤ (slabScatter N E A B wf).start (ix3 e a b) idx (2 : Fin 3) + ((slabScatter N E A B wf).window (ix3 e a b) (2 : Fin 3) : Int)
          ∧ (slabScatter N E A B wf).start (ix3 e a b) idx (2 : Fin 3) + ((slabScatter N E A B wf).window (ix3 e a b) (2 : Fin 3) : Int) < (B : Int)
        rw [h02, h12]; omega
    rw [dif_pos hall]
    congr 1
    funext c
    refine Fin.ext ?_
    match c with
    | ⟨0, _⟩ =>
      show ((slabScatter N E A B wf).start (ix3 e a b) idx (0 : Fin 3) + ((slabScatter N E A B wf).window (ix3 e a b) (0 : Fin 3) : Int)).toNat
        = (idx (ix2 e (0 : Fin 1))).toInt.toNat
      rw [h00, h10]; simp
    | ⟨1, _⟩ =>
      show ((slabScatter N E A B wf).start (ix3 e a b) idx (1 : Fin 3) + ((slabScatter N E A B wf).window (ix3 e a b) (1 : Fin 3) : Int)).toNat
        = a.val
      rw [h01, h11]; simp
    | ⟨2, _⟩ =>
      show ((slabScatter N E A B wf).start (ix3 e a b) idx (2 : Fin 3) + ((slabScatter N E A B wf).window (ix3 e a b) (2 : Fin 3) : Int)).toNat
        = b.val
      rw [h02, h12]; simp
  · rw [dif_neg hc, Option.map_none]
    unfold ScatterDims.resultIdx?
    rw [dif_neg]
    intro hall
    have := hall (0 : Fin 3)
    rw [h00, h10] at this
    exact hc (by simpa using this)

/-- Update element `j` of a slab scatter goes to `(n, a, b)` exactly when its index word lands on `n` and its place
    in the slab is `(a, b)`. -/
theorem slabScatter_resultIdx_eq_some_iff {N E A B w : Nat}
    (wf : ScatterDims.WF ⟨3, ![N, A, B]⟩ ⟨2, ![E, 1]⟩ ⟨3, ![E, A, B]⟩ [1, 2] [0] [0] 1)
    (idx : IVec ⟨2, ![E, 1]⟩ w) (j : (⟨3, ![E, A, B]⟩ : Shape).Idx) (n : Fin N) (a : Fin A) (b : Fin B) :
    (slabScatter N E A B wf).resultIdx? j idx = some (ix3 n a b)
      ↔ land N (idx (ix2 (j 0) (0 : Fin 1))) = some n ∧ j 1 = a ∧ j 2 = b := by
  obtain ⟨e, a', b', rfl⟩ : ∃ (e : Fin E) (a' : Fin A) (b' : Fin B), j = ix3 e a' b' := ⟨j 0, j 1, j 2, eq_ix3 j⟩
  rw [slabScatter_resultIdx wf idx e a' b']
  show Option.map (fun m => ix3 m a' b') (land N (idx (ix2 e (0 : Fin 1)))) = some (ix3 n a b)
    ↔ land N (idx (ix2 e (0 : Fin 1))) = some n ∧ a' = a ∧ b' = b
  constructor
  · intro hh
    obtain ⟨m, hm, hmn⟩ := Option.map_eq_some_iff.mp hh
    have h0 : m = n := congrFun hmn (0 : Fin 3)
    have h1 : a' = a := congrFun hmn (1 : Fin 3)
    have h2 : b' = b := congrFun hmn (2 : Fin 3)
    exact ⟨by rw [hm, h0], h1, h2⟩
  · rintro ⟨hl, rfl, rfl⟩
    rw [hl]
    rfl

/-- Element `(n, a, b)` of a slab scatter-add: the operand's element plus the sum, over the update slabs `e` whose
    index word lands on `n`, of the update's element `(e, a, b)`. -/
theorem scatterAdd_slabs_apply {N E A B w : Nat} {φ : FTy}
    (wf : ScatterDims.WF ⟨3, ![N, A, B]⟩ ⟨2, ![E, 1]⟩ ⟨3, ![E, A, B]⟩ [1, 2] [0] [0] 1)
    (x : FVec Ideal ⟨3, ![N, A, B]⟩ φ) (idx : IVec ⟨2, ![E, 1]⟩ w) (upd : FVec Ideal ⟨3, ![E, A, B]⟩ φ)
    (n : Fin N) (a : Fin A) (b : Fin B) :
    Host.scatterAdd (slabScatter N E A B wf) x idx upd (ix3 n a b)
      = (x (ix3 n a b) + ∑ e ∈ Finset.univ.filter (fun e : Fin E => land N (idx (ix2 e (0 : Fin 1))) = some n),
          upd (ix3 e a b) : EReal) := by
  show (x (ix3 n a b) + ∑ j ∈ Finset.univ.filter
      (fun j => (slabScatter N E A B wf).resultIdx? j idx = some (ix3 n a b)), upd j : EReal) = _
  congr 1
  refine Finset.sum_nbij' (fun j => j 0) (fun e => ix3 e a b) ?_ ?_ ?_ ?_ ?_
  · intro j hj
    have hj' := (slabScatter_resultIdx_eq_some_iff wf idx j n a b).mp (Finset.mem_filter.mp hj).2
    exact Finset.mem_filter.mpr ⟨Finset.mem_univ _, hj'.1⟩
  · intro e he
    have he' : land N (idx (ix2 e (0 : Fin 1))) = some n := (Finset.mem_filter.mp he).2
    exact Finset.mem_filter.mpr ⟨Finset.mem_univ _,
      (slabScatter_resultIdx_eq_some_iff wf idx (ix3 e a b) n a b).mpr ⟨he', rfl, rfl⟩⟩
  · intro j hj
    have hj' := (slabScatter_resultIdx_eq_some_iff wf idx j n a b).mp (Finset.mem_filter.mp hj).2
    show ix3 (j 0) a b = j
    rw [← hj'.2.1, ← hj'.2.2]
    exact (eq_ix3 j).symm
  · intro e _
    rfl
  · intro j hj
    have hj' := (slabScatter_resultIdx_eq_some_iff wf idx j n a b).mp (Finset.mem_filter.mp hj).2
    show upd j = upd (ix3 (j 0) a b)
    rw [← hj'.2.1, ← hj'.2.2]
    exact congrArg upd (eq_ix3 j)

/-! ## The gather at an element (any element type) -/

/-- Axis 0 of the operand index of a slab gather: the slab the index word picks. -/
theorem slabGather_operandIdx_zero {N E A B w : Nat} (hN : 0 < N)
    (wf : GatherDims.WF ⟨3, ![N, A, B]⟩ ⟨2, ![E, 1]⟩ ⟨3, ![E, A, B]⟩ [1, 2] [0] [] [0] [] 1 ![1, A, B])
    (idx : IVec ⟨2, ![E, 1]⟩ w) (e : Fin E) (a : Fin A) (b : Fin B) :
    ((slabGather N E A B wf).operandIdx (ix3 e a b) idx (0 : Fin 3)).val = (pick N hN (idx (ix2 e (0 : Fin 1)))).val := by
  show (slabGather N E A B wf).start (ix3 e a b) idx (0 : Fin 3) + (slabGather N E A B wf).batchCoord (ix3 e a b) (0 : Fin 3)
    + (slabGather N E A B wf).offCoord (ix3 e a b) (0 : Fin 3) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (slabGather N E A B wf).startIndexMap from List.mem_singleton.mpr rfl)]
  have hsi : (slabGather N E A B wf).siIdx (ix3 e a b) ⟨List.idxOf (0 : Fin 3) (slabGather N E A B wf).startIndexMap,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]
  rfl

/-- Axis 1 of the operand index of a slab gather: the result's first slab coordinate. -/
theorem slabGather_operandIdx_one {N E A B w : Nat}
    (wf : GatherDims.WF ⟨3, ![N, A, B]⟩ ⟨2, ![E, 1]⟩ ⟨3, ![E, A, B]⟩ [1, 2] [0] [] [0] [] 1 ![1, A, B])
    (idx : IVec ⟨2, ![E, 1]⟩ w) (e : Fin E) (a : Fin A) (b : Fin B) :
    ((slabGather N E A B wf).operandIdx (ix3 e a b) idx (1 : Fin 3)).val = a.val := by
  show (slabGather N E A B wf).start (ix3 e a b) idx (1 : Fin 3) + (slabGather N E A B wf).batchCoord (ix3 e a b) (1 : Fin 3)
    + (slabGather N E A B wf).offCoord (ix3 e a b) (1 : Fin 3) = _
  rw [GatherDims.batchCoord_eq_zero _ _ _ List.not_mem_nil]
  have hs : (slabGather N E A B wf).start (ix3 e a b) idx (1 : Fin 3) = 0 := by
    unfold GatherDims.start
    rw [dif_neg (show ¬ (1 : Fin 3) ∈ ([0] : List (Fin 3)) by decide)]
  rw [hs]
  simp only [Nat.add_zero, Nat.zero_add]
  unfold GatherDims.offCoord
  rw [dif_pos ((GatherDims.mem_sKept _ _).mpr ⟨show ¬ (1 : Fin 3) ∈ ([0] : List (Fin 3)) by decide, List.not_mem_nil⟩)]
  rfl

/-- Axis 2 of the operand index of a slab gather: the result's second slab coordinate. -/
theorem slabGather_operandIdx_two {N E A B w : Nat}
    (wf : GatherDims.WF ⟨3, ![N, A, B]⟩ ⟨2, ![E, 1]⟩ ⟨3, ![E, A, B]⟩ [1, 2] [0] [] [0] [] 1 ![1, A, B])
    (idx : IVec ⟨2, ![E, 1]⟩ w) (e : Fin E) (a : Fin A) (b : Fin B) :
    ((slabGather N E A B wf).operandIdx (ix3 e a b) idx (2 : Fin 3)).val = b.val := by
  show (slabGather N E A B wf).start (ix3 e a b) idx (2 : Fin 3) + (slabGather N E A B wf).batchCoord (ix3 e a b) (2 : Fin 3)
    + (slabGather N E A B wf).offCoord (ix3 e a b) (2 : Fin 3) = _
  rw [GatherDims.batchCoord_eq_zero _ _ _ List.not_mem_nil]
  have hs : (slabGather N E A B wf).start (ix3 e a b) idx (2 : Fin 3) = 0 := by
    unfold GatherDims.start
    rw [dif_neg (show ¬ (2 : Fin 3) ∈ ([0] : List (Fin 3)) by decide)]
  rw [hs]
  simp only [Nat.add_zero, Nat.zero_add]
  unfold GatherDims.offCoord
  rw [dif_pos ((GatherDims.mem_sKept _ _).mpr ⟨show ¬ (2 : Fin 3) ∈ ([0] : List (Fin 3)) by decide, List.not_mem_nil⟩)]
  rfl

/-- Element `(e, a, b)` of a slab gather: the operand at the slab the index word picks, place `(a, b)`. -/
theorem gather_slabs_apply {α : Type} {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (slabGather N E A B wf) x idx (ix3 e a b) = x (ix3 (pick N hN (idx (ix2 e (0 : Fin 1)))) a b) := by
  unfold Host.gather
  congr 1
  funext c
  refine Fin.ext ?_
  match c with
  | ⟨0, _⟩ => exact slabGather_operandIdx_zero hN wf idx e a b
  | ⟨1, _⟩ => exact slabGather_operandIdx_one wf idx e a b
  | ⟨2, _⟩ => exact slabGather_operandIdx_two wf idx e a b

end Cert.Lib.SlabIndex

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.RefA.lean ====
/-
  The reference's node stage and per-edge weights are the specification's functions.

  Each host operation of the reference is read at an index from its operands at an index; a row sum kept as a column and
  broadcast back is the row's sum at every column; the three linear maps are the contraction sum plus the bias; the
  gathers read the row an index word picks, and a [20000, 8, 32] slab is the [20000, 256] matrix with column 32 h + d.
-/
import proofs.«175260_j20066087207295_2_alg».proof.Proof.Gen.ReferenceIdeal.Read
import proofs.«175260_j20066087207295_2_alg».proof.Proof.Spec
import proofs.«175260_j20066087207295_2_alg».proof.Proof.LibRowIndex
import proofs.«175260_j20066087207295_2_alg».proof.Proof.LibSlabIndex
import proofs.«175260_j20066087207295_2_alg».proof.Proof.LibPlainDot

noncomputable section

namespace Cert.ReferenceIdeal.RefVal

open Cert.ReferenceIdeal Cert.ReferenceIdeal.Gen Cert.ReferenceIdeal.Read Cert.Hyb Cert.Lib.RowIndex Idealize.ShloMosaic
  Idealize.ShloMosaic.ValueIdx

namespace A

/-- A vector of 256 entries read as a function of its one coordinate. -/
abbrev lwf (v : (⟨S256, .f32⟩ : BufTy).Contents (Elt Ideal)) : Fin 256 → EReal := fun k => v (ix1 k)

/-- The row mean, kept as a column: the row's sum from zero, divided by 256. -/
theorem mean_apply (x0 : (⟨S20000x256, .f32⟩ : BufTy).Contents (Elt Ideal)) (p : Fin 20000) (z : Fin 1) :
    val_main_v7 (F := Ideal) x0 (ix2 p z) = rowMean (n := 20000) x0 p := by
  have e4 : ∀ k : Fin 256, idx_main_v4 (idx_main_v5 (ix2 p z)) k = ix2 p k := fun k =>
    funext fun a => Fin.ext (by match a with | ⟨0, _⟩ => rfl | ⟨1, _⟩ => rfl)
  rw [val_main_v7_apply, val_main_v5_apply, val_main_v4_apply, val_main_v6_apply, val_main_cst_0_apply, val_main_cst_apply]
  simp only [e4, Ideal.hostDivf_def, Ideal.ofBits_def]
  rfl

/-- The centred entry (the copy the variance squares). -/
theorem centred_apply (x0 : (⟨S20000x256, .f32⟩ : BufTy).Contents (Elt Ideal)) (p : Fin 20000) (j : Fin 256) :
    val_main_v9 (F := Ideal) x0 (ix2 p j) = centred (n := 20000) x0 p j := by
  have e8 : idx_main_v8 (ix2 p j) = ix2 p (0 : Fin 1) :=
    funext fun a => Fin.ext (by match a with | ⟨0, _⟩ => rfl | ⟨1, _⟩ => rfl)
  rw [val_main_v9_apply, val_main_v8_apply, e8, mean_apply]
  rfl

/-- The centred entry (the copy the normalisation scales). -/
theorem centred_apply' (x0 : (⟨S20000x256, .f32⟩ : BufTy).Contents (Elt Ideal)) (p : Fin 20000) (j : Fin 256) :
    val_main_v16 (F := Ideal) x0 (ix2 p j) = centred (n := 20000) x0 p j := by
  have e15 : idx_main_v15 (ix2 p j) = ix2 p (0 : Fin 1) :=
    funext fun a => Fin.ext (by match a with | ⟨0, _⟩ => rfl | ⟨1, _⟩ => rfl)
  rw [val_main_v16_apply, val_main_v15_apply, e15, mean_apply]
  rfl

/-- The row variance, kept as a column. -/
theorem var_apply (x0 : (⟨S20000x256, .f32⟩ : BufTy).Contents (Elt Ideal)) (p : Fin 20000) (z : Fin 1) :
    val_main_v14 (F := Ideal) x0 (ix2 p z) = rowVar (n := 20000) x0 p := by
  have e11 : ∀ k : Fin 256, idx_main_v11 (idx_main_v12 (ix2 p z)) k = ix2 p k := fun k =>
    funext fun a => Fin.ext (by match a with | ⟨0, _⟩ => rfl | ⟨1, _⟩ => rfl)
  have hs : (∑ k : Fin 256, (val_main_v10 (F := Ideal) x0) (idx_main_v11 (idx_main_v12 (ix2 p z)) k))
      = ∑ k : Fin 256, centred (n := 20000) x0 p k * centred (n := 20000) x0 p k :=
    Finset.sum_congr rfl fun k _ => by
      rw [e11 k, val_main_v10_apply, centred_apply]
      rfl
  rw [val_main_v14_apply, val_main_v12_apply, val_main_v11_apply, hs, val_main_v13_apply, val_main_cst_2_apply,
    val_main_cst_1_apply]
  rfl

/-- Entry (n, h, d) of a [20000, 8, 32] reshape of a [20000, 256] matrix is the matrix's entry (n, 32 h + d). -/
theorem slab_idx_q (n : Fin 20000) (h : Fin 8) (d : Fin 32) : idx_main_v52 (ix3 n h d) = ix2 n (hcol h d) :=
  funext fun a => Fin.ext (by
    have hn := n.isLt; have hh := h.isLt; have hd := d.isLt
    match a with
    | ⟨0, _⟩ => show ((n.val * 8 + h.val) * 32 + d.val) / 256 = n.val; omega
    | ⟨1, _⟩ => show ((n.val * 8 + h.val) * 32 + d.val) % 256 = 32 * h.val + d.val; omega)

theorem slab_idx_k (n : Fin 20000) (h : Fin 8) (d : Fin 32) : idx_main_v57 (ix3 n h d) = ix2 n (hcol h d) :=
  funext fun a => Fin.ext (by
    have hn := n.isLt; have hh := h.isLt; have hd := d.isLt
    match a with
    | ⟨0, _⟩ => show ((n.val * 8 + h.val) * 32 + d.val) / 256 = n.val; omega
    | ⟨1, _⟩ => show ((n.val * 8 + h.val) * 32 + d.val) % 256 = 32 * h.val + d.val; omega)

theorem slab_idx_v (n : Fin 20000) (h : Fin 8) (d : Fin 32) : idx_main_v62 (ix3 n h d) = ix2 n (hcol h d) :=
  funext fun a => Fin.ext (by
    have hn := n.isLt; have hh := h.isLt; have hd := d.isLt
    match a with
    | ⟨0, _⟩ => show ((n.val * 8 + h.val) * 32 + d.val) / 256 = n.val; omega
    | ⟨1, _⟩ => show ((n.val * 8 + h.val) * 32 + d.val) % 256 = 32 * h.val + d.val; omega)

/-- The word of 1.0 denotes one. -/
theorem lit_one : lit 0x3F800000#32 = 1 := IdealRules.sign_bit.ideal_onePat .f32

/-- The outlined x * (1 / (1 + exp (-x))) is x times its logistic. -/
theorem silu_apply (x2 : (⟨S240000x64, .f32⟩ : BufTy).Contents (Elt Ideal)) (x4 : (⟨S64x256, .f32⟩ : BufTy).Contents (Elt Ideal)) (x5 : (⟨S256, .f32⟩ : BufTy).Contents (Elt Ideal)) (i : S240000x256.Idx) :
    val_main_v32 (F := Ideal) x2 x4 x5 i = silu (val_main_v31 (F := Ideal) x2 x4 x5 i) := by
  rw [val_main_v32_apply, val_main_call0_v5_apply, val_main_call0_v4_apply, val_main_call0_cst_0_apply,
    val_main_call0_v3_apply, val_main_call0_v2_apply, val_main_call0_cst_apply, val_main_call0_v1_apply,
    val_main_call0_v0_apply]
  generalize val_main_v31 (F := Ideal) x2 x4 x5 i = y
  show y * Ideal.div (lit 0x3F800000#32) (lit 0x3F800000#32 + Ideal.exp (-y)) = y * Ideal.div 1 (1 + Ideal.exp (-y))
  rw [lit_one]

/-- The perceptron's first layer: a linear map of the radial features. -/
theorem hid_apply (x2 : (⟨S240000x64, .f32⟩ : BufTy).Contents (Elt Ideal)) (x4 : (⟨S64x256, .f32⟩ : BufTy).Contents (Elt Ideal)) (x5 : (⟨S256, .f32⟩ : BufTy).Contents (Elt Ideal)) (e : Fin 240000) (k : Fin 256) :
    val_main_v31 (F := Ideal) x2 x4 x5 (ix2 e k) = lin (m := 240000) (k := 64) (n := 256) x2 x4 (lwf x5) (ix2 e k) := by
  have el : ∀ q : Fin 64, lidx_main_v28 (ix2 e k) q = ix2 e q := fun q =>
    funext fun a => Fin.ext (by match a with | ⟨0, _⟩ => rfl | ⟨1, _⟩ => rfl)
  have er : ∀ q : Fin 64, ridx_main_v28 (ix2 e k) q = ix2 q k := fun q =>
    funext fun a => Fin.ext (by match a with | ⟨0, _⟩ => rfl | ⟨1, _⟩ => rfl)
  have eb : idx_main_v29 (idx_main_v30 (ix2 e k)) = ix1 k :=
    funext fun a => Fin.ext (by match a with | ⟨0, _⟩ => rfl)
  rw [val_main_v31_apply, val_main_v28_apply, val_main_v30_apply, val_main_v29_apply, eb]
  refine congrArg (· + x5 (ix1 k)) (Finset.sum_congr rfl fun q _ => ?_)
  rw [el q, er q]

end A

open A

/-- The normalised rows. -/
theorem ref_xn (x0 : (⟨S20000x256, .f32⟩ : BufTy).Contents (Elt Ideal)) (x8 x9 : (⟨S256, .f32⟩ : BufTy).Contents (Elt Ideal)) :
    @Eq (Mat 20000 256) (val_main_v27 (F := Ideal) x0 x8 x9) (layerNorm x0 (lwf x8) (lwf x9)) := by
  funext i
  obtain ⟨p, j, rfl⟩ : ∃ (p : Fin 20000) (j : Fin 256), i = ix2 p j := ⟨i 0, i 1, eq_ix2 i⟩
  have e20 : idx_main_v20 (ix2 p j) = ix2 p (0 : Fin 1) :=
    funext fun a => Fin.ext (by match a with | ⟨0, _⟩ => rfl | ⟨1, _⟩ => rfl)
  have e22 : idx_main_v22 (idx_main_v23 (ix2 p j)) = ix1 j :=
    funext fun a => Fin.ext (by match a with | ⟨0, _⟩ => rfl)
  have e25 : idx_main_v25 (idx_main_v26 (ix2 p j)) = ix1 j :=
    funext fun a => Fin.ext (by match a with | ⟨0, _⟩ => rfl)
  rw [val_main_v27_apply, val_main_v24_apply, val_main_v21_apply, centred_apply', val_main_v20_apply, e20,
    val_main_v19_apply, val_main_v18_apply, var_apply, val_main_v17_apply, val_main_cst_3_apply, val_main_v23_apply,
    val_main_v22_apply, e22, val_main_v26_apply, val_main_v25_apply, e25]
  rfl

/-- The query rows: a linear map of the normalised rows. -/
theorem ref_q (x0 : (⟨S20000x256, .f32⟩ : BufTy).Contents (Elt Ideal)) (x8 x9 : (⟨S256, .f32⟩ : BufTy).Contents (Elt Ideal))
    (x10 : (⟨S256x256, .f32⟩ : BufTy).Contents (Elt Ideal)) (x11 : (⟨S256, .f32⟩ : BufTy).Contents (Elt Ideal)) :
    @Eq (Mat 20000 256) (val_main_v51 (F := Ideal) x0 x8 x9 x10 x11) (lin (layerNorm x0 (lwf x8) (lwf x9)) x10 (lwf x11)) := by
  funext i
  obtain ⟨p, j, rfl⟩ : ∃ (p : Fin 20000) (j : Fin 256), i = ix2 p j := ⟨i 0, i 1, eq_ix2 i⟩
  have el : ∀ k : Fin 256, lidx_main_v48 (ix2 p j) k = ix2 p k := fun k =>
    funext fun a => Fin.ext (by match a with | ⟨0, _⟩ => rfl | ⟨1, _⟩ => rfl)
  have er : ∀ k : Fin 256, ridx_main_v48 (ix2 p j) k = ix2 k j := fun k =>
    funext fun a => Fin.ext (by match a with | ⟨0, _⟩ => rfl | ⟨1, _⟩ => rfl)
  have eb : idx_main_v49 (idx_main_v50 (ix2 p j)) = ix1 j :=
    funext fun a => Fin.ext (by match a with | ⟨0, _⟩ => rfl)
  rw [val_main_v51_apply, val_main_v48_apply, val_main_v50_apply, val_main_v49_apply, eb, ref_xn]
  refine congrArg (· + x11 (ix1 j)) (Finset.sum_congr rfl fun k _ => ?_)
  rw [el k, er k]

/-- The key rows: a linear map of the normalised rows. -/
theorem ref_k (x0 : (⟨S20000x256, .f32⟩ : BufTy).Contents (Elt Ideal)) (x8 x9 : (⟨S256, .f32⟩ : BufTy).Contents (Elt Ideal))
    (x12 : (⟨S256x256, .f32⟩ : BufTy).Contents (Elt Ideal)) (x13 : (⟨S256, .f32⟩ : BufTy).Contents (Elt Ideal)) :
    @Eq (Mat 20000 256) (val_main_v56 (F := Ideal) x0 x8 x9 x12 x13) (lin (layerNorm x0 (lwf x8) (lwf x9)) x12 (lwf x13)) := by
  funext i
  obtain ⟨p, j, rfl⟩ : ∃ (p : Fin 20000) (j : Fin 256), i = ix2 p j := ⟨i 0, i 1, eq_ix2 i⟩
  have el : ∀ k : Fin 256, lidx_main_v53 (ix2 p j) k = ix2 p k := fun k =>
    funext fun a => Fin.ext (by match a with | ⟨0, _⟩ => rfl | ⟨1, _⟩ => rfl)
  have er : ∀ k : Fin 256, ridx_main_v53 (ix2 p j) k = ix2 k j := fun k =>
    funext fun a => Fin.ext (by match a with | ⟨0, _⟩ => rfl | ⟨1, _⟩ => rfl)
  have eb : idx_main_v54 (idx_main_v55 (ix2 p j)) = ix1 j :=
    funext fun a => Fin.ext (by match a with | ⟨0, _⟩ => rfl)
  rw [val_main_v56_apply, val_main_v53_apply, val_main_v55_apply, val_main_v54_apply, eb, ref_xn]
  refine congrArg (· + x13 (ix1 j)) (Finset.sum_congr rfl fun k _ => ?_)
  rw [el k, er k]

/-- The value rows: a linear map of the normalised rows. -/
theorem ref_v (x0 : (⟨S20000x256, .f32⟩ : BufTy).Contents (Elt Ideal)) (x8 x9 : (⟨S256, .f32⟩ : BufTy).Contents (Elt Ideal))
    (x14 : (⟨S256x256, .f32⟩ : BufTy).Contents (Elt Ideal)) (x15 : (⟨S256, .f32⟩ : BufTy).Contents (Elt Ideal)) :
    @Eq (Mat 20000 256) (val_main_v61 (F := Ideal) x0 x8 x9 x14 x15) (lin (layerNorm x0 (lwf x8) (lwf x9)) x14 (lwf x15)) := by
  funext i
  obtain ⟨p, j, rfl⟩ : ∃ (p : Fin 20000) (j : Fin 256), i = ix2 p j := ⟨i 0, i 1, eq_ix2 i⟩
  have el : ∀ k : Fin 256, lidx_main_v58 (ix2 p j) k = ix2 p k := fun k =>
    funext fun a => Fin.ext (by match a with | ⟨0, _⟩ => rfl | ⟨1, _⟩ => rfl)
  have er : ∀ k : Fin 256, ridx_main_v58 (ix2 p j) k = ix2 k j := fun k =>
    funext fun a => Fin.ext (by match a with | ⟨0, _⟩ => rfl | ⟨1, _⟩ => rfl)
  have eb : idx_main_v59 (idx_main_v60 (ix2 p j)) = ix1 j :=
    funext fun a => Fin.ext (by match a with | ⟨0, _⟩ => rfl)
  rw [val_main_v61_apply, val_main_v58_apply, val_main_v60_apply, val_main_v59_apply, eb, ref_xn]
  refine congrArg (· + x15 (ix1 j)) (Finset.sum_congr rfl fun k _ => ?_)
  rw [el k, er k]

/-- The normalised rows of the col nodes. -/
theorem ref_xncol (x0 : (⟨S20000x256, .f32⟩ : BufTy).Contents (Elt Ideal)) (x1 : (⟨S2x240000, .i32⟩ : BufTy).Contents (Elt Ideal)) (x8 x9 : (⟨S256, .f32⟩ : BufTy).Contents (Elt Ideal)) :
    @Eq (Mat 240000 256) (val_main_v46 (F := Ideal) x0 x1 x8 x9)
      (gath (layerNorm x0 (lwf x8) (lwf x9)) (val_main_v45 (F := Ideal) x1)) := by
  funext i
  obtain ⟨e, j, rfl⟩ : ∃ (e : Fin 240000) (j : Fin 256), i = ix2 e j := ⟨i 0, i 1, eq_ix2 i⟩
  unfold val_main_v46
  refine (gather_rows_apply (N := 20000) (E := 240000) (C := 256) (by decide)
    gather_S20000x256_S240000x1_S240000x256_1_0_n_n_0_1_1256.wf (val_main_v27 (F := Ideal) x0 x8 x9)
    (val_main_v45 (F := Ideal) x1) e j).trans ?_
  rw [ref_xn]
  rfl

/-- The query row of an edge's row node, by head and column in the head. -/
theorem ref_qe (x0 : (⟨S20000x256, .f32⟩ : BufTy).Contents (Elt Ideal)) (x1 : (⟨S2x240000, .i32⟩ : BufTy).Contents (Elt Ideal)) (x8 x9 : (⟨S256, .f32⟩ : BufTy).Contents (Elt Ideal)) (x10 : (⟨S256x256, .f32⟩ : BufTy).Contents (Elt Ideal)) (x11 : (⟨S256, .f32⟩ : BufTy).Contents (Elt Ideal)) (e : Fin 240000) (h : Fin 8) (d : Fin 32) :
    val_main_v69 (F := Ideal) x0 x1 x8 x9 x10 x11 (ix3 e h d)
      = gath (lin (layerNorm x0 (lwf x8) (lwf x9)) x10 (lwf x11)) (val_main_v68 (F := Ideal) x1) (ix2 e (hcol h d)) := by
  unfold val_main_v69
  refine (Cert.Lib.SlabIndex.gather_slabs_apply (N := 20000) (E := 240000) (A := 8) (B := 32) (by decide)
    gather_S20000x8x32_S240000x1_S240000x8x32_12_0_n_n_0_1_1832.wf (val_main_v52 (F := Ideal) x0 x8 x9 x10 x11)
    (val_main_v68 (F := Ideal) x1) e h d).trans ?_
  rw [val_main_v52_apply, slab_idx_q, ref_q]
  rfl

/-- The key row of an edge's col node, by head and column in the head. -/
theorem ref_ke (x0 : (⟨S20000x256, .f32⟩ : BufTy).Contents (Elt Ideal)) (x1 : (⟨S2x240000, .i32⟩ : BufTy).Contents (Elt Ideal)) (x8 x9 : (⟨S256, .f32⟩ : BufTy).Contents (Elt Ideal)) (x12 : (⟨S256x256, .f32⟩ : BufTy).Contents (Elt Ideal)) (x13 : (⟨S256, .f32⟩ : BufTy).Contents (Elt Ideal)) (e : Fin 240000) (h : Fin 8) (d : Fin 32) :
    val_main_v76 (F := Ideal) x0 x1 x8 x9 x12 x13 (ix3 e h d)
      = gath (lin (layerNorm x0 (lwf x8) (lwf x9)) x12 (lwf x13)) (val_main_v75 (F := Ideal) x1) (ix2 e (hcol h d)) := by
  unfold val_main_v76
  refine (Cert.Lib.SlabIndex.gather_slabs_apply (N := 20000) (E := 240000) (A := 8) (B := 32) (by decide)
    gather_S20000x8x32_S240000x1_S240000x8x32_12_0_n_n_0_1_1832.wf (val_main_v57 (F := Ideal) x0 x8 x9 x12 x13)
    (val_main_v75 (F := Ideal) x1) e h d).trans ?_
  rw [val_main_v57_apply, slab_idx_k, ref_k]
  rfl

/-- The value row of an edge's col node, by head and column in the head. -/
theorem ref_ve (x0 : (⟨S20000x256, .f32⟩ : BufTy).Contents (Elt Ideal)) (x1 : (⟨S2x240000, .i32⟩ : BufTy).Contents (Elt Ideal)) (x8 x9 : (⟨S256, .f32⟩ : BufTy).Contents (Elt Ideal)) (x14 : (⟨S256x256, .f32⟩ : BufTy).Contents (Elt Ideal)) (x15 : (⟨S256, .f32⟩ : BufTy).Contents (Elt Ideal)) (e : Fin 240000) (h : Fin 8) (d : Fin 32) :
    val_main_v83 (F := Ideal) x0 x1 x8 x9 x14 x15 (ix3 e h d)
      = gath (lin (layerNorm x0 (lwf x8) (lwf x9)) x14 (lwf x15)) (val_main_v82 (F := Ideal) x1) (ix2 e (hcol h d)) := by
  unfold val_main_v83
  refine (Cert.Lib.SlabIndex.gather_slabs_apply (N := 20000) (E := 240000) (A := 8) (B := 32) (by decide)
    gather_S20000x8x32_S240000x1_S240000x8x32_12_0_n_n_0_1_1832.wf (val_main_v62 (F := Ideal) x0 x8 x9 x14 x15)
    (val_main_v82 (F := Ideal) x1) e h d).trans ?_
  rw [val_main_v62_apply, slab_idx_v, ref_v]
  rfl

/-- The per-edge weights: the two-layer perceptron of the radial features, times the cutoff. -/
theorem ref_wphys (x2 : (⟨S240000x64, .f32⟩ : BufTy).Contents (Elt Ideal)) (x3 : (⟨S240000, .f32⟩ : BufTy).Contents (Elt Ideal)) (x4 : (⟨S64x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) :
    @Eq (Mat 240000 256) (val_main_v39 (F := Ideal) x2 x3 x4 x5 x6 x7)
      (wphys x2 x4 (lwf x5) x6 (lwf x7) (fun e => x3 (ix1 e))) := by
  funext i
  obtain ⟨e, j, rfl⟩ : ∃ (e : Fin 240000) (j : Fin 256), i = ix2 e j := ⟨i 0, i 1, eq_ix2 i⟩
  have el : ∀ k : Fin 256, lidx_main_v33 (ix2 e j) k = ix2 e k := fun k =>
    funext fun a => Fin.ext (by match a with | ⟨0, _⟩ => rfl | ⟨1, _⟩ => rfl)
  have er : ∀ k : Fin 256, ridx_main_v33 (ix2 e j) k = ix2 k j := fun k =>
    funext fun a => Fin.ext (by match a with | ⟨0, _⟩ => rfl | ⟨1, _⟩ => rfl)
  have eb : idx_main_v34 (idx_main_v35 (ix2 e j)) = ix1 j :=
    funext fun a => Fin.ext (by match a with | ⟨0, _⟩ => rfl)
  have ec : idx_main_v37 (idx_main_v38 (ix2 e j)) = ix1 e :=
    funext fun a => Fin.ext (by match a with | ⟨0, _⟩ => rfl)
  rw [val_main_v39_apply, val_main_v36_apply, val_main_v33_apply, val_main_v35_apply, val_main_v34_apply, eb,
    val_main_v38_apply, val_main_v37_apply, ec]
  refine congrArg (· * x3 (ix1 e)) (congrArg (· + x7 (ix1 j)) (Finset.sum_congr rfl fun k _ => ?_))
  rw [el k, er k, silu_apply, hid_apply]

/-- The weighted normalised row of the col node. -/
theorem ref_msgphys (x0 : (⟨S20000x256, .f32⟩ : BufTy).Contents (Elt Ideal)) (x1 : (⟨S2x240000, .i32⟩ : BufTy).Contents (Elt Ideal)) (x2 : (⟨S240000x64, .f32⟩ : BufTy).Contents (Elt Ideal)) (x3 : (⟨S240000, .f32⟩ : BufTy).Contents (Elt Ideal)) (x4 : (⟨S64x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 x9 : (⟨S256, .f32⟩ : BufTy).Contents (Elt Ideal)) :
    @Eq (Mat 240000 256) (val_main_v47 (F := Ideal) x0 x1 x2 x3 x4 x5 x6 x7 x8 x9)
      (fun j => gath (layerNorm x0 (lwf x8) (lwf x9)) (val_main_v45 (F := Ideal) x1) j
        * wphys x2 x4 (lwf x5) x6 (lwf x7) (fun e => x3 (ix1 e)) j) := by
  funext i
  rw [val_main_v47_apply, ref_xncol, ref_wphys]
  rfl

/-- The three normalised copies of the col index words are one term. -/
theorem ref_col_eq_k (x1 : (⟨S2x240000, .i32⟩ : BufTy).Contents (Elt Ideal)) : val_main_v75 (F := Ideal) x1 = val_main_v45 (F := Ideal) x1 := rfl

theorem ref_col_eq_v (x1 : (⟨S2x240000, .i32⟩ : BufTy).Contents (Elt Ideal)) : val_main_v82 (F := Ideal) x1 = val_main_v45 (F := Ideal) x1 := rfl

theorem ref_col_eq (x1 : (⟨S2x240000, .i32⟩ : BufTy).Contents (Elt Ideal)) :
    val_main_v75 (F := Ideal) x1 = val_main_v45 (F := Ideal) x1 ∧ val_main_v82 (F := Ideal) x1 = val_main_v45 (F := Ideal) x1 :=
  ⟨rfl, rfl⟩

end Cert.ReferenceIdeal.RefVal

end
-- ==== Proof.LibRowMax.lean ====
/-
  A maximum along the columns of a matrix, read at an index.

  A lane maximum of an `a × b` matrix over its columns (axis 1), taken from the accumulator's value (the word of −∞),
  reads at row `p` the fold of `max` from that value over the `b` entries of row `p`: the reduced index with each
  column coordinate inserted is the matrix index `(p, k)`.
-/
import Idealize.ShloMosaic.PureOps.Ideal.Laws
import Idealize.ShloMosaic.Lib.ValueIdx

noncomputable section

namespace Cert.RowMax

open Idealize.ShloMosaic Idealize.ShloMosaic.ValueIdx

/-- A lane maximum of a matrix over its columns (axis 1), at row `p`: the fold of `max` from the accumulator's value
    over that row. -/
theorem max_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (funext fun ax => Fin.ext (by
        match ax with
        | ⟨0, _⟩ => rfl
        | ⟨1, _⟩ => rfl))))

end Cert.RowMax

end
-- ==== Proof.RefB.lean ====
/-
  The reference's edge scores, softmax weights, attention message, combined edge message and output stage are the
  specification's functions, index by index, at the extended reals.

  What the three gathered [240000, 8, 32] slabs hold is taken as a hypothesis: entry (e, h, d) of each is entry
  (e, 32 h + d) of a gathered 240000 × 256 matrix. Over that: the score of head h on edge e is the sum over the head's
  32 columns of query times key from zero, divided by one constant, times the edge's cutoff; the row maximum the program
  takes is a fold of max from the word of minus infinity followed by one more max with that word, which changes nothing;
  the softmax is exp of the score less the maximum over the row sum of those from zero; the [240000, 8, 32] product with
  the values is reshaped row-major, so column j of the result is head j / 32, place j % 32; the gate is one number
  broadcast; the output is (x + P) + b against x + (P + b).
-/
import proofs.«175260_j20066087207295_2_alg».proof.Proof.Gen.ReferenceIdeal.Read
import proofs.«175260_j20066087207295_2_alg».proof.Proof.Spec
import proofs.«175260_j20066087207295_2_alg».proof.Proof.LibRowIndex
import proofs.«175260_j20066087207295_2_alg».proof.Proof.LibRowMax

noncomputable section

namespace Cert.ReferenceIdeal.RefVal

open Cert.ReferenceIdeal Cert.ReferenceIdeal.Gen Cert.ReferenceIdeal.Read Cert.Hyb Cert.Lib.RowIndex Idealize.ShloMosaic Idealize.ShloMosaic.ValueIdx

variable (x0 : (⟨S20000x256, .f32⟩ : BufTy).Contents (Elt Ideal)) (x1 : (⟨S2x240000, .i32⟩ : BufTy).Contents (Elt Ideal))
  (x2 : (⟨S240000x64, .f32⟩ : BufTy).Contents (Elt Ideal)) (x3 : (⟨S240000, .f32⟩ : BufTy).Contents (Elt Ideal))
  (x4 : (⟨S64x256, .f32⟩ : BufTy).Contents (Elt Ideal)) (x5 : (⟨S256, .f32⟩ : BufTy).Contents (Elt Ideal))
  (x6 : (⟨S256x256, .f32⟩ : BufTy).Contents (Elt Ideal)) (x7 x8 x9 : (⟨S256, .f32⟩ : BufTy).Contents (Elt Ideal))
  (x10 : (⟨S256x256, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal))
  (x14 : (⟨S256x256, .f32⟩ : BufTy).Contents (Elt Ideal)) (x15 : (⟨S256, .f32⟩ : BufTy).Contents (Elt Ideal))
  (x16 : (⟨S256x256, .f32⟩ : BufTy).Contents (Elt Ideal)) (x17 : (⟨S256, .f32⟩ : BufTy).Contents (Elt Ideal))
  (x18 : (⟨S1, .f32⟩ : BufTy).Contents (Elt Ideal))

namespace B

/-- The left operand index of the output product at row p, contracted coordinate k. -/
theorem lidx113 (p : Fin 20000) (j k : Fin 256) : lidx_main_v113 (ix2 p j) k = ix2 p k :=
  funext fun a => Fin.ext (by match a with | ⟨0, _⟩ => rfl | ⟨1, _⟩ => rfl)

/-- The right operand index of the output product at column j, contracted coordinate k. -/
theorem ridx113 (p : Fin 20000) (j k : Fin 256) : ridx_main_v113 (ix2 p j) k = ix2 k j :=
  funext fun a => Fin.ext (by match a with | ⟨0, _⟩ => rfl | ⟨1, _⟩ => rfl)

/-- The bias row broadcast down the rows reads the bias at the column. -/
theorem idx116 (p : Fin 20000) (j : Fin 256) : idx_main_v115 (idx_main_v116 (ix2 p j)) = ix1 j :=
  funext fun a => Fin.ext (by match a with | ⟨0, _⟩ => rfl)

end B

/-- The output: the input plus the linearly mapped aggregate, (x + P) + b regrouped as x + (P + b). -/
theorem ref_out :
    @Eq (Mat 20000 256) (val_main_v117 (F := Ideal) x0 x1 x2 x3 x4 x5 x6 x7 x8 x9 x10 x11 x12 x13 x14 x15 x16 x17 x18)
      (outF x0 (val_main_v112 (F := Ideal) x0 x1 x2 x3 x4 x5 x6 x7 x8 x9 x10 x11 x12 x13 x14 x15 x18) x16
        (fun k : Fin 256 => x17 (ix1 k))) := by
  funext i
  obtain ⟨p, j, rfl⟩ : ∃ (p : Fin 20000) (j : Fin 256), i = ix2 p j := ⟨i 0, i 1, eq_ix2 i⟩
  rw [val_main_v117_apply, val_main_v114_apply, val_main_v113_apply, val_main_v116_apply, val_main_v115_apply]
  simp only [Ideal.addf_def, B.lidx113, B.ridx113, B.idx116]
  exact add_assoc _ _ _

namespace B

/-- The summed axis of the score product at edge e, head h, coordinate k. -/
theorem idx85 (e : Fin 240000) (h : Fin 8) (k : Fin 32) : idx_main_v85 (ix2 e h) k = ix3 e h k :=
  funext fun a => Fin.ext (by match a with | ⟨0, _⟩ => rfl | ⟨1, _⟩ => rfl | ⟨2, _⟩ => rfl)

/-- The cutoff broadcast over the heads reads the edge's cutoff. -/
theorem idx89 (e : Fin 240000) (h : Fin 8) : idx_main_v88 (idx_main_v89 (ix2 e h)) = ix1 e :=
  funext fun a => Fin.ext (by match a with | ⟨0, _⟩ => rfl)

/-- The scores from any two gathered matrices the query and key slabs hold: the head's dot product from zero, divided
    by the constant, times the cutoff. -/
theorem scores_core (Q K : Mat 240000 256)
    (hq : ∀ (e : Fin 240000) (h : Fin 8) (d : Fin 32),
      val_main_v69 (F := Ideal) x0 x1 x8 x9 x10 x11 (ix3 e h d) = Q (ix2 e (hcol h d)))
    (hk : ∀ (e : Fin 240000) (h : Fin 8) (d : Fin 32),
      val_main_v76 (F := Ideal) x0 x1 x8 x9 x12 x13 (ix3 e h d) = K (ix2 e (hcol h d))) :
    @Eq (Mat 240000 8) (val_main_v90 (F := Ideal) x0 x1 x3 x8 x9 x10 x11 x12 x13)
      (scores Q K (fun e : Fin 240000 => x3 (ix1 e))) := by
  funext i
  obtain ⟨e, h, rfl⟩ : ∃ (e : Fin 240000) (h : Fin 8), i = ix2 e h := ⟨i 0, i 1, eq_ix2 i⟩
  rw [val_main_v90_apply, val_main_v87_apply, val_main_v85_apply, val_main_v86_apply, val_main_v89_apply,
    val_main_v88_apply, idx89]
  refine congrArg (fun s => Ideal.div (lit 0x00000000#32 + s) (lit 0x40B504F3#32) * x3 (ix1 e))
    (Finset.sum_congr rfl fun k _ => ?_)
  rw [idx85, val_main_v84_apply, hq, hk]
  rfl

end B

namespace B

/-- The program's row maximum of the scores (a fold of max over the row from the word of minus infinity, then once more
    the maximum with that word) is the fold: the word is already below the fold that starts from it. -/
theorem rowmax (e : Fin 240000) :
    val_main_v93 (F := Ideal) x0 x1 x3 x8 x9 x10 x11 x12 x13 (ix1 e)
      = smax (val_main_v90 (F := Ideal) x0 x1 x3 x8 x9 x10 x11 x12 x13) e := by
  have hr : S240000x8.Reduces [1] S240000 := by decide
  rw [val_main_v93_apply, val_main_v92_apply, val_main_cst_14_apply]
  unfold val_main_v91
  generalize val_main_v90 (F := Ideal) x0 x1 x3 x8 x9 x10 x11 x12 x13 = S
  rw [Host.reduce_eq_fold_single (s := S240000x8) (t := S240000) (a := (1 : Fin 2)) (α := EReal) (u := S_)
    (FloatOps.maximumf (F := Ideal) (φ := .f32)) S (val_main_cst_13 (F := Ideal)) reducesTo_S240000x8_S240000_d1 hr h_S_ (ix1 e)]
  have hl : (S ∘ hr.lift (ix1 e)) = fun h : Fin 8 => S (ix2 e h) :=
    funext fun k => congrArg S (funext fun ax => Fin.ext (by
      match ax with
      | ⟨0, _⟩ => rfl
      | ⟨1, _⟩ => rfl))
  rw [hl]
  show max (lit 0xFF800000#32) (Finset.univ.fold max (lit 0xFF800000#32) (fun h : Fin 8 => S (ix2 e h)))
    = Finset.univ.fold max (lit 0xFF800000#32) (fun h : Fin 8 => S (ix2 e h))
  exact max_eq_right ((Finset.le_fold_max _).mpr (Or.inl le_rfl))

/-- The row maximum broadcast back over the heads reads the edge's maximum. -/
theorem idx95 (e : Fin 240000) (h : Fin 8) : idx_main_v94 (idx_main_v95 (ix2 e h)) = ix1 e :=
  funext fun a => Fin.ext (by match a with | ⟨0, _⟩ => rfl)

/-- The row sum broadcast back over the heads reads the edge's sum. -/
theorem idx100 (e : Fin 240000) (h : Fin 8) : idx_main_v99 (idx_main_v100 (ix2 e h)) = ix1 e :=
  funext fun a => Fin.ext (by match a with | ⟨0, _⟩ => rfl)

/-- The summed axis of the exponentials at edge e, head k. -/
theorem idx98 (e : Fin 240000) (k : Fin 8) : idx_main_v98 (ix1 e) k = ix2 e k :=
  funext fun a => Fin.ext (by match a with | ⟨0, _⟩ => rfl | ⟨1, _⟩ => rfl)

/-- The exponential of a score less its row's maximum. -/
theorem sexp_at (e : Fin 240000) (h : Fin 8) :
    val_main_v97 (F := Ideal) x0 x1 x3 x8 x9 x10 x11 x12 x13 (ix2 e h)
      = sexp (val_main_v90 (F := Ideal) x0 x1 x3 x8 x9 x10 x11 x12 x13) e h := by
  rw [val_main_v97_apply, val_main_v96_apply, val_main_v95_apply, val_main_v94_apply, idx95, rowmax]
  rfl

/-- The softmax over the heads of the program's own scores. -/
theorem attn_at (e : Fin 240000) (h : Fin 8) :
    val_main_v101 (F := Ideal) x0 x1 x3 x8 x9 x10 x11 x12 x13 (ix2 e h)
      = attn (val_main_v90 (F := Ideal) x0 x1 x3 x8 x9 x10 x11 x12 x13) e h := by
  rw [val_main_v101_apply, val_main_v100_apply, val_main_v99_apply, idx100, val_main_v98_apply, sexp_at]
  refine congrArg (fun s => Ideal.div (sexp (val_main_v90 (F := Ideal) x0 x1 x3 x8 x9 x10 x11 x12 x13) e h)
    (lit 0x00000000#32 + s)) (Finset.sum_congr rfl fun k _ => ?_)
  rw [idx98, sexp_at]

end B

namespace B

/-- Column d of the head of column j, for d the place of j in its head, is j. -/
theorem hcol_hd (j : Fin 256) (hj : j.val % 32 < 32) : hcol (hd j) ⟨j.val % 32, hj⟩ = j := by
  refine Fin.ext ?_
  show 32 * (j.val / 32) + j.val % 32 = j.val
  omega

/-- Row-major, entry (e, j) of the 240000 × 256 array is entry (e, j / 32, j % 32) of the 240000 × 8 × 32 one. -/
theorem idx105 (e : Fin 240000) (j : Fin 256) (hj : j.val % 32 < 32) :
    idx_main_v105 (ix2 e j) = ix3 e (hd j) (⟨j.val % 32, hj⟩ : Fin 32) := by
  have he := e.isLt
  have hj' := j.isLt
  refine funext fun a => Fin.ext ?_
  match a with
  | ⟨0, _⟩ => show (e.val * 256 + j.val) / 256 = e.val; omega
  | ⟨1, _⟩ => show (e.val * 256 + j.val) / 32 % 8 = j.val / 32; omega
  | ⟨2, _⟩ => show (e.val * 256 + j.val) % 32 = j.val % 32; omega

/-- A head's weight broadcast over the head's 32 columns reads the weight of the head. -/
theorem idx103 (e : Fin 240000) (h : Fin 8) (d : Fin 32) : idx_main_v102 (idx_main_v103 (ix3 e h d)) = ix2 e h :=
  funext fun a => Fin.ext (by match a with | ⟨0, _⟩ => rfl | ⟨1, _⟩ => rfl)

/-- The gate broadcast over the whole array reads the one gate entry. -/
theorem idx107 (e : Fin 240000) (j : Fin 256) : idx_main_v106 (idx_main_v107 (ix2 e j)) = ix1 (0 : Fin 1) :=
  funext fun a => Fin.ext (by match a with | ⟨0, _⟩ => rfl)

/-- The attention message from any three gathered matrices the query, key and value slabs hold: the softmax weight of
    the column's head times the value entry. -/
theorem msgattn_core (Q K V : Mat 240000 256)
    (hq : ∀ (e : Fin 240000) (h : Fin 8) (d : Fin 32),
      val_main_v69 (F := Ideal) x0 x1 x8 x9 x10 x11 (ix3 e h d) = Q (ix2 e (hcol h d)))
    (hk : ∀ (e : Fin 240000) (h : Fin 8) (d : Fin 32),
      val_main_v76 (F := Ideal) x0 x1 x8 x9 x12 x13 (ix3 e h d) = K (ix2 e (hcol h d)))
    (hv : ∀ (e : Fin 240000) (h : Fin 8) (d : Fin 32),
      val_main_v83 (F := Ideal) x0 x1 x8 x9 x14 x15 (ix3 e h d) = V (ix2 e (hcol h d)))
    (e : Fin 240000) (j : Fin 256) :
    val_main_v105 (F := Ideal) x0 x1 x3 x8 x9 x10 x11 x12 x13 x14 x15 (ix2 e j)
      = attn (scores Q K (fun e : Fin 240000 => x3 (ix1 e))) e (hd j) * V (ix2 e j) := by
  have hj : j.val % 32 < 32 := Nat.mod_lt _ (by decide)
  rw [val_main_v105_apply, idx105 e j hj, val_main_v104_apply, val_main_v103_apply, val_main_v102_apply, idx103, attn_at,
    hv, hcol_hd j hj, scores_core x0 x1 x3 x8 x9 x10 x11 x12 x13 Q K hq hk]
  rfl

/-- An edge's message from the weighted row P and any three gathered matrices: P plus gate times the attention
    message. -/
theorem combined_core (Q K V P : Mat 240000 256)
    (hq : ∀ (e : Fin 240000) (h : Fin 8) (d : Fin 32),
      val_main_v69 (F := Ideal) x0 x1 x8 x9 x10 x11 (ix3 e h d) = Q (ix2 e (hcol h d)))
    (hk : ∀ (e : Fin 240000) (h : Fin 8) (d : Fin 32),
      val_main_v76 (F := Ideal) x0 x1 x8 x9 x12 x13 (ix3 e h d) = K (ix2 e (hcol h d)))
    (hv : ∀ (e : Fin 240000) (h : Fin 8) (d : Fin 32),
      val_main_v83 (F := Ideal) x0 x1 x8 x9 x14 x15 (ix3 e h d) = V (ix2 e (hcol h d)))
    (hp : @Eq (Mat 240000 256) (val_main_v47 (F := Ideal) x0 x1 x2 x3 x4 x5 x6 x7 x8 x9) P) :
    @Eq (Mat 240000 256) (val_main_v109 (F := Ideal) x0 x1 x2 x3 x4 x5 x6 x7 x8 x9 x10 x11 x12 x13 x14 x15 x18)
      (fun j => P j + x18 (ix1 (0 : Fin 1))
        * (attn (scores Q K (fun e : Fin 240000 => x3 (ix1 e))) (j 0) (hd (j 1)) * V j)) := by
  funext i
  obtain ⟨e, j, rfl⟩ : ∃ (e : Fin 240000) (j : Fin 256), i = ix2 e j := ⟨i 0, i 1, eq_ix2 i⟩
  rw [val_main_v109_apply, val_main_v108_apply, val_main_v107_apply, val_main_v106_apply, idx107,
    msgattn_core x0 x1 x3 x8 x9 x10 x11 x12 x13 x14 x15 Q K V hq hk hv e j, hp]
  rfl

end B

/-- The reference's scores are the specification's, given what the gathered query and key slabs hold. -/
theorem ref_scores
    (hq : ∀ (e : Fin 240000) (h : Fin 8) (d : Fin 32),
      val_main_v69 (F := Ideal) x0 x1 x8 x9 x10 x11 (ix3 e h d)
        = (gath (lin (layerNorm x0 (fun k : Fin 256 => x8 (ix1 k)) (fun k : Fin 256 => x9 (ix1 k))) x10 (fun k : Fin 256 => x11 (ix1 k))) (val_main_v68 (F := Ideal) x1)) (ix2 e (hcol h d)))
    (hk : ∀ (e : Fin 240000) (h : Fin 8) (d : Fin 32),
      val_main_v76 (F := Ideal) x0 x1 x8 x9 x12 x13 (ix3 e h d)
        = (gath (lin (layerNorm x0 (fun k : Fin 256 => x8 (ix1 k)) (fun k : Fin 256 => x9 (ix1 k))) x12 (fun k : Fin 256 => x13 (ix1 k))) (val_main_v45 (F := Ideal) x1)) (ix2 e (hcol h d))) :
    @Eq (Mat 240000 8) (val_main_v90 (F := Ideal) x0 x1 x3 x8 x9 x10 x11 x12 x13)
      (scores (gath (lin (layerNorm x0 (fun k : Fin 256 => x8 (ix1 k)) (fun k : Fin 256 => x9 (ix1 k))) x10 (fun k : Fin 256 => x11 (ix1 k))) (val_main_v68 (F := Ideal) x1))
        (gath (lin (layerNorm x0 (fun k : Fin 256 => x8 (ix1 k)) (fun k : Fin 256 => x9 (ix1 k))) x12 (fun k : Fin 256 => x13 (ix1 k))) (val_main_v45 (F := Ideal) x1)) (fun e : Fin 240000 => x3 (ix1 e))) :=
  B.scores_core x0 x1 x3 x8 x9 x10 x11 x12 x13 _ _ hq hk

/-- The reference's softmax weights are the specification's. -/
theorem ref_attn
    (hq : ∀ (e : Fin 240000) (h : Fin 8) (d : Fin 32),
      val_main_v69 (F := Ideal) x0 x1 x8 x9 x10 x11 (ix3 e h d)
        = (gath (lin (layerNorm x0 (fun k : Fin 256 => x8 (ix1 k)) (fun k : Fin 256 => x9 (ix1 k))) x10 (fun k : Fin 256 => x11 (ix1 k))) (val_main_v68 (F := Ideal) x1)) (ix2 e (hcol h d)))
    (hk : ∀ (e : Fin 240000) (h : Fin 8) (d : Fin 32),
      val_main_v76 (F := Ideal) x0 x1 x8 x9 x12 x13 (ix3 e h d)
        = (gath (lin (layerNorm x0 (fun k : Fin 256 => x8 (ix1 k)) (fun k : Fin 256 => x9 (ix1 k))) x12 (fun k : Fin 256 => x13 (ix1 k))) (val_main_v45 (F := Ideal) x1)) (ix2 e (hcol h d)))
    (e : Fin 240000) (h : Fin 8) :
    val_main_v101 (F := Ideal) x0 x1 x3 x8 x9 x10 x11 x12 x13 (ix2 e h)
      = attn (scores (gath (lin (layerNorm x0 (fun k : Fin 256 => x8 (ix1 k)) (fun k : Fin 256 => x9 (ix1 k))) x10 (fun k : Fin 256 => x11 (ix1 k))) (val_main_v68 (F := Ideal) x1))
        (gath (lin (layerNorm x0 (fun k : Fin 256 => x8 (ix1 k)) (fun k : Fin 256 => x9 (ix1 k))) x12 (fun k : Fin 256 => x13 (ix1 k))) (val_main_v45 (F := Ideal) x1)) (fun e : Fin 240000 => x3 (ix1 e))) e h := by
  rw [B.attn_at, B.scores_core x0 x1 x3 x8 x9 x10 x11 x12 x13 _ _ hq hk]

/-- The reference's attention message: the softmax weight of the column's head times the gathered value entry. -/
theorem ref_msgattn
    (hq : ∀ (e : Fin 240000) (h : Fin 8) (d : Fin 32),
      val_main_v69 (F := Ideal) x0 x1 x8 x9 x10 x11 (ix3 e h d)
        = (gath (lin (layerNorm x0 (fun k : Fin 256 => x8 (ix1 k)) (fun k : Fin 256 => x9 (ix1 k))) x10 (fun k : Fin 256 => x11 (ix1 k))) (val_main_v68 (F := Ideal) x1)) (ix2 e (hcol h d)))
    (hk : ∀ (e : Fin 240000) (h : Fin 8) (d : Fin 32),
      val_main_v76 (F := Ideal) x0 x1 x8 x9 x12 x13 (ix3 e h d)
        = (gath (lin (layerNorm x0 (fun k : Fin 256 => x8 (ix1 k)) (fun k : Fin 256 => x9 (ix1 k))) x12 (fun k : Fin 256 => x13 (ix1 k))) (val_main_v45 (F := Ideal) x1)) (ix2 e (hcol h d)))
    (hv : ∀ (e : Fin 240000) (h : Fin 8) (d : Fin 32),
      val_main_v83 (F := Ideal) x0 x1 x8 x9 x14 x15 (ix3 e h d)
        = (gath (lin (layerNorm x0 (fun k : Fin 256 => x8 (ix1 k)) (fun k : Fin 256 => x9 (ix1 k))) x14 (fun k : Fin 256 => x15 (ix1 k))) (val_main_v45 (F := Ideal) x1)) (ix2 e (hcol h d))) :
    @Eq (Mat 240000 256) (val_main_v105 (F := Ideal) x0 x1 x3 x8 x9 x10 x11 x12 x13 x14 x15)
      (fun j => attn (scores (gath (lin (layerNorm x0 (fun k : Fin 256 => x8 (ix1 k)) (fun k : Fin 256 => x9 (ix1 k))) x10 (fun k : Fin 256 => x11 (ix1 k))) (val_main_v68 (F := Ideal) x1))
        (gath (lin (layerNorm x0 (fun k : Fin 256 => x8 (ix1 k)) (fun k : Fin 256 => x9 (ix1 k))) x12 (fun k : Fin 256 => x13 (ix1 k))) (val_main_v45 (F := Ideal) x1)) (fun e : Fin 240000 => x3 (ix1 e))) (j 0) (hd (j 1))
        * (gath (lin (layerNorm x0 (fun k : Fin 256 => x8 (ix1 k)) (fun k : Fin 256 => x9 (ix1 k))) x14 (fun k : Fin 256 => x15 (ix1 k))) (val_main_v45 (F := Ideal) x1)) j) := by
  funext i
  obtain ⟨e, j, rfl⟩ : ∃ (e : Fin 240000) (j : Fin 256), i = ix2 e j := ⟨i 0, i 1, eq_ix2 i⟩
  exact B.msgattn_core x0 x1 x3 x8 x9 x10 x11 x12 x13 x14 x15 _ _ _ hq hk hv e j

/-- The reference's edge messages are the specification's. -/
theorem ref_combined
    (hq : ∀ (e : Fin 240000) (h : Fin 8) (d : Fin 32),
      val_main_v69 (F := Ideal) x0 x1 x8 x9 x10 x11 (ix3 e h d)
        = (gath (lin (layerNorm x0 (fun k : Fin 256 => x8 (ix1 k)) (fun k : Fin 256 => x9 (ix1 k))) x10 (fun k : Fin 256 => x11 (ix1 k))) (val_main_v68 (F := Ideal) x1)) (ix2 e (hcol h d)))
    (hk : ∀ (e : Fin 240000) (h : Fin 8) (d : Fin 32),
      val_main_v76 (F := Ideal) x0 x1 x8 x9 x12 x13 (ix3 e h d)
        = (gath (lin (layerNorm x0 (fun k : Fin 256 => x8 (ix1 k)) (fun k : Fin 256 => x9 (ix1 k))) x12 (fun k : Fin 256 => x13 (ix1 k))) (val_main_v45 (F := Ideal) x1)) (ix2 e (hcol h d)))
    (hv : ∀ (e : Fin 240000) (h : Fin 8) (d : Fin 32),
      val_main_v83 (F := Ideal) x0 x1 x8 x9 x14 x15 (ix3 e h d)
        = (gath (lin (layerNorm x0 (fun k : Fin 256 => x8 (ix1 k)) (fun k : Fin 256 => x9 (ix1 k))) x14 (fun k : Fin 256 => x15 (ix1 k))) (val_main_v45 (F := Ideal) x1)) (ix2 e (hcol h d)))
    (hp : @Eq (Mat 240000 256) (val_main_v47 (F := Ideal) x0 x1 x2 x3 x4 x5 x6 x7 x8 x9)
      (fun j => gath (layerNorm x0 (fun k : Fin 256 => x8 (ix1 k)) (fun k : Fin 256 => x9 (ix1 k))) (val_main_v45 (F := Ideal) x1) j
        * wphys x2 x4 (fun k : Fin 256 => x5 (ix1 k)) x6 (fun k : Fin 256 => x7 (ix1 k)) (fun e : Fin 240000 => x3 (ix1 e)) j)) :
    @Eq (Mat 240000 256) (val_main_v109 (F := Ideal) x0 x1 x2 x3 x4 x5 x6 x7 x8 x9 x10 x11 x12 x13 x14 x15 x18)
      (messages x0 (val_main_v68 (F := Ideal) x1) (val_main_v45 (F := Ideal) x1) x2 (fun e : Fin 240000 => x3 (ix1 e))
        x4 (fun k : Fin 256 => x5 (ix1 k)) x6 (fun k : Fin 256 => x7 (ix1 k)) (fun k : Fin 256 => x8 (ix1 k)) (fun k : Fin 256 => x9 (ix1 k))
        x10 (fun k : Fin 256 => x11 (ix1 k)) x12 (fun k : Fin 256 => x13 (ix1 k)) x14 (fun k : Fin 256 => x15 (ix1 k))
        (x18 (ix1 (0 : Fin 1)))) :=
  B.combined_core x0 x1 x2 x3 x4 x5 x6 x7 x8 x9 x10 x11 x12 x13 x14 x15 x18 _ _ _ _ hq hk hv hp

end Cert.ReferenceIdeal.RefVal

end
-- ==== Proof.RefFinal.lean ====
/-
  The reference's result is the specification's function of the arguments.

  The result is the input plus a linear map of the aggregate; the aggregate is the sum of the edge messages into their row
  nodes, kept as the one scatter-add it is; the edge messages are the specification's messages of the arguments.
-/
import proofs.«175260_j20066087207295_2_alg».proof.Proof.RefA
import proofs.«175260_j20066087207295_2_alg».proof.Proof.RefB

noncomputable section

namespace Cert.ReferenceIdeal.RefVal

open Cert.ReferenceIdeal Cert.ReferenceIdeal.Gen Cert.ReferenceIdeal.Read Cert.Hyb Cert.Lib.RowIndex Idealize.ShloMosaic
  Idealize.ShloMosaic.ValueIdx A

namespace F

/-- The key row of an edge's col node, over the col index words the normalised rows are gathered at. -/
theorem ke45 (x0 : (⟨S20000x256, .f32⟩ : BufTy).Contents (Elt Ideal)) (x1 : (⟨S2x240000, .i32⟩ : BufTy).Contents (Elt Ideal)) (x8 x9 : (⟨S256, .f32⟩ : BufTy).Contents (Elt Ideal)) (x12 : (⟨S256x256, .f32⟩ : BufTy).Contents (Elt Ideal)) (x13 : (⟨S256, .f32⟩ : BufTy).Contents (Elt Ideal)) (e : Fin 240000) (h : Fin 8) (d : Fin 32) :
    val_main_v76 (F := Ideal) x0 x1 x8 x9 x12 x13 (ix3 e h d)
      = gath (lin (layerNorm x0 (lwf x8) (lwf x9)) x12 (lwf x13)) (val_main_v45 (F := Ideal) x1) (ix2 e (hcol h d)) :=
  (ref_ke x0 x1 x8 x9 x12 x13 e h d).trans (by rw [ref_col_eq_k])

/-- The value row of an edge's col node, over the same col index words. -/
theorem ve45 (x0 : (⟨S20000x256, .f32⟩ : BufTy).Contents (Elt Ideal)) (x1 : (⟨S2x240000, .i32⟩ : BufTy).Contents (Elt Ideal)) (x8 x9 : (⟨S256, .f32⟩ : BufTy).Contents (Elt Ideal)) (x14 : (⟨S256x256, .f32⟩ : BufTy).Contents (Elt Ideal)) (x15 : (⟨S256, .f32⟩ : BufTy).Contents (Elt Ideal)) (e : Fin 240000) (h : Fin 8) (d : Fin 32) :
    val_main_v83 (F := Ideal) x0 x1 x8 x9 x14 x15 (ix3 e h d)
      = gath (lin (layerNorm x0 (lwf x8) (lwf x9)) x14 (lwf x15)) (val_main_v45 (F := Ideal) x1) (ix2 e (hcol h d)) :=
  (ref_ve x0 x1 x8 x9 x14 x15 e h d).trans (by rw [ref_col_eq_v])

/-- The result from the edge messages and the output stage: the scatter-add's updates are replaced by the specification's
    messages, the scatter-add itself is kept whole. -/
theorem result_of (x0 : (⟨S20000x256, .f32⟩ : BufTy).Contents (Elt Ideal)) (x1 : (⟨S2x240000, .i32⟩ : BufTy).Contents (Elt Ideal)) (x2 : (⟨S240000x64, .f32⟩ : BufTy).Contents (Elt Ideal)) (x3 : (⟨S240000, .f32⟩ : BufTy).Contents (Elt Ideal)) (x4 : (⟨S64x256, .f32⟩ : BufTy).Contents (Elt Ideal)) (x5 : (⟨S256, .f32⟩ : BufTy).Contents (Elt Ideal)) (x6 : (⟨S256x256, .f32⟩ : BufTy).Contents (Elt Ideal))
    (x7 x8 x9 : (⟨S256, .f32⟩ : BufTy).Contents (Elt Ideal)) (x10 : (⟨S256x256, .f32⟩ : BufTy).Contents (Elt Ideal)) (x11 : (⟨S256, .f32⟩ : BufTy).Contents (Elt Ideal))
    (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal))
    (x16 : (⟨S256x256, .f32⟩ : BufTy).Contents (Elt Ideal)) (x17 : (⟨S256, .f32⟩ : BufTy).Contents (Elt Ideal)) (x18 : (⟨S1, .f32⟩ : BufTy).Contents (Elt Ideal))
    (h_combined : @Eq (Mat 240000 256) (val_main_v109 (F := Ideal) x0 x1 x2 x3 x4 x5 x6 x7 x8 x9 x10 x11 x12 x13 x14 x15 x18)
        (messages x0 (val_main_v68 (F := Ideal) x1) (val_main_v45 (F := Ideal) x1) x2 (fun e : Fin 240000 => x3 (ix1 e)) x4 (lwf x5) x6
          (lwf x7) (lwf x8) (lwf x9) x10 (lwf x11) x12 (lwf x13) x14 (lwf x15) (x18 (ix1 (0 : Fin 1)))))
    (h_out : @Eq (Mat 20000 256) (val_main_v117 (F := Ideal) x0 x1 x2 x3 x4 x5 x6 x7 x8 x9 x10 x11 x12 x13 x14 x15 x16 x17 x18)
        (outF x0 (val_main_v112 (F := Ideal) x0 x1 x2 x3 x4 x5 x6 x7 x8 x9 x10 x11 x12 x13 x14 x15 x18) x16 (lwf x17))) :
    @Eq (Mat 20000 256) (val_main_v117 (F := Ideal) x0 x1 x2 x3 x4 x5 x6 x7 x8 x9 x10 x11 x12 x13 x14 x15 x16 x17 x18)
      (outF x0
        (Host.scatterAdd scatter_S20000x256_S240000x1_S240000x256_1_0_0_1 (F := Ideal) (φ := .f32) (val_main_v110 (F := Ideal))
          (val_main_v111 (F := Ideal) x1)
          (messages x0 (val_main_v68 (F := Ideal) x1) (val_main_v45 (F := Ideal) x1) x2 (fun e : Fin 240000 => x3 (ix1 e)) x4 (lwf x5) x6
          (lwf x7) (lwf x8) (lwf x9) x10 (lwf x11) x12 (lwf x13) x14 (lwf x15) (x18 (ix1 (0 : Fin 1)))))
        x16 (lwf x17)) := by
  refine h_out.trans ?_
  refine congrArg (fun a : Mat 20000 256 => outF x0 a x16 (lwf x17)) ?_
  unfold val_main_v112
  exact congrArg (Host.scatterAdd scatter_S20000x256_S240000x1_S240000x256_1_0_0_1 (F := Ideal) (φ := .f32) (val_main_v110 (F := Ideal))
    (val_main_v111 (F := Ideal) x1)) h_combined

end F

/-- The reference's result: the input plus the linearly mapped sum, into the row nodes, of the specification's edge
    messages. -/
theorem ref_result (x0 : (⟨S20000x256, .f32⟩ : BufTy).Contents (Elt Ideal)) (x1 : (⟨S2x240000, .i32⟩ : BufTy).Contents (Elt Ideal)) (x2 : (⟨S240000x64, .f32⟩ : BufTy).Contents (Elt Ideal)) (x3 : (⟨S240000, .f32⟩ : BufTy).Contents (Elt Ideal)) (x4 : (⟨S64x256, .f32⟩ : BufTy).Contents (Elt Ideal)) (x5 : (⟨S256, .f32⟩ : BufTy).Contents (Elt Ideal)) (x6 : (⟨S256x256, .f32⟩ : BufTy).Contents (Elt Ideal))
    (x7 x8 x9 : (⟨S256, .f32⟩ : BufTy).Contents (Elt Ideal)) (x10 : (⟨S256x256, .f32⟩ : BufTy).Contents (Elt Ideal)) (x11 : (⟨S256, .f32⟩ : BufTy).Contents (Elt Ideal))
    (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal))
    (x16 : (⟨S256x256, .f32⟩ : BufTy).Contents (Elt Ideal)) (x17 : (⟨S256, .f32⟩ : BufTy).Contents (Elt Ideal)) (x18 : (⟨S1, .f32⟩ : BufTy).Contents (Elt Ideal)) :
    @Eq (Mat 20000 256) (val_main_v117 (F := Ideal) x0 x1 x2 x3 x4 x5 x6 x7 x8 x9 x10 x11 x12 x13 x14 x15 x16 x17 x18)
      (outF x0
        (Host.scatterAdd scatter_S20000x256_S240000x1_S240000x256_1_0_0_1 (F := Ideal) (φ := .f32) (val_main_v110 (F := Ideal))
          (val_main_v111 (F := Ideal) x1)
          (messages x0 (val_main_v68 (F := Ideal) x1) (val_main_v45 (F := Ideal) x1) x2 (fun e : Fin 240000 => x3 (ix1 e)) x4 (lwf x5) x6
          (lwf x7) (lwf x8) (lwf x9) x10 (lwf x11) x12 (lwf x13) x14 (lwf x15) (x18 (ix1 (0 : Fin 1)))))
        x16 (lwf x17)) :=
  F.result_of x0 x1 x2 x3 x4 x5 x6 x7 x8 x9 x10 x11 x12 x13 x14 x15 x16 x17 x18
    (ref_combined x0 x1 x2 x3 x4 x5 x6 x7 x8 x9 x10 x11 x12 x13 x14 x15 x18
      (fun e h d => ref_qe x0 x1 x8 x9 x10 x11 e h d) (fun e h d => F.ke45 x0 x1 x8 x9 x12 x13 e h d)
      (fun e h d => F.ve45 x0 x1 x8 x9 x14 x15 e h d) (ref_msgphys x0 x1 x2 x3 x4 x5 x6 x7 x8 x9))
    (ref_out x0 x1 x2 x3 x4 x5 x6 x7 x8 x9 x10 x11 x12 x13 x14 x15 x16 x17 x18)

end Cert.ReferenceIdeal.RefVal

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.Value0.lean ====
/-
  The node stage's values: the four arrays its output windows end holding are the normalised rows and the three
  256-column slices of the normalised rows' linear image, index by index.

  One grid point handles 2000 rows. A row is normalised from that row alone (its mean and variance are sums over its own
  256 entries), so the block's normalised rows are the array's rows 2000 t … 2000 t + 1999 normalised; the product of
  the normalised block with the 256-by-768 weight block plus the bias row, cut at column offsets 0, 256 and 512, is
  per slice the linear map with that slice of the weights' columns and of the bias. The feature window and the four
  result windows move together, the affine rows, the weights and the bias stay whole; the ten blocks cover the rows.
-/
import proofs.«175260_j20066087207295_2_alg».proof.Proof.OutsI
import proofs.«175260_j20066087207295_2_alg».proof.Proof.Spec
import proofs.«175260_j20066087207295_2_alg».proof.Proof.LibPlainDot
import proofs.«175260_j20066087207295_2_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Hand Cert.Hyb Idealize.ShloMosaic Idealize.ShloMosaic.ValueIdx
open Idealize.ShloMosaic.Pipeline (Dat)
open Idealize.ShloMosaic.TcCoe

namespace N0

theorem hz : (![0, 0] : Fin 2 → Nat) = fun _ => 0 := funext fun a => by fin_cases a <;> rfl

/-! ## Normalising a row uses that row alone -/

theorem rowMean_row {n m : Nat} (A : Mat n 256) (B : Mat m 256) (i : Fin n) (r : Fin m)
    (h : ∀ k, A (ix2 i k) = B (ix2 r k)) : rowMean A i = rowMean B r := by
  unfold rowMean
  exact congrArg (fun z => Ideal.div (lit 0x00000000#32 + z) (lit 0x43800000#32)) (Finset.sum_congr rfl fun k _ => h k)

theorem centred_row {n m : Nat} (A : Mat n 256) (B : Mat m 256) (i : Fin n) (r : Fin m)
    (h : ∀ k, A (ix2 i k) = B (ix2 r k)) (k : Fin 256) : centred A i k = centred B r k := by
  unfold centred
  rw [h k, rowMean_row A B i r h]

theorem rowVar_row {n m : Nat} (A : Mat n 256) (B : Mat m 256) (i : Fin n) (r : Fin m)
    (h : ∀ k, A (ix2 i k) = B (ix2 r k)) : rowVar A i = rowVar B r := by
  unfold rowVar
  exact congrArg (fun z => Ideal.div (lit 0x00000000#32 + z) (lit 0x43800000#32))
    (Finset.sum_congr rfl fun k _ => by rw [centred_row A B i r h k])

/-- Two matrices that agree on a row have the same normalised row. -/
theorem layerNorm_row {n m : Nat} (A : Mat n 256) (B : Mat m 256) (lw lb lw' lb' : Fin 256 → EReal) (i : Fin n) (r : Fin m)
    (h : ∀ k, A (ix2 i k) = B (ix2 r k)) (hw : ∀ k, lw k = lw' k) (hb : ∀ k, lb k = lb' k) (j : Fin 256) :
    layerNorm A lw lb (ix2 i j) = layerNorm B lw' lb' (ix2 r j) := by
  show centred A i j * Ideal.rsqrt (rowVar A i + lit 0x3727C5AC#32) * lw j + lb j
    = centred B r j * Ideal.rsqrt (rowVar B r + lit 0x3727C5AC#32) * lw' j + lb' j
  rw [centred_row A B i r h j, rowVar_row A B i r h, hw j, hb j]

/-! ## The body's arithmetic at an index -/

/-- A sum from the zero word is the sum. -/
theorem zero_word_add (s : EReal) : lit 0x00000000#32 + s = s := by
  show Ideal.ofBits .f32 0x00000000#32 + s = s
  rw [Ideal.ofBits_zero_f32, zero_add]

/-- The row sums kept as a column, over the splat 256, broadcast over the columns, at (p, j): the row's mean. -/
theorem mean_apply (x : FVec Ideal S2000x256 .f32) (p : Fin 2000) (j : Fin 256) :
    broadcastTo S2000x256 (divf (shapeCast S2000x1 (multiReduction (F := Ideal) .add [1] S2000 x 0x00000000#32 reduces_S2000x256_S2000 (.inl rfl) rfl) shapeCasts_S2000_S2000x1) (broadcast S2000x1 (Scalar.ofBits (F := Ideal) .f32 0x43800000#32))) broadcasts_S2000x1_S2000x256 (ix2 p j)
      = rowMean (n := 2000) x p := by
  refine (Cert.Keepdims.broadcastTo_a1_ab_apply _ broadcasts_S2000x1_S2000x256 p j).trans ?_
  show Ideal.div (shapeCast S2000x1 (multiReduction (F := Ideal) .add [1] S2000 x 0x00000000#32 reduces_S2000x256_S2000 (.inl rfl) rfl) shapeCasts_S2000_S2000x1 (ix2 p (0 : Fin 1))) (lit 0x43800000#32)
    = Ideal.div (lit 0x00000000#32 + ∑ k : Fin 256, x (ix2 p k)) (lit 0x43800000#32)
  rw [zero_word_add]
  refine congrArg (fun z => Ideal.div z (lit 0x43800000#32)) ?_
  exact (Cert.Keepdims.shapeCast_a_a1_apply _ shapeCasts_S2000_S2000x1 p 0).trans
    (Cert.Keepdims.sum_axis1_apply x _ reduces_S2000x256_S2000 (.inl rfl) rfl p)

/-- The block less its rows' means, as the body computes it. -/
abbrev cen (x : FVec Ideal S2000x256 .f32) : FVec Ideal S2000x256 .f32 :=
  subf x (broadcastTo S2000x256 (divf (shapeCast S2000x1 (multiReduction (F := Ideal) .add [1] S2000 x 0x00000000#32 reduces_S2000x256_S2000 (.inl rfl) rfl) shapeCasts_S2000_S2000x1) (broadcast S2000x1 (Scalar.ofBits (F := Ideal) .f32 0x43800000#32))) broadcasts_S2000x1_S2000x256)

theorem cen_apply (x : FVec Ideal S2000x256 .f32) (p : Fin 2000) (k : Fin 256) :
    cen x (ix2 p k) = centred (n := 2000) x p k :=
  congrArg (fun z => x (ix2 p k) - z) (mean_apply x p k)

/-- The rsqrt of the rows' variances plus eps, kept as a column and broadcast over the columns, at (p, j). -/
theorem rstd_apply (x : FVec Ideal S2000x256 .f32) (p : Fin 2000) (j : Fin 256) :
    broadcastTo S2000x256 (rsqrt (addf (divf (shapeCast S2000x1 (multiReduction (F := Ideal) .add [1] S2000 (mulf (cen x) (cen x)) 0x00000000#32 reduces_S2000x256_S2000 (.inl rfl) rfl) shapeCasts_S2000_S2000x1) (broadcast S2000x1 (Scalar.ofBits (F := Ideal) .f32 0x43800000#32))) (broadcast S2000x1 (Scalar.ofBits (F := Ideal) .f32 0x3727C5AC#32)))) broadcasts_S2000x1_S2000x256 (ix2 p j)
      = Ideal.rsqrt (rowVar (n := 2000) x p + lit 0x3727C5AC#32) := by
  refine (Cert.Keepdims.broadcastTo_a1_ab_apply _ broadcasts_S2000x1_S2000x256 p j).trans ?_
  show Ideal.rsqrt (Ideal.div (shapeCast S2000x1 (multiReduction (F := Ideal) .add [1] S2000 (mulf (cen x) (cen x)) 0x00000000#32 reduces_S2000x256_S2000 (.inl rfl) rfl) shapeCasts_S2000_S2000x1 (ix2 p (0 : Fin 1))) (lit 0x43800000#32) + lit 0x3727C5AC#32)
    = Ideal.rsqrt (Ideal.div (lit 0x00000000#32 + ∑ k : Fin 256, centred (n := 2000) x p k * centred (n := 2000) x p k) (lit 0x43800000#32) + lit 0x3727C5AC#32)
  rw [zero_word_add]
  refine congrArg (fun z => Ideal.rsqrt (Ideal.div z (lit 0x43800000#32) + lit 0x3727C5AC#32)) ?_
  refine ((Cert.Keepdims.shapeCast_a_a1_apply _ shapeCasts_S2000_S2000x1 p 0).trans
    (Cert.Keepdims.sum_axis1_apply (mulf (cen x) (cen x)) _ reduces_S2000x256_S2000 (.inl rfl) rfl p)).trans ?_
  exact Finset.sum_congr rfl fun k _ => congrArg₂ (· * ·) (cen_apply x p k) (cen_apply x p k)

/-- An affine row broadcast over the rows, at (p, j): the row's entry j. -/
theorem affine_apply (w : Vec Ideal S1x256 .f32) (p : Fin 2000) (j : Fin 256) :
    broadcastTo S2000x256 (shapeCast S1x256 w shapeCasts_S1x256_S1x256) broadcasts_S1x256_S2000x256 (ix2 p j) = w (ix2 (0 : Fin 1) j) := by
  rw [shapeCast_self]
  exact broadcastTo_1b_ab_apply w broadcasts_S1x256_S2000x256 p j

/-- The normalised block at (p, j). -/
theorem pay3_apply (x : Vec Ideal S2000x256 .f32) (w b : Vec Ideal S1x256 .f32) (p : Fin 2000) (j : Fin 256) :
    k0_pay3 (F := Ideal) x w b (ix2 p j)
      = layerNorm (n := 2000) x (fun k => w (ix2 (0 : Fin 1) k)) (fun k => b (ix2 (0 : Fin 1) k)) (ix2 p j) := by
  unfold k0_pay3
  exact congrArg₂ (· + ·) (congrArg₂ (· * ·) (congrArg₂ (· * ·) (cen_apply x p j) (rstd_apply x p j)) (affine_apply w p j))
    (affine_apply b p j)

/-- The product block plus the bias row, at (p, c). -/
theorem pay5_apply (x : Vec Ideal S2000x256 .f32) (w b : Vec Ideal S1x256 .f32) (W : Vec Ideal S256x768 .f32)
    (bias : Vec Ideal S1x768 .f32) (p : Fin 2000) (c : Fin 768) :
    k0_pay5 (F := Ideal) x w b W bias (ix2 p c)
      = (∑ k : Fin 256, k0_pay3 (F := Ideal) x w b (ix2 p k) * W (ix2 k c)) + bias (ix2 (0 : Fin 1) c) := by
  unfold k0_pay5
  simp only [shapeCast_self]
  rw [addf_apply]
  refine congrArg₂ (· + ·) ?_ (broadcastTo_1b_ab_apply bias broadcasts_S1x768_S2000x768 p c)
  exact Cert.PlainDot.matmul_zero_apply 2000 256 768 (φ₁ := .bf16) (φ₂ := .bf16) none _ _ (ix2 p c)

/-- The three column slices of a 768-column block, at (p, j). -/
theorem slice0_apply (v : FVec Ideal S2000x768 .f32) (p : Fin 2000) (j : Fin 256) (k : Fin 768) (hk : k.val = 256 * 0 + j.val) :
    extractStridedSlice S2000x256 ![0, 0] v slices_S2000x768_o0_0_S2000x256 (ix2 p j) = v (ix2 p k) :=
  slice2_axis1_apply 0 v slices_S2000x768_o0_0_S2000x256 p j k (by omega)
theorem slice1_apply (v : FVec Ideal S2000x768 .f32) (p : Fin 2000) (j : Fin 256) (k : Fin 768) (hk : k.val = 256 * 1 + j.val) :
    k0_pay1 (F := Ideal) v (ix2 p j) = v (ix2 p k) :=
  slice2_axis1_apply 256 v slices_S2000x768_o0_256_S2000x256 p j k (by omega)
theorem slice2_apply (v : FVec Ideal S2000x768 .f32) (p : Fin 2000) (j : Fin 256) (k : Fin 768) (hk : k.val = 256 * 2 + j.val) :
    k0_pay2 (F := Ideal) v (ix2 p j) = v (ix2 p k) :=
  slice2_axis1_apply 512 v slices_S2000x768_o0_512_S2000x256 p j k (by omega)

/-! ## From blocks to the arrays -/

variable (V : (c : Dev nD) → (b : Ref sig .tc) → Buf (Elt Ideal) ((c : Thread nD τ).loc b))

/-- The five arrays the node stage reads, as it finds them. -/
abbrev aX (c : Dev nD) : Mat 20000 256 := V c (Pipeline.arrRef spec0 0)
abbrev aLW (c : Dev nD) : Fin 256 → EReal := fun k : Fin 256 => V c (Pipeline.arrRef spec0 1) (ix2 (0 : Fin 1) k)
abbrev aLB (c : Dev nD) : Fin 256 → EReal := fun k : Fin 256 => V c (Pipeline.arrRef spec0 2) (ix2 (0 : Fin 1) k)
abbrev aW (c : Dev nD) : Mat 256 768 := V c (Pipeline.arrRef spec0 3)
abbrev aB (c : Dev nD) : Fin 768 → EReal := fun k : Fin 768 => V c (Pipeline.arrRef spec0 4) (ix2 (0 : Fin 1) k)

theorem N_eq : cfg0.N = 10 := by decide

/-- The printed index maps of the input windows over the grid: the feature window is at block (t, 0), the affine rows,
    the weights and the bias row at block (0, 0). -/
theorem idx_in : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The result windows are at block (t, 0). -/
theorem idx_out : ∀ t : Fin cfg0.N,
    win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The feature block at point t, at (p, j): the feature array at row 2000 t + p. -/
theorem blk0_apply (c : Dev nD) (t : Fin cfg0.N) (p : Fin 2000) (j : Fin 256) (r : Fin 20000)
    (hr : r.val = 2000 * t.val + p.val) :
    (iblk0 (F := Ideal) V c 0 t : Vec Ideal S2000x256 .f32) (ix2 p j) = aX V c (ix2 r j) := by
  obtain ⟨e0, e1, -⟩ := idx_in t
  show V c (Pipeline.arrRef spec0 0) (((cfg0.win 0).blk t).view.emb (ix2 p j)) = _
  refine congrArg (V c (Pipeline.arrRef spec0 0)) (funext fun a => Fin.ext ?_)
  match a with
  | ⟨0, _⟩ => show win0_0.index t (0 : Fin 2) * 2000 + 1 * p.val = r.val; rw [e0, hr]; omega
  | ⟨1, _⟩ => show win0_0.index t (1 : Fin 2) * 256 + 1 * j.val = j.val; rw [e1]; omega

/-- The weight row's block at every point is the weight row. -/
theorem blk1_apply (c : Dev nD) (t : Fin cfg0.N) (j : Fin 256) :
    (iblk0 (F := Ideal) V c 1 t : Vec Ideal S1x256 .f32) (ix2 (0 : Fin 1) j) = aLW V c j := by
  obtain ⟨-, -, e0, e1, -⟩ := idx_in t
  show V c (Pipeline.arrRef spec0 1) (((cfg0.win 1).blk t).view.emb (ix2 (0 : Fin 1) j)) = _
  refine congrArg (V c (Pipeline.arrRef spec0 1)) (funext fun a => Fin.ext ?_)
  match a with
  | ⟨0, _⟩ => show win0_1.index t (0 : Fin 2) * 1 + 1 * (0 : Fin 1).val = (0 : Fin 1).val; rw [e0]; rfl
  | ⟨1, _⟩ => show win0_1.index t (1 : Fin 2) * 256 + 1 * j.val = j.val; rw [e1]; omega

/-- The bias row's block at every point is the bias row. -/
theorem blk2_apply (c : Dev nD) (t : Fin cfg0.N) (j : Fin 256) :
    (iblk0 (F := Ideal) V c 2 t : Vec Ideal S1x256 .f32) (ix2 (0 : Fin 1) j) = aLB V c j := by
  obtain ⟨-, -, -, -, e0, e1, -⟩ := idx_in t
  show V c (Pipeline.arrRef spec0 2) (((cfg0.win 2).blk t).view.emb (ix2 (0 : Fin 1) j)) = _
  refine congrArg (V c (Pipeline.arrRef spec0 2)) (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 256 + 1 * j.val = j.val; rw [e1]; omega

/-- The projection weights' block at every point is the weight array. -/
theorem blk3_apply (c : Dev nD) (t : Fin cfg0.N) (k : Fin 256) (cc : Fin 768) :
    (iblk0 (F := Ideal) V c 3 t : Vec Ideal S256x768 .f32) (ix2 k cc) = aW V c (ix2 k cc) := by
  obtain ⟨-, -, -, -, -, -, e0, e1, -⟩ := idx_in t
  show V c (Pipeline.arrRef spec0 3) (((cfg0.win 3).blk t).view.emb (ix2 k cc)) = _
  refine congrArg (V c (Pipeline.arrRef spec0 3)) (funext fun a => Fin.ext ?_)
  match a with
  | ⟨0, _⟩ => show win0_3.index t (0 : Fin 2) * 256 + 1 * k.val = k.val; rw [e0]; omega
  | ⟨1, _⟩ => show win0_3.index t (1 : Fin 2) * 768 + 1 * cc.val = cc.val; rw [e1]; omega

/-- The projection bias's block at every point is the bias row. -/
theorem blk4_apply (c : Dev nD) (t : Fin cfg0.N) (cc : Fin 768) :
    (iblk0 (F := Ideal) V c 4 t : Vec Ideal S1x768 .f32) (ix2 (0 : Fin 1) cc) = aB V c cc := by
  obtain ⟨-, -, -, -, -, -, -, -, e0, e1⟩ := idx_in t
  show V c (Pipeline.arrRef spec0 4) (((cfg0.win 4).blk t).view.emb (ix2 (0 : Fin 1) cc)) = _
  refine congrArg (V c (Pipeline.arrRef spec0 4)) (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 768 + 1 * cc.val = cc.val; rw [e1]; omega

/-- The block's normalised rows are the array's rows 2000 t + p, normalised. -/
theorem ln_blk (c : Dev nD) (t : Fin cfg0.N) (p : Fin 2000) (j : Fin 256) (r : Fin 20000)
    (hr : r.val = 2000 * t.val + p.val) :
    k0_pay3 (F := Ideal) (iblk0 V c 0 t) (iblk0 V c 1 t) (iblk0 V c 2 t) (ix2 p j) = layerNorm (aX V c) (aLW V c) (aLB V c) (ix2 r j) :=
  (pay3_apply (iblk0 V c 0 t) (iblk0 V c 1 t) (iblk0 V c 2 t) p j).trans
    (layerNorm_row _ (aX V c) _ _ (aLW V c) (aLB V c) p r (fun k => blk0_apply V c t p k r hr)
      (fun k => blk1_apply V c t k) (fun k => blk2_apply V c t k) j)

/-- The product block at (p, 256 s + j) is slice s of the linear image at (2000 t + p, j). -/
theorem qkv_blk (c : Dev nD) (t : Fin cfg0.N) (s : Fin 3) (p : Fin 2000) (j : Fin 256) (cc : Fin 768) (r : Fin 20000)
    (hcc : cc.val = 256 * s.val + j.val) (hr : r.val = 2000 * t.val + p.val) :
    k0_pay5 (F := Ideal) (iblk0 V c 0 t) (iblk0 V c 1 t) (iblk0 V c 2 t) (iblk0 V c 3 t) (iblk0 V c 4 t) (ix2 p cc)
      = lin (layerNorm (aX V c) (aLW V c) (aLB V c)) (colSlice (aW V c) s) (rowSlice (aB V c) s) (ix2 r j) := by
  have hs : s.val < 3 := s.isLt
  have hj : j.val < 256 := j.isLt
  have hb : 256 * s.val + j.val < 768 := by clear hcc; omega
  obtain rfl : cc = ⟨256 * s.val + j.val, hb⟩ := Fin.ext hcc
  refine (pay5_apply (iblk0 V c 0 t) (iblk0 V c 1 t) (iblk0 V c 2 t) (iblk0 V c 3 t) (iblk0 V c 4 t) p _).trans ?_
  show _ = (∑ q : Fin 256, layerNorm (aX V c) (aLW V c) (aLB V c) (ix2 r q) * aW V c (ix2 q ⟨256 * s.val + j.val, hb⟩))
    + aB V c ⟨256 * s.val + j.val, hb⟩
  refine congrArg₂ (· + ·) (Finset.sum_congr rfl fun q _ => ?_) (blk4_apply V c t _)
  exact congrArg₂ (· * ·) (ln_blk V c t p q r hr) (blk3_apply V c t q _)

/-- What the body leaves in window 5's buffer. -/
theorem after_5 (c : Dev nD) (t : Fin cfg0.N) :
    (dat0 (F := Ideal) V c).after 5 t = out0_5 (iblk0 V c 0 t) (iblk0 V c 1 t) (iblk0 V c 2 t) := by
  dsimp only [dat0]

/-- What point t writes back through window 5 is block t of the normalised rows. -/
theorem flushed5_eq (c : Dev nD) (t : Fin cfg0.N) :
    (dat0 (F := Ideal) V c).flushed 5 t = ((cfg0.win 5).blk t).view.read (Elt Ideal) (layerNorm (aX V c) (aLW V c) (aLB V c)) := by
  show (cfg0.win 5).cut (grid0.coords t) ((dat0 (F := Ideal) V c).after 5 t) = _
  rw [after_5]
  unfold out0_5
  rw [View.canon_unit_zero hz]
  simp only [View.ld_unit_zero (S := S2000x256) hz, View.ld_unit_zero (S := S1x256) hz]
  obtain ⟨e0, e1, -⟩ := idx_out t
  have hN := N_eq
  have ht : t.val < 10 := hN ▸ t.isLt
  funext y
  have hy0 : (y 0).val < 2000 := (y 0).isLt
  have hy1 : (y 1).val < 256 := (y 1).isLt
  have hr : 2000 * t.val + (y 0).val < 20000 := by omega
  have hyx : (cfg0.win 5).xinj (grid0.coords t) y = ix2 (⟨(y 0).val, hy0⟩ : Fin 2000) (⟨(y 1).val, hy1⟩ : Fin 256) :=
    funext fun a => by match a with | ⟨0, _⟩ => rfl | ⟨1, _⟩ => rfl
  have hemb : ((cfg0.win 5).blk t).view.emb y = ix2 (⟨2000 * t.val + (y 0).val, hr⟩ : Fin 20000) (⟨(y 1).val, hy1⟩ : Fin 256) :=
    funext fun a => Fin.ext (by
      match a with
      | ⟨0, _⟩ => show win0_5.index t (0 : Fin 2) * 2000 + 1 * (y 0).val = 2000 * t.val + (y 0).val; rw [e0]; omega
      | ⟨1, _⟩ => show win0_5.index t (1 : Fin 2) * 256 + 1 * (y 1).val = (y 1).val; rw [e1]; omega)
  show k0_pay4 (F := Ideal) (iblk0 V c 0 t) (iblk0 V c 1 t) (iblk0 V c 2 t) ((cfg0.win 5).xinj (grid0.coords t) y)
      = (layerNorm (aX V c) (aLW V c) (aLB V c)) (((cfg0.win 5).blk t).view.emb y)
  rw [hyx, hemb]
  exact ln_blk V c t _ _ _ rfl

/-- An index of window 5's array is in point t's block iff each coordinate is in the block's range on its axis. -/
theorem mem_blk5 (t : Fin cfg0.N) (i : S20000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v22_0).slice (win0_5.rect t)).set ↔ _
  rw [View.set_slice_whole, Rect.mem_set_unit]
  exact Iff.rfl

/-- Window 5's ten blocks cover its array: row r is in block r / 2000. -/
theorem cover5 (i : S20000x256.Idx) :
    ∃ t : Fin cfg0.N, (cfg0.win 5).flush t = true ∧ i ∈ ((cfg0.win 5).blk t).view.set := by
  have hN := N_eq
  have hi0 : (i 0).val < 20000 := (i 0).isLt
  have hi1 : (i 1).val < 256 := (i 1).isLt
  refine ⟨⟨(i 0).val / 2000, by omega⟩, flush0_5 _, ?_⟩
  rw [mem_blk5]
  obtain ⟨e0, e1, -⟩ := idx_out ⟨(i 0).val / 2000, by omega⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 256 ≤ (i 1).val ∧ (i 1).val < win0_5.index _ (1 : Fin 2) * 256 + 256
    rw [e1]; omega

/-- What the body leaves in window 6's buffer. -/
theorem after_6 (c : Dev nD) (t : Fin cfg0.N) :
    (dat0 (F := Ideal) V c).after 6 t = out0_6 (iblk0 V c 0 t) (iblk0 V c 1 t) (iblk0 V c 2 t) (iblk0 V c 3 t) (iblk0 V c 4 t) := by
  dsimp only [dat0]

/-- What point t writes back through window 6 is block t of the first slice of the linear image. -/
theorem flushed6_eq (c : Dev nD) (t : Fin cfg0.N) :
    (dat0 (F := Ideal) V c).flushed 6 t = ((cfg0.win 6).blk t).view.read (Elt Ideal) (lin (layerNorm (aX V c) (aLW V c) (aLB V c)) (colSlice (aW V c) 0) (rowSlice (aB V c) 0)) := by
  show (cfg0.win 6).cut (grid0.coords t) ((dat0 (F := Ideal) V c).after 6 t) = _
  rw [after_6]
  unfold out0_6
  rw [View.canon_unit_zero hz]
  simp only [View.ld_unit_zero (S := S2000x256) hz, View.ld_unit_zero (S := S1x256) hz, View.ld_unit_zero (S := S256x768) hz, View.ld_unit_zero (S := S1x768) hz]
  obtain ⟨-, -, e0, e1, -⟩ := idx_out t
  have hN := N_eq
  have ht : t.val < 10 := hN ▸ t.isLt
  funext y
  have hy0 : (y 0).val < 2000 := (y 0).isLt
  have hy1 : (y 1).val < 256 := (y 1).isLt
  have hr : 2000 * t.val + (y 0).val < 20000 := by omega
  have hyx : (cfg0.win 6).xinj (grid0.coords t) y = ix2 (⟨(y 0).val, hy0⟩ : Fin 2000) (⟨(y 1).val, hy1⟩ : Fin 256) :=
    funext fun a => by match a with | ⟨0, _⟩ => rfl | ⟨1, _⟩ => rfl
  have hemb : ((cfg0.win 6).blk t).view.emb y = ix2 (⟨2000 * t.val + (y 0).val, hr⟩ : Fin 20000) (⟨(y 1).val, hy1⟩ : Fin 256) :=
    funext fun a => Fin.ext (by
      match a with
      | ⟨0, _⟩ => show win0_6.index t (0 : Fin 2) * 2000 + 1 * (y 0).val = 2000 * t.val + (y 0).val; rw [e0]; omega
      | ⟨1, _⟩ => show win0_6.index t (1 : Fin 2) * 256 + 1 * (y 1).val = (y 1).val; rw [e1]; omega)
  show k0_pay6 (F := Ideal) (iblk0 V c 0 t) (iblk0 V c 1 t) (iblk0 V c 2 t) (iblk0 V c 3 t) (iblk0 V c 4 t) ((cfg0.win 6).xinj (grid0.coords t) y)
      = (lin (layerNorm (aX V c) (aLW V c) (aLB V c)) (colSlice (aW V c) 0) (rowSlice (aB V c) 0)) (((cfg0.win 6).blk t).view.emb y)
  rw [hyx, hemb]
  refine (slice0_apply (k0_pay5 (F := Ideal) (iblk0 V c 0 t) (iblk0 V c 1 t) (iblk0 V c 2 t) (iblk0 V c 3 t) (iblk0 V c 4 t)) _ _ ⟨256 * 0 + (y 1).val, by omega⟩ rfl).trans ?_
  exact qkv_blk V c t 0 _ _ _ _ rfl rfl

/-- An index of window 6's array is in point t's block iff each coordinate is in the block's range on its axis. -/
theorem mem_blk6 (t : Fin cfg0.N) (i : S20000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v22_1).slice (win0_6.rect t)).set ↔ _
  rw [View.set_slice_whole, Rect.mem_set_unit]
  exact Iff.rfl

/-- Window 6's ten blocks cover its array: row r is in block r / 2000. -/
theorem cover6 (i : S20000x256.Idx) :
    ∃ t : Fin cfg0.N, (cfg0.win 6).flush t = true ∧ i ∈ ((cfg0.win 6).blk t).view.set := by
  have hN := N_eq
  have hi0 : (i 0).val < 20000 := (i 0).isLt
  have hi1 : (i 1).val < 256 := (i 1).isLt
  refine ⟨⟨(i 0).val / 2000, by omega⟩, flush0_6 _, ?_⟩
  rw [mem_blk6]
  obtain ⟨-, -, e0, e1, -⟩ := idx_out ⟨(i 0).val / 2000, by omega⟩
  intro a
  match a with
  | ⟨0, _⟩ =>
    show win0_6.index _ (0 : Fin 2) * 2000 ≤ (i 0).val ∧ (i 0).val < win0_6.index _ (0 : Fin 2) * 2000 + 2000
    rw [e0]; show (i 0).val / 2000 * 2000 ≤ (i 0).val ∧ (i 0).val < (i 0).val / 2000 * 2000 + 2000; omega
  | ⟨1, _⟩ =>
    show win0_6.index _ (1 : Fin 2) * 256 ≤ (i 1).val ∧ (i 1).val < win0_6.index _ (1 : Fin 2) * 256 + 256
    rw [e1]; omega

/-- What the body leaves in window 7's buffer. -/
theorem after_7 (c : Dev nD) (t : Fin cfg0.N) :
    (dat0 (F := Ideal) V c).after 7 t = out0_7 (iblk0 V c 0 t) (iblk0 V c 1 t) (iblk0 V c 2 t) (iblk0 V c 3 t) (iblk0 V c 4 t) := by
  dsimp only [dat0]

/-- What point t writes back through window 7 is block t of the second slice of the linear image. -/
theorem flushed7_eq (c : Dev nD) (t : Fin cfg0.N) :
    (dat0 (F := Ideal) V c).flushed 7 t = ((cfg0.win 7).blk t).view.read (Elt Ideal) (lin (layerNorm (aX V c) (aLW V c) (aLB V c)) (colSlice (aW V c) 1) (rowSlice (aB V c) 1)) := by
  show (cfg0.win 7).cut (grid0.coords t) ((dat0 (F := Ideal) V c).after 7 t) = _
  rw [after_7]
  unfold out0_7
  rw [View.canon_unit_zero hz]
  simp only [View.ld_unit_zero (S := S2000x256) hz, View.ld_unit_zero (S := S1x256) hz, View.ld_unit_zero (S := S256x768) hz, View.ld_unit_zero (S := S1x768) hz]
  obtain ⟨-, -, -, -, e0, e1, -⟩ := idx_out t
  have hN := N_eq
  have ht : t.val < 10 := hN ▸ t.isLt
  funext y
  have hy0 : (y 0).val < 2000 := (y 0).isLt
  have hy1 : (y 1).val < 256 := (y 1).isLt
  have hr : 2000 * t.val + (y 0).val < 20000 := by omega
  have hyx : (cfg0.win 7).xinj (grid0.coords t) y = ix2 (⟨(y 0).val, hy0⟩ : Fin 2000) (⟨(y 1).val, hy1⟩ : Fin 256) :=
    funext fun a => by match a with | ⟨0, _⟩ => rfl | ⟨1, _⟩ => rfl
  have hemb : ((cfg0.win 7).blk t).view.emb y = ix2 (⟨2000 * t.val + (y 0).val, hr⟩ : Fin 20000) (⟨(y 1).val, hy1⟩ : Fin 256) :=
    funext fun a => Fin.ext (by
      match a with
      | ⟨0, _⟩ => show win0_7.index t (0 : Fin 2) * 2000 + 1 * (y 0).val = 2000 * t.val + (y 0).val; rw [e0]; omega
      | ⟨1, _⟩ => show win0_7.index t (1 : Fin 2) * 256 + 1 * (y 1).val = (y 1).val; rw [e1]; omega)
  show k0_pay1 (F := Ideal) (k0_pay5 (F := Ideal) (iblk0 V c 0 t) (iblk0 V c 1 t) (iblk0 V c 2 t) (iblk0 V c 3 t) (iblk0 V c 4 t)) ((cfg0.win 7).xinj (grid0.coords t) y)
      = (lin (layerNorm (aX V c) (aLW V c) (aLB V c)) (colSlice (aW V c) 1) (rowSlice (aB V c) 1)) (((cfg0.win 7).blk t).view.emb y)
  rw [hyx, hemb]
  refine (slice1_apply (k0_pay5 (F := Ideal) (iblk0 V c 0 t) (iblk0 V c 1 t) (iblk0 V c 2 t) (iblk0 V c 3 t) (iblk0 V c 4 t)) _ _ ⟨256 * 1 + (y 1).val, by omega⟩ rfl).trans ?_
  exact qkv_blk V c t 1 _ _ _ _ rfl rfl

/-- An index of window 7's array is in point t's block iff each coordinate is in the block's range on its axis. -/
theorem mem_blk7 (t : Fin cfg0.N) (i : S20000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v22_2).slice (win0_7.rect t)).set ↔ _
  rw [View.set_slice_whole, Rect.mem_set_unit]
  exact Iff.rfl

/-- Window 7's ten blocks cover its array: row r is in block r / 2000. -/
theorem cover7 (i : S20000x256.Idx) :
    ∃ t : Fin cfg0.N, (cfg0.win 7).flush t = true ∧ i ∈ ((cfg0.win 7).blk t).view.set := by
  have hN := N_eq
  have hi0 : (i 0).val < 20000 := (i 0).isLt
  have hi1 : (i 1).val < 256 := (i 1).isLt
  refine ⟨⟨(i 0).val / 2000, by omega⟩, flush0_7 _, ?_⟩
  rw [mem_blk7]
  obtain ⟨-, -, -, -, e0, e1, -⟩ := idx_out ⟨(i 0).val / 2000, by omega⟩
  intro a
  match a with
  | ⟨0, _⟩ =>
    show win0_7.index _ (0 : Fin 2) * 2000 ≤ (i 0).val ∧ (i 0).val < win0_7.index _ (0 : Fin 2) * 2000 + 2000
    rw [e0]; show (i 0).val / 2000 * 2000 ≤ (i 0).val ∧ (i 0).val < (i 0).val / 2000 * 2000 + 2000; omega
  | ⟨1, _⟩ =>
    show win0_7.index _ (1 : Fin 2) * 256 ≤ (i 1).val ∧ (i 1).val < win0_7.index _ (1 : Fin 2) * 256 + 256
    rw [e1]; omega

/-- What the body leaves in window 8's buffer. -/
theorem after_8 (c : Dev nD) (t : Fin cfg0.N) :
    (dat0 (F := Ideal) V c).after 8 t = out0_8 (iblk0 V c 0 t) (iblk0 V c 1 t) (iblk0 V c 2 t) (iblk0 V c 3 t) (iblk0 V c 4 t) := by
  dsimp only [dat0]

/-- What point t writes back through window 8 is block t of the third slice of the linear image. -/
theorem flushed8_eq (c : Dev nD) (t : Fin cfg0.N) :
    (dat0 (F := Ideal) V c).flushed 8 t = ((cfg0.win 8).blk t).view.read (Elt Ideal) (lin (layerNorm (aX V c) (aLW V c) (aLB V c)) (colSlice (aW V c) 2) (rowSlice (aB V c) 2)) := by
  show (cfg0.win 8).cut (grid0.coords t) ((dat0 (F := Ideal) V c).after 8 t) = _
  rw [after_8]
  unfold out0_8
  rw [View.canon_unit_zero hz]
  simp only [View.ld_unit_zero (S := S2000x256) hz, View.ld_unit_zero (S := S1x256) hz, View.ld_unit_zero (S := S256x768) hz, View.ld_unit_zero (S := S1x768) hz]
  obtain ⟨-, -, -, -, -, -, e0, e1⟩ := idx_out t
  have hN := N_eq
  have ht : t.val < 10 := hN ▸ t.isLt
  funext y
  have hy0 : (y 0).val < 2000 := (y 0).isLt
  have hy1 : (y 1).val < 256 := (y 1).isLt
  have hr : 2000 * t.val + (y 0).val < 20000 := by omega
  have hyx : (cfg0.win 8).xinj (grid0.coords t) y = ix2 (⟨(y 0).val, hy0⟩ : Fin 2000) (⟨(y 1).val, hy1⟩ : Fin 256) :=
    funext fun a => by match a with | ⟨0, _⟩ => rfl | ⟨1, _⟩ => rfl
  have hemb : ((cfg0.win 8).blk t).view.emb y = ix2 (⟨2000 * t.val + (y 0).val, hr⟩ : Fin 20000) (⟨(y 1).val, hy1⟩ : Fin 256) :=
    funext fun a => Fin.ext (by
      match a with
      | ⟨0, _⟩ => show win0_8.index t (0 : Fin 2) * 2000 + 1 * (y 0).val = 2000 * t.val + (y 0).val; rw [e0]; omega
      | ⟨1, _⟩ => show win0_8.index t (1 : Fin 2) * 256 + 1 * (y 1).val = (y 1).val; rw [e1]; omega)
  show k0_pay2 (F := Ideal) (k0_pay5 (F := Ideal) (iblk0 V c 0 t) (iblk0 V c 1 t) (iblk0 V c 2 t) (iblk0 V c 3 t) (iblk0 V c 4 t)) ((cfg0.win 8).xinj (grid0.coords t) y)
      = (lin (layerNorm (aX V c) (aLW V c) (aLB V c)) (colSlice (aW V c) 2) (rowSlice (aB V c) 2)) (((cfg0.win 8).blk t).view.emb y)
  rw [hyx, hemb]
  refine (slice2_apply (k0_pay5 (F := Ideal) (iblk0 V c 0 t) (iblk0 V c 1 t) (iblk0 V c 2 t) (iblk0 V c 3 t) (iblk0 V c 4 t)) _ _ ⟨256 * 2 + (y 1).val, by omega⟩ rfl).trans ?_
  exact qkv_blk V c t 2 _ _ _ _ rfl rfl

/-- An index of window 8's array is in point t's block iff each coordinate is in the block's range on its axis. -/
theorem mem_blk8 (t : Fin cfg0.N) (i : S20000x256.Idx) :
    i ∈ ((cfg0.win 8).blk t).view.set ↔ ∀ a : Fin 2, win0_8.index t a * S2000x256.size a ≤ (i a).val
      ∧ (i a).val < win0_8.index t a * S2000x256.size a + S2000x256.size a := by
  show i ∈ ((View.whole main_v22_3).slice (win0_8.rect t)).set ↔ _
  rw [View.set_slice_whole, Rect.mem_set_unit]
  exact Iff.rfl

/-- Window 8's ten blocks cover its array: row r is in block r / 2000. -/
theorem cover8 (i : S20000x256.Idx) :
    ∃ t : Fin cfg0.N, (cfg0.win 8).flush t = true ∧ i ∈ ((cfg0.win 8).blk t).view.set := by
  have hN := N_eq
  have hi0 : (i 0).val < 20000 := (i 0).isLt
  have hi1 : (i 1).val < 256 := (i 1).isLt
  refine ⟨⟨(i 0).val / 2000, by omega⟩, flush0_8 _, ?_⟩
  rw [mem_blk8]
  obtain ⟨-, -, -, -, -, -, e0, e1⟩ := idx_out ⟨(i 0).val / 2000, by omega⟩
  intro a
  match a with
  | ⟨0, _⟩ =>
    show win0_8.index _ (0 : Fin 2) * 2000 ≤ (i 0).val ∧ (i 0).val < win0_8.index _ (0 : Fin 2) * 2000 + 2000
    rw [e0]; show (i 0).val / 2000 * 2000 ≤ (i 0).val ∧ (i 0).val < (i 0).val / 2000 * 2000 + 2000; omega
  | ⟨1, _⟩ =>
    show win0_8.index _ (1 : Fin 2) * 256 ≤ (i 1).val ∧ (i 1).val < win0_8.index _ (1 : Fin 2) * 256 + 256
    rw [e1]; omega

end N0

/-- The node stage's window 5 after the run: the normalised rows. -/
theorem final0_5 (V : (c : Dev nD) → (b : Ref sig .tc) → Buf (Elt Ideal) ((c : Thread nD τ).loc b)) (c : Dev nD) :
    @Eq (Mat 20000 256) ((dat0 (F := Ideal) V c).arrAt 5 cfg0.N)
      (layerNorm (V c (Pipeline.arrRef spec0 0)) (fun k : Fin 256 => V c (Pipeline.arrRef spec0 1) (ix2 (0 : Fin 1) k))
        (fun k : Fin 256 => V c (Pipeline.arrRef spec0 2) (ix2 (0 : Fin 1) k))) :=
  (dat0 (F := Ideal) V c).arrAt_eq_of_cover 5 _ (fun t _ => N0.flushed5_eq V c t) N0.cover5

/-- The node stage's window 6 after the run: the first slice of the linear image. -/
theorem final0_6 (V : (c : Dev nD) → (b : Ref sig .tc) → Buf (Elt Ideal) ((c : Thread nD τ).loc b)) (c : Dev nD) :
    @Eq (Mat 20000 256) ((dat0 (F := Ideal) V c).arrAt 6 cfg0.N)
      (lin (layerNorm (V c (Pipeline.arrRef spec0 0)) (fun k : Fin 256 => V c (Pipeline.arrRef spec0 1) (ix2 (0 : Fin 1) k))
          (fun k : Fin 256 => V c (Pipeline.arrRef spec0 2) (ix2 (0 : Fin 1) k)))
        (colSlice (V c (Pipeline.arrRef spec0 3)) 0) (rowSlice (fun k : Fin 768 => V c (Pipeline.arrRef spec0 4) (ix2 (0 : Fin 1) k)) 0)) :=
  (dat0 (F := Ideal) V c).arrAt_eq_of_cover 6 _ (fun t _ => N0.flushed6_eq V c t) N0.cover6

/-- The node stage's window 7 after the run: the second slice of the linear image. -/
theorem final0_7 (V : (c : Dev nD) → (b : Ref sig .tc) → Buf (Elt Ideal) ((c : Thread nD τ).loc b)) (c : Dev nD) :
    @Eq (Mat 20000 256) ((dat0 (F := Ideal) V c).arrAt 7 cfg0.N)
      (lin (layerNorm (V c (Pipeline.arrRef spec0 0)) (fun k : Fin 256 => V c (Pipeline.arrRef spec0 1) (ix2 (0 : Fin 1) k))
          (fun k : Fin 256 => V c (Pipeline.arrRef spec0 2) (ix2 (0 : Fin 1) k)))
        (colSlice (V c (Pipeline.arrRef spec0 3)) 1) (rowSlice (fun k : Fin 768 => V c (Pipeline.arrRef spec0 4) (ix2 (0 : Fin 1) k)) 1)) :=
  (dat0 (F := Ideal) V c).arrAt_eq_of_cover 7 _ (fun t _ => N0.flushed7_eq V c t) N0.cover7

/-- The node stage's window 8 after the run: the third slice of the linear image. -/
theorem final0_8 (V : (c : Dev nD) → (b : Ref sig .tc) → Buf (Elt Ideal) ((c : Thread nD τ).loc b)) (c : Dev nD) :
    @Eq (Mat 20000 256) ((dat0 (F := Ideal) V c).arrAt 8 cfg0.N)
      (lin (layerNorm (V c (Pipeline.arrRef spec0 0)) (fun k : Fin 256 => V c (Pipeline.arrRef spec0 1) (ix2 (0 : Fin 1) k))
          (fun k : Fin 256 => V c (Pipeline.arrRef spec0 2) (ix2 (0 : Fin 1) k)))
        (colSlice (V c (Pipeline.arrRef spec0 3)) 2) (rowSlice (fun k : Fin 768 => V c (Pipeline.arrRef spec0 4) (ix2 (0 : Fin 1) k)) 2)) :=
  (dat0 (F := Ideal) V c).arrAt_eq_of_cover 8 _ (fun t _ => N0.flushed8_eq V c t) N0.cover8

end Cert.KernelIdeal.Val

end
-- ==== Proof.Value1a.lean ====
/-
  The edge stage's per-edge weights at one block of 2000 edges, index by index: the two-layer perceptron of the radial
  features times the cutoff, times the gathered normalised row. And the row-locality of every edge-stage function:
  its value on a row reads that row of each row-indexed operand.
-/
import proofs.«175260_j20066087207295_2_alg».proof.Proof.Spec
import proofs.«175260_j20066087207295_2_alg».proof.Proof.Gen.KernelIdeal.Skeleton
import proofs.«175260_j20066087207295_2_alg».proof.Proof.LibPlainDot
import proofs.«175260_j20066087207295_2_alg».proof.Proof.LibKeepdims
import Idealize.ShloMosaic.Lib.Pipeline.Value
import Idealize.ShloMosaic.Lib.ValueLayout

set_option maxRecDepth 16384

noncomputable section

namespace Cert.KernelIdeal.Val

open Cert.KernelIdeal Cert.KernelIdeal.Gen Cert.Hyb Idealize.ShloMosaic Idealize.ShloMosaic.ValueIdx

namespace E1

/-- The first layer before its nonlinearity: the radial block times the first weights, plus the broadcast bias row. -/
theorem hidden_entry (x0 : Vec Ideal S2000x64 .f32) (x6 : Vec Ideal S64x256 .f32) (x7 : Vec Ideal S1x256 .f32) (p : Fin 2000) (q : Fin 256) :
    addf (matmul dot_S2000x64_S64x256_S2000x256_1_0_0_1_n_n none (truncf .bf16 x0 bitsLt_bf16_f32) (truncf .bf16 x6 bitsLt_bf16_f32)
        (constant (F := Ideal) S2000x256 .f32 0x00000000#32)) (broadcastTo S2000x256 x7 broadcasts_S1x256_S2000x256) (ix2 p q)
      = lin (k := 64) x0 x6 (fun k => x7 (ix2 (0 : Fin 1) k)) (ix2 p q) := by
  rw [addf_apply, broadcastTo_1b_ab_apply]
  exact congrArg (· + x7 (ix2 (0 : Fin 1) q))
    (Cert.PlainDot.matmul_zero_apply 2000 64 256 (φ₁ := .bf16) (φ₂ := .bf16) none _ _ (ix2 p q))

end E1

/-- The weighted normalised block: the gathered normalised row times the perceptron of the radial block (first weights
    and bias, x times its logistic, second weights and bias) times the cutoff. -/
theorem phys_entry (x0 : Vec Ideal S2000x64 .f32) (x1 : Vec Ideal S2000x1 .f32) (x6 : Vec Ideal S64x256 .f32) (x7 : Vec Ideal S1x256 .f32) (x8 : Vec Ideal S256x256 .f32) (x9 : Vec Ideal S1x256 .f32) (x2 : Vec Ideal S2000x256 .bf16) (p : Fin 2000) (j : Fin 256) :
    k1_pay3 x0 x1 x6 x7 x8 x9 x2 (ix2 p j)
      = x2 (ix2 p j) * wphys (n := 2000) x0 x6 (fun k => x7 (ix2 (0 : Fin 1) k)) x8 (fun k => x9 (ix2 (0 : Fin 1) k)) (fun e => x1 (ix2 e (0 : Fin 1))) (ix2 p j) := by
  unfold k1_pay3 k1_pay2
  rw [mulf_apply, extf_apply, shapeCast_self, mulf_apply, addf_apply]
  rw [Cert.Keepdims.broadcastTo_a1_ab_apply, shapeCast_self, broadcastTo_1b_ab_apply, shapeCast_self]
  rw [shapeCast_self]
  refine congrArg (x2 (ix2 p j) * ·) ?_
  show _ = ((∑ q : Fin 256, silu (lin (k := 64) x0 x6 (fun k => x7 (ix2 (0 : Fin 1) k)) (ix2 p q)) * x8 (ix2 q j)) + x9 (ix2 (0 : Fin 1) j)) * x1 (ix2 p (0 : Fin 1))
  refine congrArg (· * x1 (ix2 p (0 : Fin 1))) ?_
  refine congrArg (· + x9 (ix2 (0 : Fin 1) j)) ?_
  refine (Cert.PlainDot.matmul_zero_apply 2000 256 256 (φ₁ := .bf16) (φ₂ := .bf16) none _ _ (ix2 p j)).trans ?_
  refine Finset.sum_congr rfl fun q _ => ?_
  refine congrArg (· * x8 (ix2 q j)) ?_
  exact congrArg silu (E1.hidden_entry x0 x6 x7 p q)

namespace E1

/-! ## Every edge function reads one row

  The value of each edge-stage function at row e reads row e of its row-indexed operands (and all of the shared
  weights): two sets of operands, possibly with different numbers of rows, that agree on a pair of rows give the same
  value on that pair. -/

theorem lin_row {m m' k c : Nat} (A : Mat m k) (A' : Mat m' k) (W : Mat k c) (b : Fin c → EReal) (e : Fin m) (e' : Fin m')
    (h : ∀ q : Fin k, A (ix2 e q) = A' (ix2 e' q)) (j : Fin c) : lin A W b (ix2 e j) = lin A' W b (ix2 e' j) := by
  show (∑ q : Fin k, A (ix2 e q) * W (ix2 q j)) + b j = (∑ q : Fin k, A' (ix2 e' q) * W (ix2 q j)) + b j
  simp only [h]

theorem wphys_row {n n' : Nat} (rbf : Mat n 64) (rbf' : Mat n' 64) (w1 : Mat 64 256) (b1 : Fin 256 → EReal) (w2 : Mat 256 256)
    (b2 : Fin 256 → EReal) (cut : Fin n → EReal) (cut' : Fin n' → EReal) (e : Fin n) (e' : Fin n')
    (hr : ∀ q : Fin 64, rbf (ix2 e q) = rbf' (ix2 e' q)) (hc : cut e = cut' e') (j : Fin 256) :
    wphys rbf w1 b1 w2 b2 cut (ix2 e j) = wphys rbf' w1 b1 w2 b2 cut' (ix2 e' j) := by
  show lin (fun i => silu (lin rbf w1 b1 i)) w2 b2 (ix2 e j) * cut e
    = lin (fun i => silu (lin rbf' w1 b1 i)) w2 b2 (ix2 e' j) * cut' e'
  rw [hc, lin_row (fun i => silu (lin rbf w1 b1 i)) (fun i => silu (lin rbf' w1 b1 i)) w2 b2 e e'
    (fun q => congrArg silu (lin_row rbf rbf' w1 b1 e e' hr q)) j]

theorem scores_row {n n' : Nat} (q k : Mat n 256) (q' k' : Mat n' 256) (cut : Fin n → EReal) (cut' : Fin n' → EReal)
    (e : Fin n) (e' : Fin n') (hq : ∀ c : Fin 256, q (ix2 e c) = q' (ix2 e' c)) (hk : ∀ c : Fin 256, k (ix2 e c) = k' (ix2 e' c))
    (hc : cut e = cut' e') (h : Fin 8) : scores q k cut (ix2 e h) = scores q' k' cut' (ix2 e' h) := by
  show Ideal.div (lit 0x00000000#32 + ∑ d : Fin 32, q (ix2 e (hcol h d)) * k (ix2 e (hcol h d))) (lit 0x40B504F3#32) * cut e
    = Ideal.div (lit 0x00000000#32 + ∑ d : Fin 32, q' (ix2 e' (hcol h d)) * k' (ix2 e' (hcol h d))) (lit 0x40B504F3#32) * cut' e'
  simp only [hq, hk, hc]

theorem smax_row {n n' : Nat} (s : Mat n 8) (s' : Mat n' 8) (e : Fin n) (e' : Fin n')
    (hs : ∀ h : Fin 8, s (ix2 e h) = s' (ix2 e' h)) : smax s e = smax s' e' := by
  show Finset.univ.fold max (lit 0xFF800000#32) (fun h : Fin 8 => s (ix2 e h))
    = Finset.univ.fold max (lit 0xFF800000#32) (fun h : Fin 8 => s' (ix2 e' h))
  rw [funext hs]

theorem sexp_row {n n' : Nat} (s : Mat n 8) (s' : Mat n' 8) (e : Fin n) (e' : Fin n')
    (hs : ∀ h : Fin 8, s (ix2 e h) = s' (ix2 e' h)) (h : Fin 8) : sexp s e h = sexp s' e' h := by
  show Ideal.exp (s (ix2 e h) - smax s e) = Ideal.exp (s' (ix2 e' h) - smax s' e')
  rw [hs h, smax_row s s' e e' hs]

theorem attn_row {n n' : Nat} (s : Mat n 8) (s' : Mat n' 8) (e : Fin n) (e' : Fin n')
    (hs : ∀ h : Fin 8, s (ix2 e h) = s' (ix2 e' h)) (h : Fin 8) : attn s e h = attn s' e' h := by
  show Ideal.div (sexp s e h) (lit 0x00000000#32 + ∑ h' : Fin 8, sexp s e h')
    = Ideal.div (sexp s' e' h) (lit 0x00000000#32 + ∑ h' : Fin 8, sexp s' e' h')
  simp only [sexp_row s s' e e' hs]

theorem combined_row {n n' : Nat} (xnc vc wp : Mat n 256) (xnc' vc' wp' : Mat n' 256) (s : Mat n 8) (s' : Mat n' 8) (g : EReal)
    (e : Fin n) (e' : Fin n') (j : Fin 256) (hx : xnc (ix2 e j) = xnc' (ix2 e' j)) (hv : vc (ix2 e j) = vc' (ix2 e' j))
    (hw : wp (ix2 e j) = wp' (ix2 e' j)) (hs : ∀ h : Fin 8, s (ix2 e h) = s' (ix2 e' h)) :
    combined xnc vc wp s g (ix2 e j) = combined xnc' vc' wp' s' g (ix2 e' j) := by
  show xnc (ix2 e j) * wp (ix2 e j) + g * (attn s e (hd j) * vc (ix2 e j))
    = xnc' (ix2 e' j) * wp' (ix2 e' j) + g * (attn s' e' (hd j) * vc' (ix2 e' j))
  rw [hx, hv, hw, attn_row s s' e e' hs]

end E1

end Cert.KernelIdeal.Val

end
-- ==== Proof.Value1b.lean ====
/-
  The edge stage's blocks as rows of its arrays: over the 120 grid points, six inputs and the output are cut into blocks
  of 2000 rows (point t holds rows 2000 t … 2000 t + 1999) and seven inputs are whole at every point; the output's
  blocks cover its array.
-/
import proofs.«175260_j20066087207295_2_alg».proof.Proof.Spec
import proofs.«175260_j20066087207295_2_alg».proof.Proof.OutsI
import Idealize.ShloMosaic.Lib.Pipeline.Value

set_option maxRecDepth 16384

noncomputable section

namespace Cert.KernelIdeal.Val.E1

open Cert.KernelIdeal Cert.KernelIdeal.Gen Cert.KernelIdeal.Hand Cert.Hyb Idealize.ShloMosaic Idealize.ShloMosaic.ValueIdx
open Idealize.ShloMosaic.TcCoe

theorem hz : (![0, 0] : Fin 2 → Nat) = fun _ => 0 := funext fun a => by fin_cases a <;> rfl

/-- The printed index map of window 0, decided over the grid: block (t, 0) at point t. -/
theorem idx1_0 : ∀ t : Fin cfg1.N, win1_0.index t (0 : Fin 2) = t.val ∧ win1_0.index t (1 : Fin 2) = 0 :=
  (by decide +kernel : ∀ t : Fin grid1.N, _)
/-- The printed index map of window 1, decided over the grid: block (t, 0) at point t. -/
theorem idx1_1 : ∀ t : Fin cfg1.N, win1_1.index t (0 : Fin 2) = t.val ∧ win1_1.index t (1 : Fin 2) = 0 :=
  (by decide +kernel : ∀ t : Fin grid1.N, _)
/-- The printed index map of window 2, decided over the grid: block (t, 0) at point t. -/
theorem idx1_2 : ∀ t : Fin cfg1.N, win1_2.index t (0 : Fin 2) = t.val ∧ win1_2.index t (1 : Fin 2) = 0 :=
  (by decide +kernel : ∀ t : Fin grid1.N, _)
/-- The printed index map of window 3, decided over the grid: block (t, 0) at point t. -/
theorem idx1_3 : ∀ t : Fin cfg1.N, win1_3.index t (0 : Fin 2) = t.val ∧ win1_3.index t (1 : Fin 2) = 0 :=
  (by decide +kernel : ∀ t : Fin grid1.N, _)
/-- The printed index map of window 4, decided over the grid: block (t, 0) at point t. -/
theorem idx1_4 : ∀ t : Fin cfg1.N, win1_4.index t (0 : Fin 2) = t.val ∧ win1_4.index t (1 : Fin 2) = 0 :=
  (by decide +kernel : ∀ t : Fin grid1.N, _)
/-- The printed index map of window 5, decided over the grid: block (t, 0) at point t. -/
theorem idx1_5 : ∀ t : Fin cfg1.N, win1_5.index t (0 : Fin 2) = t.val ∧ win1_5.index t (1 : Fin 2) = 0 :=
  (by decide +kernel : ∀ t : Fin grid1.N, _)
/-- The printed index map of window 13, decided over the grid: block (t, 0) at point t. -/
theorem idx1_13 : ∀ t : Fin cfg1.N, win1_13.index t (0 : Fin 2) = t.val ∧ win1_13.index t (1 : Fin 2) = 0 :=
  (by decide +kernel : ∀ t : Fin grid1.N, _)
/-- The printed index map of window 6, decided over the grid: block (0, 0) at every point. -/
theorem idx1_6 : ∀ t : Fin cfg1.N, win1_6.index t (0 : Fin 2) = 0 ∧ win1_6.index t (1 : Fin 2) = 0 :=
  (by decide +kernel : ∀ t : Fin grid1.N, _)
/-- The printed index map of window 7, decided over the grid: block (0, 0) at every point. -/
theorem idx1_7 : ∀ t : Fin cfg1.N, win1_7.index t (0 : Fin 2) = 0 ∧ win1_7.index t (1 : Fin 2) = 0 :=
  (by decide +kernel : ∀ t : Fin grid1.N, _)
/-- The printed index map of window 8, decided over the grid: block (0, 0) at every point. -/
theorem idx1_8 : ∀ t : Fin cfg1.N, win1_8.index t (0 : Fin 2) = 0 ∧ win1_8.index t (1 : Fin 2) = 0 :=
  (by decide +kernel : ∀ t : Fin grid1.N, _)
/-- The printed index map of window 9, decided over the grid: block (0, 0) at every point. -/
theorem idx1_9 : ∀ t : Fin cfg1.N, win1_9.index t (0 : Fin 2) = 0 ∧ win1_9.index t (1 : Fin 2) = 0 :=
  (by decide +kernel : ∀ t : Fin grid1.N, _)
/-- The printed index map of window 10, decided over the grid: block (0, 0) at every point. -/
theorem idx1_10 : ∀ t : Fin cfg1.N, win1_10.index t (0 : Fin 2) = 0 ∧ win1_10.index t (1 : Fin 2) = 0 :=
  (by decide +kernel : ∀ t : Fin grid1.N, _)
/-- The printed index map of window 11, decided over the grid: block (0, 0) at every point. -/
theorem idx1_11 : ∀ t : Fin cfg1.N, win1_11.index t (0 : Fin 2) = 0 ∧ win1_11.index t (1 : Fin 2) = 0 :=
  (by decide +kernel : ∀ t : Fin grid1.N, _)
/-- The printed index map of window 12, decided over the grid: block (0, 0) at every point. -/
theorem idx1_12 : ∀ t : Fin cfg1.N, win1_12.index t (0 : Fin 2) = 0 ∧ win1_12.index t (1 : Fin 2) = 0 :=
  (by decide +kernel : ∀ t : Fin grid1.N, _)

theorem point_lt (t : Fin cfg1.N) : t.val < 120 := lt_of_lt_of_eq t.isLt N_1

/-- Row p of point t's block is row 2000 t + p of the array. -/
def row (t : Fin cfg1.N) (p : Fin 2000) : Fin 240000 :=
  ⟨2000 * t.val + p.val, by have := point_lt t; have := p.isLt; omega⟩

section Blocks
variable (V : (c : Dev nD) → (b : Ref sig .tc) → Buf (Elt Ideal) ((c : Thread nD τ).loc b)) (c : Dev nD)

/-- Window 0's block at point t, at (p, k): the array at (2000 t + p, k). -/
theorem iblk_row0 (t : Fin cfg1.N) (p : Fin 2000) (k : Fin 64) :
    (iblk1 V c 0 t : Vec Ideal S2000x64 .f32) (ix2 p k) = (V c (Pipeline.arrRef spec1 0) : Mat 240000 64) (ix2 (row t p) k) := by
  obtain ⟨e0, e1⟩ := idx1_0 t
  show V c (Pipeline.arrRef spec1 0) (((cfg1.win 0).blk t).view.emb (ix2 p k)) = _
  refine congrArg _ (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 64 + 1 * k.val = k.val; rw [e1]; omega

/-- Window 1's block at point t, at (p, k): the array at (2000 t + p, k). -/
theorem iblk_row1 (t : Fin cfg1.N) (p : Fin 2000) (k : Fin 1) :
    (iblk1 V c 1 t : Vec Ideal S2000x1 .f32) (ix2 p k) = (V c (Pipeline.arrRef spec1 1) : Mat 240000 1) (ix2 (row t p) k) := by
  obtain ⟨e0, e1⟩ := idx1_1 t
  show V c (Pipeline.arrRef spec1 1) (((cfg1.win 1).blk t).view.emb (ix2 p k)) = _
  refine congrArg _ (funext fun a => Fin.ext ?_)
  match a with
  | ⟨0, _⟩ => show win1_1.index t (0 : Fin 2) * 2000 + 1 * p.val = 2000 * t.val + p.val; rw [e0]; omega
  | ⟨1, _⟩ => show win1_1.index t (1 : Fin 2) * 1 + 1 * k.val = k.val; rw [e1]; omega

/-- Window 2's block at point t, at (p, k): the array at (2000 t + p, k). -/
theorem iblk_row2 (t : Fin cfg1.N) (p : Fin 2000) (k : Fin 256) :
    (iblk1 V c 2 t : Vec Ideal S2000x256 .bf16) (ix2 p k) = (V c (Pipeline.arrRef spec1 2) : Mat 240000 256) (ix2 (row t p) k) := by
  obtain ⟨e0, e1⟩ := idx1_2 t
  show V c (Pipeline.arrRef spec1 2) (((cfg1.win 2).blk t).view.emb (ix2 p k)) = _
  refine congrArg _ (funext fun a => Fin.ext ?_)
  match a with
  | ⟨0, _⟩ => show win1_2.index t (0 : Fin 2) * 2000 + 1 * p.val = 2000 * t.val + p.val; rw [e0]; omega
  | ⟨1, _⟩ => show win1_2.index t (1 : Fin 2) * 256 + 1 * k.val = k.val; rw [e1]; omega

/-- Window 3's block at point t, at (p, k): the array at (2000 t + p, k). -/
theorem iblk_row3 (t : Fin cfg1.N) (p : Fin 2000) (k : Fin 256) :
    (iblk1 V c 3 t : Vec Ideal S2000x256 .bf16) (ix2 p k) = (V c (Pipeline.arrRef spec1 3) : Mat 240000 256) (ix2 (row t p) k) := by
  obtain ⟨e0, e1⟩ := idx1_3 t
  show V c (Pipeline.arrRef spec1 3) (((cfg1.win 3).blk t).view.emb (ix2 p k)) = _
  refine congrArg _ (funext fun a => Fin.ext ?_)
  match a with
  | ⟨0, _⟩ => show win1_3.index t (0 : Fin 2) * 2000 + 1 * p.val = 2000 * t.val + p.val; rw [e0]; omega
  | ⟨1, _⟩ => show win1_3.index t (1 : Fin 2) * 256 + 1 * k.val = k.val; rw [e1]; omega

/-- Window 4's block at point t, at (p, k): the array at (2000 t + p, k). -/
theorem iblk_row4 (t : Fin cfg1.N) (p : Fin 2000) (k : Fin 256) :
    (iblk1 V c 4 t : Vec Ideal S2000x256 .bf16) (ix2 p k) = (V c (Pipeline.arrRef spec1 4) : Mat 240000 256) (ix2 (row t p) k) := by
  obtain ⟨e0, e1⟩ := idx1_4 t
  show V c (Pipeline.arrRef spec1 4) (((cfg1.win 4).blk t).view.emb (ix2 p k)) = _
  refine congrArg _ (funext fun a => Fin.ext ?_)
  match a with
  | ⟨0, _⟩ => show win1_4.index t (0 : Fin 2) * 2000 + 1 * p.val = 2000 * t.val + p.val; rw [e0]; omega
  | ⟨1, _⟩ => show win1_4.index t (1 : Fin 2) * 256 + 1 * k.val = k.val; rw [e1]; omega

/-- Window 5's block at point t, at (p, k): the array at (2000 t + p, k). -/
theorem iblk_row5 (t : Fin cfg1.N) (p : Fin 2000) (k : Fin 256) :
    (iblk1 V c 5 t : Vec Ideal S2000x256 .bf16) (ix2 p k) = (V c (Pipeline.arrRef spec1 5) : Mat 240000 256) (ix2 (row t p) k) := by
  obtain ⟨e0, e1⟩ := idx1_5 t
  show V c (Pipeline.arrRef spec1 5) (((cfg1.win 5).blk t).view.emb (ix2 p k)) = _
  refine congrArg _ (funext fun a => Fin.ext ?_)
  match a with
  | ⟨0, _⟩ => show win1_5.index t (0 : Fin 2) * 2000 + 1 * p.val = 2000 * t.val + p.val; rw [e0]; omega
  | ⟨1, _⟩ => show win1_5.index t (1 : Fin 2) * 256 + 1 * k.val = k.val; rw [e1]; omega

/-- Window 6's block at every point is its whole array. -/
theorem iblk_res6 (t : Fin cfg1.N) :
    (iblk1 V c 6 t : Vec Ideal S64x256 .f32) = (V c (Pipeline.arrRef spec1 6) : Mat 64 256) := by
  obtain ⟨e0, e1⟩ := idx1_6 t
  funext y
  show V c (Pipeline.arrRef spec1 6) (((cfg1.win 6).blk t).view.emb y) = _
  refine congrArg _ (funext fun a => Fin.ext ?_)
  match a with
  | ⟨0, _⟩ => show win1_6.index t (0 : Fin 2) * 64 + 1 * (y 0).val = (y 0).val; rw [e0]; omega
  | ⟨1, _⟩ => show win1_6.index t (1 : Fin 2) * 256 + 1 * (y 1).val = (y 1).val; rw [e1]; omega

/-- Window 7's block at every point is its whole array. -/
theorem iblk_res7 (t : Fin cfg1.N) :
    (iblk1 V c 7 t : Vec Ideal S1x256 .f32) = (V c (Pipeline.arrRef spec1 7) : Mat 1 256) := by
  obtain ⟨e0, e1⟩ := idx1_7 t
  funext y
  show V c (Pipeline.arrRef spec1 7) (((cfg1.win 7).blk t).view.emb y) = _
  refine congrArg _ (funext fun a => Fin.ext ?_)
  match a with
  | ⟨0, _⟩ => show win1_7.index t (0 : Fin 2) * 1 + 1 * (y 0).val = (y 0).val; rw [e0]; omega
  | ⟨1, _⟩ => show win1_7.index t (1 : Fin 2) * 256 + 1 * (y 1).val = (y 1).val; rw [e1]; omega

/-- Window 8's block at every point is its whole array. -/
theorem iblk_res8 (t : Fin cfg1.N) :
    (iblk1 V c 8 t : Vec Ideal S256x256 .f32) = (V c (Pipeline.arrRef spec1 8) : Mat 256 256) := by
  obtain ⟨e0, e1⟩ := idx1_8 t
  funext y
  show V c (Pipeline.arrRef spec1 8) (((cfg1.win 8).blk t).view.emb y) = _
  refine congrArg _ (funext fun a => Fin.ext ?_)
  match a with
  | ⟨0, _⟩ => show win1_8.index t (0 : Fin 2) * 256 + 1 * (y 0).val = (y 0).val; rw [e0]; omega
  | ⟨1, _⟩ => show win1_8.index t (1 : Fin 2) * 256 + 1 * (y 1).val = (y 1).val; rw [e1]; omega

/-- Window 9's block at every point is its whole array. -/
theorem iblk_res9 (t : Fin cfg1.N) :
    (iblk1 V c 9 t : Vec Ideal S1x256 .f32) = (V c (Pipeline.arrRef spec1 9) : Mat 1 256) := by
  obtain ⟨e0, e1⟩ := idx1_9 t
  funext y
  show V c (Pipeline.arrRef spec1 9) (((cfg1.win 9).blk t).view.emb y) = _
  refine congrArg _ (funext fun a => Fin.ext ?_)
  match a with
  | ⟨0, _⟩ => show win1_9.index t (0 : Fin 2) * 1 + 1 * (y 0).val = (y 0).val; rw [e0]; omega
  | ⟨1, _⟩ => show win1_9.index t (1 : Fin 2) * 256 + 1 * (y 1).val = (y 1).val; rw [e1]; omega

/-- Window 10's block at every point is its whole array. -/
theorem iblk_res10 (t : Fin cfg1.N) :
    (iblk1 V c 10 t : Vec Ideal S1x1 .f32) = (V c (Pipeline.arrRef spec1 10) : Mat 1 1) := by
  obtain ⟨e0, e1⟩ := idx1_10 t
  funext y
  show V c (Pipeline.arrRef spec1 10) (((cfg1.win 10).blk t).view.emb y) = _
  refine congrArg _ (funext fun a => Fin.ext ?_)
  match a with
  | ⟨0, _⟩ => show win1_10.index t (0 : Fin 2) * 1 + 1 * (y 0).val = (y 0).val; rw [e0]; omega
  | ⟨1, _⟩ => show win1_10.index t (1 : Fin 2) * 1 + 1 * (y 1).val = (y 1).val; rw [e1]; omega

/-- Window 11's block at every point is its whole array. -/
theorem iblk_res11 (t : Fin cfg1.N) :
    (iblk1 V c 11 t : Vec Ideal S256x8 .f32) = (V c (Pipeline.arrRef spec1 11) : Mat 256 8) := by
  obtain ⟨e0, e1⟩ := idx1_11 t
  funext y
  show V c (Pipeline.arrRef spec1 11) (((cfg1.win 11).blk t).view.emb y) = _
  refine congrArg _ (funext fun a => Fin.ext ?_)
  match a with
  | ⟨0, _⟩ => show win1_11.index t (0 : Fin 2) * 256 + 1 * (y 0).val = (y 0).val; rw [e0]; omega
  | ⟨1, _⟩ => show win1_11.index t (1 : Fin 2) * 8 + 1 * (y 1).val = (y 1).val; rw [e1]; omega

/-- Window 12's block at every point is its whole array. -/
theorem iblk_res12 (t : Fin cfg1.N) :
    (iblk1 V c 12 t : Vec Ideal S8x256 .f32) = (V c (Pipeline.arrRef spec1 12) : Mat 8 256) := by
  obtain ⟨e0, e1⟩ := idx1_12 t
  funext y
  show V c (Pipeline.arrRef spec1 12) (((cfg1.win 12).blk t).view.emb y) = _
  refine congrArg _ (funext fun a => Fin.ext ?_)
  match a with
  | ⟨0, _⟩ => show win1_12.index t (0 : Fin 2) * 8 + 1 * (y 0).val = (y 0).val; rw [e0]; omega
  | ⟨1, _⟩ => show win1_12.index t (1 : Fin 2) * 256 + 1 * (y 1).val = (y 1).val; rw [e1]; omega

/-- The output's block at point t, at (p, j), is the array's index (2000 t + p, j). -/
theorem emb13 (t : Fin cfg1.N) (p : Fin 2000) (j : Fin 256) :
    ((cfg1.win 13).blk t).view.emb (ix2 p j) = (ix2 (row t p) j : S240000x256.Idx) := by
  obtain ⟨e0, e1⟩ := idx1_13 t
  refine funext fun a => Fin.ext ?_
  match a with
  | ⟨0, _⟩ => show win1_13.index t (0 : Fin 2) * 2000 + 1 * p.val = 2000 * t.val + p.val; rw [e0]; omega
  | ⟨1, _⟩ => show win1_13.index t (1 : Fin 2) * 256 + 1 * j.val = j.val; rw [e1]; omega

/-- An index of the output array is in point t's block iff each coordinate is in the block's range on its axis. -/
theorem mem_blk13 (t : Fin cfg1.N) (i : S240000x256.Idx) :
    i ∈ ((cfg1.win 13).blk t).view.set ↔ ∀ a : Fin 2, win1_13.index t a * S2000x256.size a ≤ (i a).val ∧ (i a).val < win1_13.index t a * S2000x256.size a + S2000x256.size a := by
  show i ∈ ((View.whole main_v52).slice (win1_13.rect t)).set ↔ _
  rw [View.set_slice_whole, Rect.mem_set_unit]
  exact Iff.rfl

/-- Every row of the output array is in some point's block: row r is in point r / 2000's. -/
theorem cover13 (i : S240000x256.Idx) :
    ∃ t : Fin cfg1.N, (cfg1.win 13).flush t = true ∧ i ∈ ((cfg1.win 13).blk t).view.set := by
  have hi0 : (i 0).val < 240000 := (i 0).isLt
  have hi1 : (i 1).val < 256 := (i 1).isLt
  have hN : cfg1.N = 120 := N_1
  refine ⟨⟨(i 0).val / 2000, by rw [hN]; omega⟩, flush1_13 _, ?_⟩
  rw [mem_blk13]
  obtain ⟨e0, e1⟩ := idx1_13 ⟨(i 0).val / 2000, by rw [hN]; omega⟩
  intro a
  match a with
  | ⟨0, _⟩ =>
    show win1_13.index _ (0 : Fin 2) * 2000 ≤ (i 0).val ∧ (i 0).val < win1_13.index _ (0 : Fin 2) * 2000 + 2000
    rw [e0]; show (i 0).val / 2000 * 2000 ≤ (i 0).val ∧ (i 0).val < (i 0).val / 2000 * 2000 + 2000; omega
  | ⟨1, _⟩ =>
    show win1_13.index _ (1 : Fin 2) * 256 ≤ (i 1).val ∧ (i 1).val < win1_13.index _ (1 : Fin 2) * 256 + 256
    rw [e1]; omega

end Blocks

end Cert.KernelIdeal.Val.E1

end
-- ==== Proof.Value1Att.lean ====
/-
  The attention part of an edge's message, entry by entry on the extended reals.

  For a block of 2000 edges: the entrywise product of the gathered query and key rows, multiplied into zero against the
  256×8 head indicator, is per head the dot product over that head's 32 columns (a sum against a 0/1 indicator is the
  sum over the indicated block); times the scale constant and the edge's cutoff these are the scores. A row maximum from
  minus infinity, the exponentials of the differences, their row sum from zero and the quotient are the softmax over the
  8 heads. The softmax block multiplied into zero against the transposed indicator carries, in column j, the weight of
  column j's head (a sum against the indicator of one head picks that head's term). Times the gathered value entry,
  times the gate, plus the message block: the stored entry.
-/
import proofs.«175260_j20066087207295_2_alg».proof.Proof.Gen.KernelIdeal.Skeleton
import proofs.«175260_j20066087207295_2_alg».proof.Proof.Spec
import proofs.«175260_j20066087207295_2_alg».proof.Proof.LibPlainDot
import proofs.«175260_j20066087207295_2_alg».proof.Proof.LibKeepdims
import proofs.«175260_j20066087207295_2_alg».proof.Proof.LibRowMax
import Idealize.ShloMosaic.Lib.Pipeline.Value

noncomputable section

namespace Cert.KernelIdeal.Val.At

open Cert.KernelIdeal Cert.KernelIdeal.Gen Cert.Hyb Idealize.ShloMosaic Idealize.ShloMosaic.ValueIdx

/-- A sum against the indicator of one head's columns is the sum over that head's 32 columns. -/
theorem sum_head (a : Fin 256 → EReal) (h : Fin 8) :
    (∑ j : Fin 256, a j * (if hd j = h then (1 : EReal) else 0)) = ∑ d : Fin 32, a (hcol h d) := by
  simp only [mul_ite, mul_one, mul_zero]
  rw [← Finset.sum_filter]
  symm
  refine Finset.sum_bij (fun d _ => hcol h d) (fun d _ => ?_) (fun d₁ _ d₂ _ e => ?_) (fun j hj => ?_) (fun d _ => rfl)
  · exact Finset.mem_filter.mpr ⟨Finset.mem_univ _, hd_hcol h d⟩
  · have e' : 32 * h.val + d₁.val = 32 * h.val + d₂.val := congrArg Fin.val e
    exact Fin.ext (by omega)
  · have hj' : j.val / 32 = h.val := congrArg Fin.val (Finset.mem_filter.mp hj).2
    have hlt := j.isLt
    refine ⟨⟨j.val % 32, Nat.mod_lt _ (by decide)⟩, Finset.mem_univ _, Fin.ext ?_⟩
    show 32 * h.val + j.val % 32 = j.val
    omega

/-- A sum against the indicator of the head of column j picks that head's term. -/
theorem sum_pick (a : Fin 8 → EReal) (j : Fin 256) :
    (∑ h : Fin 8, a h * (if hd j = h then (1 : EReal) else 0)) = a (hd j) := by
  simp only [mul_ite, mul_one, mul_zero]
  exact (Finset.sum_ite_eq Finset.univ (hd j) a).trans (if_pos (Finset.mem_univ _))

/-- The cutoff column the edge stage carries is the loaded column itself. -/
theorem cutoff_eq (x1 : Vec Ideal S2000x1 .f32) : k1_pay2 x1 = x1 :=
  shapeCast_self x1 _

/-- The raw score of head h on row p: the product of the query and key rows against the head indicator is the dot
    product over the head's 32 columns. -/
theorem rawScores_entry (x3 x4 : Vec Ideal S2000x256 .bf16) (x11 : Vec Ideal S256x8 .f32)
    (hS : ∀ (j : Fin 256) (h : Fin 8), x11 (ix2 j h) = if hd j = h then (1 : EReal) else 0) (p : Fin 2000) (h : Fin 8) :
    k1_pay4 x3 x4 x11 (ix2 p h) = ∑ d : Fin 32, x3 (ix2 p (hcol h d)) * x4 (ix2 p (hcol h d)) := by
  unfold k1_pay4
  refine (Cert.PlainDot.matmul_zero_apply 2000 256 8 (φ₁ := .bf16) (φ₂ := .bf16) none _ _ (ix2 p h)).trans ?_
  refine Eq.trans ?_ (sum_head (fun j => x3 (ix2 p j) * x4 (ix2 p j)) h)
  refine Finset.sum_congr rfl fun k _ => ?_
  rw [shapeCast_self x3, shapeCast_self x4, shapeCast_self x11]
  exact congrArg (fun t => x3 (ix2 p k) * x4 (ix2 p k) * t) (hS k h)

/-- The row maximum from minus infinity, kept as a column and broadcast over the 8 heads, at (p, h): the largest of
    row p's 8 entries. -/
theorem rowMax_entry (s : FVec Ideal S2000x8 .f32) (p : Fin 2000) (h : Fin 8) :
    broadcastTo S2000x8 (shapeCast S2000x1 (multiReduction (F := Ideal) .maximumf [1] S2000 s 0xFF800000#32
        reduces_S2000x8_S2000 (.inl rfl) rfl) shapeCasts_S2000_S2000x1) broadcasts_S2000x1_S2000x8 (ix2 p h)
      = smax (n := 2000) s p :=
  (Cert.Keepdims.broadcastTo_a1_ab_apply _ broadcasts_S2000x1_S2000x8 p h).trans
    ((Cert.Keepdims.shapeCast_a_a1_apply _ shapeCasts_S2000_S2000x1 p 0).trans
      (Cert.RowMax.max_axis1_apply s 0xFF800000#32 reduces_S2000x8_S2000 (.inl rfl) rfl p))

/-- The exponentials of a block of scores less each row's largest. -/
def expd (s : FVec Ideal S2000x8 .f32) : FVec Ideal S2000x8 .f32 :=
  exp (subf s (broadcastTo S2000x8 (shapeCast S2000x1 (multiReduction (F := Ideal) .maximumf [1] S2000 s 0xFF800000#32
    reduces_S2000x8_S2000 (.inl rfl) rfl) shapeCasts_S2000_S2000x1) broadcasts_S2000x1_S2000x8))

theorem expd_entry (s : FVec Ideal S2000x8 .f32) (p : Fin 2000) (h : Fin 8) :
    expd s (ix2 p h) = sexp (n := 2000) s p h :=
  congrArg (fun m => Ideal.exp (s (ix2 p h) - m)) (rowMax_entry s p h)

/-- The exponentials divided by their row sums from zero: the softmax over the 8 heads. -/
def softmax (s : FVec Ideal S2000x8 .f32) : FVec Ideal S2000x8 .f32 :=
  divf (expd s) (broadcastTo S2000x8 (shapeCast S2000x1 (multiReduction (F := Ideal) .add [1] S2000 (expd s) 0x00000000#32
    reduces_S2000x8_S2000 (.inl rfl) rfl) shapeCasts_S2000_S2000x1) broadcasts_S2000x1_S2000x8)

theorem softmax_entry (s : FVec Ideal S2000x8 .f32) (p : Fin 2000) (h : Fin 8) :
    softmax s (ix2 p h) = attn (n := 2000) s p h := by
  have hsum : broadcastTo S2000x8 (shapeCast S2000x1 (multiReduction (F := Ideal) .add [1] S2000 (expd s) 0x00000000#32
        reduces_S2000x8_S2000 (.inl rfl) rfl) shapeCasts_S2000_S2000x1) broadcasts_S2000x1_S2000x8 (ix2 p h)
      = lit 0x00000000#32 + ∑ h' : Fin 8, sexp (n := 2000) s p h' := by
    refine (Cert.Keepdims.rowSum_keep_bcast_apply (expd s) 0x00000000#32 reduces_S2000x8_S2000 (.inl rfl) rfl
      shapeCasts_S2000_S2000x1 broadcasts_S2000x1_S2000x8 p h).trans ?_
    rw [show lit 0x00000000#32 = 0 from Ideal.ofBits_zero_f32, zero_add]
    exact Finset.sum_congr rfl fun k _ => expd_entry s p k
  exact (congrArg (fun t => Ideal.div (expd s (ix2 p h)) t) hsum).trans
    (congrArg (fun t => Ideal.div t (lit 0x00000000#32 + ∑ h' : Fin 8, sexp (n := 2000) s p h')) (expd_entry s p h))

/-- The raw scores times the scale constant times the cutoff column broadcast over the 8 heads. -/
def scaled (v2 : FVec Ideal S2000x1 .f32) (v35 : FVec Ideal S2000x8 .f32) : FVec Ideal S2000x8 .f32 :=
  mulf (mulf v35 (broadcast S2000x8 (Named.named (F := Ideal) κ "inv_sqrt_hd" (φ := .f32) 0x3E3504F3#32)))
    (broadcastTo S2000x8 v2 broadcasts_S2000x1_S2000x8)

/-- The scaled scores of the gathered query and key blocks are the specification's scores. -/
theorem scaled_eq (x1 : Vec Ideal S2000x1 .f32) (x3 x4 : Vec Ideal S2000x256 .bf16) (x11 : Vec Ideal S256x8 .f32)
    (hscale : ∀ x : EReal, x * Named.named (F := Ideal) Cert.KernelIdeal.κ "inv_sqrt_hd" (φ := .f32) 0x3E3504F3#32
      = Ideal.div x (lit 0x40B504F3#32))
    (hS : ∀ (j : Fin 256) (h : Fin 8), x11 (ix2 j h) = if hd j = h then (1 : EReal) else 0) :
    @Eq (Mat 2000 8) (scaled (k1_pay2 x1) (k1_pay4 x3 x4 x11))
      (scores (n := 2000) x3 x4 (fun e => x1 (ix2 e (0 : Fin 1)))) := by
  funext i
  obtain ⟨p, h, rfl⟩ : ∃ (p : Fin 2000) (h : Fin 8), i = ix2 p h := ⟨i 0, i 1, eq_ix2 i⟩
  show (k1_pay4 x3 x4 x11 (ix2 p h) : EReal) * Named.named (F := Ideal) κ "inv_sqrt_hd" (φ := .f32) 0x3E3504F3#32
      * broadcastTo S2000x8 (k1_pay2 x1) broadcasts_S2000x1_S2000x8 (ix2 p h)
    = Ideal.div (lit 0x00000000#32 + ∑ d : Fin 32, x3 (ix2 p (hcol h d)) * x4 (ix2 p (hcol h d))) (lit 0x40B504F3#32)
      * x1 (ix2 p (0 : Fin 1))
  rw [hscale, rawScores_entry x3 x4 x11 hS p h, Cert.Keepdims.broadcastTo_a1_ab_apply _ broadcasts_S2000x1_S2000x8 p h,
    cutoff_eq, show lit 0x00000000#32 = 0 from Ideal.ofBits_zero_f32, zero_add]

/-- A block of 8 head weights spread over the 256 columns: its product with the transposed head indicator into zero. -/
def spread (a : FVec Ideal S2000x8 .f32) (x12 : Vec Ideal S8x256 .f32) : FVec Ideal S2000x256 .f32 :=
  matmul dot_S2000x8_S8x256_S2000x256_1_0_0_1_n_n none (truncf .bf16 a bitsLt_bf16_f32)
    (truncf .bf16 (shapeCast S8x256 x12 shapeCasts_S8x256_S8x256) bitsLt_bf16_f32) (constant S2000x256 .f32 0x00000000#32)

/-- Column j of the spread block carries the weight of column j's head. -/
theorem spread_entry (a : FVec Ideal S2000x8 .f32) (x12 : Vec Ideal S8x256 .f32)
    (hST : ∀ (h : Fin 8) (j : Fin 256), x12 (ix2 h j) = if hd j = h then (1 : EReal) else 0) (p : Fin 2000) (j : Fin 256) :
    spread a x12 (ix2 p j) = a (ix2 p (hd j)) := by
  unfold spread
  refine (Cert.PlainDot.matmul_zero_apply 2000 8 256 (φ₁ := .bf16) (φ₂ := .bf16) none _ _ (ix2 p j)).trans ?_
  refine Eq.trans ?_ (sum_pick (fun h => a (ix2 p h)) j)
  refine Finset.sum_congr rfl fun k _ => ?_
  rw [shapeCast_self x12]
  exact congrArg (fun t => a (ix2 p k) * t) (hST k j)

/-- The gate: the one entry of the 1×1 block. -/
theorem gate_entry (x10 : Vec Ideal S1x1 .f32) :
    extractAt ![0, 0] x10 inpos_S1x1_p0_0 = x10 (ix2 (0 : Fin 1) (0 : Fin 1)) :=
  congrArg x10 (funext fun a => Fin.ext (by
    match a with
    | ⟨0, _⟩ => rfl
    | ⟨1, _⟩ => rfl))

/-- The edge stage's stored block as the message block plus gate times the spread softmax times the value block. -/
theorem pay1_eq (v2 : FVec Ideal S2000x1 .f32) (v26 : FVec Ideal S2000x256 .f32) (v35 : FVec Ideal S2000x8 .f32)
    (x12 : Vec Ideal S8x256 .f32) (x5 : Vec Ideal S2000x256 .bf16) (x10 : Vec Ideal S1x1 .f32) :
    k1_pay1 v2 v26 v35 x12 x5 x10
      = truncf .bf16 (addf v26 (mulf (broadcast S2000x256 (extractAt ![0, 0] x10 inpos_S1x1_p0_0))
          (mulf (spread (softmax (scaled v2 v35)) x12)
            (extf .f32 (shapeCast S2000x256 x5 shapeCasts_S2000x256_S2000x256) bitsLt_bf16_f32)))) bitsLt_bf16_f32 := rfl

theorem pay1_entry (v2 : FVec Ideal S2000x1 .f32) (v26 : FVec Ideal S2000x256 .f32) (v35 : FVec Ideal S2000x8 .f32)
    (x12 : Vec Ideal S8x256 .f32) (x5 : Vec Ideal S2000x256 .bf16) (x10 : Vec Ideal S1x1 .f32)
    (hST : ∀ (h : Fin 8) (j : Fin 256), x12 (ix2 h j) = if hd j = h then (1 : EReal) else 0) (p : Fin 2000) (j : Fin 256) :
    k1_pay1 v2 v26 v35 x12 x5 x10 (ix2 p j)
      = v26 (ix2 p j) + x10 (ix2 (0 : Fin 1) (0 : Fin 1)) * (attn (n := 2000) (scaled v2 v35) p (hd j) * x5 (ix2 p j)) := by
  rw [pay1_eq]
  show (v26 (ix2 p j) : EReal) + extractAt ![0, 0] x10 inpos_S1x1_p0_0
      * (spread (softmax (scaled v2 v35)) x12 (ix2 p j) * shapeCast S2000x256 x5 shapeCasts_S2000x256_S2000x256 (ix2 p j)) = _
  rw [spread_entry _ x12 hST p j, softmax_entry, shapeCast_self x5, gate_entry x10]

theorem attention_entry (x1 : Vec Ideal S2000x1 .f32) (v26 : FVec Ideal S2000x256 .f32) (x3 x4 x5 : Vec Ideal S2000x256 .bf16) (x10 : Vec Ideal S1x1 .f32) (x11 : Vec Ideal S256x8 .f32) (x12 : Vec Ideal S8x256 .f32)
    (hscale : ∀ x : EReal, x * Named.named (F := Ideal) Cert.KernelIdeal.κ "inv_sqrt_hd" (φ := .f32) 0x3E3504F3#32 = Ideal.div x (lit 0x40B504F3#32)) (hS : ∀ (j : Fin 256) (h : Fin 8), x11 (ix2 j h) = if hd j = h then (1 : EReal) else 0) (hST : ∀ (h : Fin 8) (j : Fin 256), x12 (ix2 h j) = if hd j = h then (1 : EReal) else 0) (p : Fin 2000) (j : Fin 256) :
    k1_pay1 (k1_pay2 x1) v26 (k1_pay4 x3 x4 x11) x12 x5 x10 (ix2 p j)
      = v26 (ix2 p j) + x10 (ix2 (0 : Fin 1) (0 : Fin 1)) * (attn (scores (n := 2000) x3 x4 (fun e => x1 (ix2 e (0 : Fin 1)))) p (hd j) * x5 (ix2 p j)) :=
  (pay1_entry (k1_pay2 x1) v26 (k1_pay4 x3 x4 x11) x12 x5 x10 hST p j).trans
    (congrArg (fun s : Mat 2000 8 => v26 (ix2 p j) + x10 (ix2 (0 : Fin 1) (0 : Fin 1)) * (attn s p (hd j) * x5 (ix2 p j)))
      (scaled_eq x1 x3 x4 x11 hscale hS))

end Cert.KernelIdeal.Val.At

end
-- ==== Proof.Value1.lean ====
/-
  The edge stage's message array at the extended reals, as one function of the arrays the stage finds: each block of 2000
  edges is the specification's message function of the point's input blocks, every input block is a run of rows of its
  array (or the whole array), every edge function reads one row, and the 120 output blocks cover the array.
-/
import proofs.«175260_j20066087207295_2_alg».proof.Proof.Value1a
import proofs.«175260_j20066087207295_2_alg».proof.Proof.Value1b
import proofs.«175260_j20066087207295_2_alg».proof.Proof.Value1Att

set_option maxRecDepth 16384

noncomputable section

namespace Cert.KernelIdeal.Val

open Cert.KernelIdeal Cert.KernelIdeal.Gen Cert.KernelIdeal.Hand Cert.Hyb Idealize.ShloMosaic Idealize.ShloMosaic.ValueIdx
open Idealize.ShloMosaic.TcCoe
open Idealize.ShloMosaic.Pipeline (Dat)

namespace E1

/-- One block of the message: the weighted normalised row plus gate times the attention-weighted value row, as the
    specification's function of the thirteen input blocks. -/
theorem block_entry (x0 : Vec Ideal S2000x64 .f32) (x1 : Vec Ideal S2000x1 .f32) (x2 x3 x4 x5 : Vec Ideal S2000x256 .bf16)
    (x6 : Vec Ideal S64x256 .f32) (x7 : Vec Ideal S1x256 .f32) (x8 : Vec Ideal S256x256 .f32) (x9 : Vec Ideal S1x256 .f32)
    (x10 : Vec Ideal S1x1 .f32) (x11 : Vec Ideal S256x8 .f32) (x12 : Vec Ideal S8x256 .f32)
    (hscale : ∀ x : EReal, x * Named.named (F := Ideal) Cert.KernelIdeal.κ "inv_sqrt_hd" (φ := .f32) 0x3E3504F3#32 = Ideal.div x (lit 0x40B504F3#32))
    (hS : ∀ (j : Fin 256) (h : Fin 8), x11 (ix2 j h) = if hd j = h then (1 : EReal) else 0)
    (hST : ∀ (h : Fin 8) (j : Fin 256), x12 (ix2 h j) = if hd j = h then (1 : EReal) else 0) (p : Fin 2000) (j : Fin 256) :
    k1_pay1 (k1_pay2 x1) (k1_pay3 x0 x1 x6 x7 x8 x9 x2) (k1_pay4 x3 x4 x11) x12 x5 x10 (ix2 p j)
      = combined (n := 2000) x2 x5
          (wphys x0 x6 (fun k => x7 (ix2 (0 : Fin 1) k)) x8 (fun k => x9 (ix2 (0 : Fin 1) k)) (fun e => x1 (ix2 e (0 : Fin 1))))
          (scores x3 x4 (fun e => x1 (ix2 e (0 : Fin 1)))) (x10 (ix2 (0 : Fin 1) (0 : Fin 1))) (ix2 p j) := by
  rw [At.attention_entry x1 (k1_pay3 x0 x1 x6 x7 x8 x9 x2) x3 x4 x5 x10 x11 x12 hscale hS hST p j, phys_entry]
  rfl

section Final
variable (V : (c : Dev nD) → (b : Ref sig .tc) → Buf (Elt Ideal) ((c : Thread nD τ).loc b)) (c : Dev nD)

/-- The message array as one function of the arrays the edge stage finds. -/
abbrev G13 : Mat 240000 256 :=
  combined (V c (Pipeline.arrRef spec1 2)) (V c (Pipeline.arrRef spec1 5))
    (wphys (V c (Pipeline.arrRef spec1 0)) (V c (Pipeline.arrRef spec1 6)) (fun k : Fin 256 => V c (Pipeline.arrRef spec1 7) (ix2 (0 : Fin 1) k))
      (V c (Pipeline.arrRef spec1 8)) (fun k : Fin 256 => V c (Pipeline.arrRef spec1 9) (ix2 (0 : Fin 1) k))
      (fun e : Fin 240000 => V c (Pipeline.arrRef spec1 1) (ix2 e (0 : Fin 1))))
    (scores (V c (Pipeline.arrRef spec1 3)) (V c (Pipeline.arrRef spec1 4)) (fun e : Fin 240000 => V c (Pipeline.arrRef spec1 1) (ix2 e (0 : Fin 1))))
    (V c (Pipeline.arrRef spec1 10) (ix2 (0 : Fin 1) (0 : Fin 1)))

/-- What the body leaves in the output's buffer at point t: the specification's function of the point's input blocks. -/
theorem after13 (t : Fin cfg1.N) : (dat1 (F := Ideal) V c).after 13 t
    = out1_13 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t) (iblk1 V c 12 t) := by
  dsimp only [dat1]

/-- What point t writes back is block t of the message array. -/
theorem flushed13_eq
    (hscale : ∀ x : EReal, x * Named.named (F := Ideal) Cert.KernelIdeal.κ "inv_sqrt_hd" (φ := .f32) 0x3E3504F3#32 = Ideal.div x (lit 0x40B504F3#32))
    (hS : ∀ (j : Fin 256) (h : Fin 8), V c (Pipeline.arrRef spec1 11) (ix2 j h) = if hd j = h then (1 : EReal) else 0)
    (hST : ∀ (h : Fin 8) (j : Fin 256), V c (Pipeline.arrRef spec1 12) (ix2 h j) = if hd j = h then (1 : EReal) else 0)
    (t : Fin cfg1.N) :
    (dat1 (F := Ideal) V c).flushed 13 t = ((cfg1.win 13).blk t).view.read (Elt Ideal) (G13 V c) := by
  show (cfg1.win 13).cut (grid1.coords t) ((dat1 (F := Ideal) V c).after 13 t) = _
  rw [after13]
  unfold out1_13
  rw [View.canon_unit_zero hz]
  simp only [View.ld_unit_zero (S := S2000x64) hz, View.ld_unit_zero (S := S2000x1) hz, View.ld_unit_zero (S := S2000x256) hz,
    View.ld_unit_zero (S := S64x256) hz, View.ld_unit_zero (S := S1x256) hz, View.ld_unit_zero (S := S256x256) hz,
    View.ld_unit_zero (S := S1x1) hz, View.ld_unit_zero (S := S256x8) hz, View.ld_unit_zero (S := S8x256) hz]
  funext y
  obtain ⟨p, j, rfl⟩ : ∃ (p : Fin 2000) (j : Fin 256), y = ix2 p j := ⟨y 0, y 1, eq_ix2 y⟩
  show k1_pay1 (F := Ideal) _ _ _ _ _ _ (ix2 p j) = G13 V c (((cfg1.win 13).blk t).view.emb (ix2 p j))
  rw [emb13]
  refine (block_entry (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t) hscale
    (fun j h => (congrFun (iblk_res11 V c t) (ix2 j h)).trans (hS j h))
    (fun h j => (congrFun (iblk_res12 V c t) (ix2 h j)).trans (hST h j)) p j).trans ?_
  rw [iblk_res6 V c t, iblk_res7 V c t, iblk_res8 V c t, iblk_res9 V c t, iblk_res10 V c t]
  exact combined_row _ _ _ _ _ _ _ _ _ p (row t p) j (iblk_row2 V c t p j) (iblk_row5 V c t p j)
    (wphys_row _ _ _ _ _ _ _ _ p (row t p) (fun q => iblk_row0 V c t p q) (iblk_row1 V c t p 0) j)
    (fun h => scores_row _ _ _ _ _ _ p (row t p) (fun q => iblk_row3 V c t p q) (fun q => iblk_row4 V c t p q) (iblk_row1 V c t p 0) h)

end Final

end E1

/-- The message array after the edge stage: the specification's message function of the arrays the stage finds, given
    that the scale constant is the division by the head-size root and that the two indicator arrays are the head
    indicator and its transpose. -/
theorem final1_13 (V : (c : Dev nD) → (b : Ref sig .tc) → Buf (Elt Ideal) ((c : Thread nD τ).loc b)) (c : Dev nD)
    (hscale : ∀ x : EReal, x * Named.named (F := Ideal) Cert.KernelIdeal.κ "inv_sqrt_hd" (φ := .f32) 0x3E3504F3#32 = Ideal.div x (lit 0x40B504F3#32))
    (hS : ∀ (j : Fin 256) (h : Fin 8), V c (Pipeline.arrRef spec1 11) (ix2 j h) = if hd j = h then (1 : EReal) else 0)
    (hST : ∀ (h : Fin 8) (j : Fin 256), V c (Pipeline.arrRef spec1 12) (ix2 h j) = if hd j = h then (1 : EReal) else 0) :
    @Eq (Mat 240000 256) ((dat1 (F := Ideal) V c).arrAt 13 cfg1.N)
      (combined (V c (Pipeline.arrRef spec1 2)) (V c (Pipeline.arrRef spec1 5))
        (wphys (V c (Pipeline.arrRef spec1 0)) (V c (Pipeline.arrRef spec1 6)) (fun k : Fin 256 => V c (Pipeline.arrRef spec1 7) (ix2 (0 : Fin 1) k))
          (V c (Pipeline.arrRef spec1 8)) (fun k : Fin 256 => V c (Pipeline.arrRef spec1 9) (ix2 (0 : Fin 1) k))
          (fun e : Fin 240000 => V c (Pipeline.arrRef spec1 1) (ix2 e (0 : Fin 1))))
        (scores (V c (Pipeline.arrRef spec1 3)) (V c (Pipeline.arrRef spec1 4)) (fun e : Fin 240000 => V c (Pipeline.arrRef spec1 1) (ix2 e (0 : Fin 1))))
        (V c (Pipeline.arrRef spec1 10) (ix2 (0 : Fin 1) (0 : Fin 1)))) :=
  (dat1 (F := Ideal) V c).arrAt_eq_of_cover 13 (E1.G13 V c) (fun t _ => E1.flushed13_eq V c hscale hS hST t) E1.cover13

end Cert.KernelIdeal.Val

end
-- ==== Proof.Value2.lean ====
/-
  The output stage's value: the array the output window ends holding is the input plus the linearly mapped aggregate,
  index by index.

  One grid point handles 2000 rows. Its block of the result is, at row p and column j, the feature block's entry plus
  the sum over q of the aggregate block's (p, q) times the weights' (q, j), plus the bias row's entry j. The feature,
  aggregate and result windows move together (block t holds rows 2000 t … 2000 t + 1999), the weights and the bias row
  stay whole, so point t's block is block t of one function of the four arrays; the ten blocks cover the 20000 rows.
-/
import proofs.«175260_j20066087207295_2_alg».proof.Proof.OutsI
import proofs.«175260_j20066087207295_2_alg».proof.Proof.Spec
import proofs.«175260_j20066087207295_2_alg».proof.Proof.LibPlainDot
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Cert.Hyb Idealize.ShloMosaic Idealize.ShloMosaic.ValueIdx
open Idealize.ShloMosaic.Pipeline (Dat)
open Idealize.ShloMosaic.TcCoe

namespace N2

theorem hz : (![0, 0] : Fin 2 → Nat) = fun _ => 0 := funext fun a => by fin_cases a <;> rfl

/-- The bias row broadcast over the rows, at (p, j): the row's entry j. -/
theorem bias_apply (b : FVec Ideal S1x256 .f32) (p : Fin 2000) (j : Fin 256) :
    broadcastTo S2000x256 b broadcasts_S1x256_S2000x256 (ix2 p j) = b (ix2 (0 : Fin 1) j) := by
  refine broadcastTo_apply b broadcasts_S1x256_S2000x256 (ix2 p j) (ix2 (0 : Fin 1) j) fun a => ?_
  match a with
  | ⟨0, _⟩ => rfl
  | ⟨1, _⟩ => rfl

/-- The body's block at (p, j): the feature entry plus the product row plus the bias entry. -/
theorem pay_apply (a : Vec Ideal S2000x256 .f32) (w : Vec Ideal S256x256 .f32) (b : Vec Ideal S1x256 .f32)
    (x : Vec Ideal S2000x256 .f32) (p : Fin 2000) (j : Fin 256) :
    k2_pay1 (F := Ideal) a w b x (ix2 p j)
      = x (ix2 p j) + ((∑ q : Fin 256, a (ix2 p q) * w (ix2 q j)) + b (ix2 (0 : Fin 1) j)) := by
  unfold k2_pay1
  simp only [shapeCast_self]
  rw [addf_apply, addf_apply, bias_apply]
  refine congrArg (fun z => x (ix2 p j) + (z + b (ix2 (0 : Fin 1) j))) ?_
  exact Cert.PlainDot.matmul_zero_apply 2000 256 256 (φ₁ := .bf16) (φ₂ := .bf16) none _ _ (ix2 p j)

variable (V : (c : Dev nD) → (b : Ref sig .tc) → Buf (Elt Ideal) ((c : Thread nD τ).loc b))

/-- The four arrays the output stage reads, as it finds them. -/
abbrev aX (c : Dev nD) : Mat 20000 256 := V c (Pipeline.arrRef spec2 0)
abbrev aAG (c : Dev nD) : Mat 20000 256 := V c (Pipeline.arrRef spec2 1)
abbrev aWO (c : Dev nD) : Mat 256 256 := V c (Pipeline.arrRef spec2 2)
abbrev aBO (c : Dev nD) : Fin 256 → EReal := fun k : Fin 256 => V c (Pipeline.arrRef spec2 3) (ix2 (0 : Fin 1) k)

theorem N_eq : cfg2.N = 10 := by decide

/-- What the body leaves in the output window's buffer. -/
theorem after_4 (c : Dev nD) (t : Fin cfg2.N) :
    (dat2 (F := Ideal) V c).after 4 t = out2_4 (iblk2 V c 0 t) (iblk2 V c 1 t) (iblk2 V c 2 t) (iblk2 V c 3 t) := by
  dsimp only [dat2]

/-- The printed index maps over the grid: the feature, aggregate and result windows are at block (t, 0), the weights
    and the bias row at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The feature block at point t, at (p, j): the feature array at row 2000 t + p. -/
theorem blk0_apply (c : Dev nD) (t : Fin cfg2.N) (p : Fin 2000) (j : Fin 256) (r : Fin 20000)
    (hr : r.val = 2000 * t.val + p.val) :
    (iblk2 (F := Ideal) V c 0 t : Vec Ideal S2000x256 .f32) (ix2 p j) = aX V c (ix2 r j) := by
  obtain ⟨e0, e1, -⟩ := idx_facts t
  show V c (Pipeline.arrRef spec2 0) (((cfg2.win 0).blk t).view.emb (ix2 p j)) = _
  refine congrArg (V c (Pipeline.arrRef spec2 0)) (funext fun a => Fin.ext ?_)
  match a with
  | ⟨0, _⟩ => show win2_0.index t (0 : Fin 2) * 2000 + 1 * p.val = r.val; rw [e0, hr]; omega
  | ⟨1, _⟩ => show win2_0.index t (1 : Fin 2) * 256 + 1 * j.val = j.val; rw [e1]; omega

/-- The aggregate block at point t, at (p, q): the aggregate array at row 2000 t + p. -/
theorem blk1_apply (c : Dev nD) (t : Fin cfg2.N) (p : Fin 2000) (q : Fin 256) (r : Fin 20000)
    (hr : r.val = 2000 * t.val + p.val) :
    (iblk2 (F := Ideal) V c 1 t : Vec Ideal S2000x256 .f32) (ix2 p q) = aAG V c (ix2 r q) := by
  obtain ⟨-, -, e0, e1, -⟩ := idx_facts t
  show V c (Pipeline.arrRef spec2 1) (((cfg2.win 1).blk t).view.emb (ix2 p q)) = _
  refine congrArg (V c (Pipeline.arrRef spec2 1)) (funext fun a => Fin.ext ?_)
  match a with
  | ⟨0, _⟩ => show win2_1.index t (0 : Fin 2) * 2000 + 1 * p.val = r.val; rw [e0, hr]; omega
  | ⟨1, _⟩ => show win2_1.index t (1 : Fin 2) * 256 + 1 * q.val = q.val; rw [e1]; omega

/-- The weight block at every point is the weight array. -/
theorem blk2_apply (c : Dev nD) (t : Fin cfg2.N) (q j : Fin 256) :
    (iblk2 (F := Ideal) V c 2 t : Vec Ideal S256x256 .f32) (ix2 q j) = aWO V c (ix2 q j) := by
  obtain ⟨-, -, -, -, e0, e1, -⟩ := idx_facts t
  show V c (Pipeline.arrRef spec2 2) (((cfg2.win 2).blk t).view.emb (ix2 q j)) = _
  refine congrArg (V c (Pipeline.arrRef spec2 2)) (funext fun a => Fin.ext ?_)
  match a with
  | ⟨0, _⟩ => show win2_2.index t (0 : Fin 2) * 256 + 1 * q.val = q.val; rw [e0]; omega
  | ⟨1, _⟩ => show win2_2.index t (1 : Fin 2) * 256 + 1 * j.val = j.val; rw [e1]; omega

/-- The bias block at every point is the bias row. -/
theorem blk3_apply (c : Dev nD) (t : Fin cfg2.N) (j : Fin 256) :
    (iblk2 (F := Ideal) V c 3 t : Vec Ideal S1x256 .f32) (ix2 (0 : Fin 1) j) = aBO V c j := by
  obtain ⟨-, -, -, -, -, -, e0, e1, -⟩ := idx_facts t
  show V c (Pipeline.arrRef spec2 3) (((cfg2.win 3).blk t).view.emb (ix2 (0 : Fin 1) j)) = _
  refine congrArg (V c (Pipeline.arrRef spec2 3)) (funext fun a => Fin.ext ?_)
  match a with
  | ⟨0, _⟩ => show win2_3.index t (0 : Fin 2) * 1 + 1 * (0 : Fin 1).val = (0 : Fin 1).val; rw [e0]; rfl
  | ⟨1, _⟩ => show win2_3.index t (1 : Fin 2) * 256 + 1 * j.val = j.val; rw [e1]; omega

/-- What point t writes back is block t of the input plus the mapped aggregate. -/
theorem flushed_eq (c : Dev nD) (t : Fin cfg2.N) :
    (dat2 (F := Ideal) V c).flushed 4 t
      = ((cfg2.win 4).blk t).view.read (Elt Ideal) (outF (aX V c) (aAG V c) (aWO V c) (aBO V c)) := by
  show (cfg2.win 4).cut (grid2.coords t) ((dat2 (F := Ideal) V c).after 4 t) = _
  rw [after_4]
  unfold out2_4
  rw [View.canon_unit_zero hz]
  simp only [View.ld_unit_zero (S := S2000x256) hz, View.ld_unit_zero (S := S256x256) hz, View.ld_unit_zero (S := S1x256) hz]
  obtain ⟨-, -, -, -, -, -, -, -, e0, e1⟩ := idx_facts t
  have hN := N_eq
  have ht : t.val < 10 := hN ▸ t.isLt
  funext y
  have hy0 : (y 0).val < 2000 := (y 0).isLt
  have hy1 : (y 1).val < 256 := (y 1).isLt
  have hr : 2000 * t.val + (y 0).val < 20000 := by omega
  have hyx : (cfg2.win 4).xinj (grid2.coords t) y = ix2 (⟨(y 0).val, hy0⟩ : Fin 2000) (⟨(y 1).val, hy1⟩ : Fin 256) :=
    funext fun a => by match a with | ⟨0, _⟩ => rfl | ⟨1, _⟩ => rfl
  have hemb : ((cfg2.win 4).blk t).view.emb y = ix2 (⟨2000 * t.val + (y 0).val, hr⟩ : Fin 20000) (⟨(y 1).val, hy1⟩ : Fin 256) :=
    funext fun a => Fin.ext (by
      match a with
      | ⟨0, _⟩ => show win2_4.index t (0 : Fin 2) * 2000 + 1 * (y 0).val = 2000 * t.val + (y 0).val; rw [e0]; omega
      | ⟨1, _⟩ => show win2_4.index t (1 : Fin 2) * 256 + 1 * (y 1).val = (y 1).val; rw [e1]; omega)
  show k2_pay1 (F := Ideal) (iblk2 V c 1 t) (iblk2 V c 2 t) (iblk2 V c 3 t) (iblk2 V c 0 t) ((cfg2.win 4).xinj (grid2.coords t) y)
      = outF (aX V c) (aAG V c) (aWO V c) (aBO V c) (((cfg2.win 4).blk t).view.emb y)
  rw [hyx, hemb]
  refine (pay_apply (iblk2 V c 1 t) (iblk2 V c 2 t) (iblk2 V c 3 t) (iblk2 V c 0 t) _ _).trans ?_
  have h0 := blk0_apply V c t ⟨(y 0).val, hy0⟩ ⟨(y 1).val, hy1⟩ ⟨2000 * t.val + (y 0).val, hr⟩ rfl
  have h3 := blk3_apply V c t ⟨(y 1).val, hy1⟩
  rw [h0, h3]
  show _ = aX V c (ix2 ⟨2000 * t.val + (y 0).val, hr⟩ ⟨(y 1).val, hy1⟩)
    + ((∑ q : Fin 256, aAG V c (ix2 ⟨2000 * t.val + (y 0).val, hr⟩ q) * aWO V c (ix2 q ⟨(y 1).val, hy1⟩)) + aBO V c ⟨(y 1).val, hy1⟩)
  refine congrArg₂ (· + ·) rfl (congrArg₂ (· + ·) (Finset.sum_congr rfl fun q _ => ?_) rfl)
  have h1 := blk1_apply V c t ⟨(y 0).val, hy0⟩ q ⟨2000 * t.val + (y 0).val, hr⟩ rfl
  have h2 := blk2_apply V c t q ⟨(y 1).val, hy1⟩
  rw [h1, h2]

/-- An index of the result array is in point t's block iff each coordinate is in the block's range on its axis. -/
theorem mem_blk (t : Fin cfg2.N) (i : S20000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v57).slice (win2_4.rect t)).set ↔ _
  rw [View.set_slice_whole, Rect.mem_set_unit]
  exact Iff.rfl

/-- The ten blocks cover the array: row r is in block r / 2000. -/
theorem cover (i : S20000x256.Idx) :
    ∃ t : Fin cfg2.N, (cfg2.win 4).flush t = true ∧ i ∈ ((cfg2.win 4).blk t).view.set := by
  have hN := N_eq
  have hi0 : (i 0).val < 20000 := (i 0).isLt
  have hi1 : (i 1).val < 256 := (i 1).isLt
  refine ⟨⟨(i 0).val / 2000, by omega⟩, flush2_4 _, ?_⟩
  rw [mem_blk]
  obtain ⟨-, -, -, -, -, -, -, -, e0, e1⟩ := idx_facts ⟨(i 0).val / 2000, by omega⟩
  intro a
  match a with
  | ⟨0, _⟩ =>
    show win2_4.index _ (0 : Fin 2) * 2000 ≤ (i 0).val ∧ (i 0).val < win2_4.index _ (0 : Fin 2) * 2000 + 2000
    rw [e0]; show (i 0).val / 2000 * 2000 ≤ (i 0).val ∧ (i 0).val < (i 0).val / 2000 * 2000 + 2000; omega
  | ⟨1, _⟩ =>
    show win2_4.index _ (1 : Fin 2) * 256 ≤ (i 1).val ∧ (i 1).val < win2_4.index _ (1 : Fin 2) * 256 + 256
    rw [e1]; omega

end N2

/-- The output stage's array after the run: the input plus the linearly mapped aggregate. -/
theorem final2_4 (V : (c : Dev nD) → (b : Ref sig .tc) → Buf (Elt Ideal) ((c : Thread nD τ).loc b)) (c : Dev nD) :
    @Eq (Mat 20000 256) ((dat2 (F := Ideal) V c).arrAt 4 cfg2.N)
      (outF (V c (Pipeline.arrRef spec2 0)) (V c (Pipeline.arrRef spec2 1)) (V c (Pipeline.arrRef spec2 2))
        (fun k : Fin 256 => V c (Pipeline.arrRef spec2 3) (ix2 (0 : Fin 1) k))) :=
  (dat2 (F := Ideal) V c).arrAt_eq_of_cover 4 _ (fun t _ => N2.flushed_eq V c t) N2.cover

end Cert.KernelIdeal.Val

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.HostA0.lean ====
/-
  What the first stretch of host operations leaves in the buffers the three stages read, at the extended reals. The
  features are not touched. The norm's weight and bias, and the later stages' bias vectors and gate, are each viewed as
  one row: entry (0, k) of the row is entry k of the vector. The three projection weights are put side by side (columns
  256 s … 256 s + 255 of the whole are the s-th weight) and their biases end to end, then viewed as one row. The
  head-indicator matrix is the 8-by-8 identity with each row repeated 32 times: entry (j, h) is 1 when column j lies in
  head h (j / 32 = h) and 0 otherwise; its transpose is read at (h, j).
-/
import proofs.«175260_j20066087207295_2_alg».proof.Proof.FoldI
import proofs.«175260_j20066087207295_2_alg».proof.Proof.Gen.KernelIdeal.Regions
import proofs.«175260_j20066087207295_2_alg».proof.Proof.Spec
import proofs.«175260_j20066087207295_2_alg».proof.Proof.LibCat
import Idealize.ShloMosaic.Lib.Pipeline.Value
import Idealize.ShloMosaic.Lib.ValueLayout

set_option maxRecDepth 16384

noncomputable section

namespace Cert.KernelIdeal.Val.H

open Cert.KernelIdeal Cert.KernelIdeal.Gen Cert.KernelIdeal.Hand Cert.Hyb Idealize.ShloMosaic Idealize.ShloMosaic.ValueIdx
open Idealize.ShloMosaic.TcCoe Idealize.SL.Sem

variable (m : (ℓ : Loc nD τ sig) → Buf (Elt Ideal) ℓ) (c : Dev nD)

namespace A

/-- A vector of 256 entries viewed as one row: entry (0, k) is entry k. -/
theorem row256 {α : Type} (x : S256.Idx → α) (h : S256.ShapeCasts S1x256) (k : Fin 256) :
    shapeCast S1x256 x h (ix2 (0 : Fin 1) k) = x (ix1 k) := by
  refine shapeCast_apply x h _ _ ?_
  rw [Shape.rowMajor_val_one, Shape.rowMajor_val_two]
  show k.val = 0 * 256 + k.val
  omega

/-- A vector of one entry viewed as a 1-by-1 matrix. -/
theorem row1 {α : Type} (x : S1.Idx → α) (h : S1.ShapeCasts S1x1) :
    shapeCast S1x1 x h (ix2 (0 : Fin 1) (0 : Fin 1)) = x (ix1 (0 : Fin 1)) := by
  refine shapeCast_apply x h _ _ ?_
  rw [Shape.rowMajor_val_one, Shape.rowMajor_val_two]
  rfl

end A

theorem in0_0 : Hand.V1 m c (Pipeline.arrRef spec0 0) = m ((c : Thread nD τ).loc main_arg0) :=
  StableHlo.after_of_writes_sub hostOps0 _ hostOps0_writes (by decide)

theorem in0_1 (k : Fin 256) : Hand.V1 m c (Pipeline.arrRef spec0 1) (ix2 (0 : Fin 1) k) = m ((c : Thread nD τ).loc main_arg8) (ix1 k) := by
  show StableHlo.after hostOps0 (Hand.W0 m c) (Proc.devRef .tc main_v4) (ix2 (0 : Fin 1) k) = _
  have e : StableHlo.after hostOps0 (Hand.W0 m c) (Proc.devRef .tc main_v4) = fun i => shapeCast S1x256 (m ((c : Thread nD τ).loc main_arg8)) shapeCasts_S256_S1x256 i := by
    after_results_simp
    rfl
  rw [e]
  exact A.row256 _ _ k

theorem in0_2 (k : Fin 256) : Hand.V1 m c (Pipeline.arrRef spec0 2) (ix2 (0 : Fin 1) k) = m ((c : Thread nD τ).loc main_arg9) (ix1 k) := by
  show StableHlo.after hostOps0 (Hand.W0 m c) (Proc.devRef .tc main_v5) (ix2 (0 : Fin 1) k) = _
  have e : StableHlo.after hostOps0 (Hand.W0 m c) (Proc.devRef .tc main_v5) = fun i => shapeCast S1x256 (m ((c : Thread nD τ).loc main_arg9)) shapeCasts_S256_S1x256 i := by
    after_results_simp
    rfl
  rw [e]
  exact A.row256 _ _ k

theorem v6_entry (k : Fin 256) : W1 m c (Proc.devRef .tc main_v6) (ix2 (0 : Fin 1) k) = m ((c : Thread nD τ).loc main_arg17) (ix1 k) := by
  have e : StableHlo.after hostOps0 (Hand.W0 m c) (Proc.devRef .tc main_v6) = fun i => shapeCast S1x256 (m ((c : Thread nD τ).loc main_arg17)) shapeCasts_S256_S1x256 i := by
    after_results_simp
    rfl
  show StableHlo.after hostOps0 (Hand.W0 m c) (Proc.devRef .tc main_v6) (ix2 (0 : Fin 1) k) = _
  rw [e]
  exact A.row256 _ _ k

theorem v7_entry (k : Fin 256) : W1 m c (Proc.devRef .tc main_v7) (ix2 (0 : Fin 1) k) = m ((c : Thread nD τ).loc main_arg5) (ix1 k) := by
  have e : StableHlo.after hostOps0 (Hand.W0 m c) (Proc.devRef .tc main_v7) = fun i => shapeCast S1x256 (m ((c : Thread nD τ).loc main_arg5)) shapeCasts_S256_S1x256 i := by
    after_results_simp
    rfl
  show StableHlo.after hostOps0 (Hand.W0 m c) (Proc.devRef .tc main_v7) (ix2 (0 : Fin 1) k) = _
  rw [e]
  exact A.row256 _ _ k

theorem v8_entry (k : Fin 256) : W1 m c (Proc.devRef .tc main_v8) (ix2 (0 : Fin 1) k) = m ((c : Thread nD τ).loc main_arg7) (ix1 k) := by
  have e : StableHlo.after hostOps0 (Hand.W0 m c) (Proc.devRef .tc main_v8) = fun i => shapeCast S1x256 (m ((c : Thread nD τ).loc main_arg7)) shapeCasts_S256_S1x256 i := by
    after_results_simp
    rfl
  show StableHlo.after hostOps0 (Hand.W0 m c) (Proc.devRef .tc main_v8) (ix2 (0 : Fin 1) k) = _
  rw [e]
  exact A.row256 _ _ k

theorem v9_entry : W1 m c (Proc.devRef .tc main_v9) (ix2 (0 : Fin 1) (0 : Fin 1)) = m ((c : Thread nD τ).loc main_arg18) (ix1 (0 : Fin 1)) := by
  have e : StableHlo.after hostOps0 (Hand.W0 m c) (Proc.devRef .tc main_v9) = fun i => shapeCast S1x1 (m ((c : Thread nD τ).loc main_arg18)) shapeCasts_S1_S1x1 i := by
    after_results_simp
    rfl
  show StableHlo.after hostOps0 (Hand.W0 m c) (Proc.devRef .tc main_v9) (ix2 (0 : Fin 1) (0 : Fin 1)) = _
  rw [e]
  exact A.row1 _ _

namespace A

section cat
variable {α : Type}

/-- Three 256-column blocks side by side: column 256 s + q of the whole is column q of block s. -/
theorem cat_cols0 (x0 x1 x2 : S256x256.Idx → α) (h : Shape.Concatenates [S256x256, S256x256, S256x256] S256x768 1)
    (p q : Fin 256) (cc : Fin 768) (hc : cc.val = q.val) :
    concatenate S256x768 1 [⟨S256x256, x0⟩, ⟨S256x256, x1⟩, ⟨S256x256, x2⟩] h (ix2 p cc) = x0 (ix2 p q) := by
  refine concatenate_apply_piece (t := S256x768) (1 : Fin 2) [⟨S256x256, x0⟩, ⟨S256x256, x1⟩, ⟨S256x256, x2⟩] h (ix2 p cc) 0 (by show 0 < 3; decide) S256x256 x0 rfl rfl 0 rfl (ix2 p q) ?_ ?_
  · intro b hb
    match b with
    | ⟨0, _⟩ => rfl
    | ⟨1, _⟩ => exact absurd rfl hb
  · show 0 + q.val = cc.val
    omega

theorem cat_cols1 (x0 x1 x2 : S256x256.Idx → α) (h : Shape.Concatenates [S256x256, S256x256, S256x256] S256x768 1)
    (p q : Fin 256) (cc : Fin 768) (hc : cc.val = 256 + q.val) :
    concatenate S256x768 1 [⟨S256x256, x0⟩, ⟨S256x256, x1⟩, ⟨S256x256, x2⟩] h (ix2 p cc) = x1 (ix2 p q) := by
  refine concatenate_apply_piece (t := S256x768) (1 : Fin 2) [⟨S256x256, x0⟩, ⟨S256x256, x1⟩, ⟨S256x256, x2⟩] h (ix2 p cc) 1 (by show 1 < 3; decide) S256x256 x1 rfl rfl 256 rfl (ix2 p q) ?_ ?_
  · intro b hb
    match b with
    | ⟨0, _⟩ => rfl
    | ⟨1, _⟩ => exact absurd rfl hb
  · show 256 + q.val = cc.val
    omega

theorem cat_cols2 (x0 x1 x2 : S256x256.Idx → α) (h : Shape.Concatenates [S256x256, S256x256, S256x256] S256x768 1)
    (p q : Fin 256) (cc : Fin 768) (hc : cc.val = 512 + q.val) :
    concatenate S256x768 1 [⟨S256x256, x0⟩, ⟨S256x256, x1⟩, ⟨S256x256, x2⟩] h (ix2 p cc) = x2 (ix2 p q) := by
  refine concatenate_apply_piece (t := S256x768) (1 : Fin 2) [⟨S256x256, x0⟩, ⟨S256x256, x1⟩, ⟨S256x256, x2⟩] h (ix2 p cc) 2 (by show 2 < 3; decide) S256x256 x2 rfl rfl 512 rfl (ix2 p q) ?_ ?_
  · intro b hb
    match b with
    | ⟨0, _⟩ => rfl
    | ⟨1, _⟩ => exact absurd rfl hb
  · show 512 + q.val = cc.val
    omega

end cat
end A

namespace A
section cat1
variable {α : Type}

/-- Three 256-entry vectors end to end: entry 256 s + q of the whole is entry q of vector s. -/
theorem cat_row0 (x0 x1 x2 : S256.Idx → α) (h : Shape.Concatenates [S256, S256, S256] S768 0) (q : Fin 256) (cc : Fin 768)
    (hc : cc.val = q.val) :
    concatenate S768 0 [⟨S256, x0⟩, ⟨S256, x1⟩, ⟨S256, x2⟩] h (ix1 cc) = x0 (ix1 q) := by
  refine concatenate_apply_piece (t := S768) (0 : Fin 1) [⟨S256, x0⟩, ⟨S256, x1⟩, ⟨S256, x2⟩] h (ix1 cc) 0 (by show 0 < 3; decide) S256 x0 rfl rfl 0 rfl (ix1 q) ?_ ?_
  · intro b hb
    match b with
    | ⟨0, _⟩ => exact absurd rfl hb
  · show 0 + q.val = cc.val
    omega

theorem cat_row1 (x0 x1 x2 : S256.Idx → α) (h : Shape.Concatenates [S256, S256, S256] S768 0) (q : Fin 256) (cc : Fin 768)
    (hc : cc.val = 256 + q.val) :
    concatenate S768 0 [⟨S256, x0⟩, ⟨S256, x1⟩, ⟨S256, x2⟩] h (ix1 cc) = x1 (ix1 q) := by
  refine concatenate_apply_piece (t := S768) (0 : Fin 1) [⟨S256, x0⟩, ⟨S256, x1⟩, ⟨S256, x2⟩] h (ix1 cc) 1 (by show 1 < 3; decide) S256 x1 rfl rfl 256 rfl (ix1 q) ?_ ?_
  · intro b hb
    match b with
    | ⟨0, _⟩ => exact absurd rfl hb
  · show 256 + q.val = cc.val
    omega

theorem cat_row2 (x0 x1 x2 : S256.Idx → α) (h : Shape.Concatenates [S256, S256, S256] S768 0) (q : Fin 256) (cc : Fin 768)
    (hc : cc.val = 512 + q.val) :
    concatenate S768 0 [⟨S256, x0⟩, ⟨S256, x1⟩, ⟨S256, x2⟩] h (ix1 cc) = x2 (ix1 q) := by
  refine concatenate_apply_piece (t := S768) (0 : Fin 1) [⟨S256, x0⟩, ⟨S256, x1⟩, ⟨S256, x2⟩] h (ix1 cc) 2 (by show 2 < 3; decide) S256 x2 rfl rfl 512 rfl (ix1 q) ?_ ?_
  · intro b hb
    match b with
    | ⟨0, _⟩ => exact absurd rfl hb
  · show 512 + q.val = cc.val
    omega

/-- A vector of 768 entries viewed as one row: entry (0, k) is entry k. -/
theorem row768 (x : S768.Idx → α) (h : S768.ShapeCasts S1x768) (k : Fin 768) :
    shapeCast S1x768 x h (ix2 (0 : Fin 1) k) = x (ix1 k) := by
  refine shapeCast_apply x h _ _ ?_
  rw [Shape.rowMajor_val_one, Shape.rowMajor_val_two]
  show k.val = 0 * 768 + k.val
  omega

end cat1
end A

theorem in0_3_eq : Hand.V1 m c (Pipeline.arrRef spec0 3)
    = concatenate S256x768 1 [⟨S256x256, m ((c : Thread nD τ).loc main_arg10)⟩, ⟨S256x256, m ((c : Thread nD τ).loc main_arg12)⟩, ⟨S256x256, m ((c : Thread nD τ).loc main_arg14)⟩] concatenates_S256x256_S256x256_S256x256_S256x768_d1 := by
  show StableHlo.after hostOps0 (Hand.W0 m c) (Proc.devRef .tc main_v10) = _
  after_results_cat
  finish_results_rw
  rfl

theorem in0_3_0 : @Eq (Mat 256 256) (colSlice (Hand.V1 m c (Pipeline.arrRef spec0 3)) 0) (m ((c : Thread nD τ).loc main_arg10)) := by
  funext j
  obtain ⟨p, q, rfl⟩ : ∃ (p : Fin 256) (q : Fin 256), j = ix2 p q := ⟨j 0, j 1, eq_ix2 j⟩
  unfold colSlice
  rw [in0_3_eq]
  exact A.cat_cols0 _ _ _ _ p q _ (by show 256 * 0 + q.val = q.val; omega)

theorem in0_3_1 : @Eq (Mat 256 256) (colSlice (Hand.V1 m c (Pipeline.arrRef spec0 3)) 1) (m ((c : Thread nD τ).loc main_arg12)) := by
  funext j
  obtain ⟨p, q, rfl⟩ : ∃ (p : Fin 256) (q : Fin 256), j = ix2 p q := ⟨j 0, j 1, eq_ix2 j⟩
  unfold colSlice
  rw [in0_3_eq]
  exact A.cat_cols1 _ _ _ _ p q _ (by show 256 * 1 + q.val = 256 + q.val; omega)

theorem in0_3_2 : @Eq (Mat 256 256) (colSlice (Hand.V1 m c (Pipeline.arrRef spec0 3)) 2) (m ((c : Thread nD τ).loc main_arg14)) := by
  funext j
  obtain ⟨p, q, rfl⟩ : ∃ (p : Fin 256) (q : Fin 256), j = ix2 p q := ⟨j 0, j 1, eq_ix2 j⟩
  unfold colSlice
  rw [in0_3_eq]
  exact A.cat_cols2 _ _ _ _ p q _ (by show 256 * 2 + q.val = 512 + q.val; omega)

namespace A

/-- A reference the first host stretch never writes keeps its contents through any initial part of the stretch. -/
theorem keep0 (W : Valuation τ sig (Elt Ideal)) (n : Nat) (r : Ref sig .tc) (hr : r ∉ hostOps0_W) :
    StableHlo.after ((hostOps0 : List (HloOp τ sig (Elt Ideal))).take n) W (Proc.devRef .tc r) = W (Proc.devRef .tc r) :=
  StableHlo.after_of_writes_sub _ W
    (List.forall_iff_forall_mem.mpr fun op hop =>
      (List.forall_iff_forall_mem.mp hostOps0_writes) op (List.mem_of_mem_take hop)) hr

/-- Three 256-entry vectors end to end. -/
def cat3r (a b d : S256.Idx → EReal) : S768.Idx → EReal :=
  concatenate S768 0 [⟨S256, a⟩, ⟨S256, b⟩, ⟨S256, d⟩] concatenates_S256_S256_S256_S768_d0

end A

theorem v12_key : StableHlo.after hostOps0 (Hand.W0 m c) (Proc.devRef .tc main_v12)
    = fun i => shapeCast S1x768 (A.cat3r
        (StableHlo.after ((hostOps0 : List (HloOp τ sig (Elt Ideal))).take 11) (Hand.W0 m c) (Proc.devRef .tc main_arg11))
        (StableHlo.after ((hostOps0 : List (HloOp τ sig (Elt Ideal))).take 11) (Hand.W0 m c) (Proc.devRef .tc main_arg13))
        (StableHlo.after ((hostOps0 : List (HloOp τ sig (Elt Ideal))).take 11) (Hand.W0 m c) (Proc.devRef .tc main_arg15)))
        shapeCasts_S768_S1x768 i := by
  after_results_cat
  rfl

theorem in0_4_eq : Hand.V1 m c (Pipeline.arrRef spec0 4)
    = fun i => shapeCast S1x768 (concatenate S768 0 [⟨S256, m ((c : Thread nD τ).loc main_arg11)⟩, ⟨S256, m ((c : Thread nD τ).loc main_arg13)⟩, ⟨S256, m ((c : Thread nD τ).loc main_arg15)⟩] concatenates_S256_S256_S256_S768_d0) shapeCasts_S768_S1x768 i := by
  show StableHlo.after hostOps0 (Hand.W0 m c) (Proc.devRef .tc main_v12) = _
  rw [v12_key, A.keep0 _ 11 main_arg11 (by decide), A.keep0 _ 11 main_arg13 (by decide), A.keep0 _ 11 main_arg15 (by decide)]
  rfl

theorem in0_4_0 : rowSlice (fun k : Fin 768 => Hand.V1 m c (Pipeline.arrRef spec0 4) (ix2 (0 : Fin 1) k)) 0 = fun k => m ((c : Thread nD τ).loc main_arg11) (ix1 k) := by
  funext k
  unfold rowSlice
  rw [in0_4_eq]
  exact (A.row768 _ _ _).trans (A.cat_row0 _ _ _ _ k _ (by show 256 * 0 + k.val = k.val; omega))

theorem in0_4_1 : rowSlice (fun k : Fin 768 => Hand.V1 m c (Pipeline.arrRef spec0 4) (ix2 (0 : Fin 1) k)) 1 = fun k => m ((c : Thread nD τ).loc main_arg13) (ix1 k) := by
  funext k
  unfold rowSlice
  rw [in0_4_eq]
  exact (A.row768 _ _ _).trans (A.cat_row1 _ _ _ _ k _ (by show 256 * 1 + k.val = 256 + k.val; omega))

theorem in0_4_2 : rowSlice (fun k : Fin 768 => Hand.V1 m c (Pipeline.arrRef spec0 4) (ix2 (0 : Fin 1) k)) 2 = fun k => m ((c : Thread nD τ).loc main_arg15) (ix1 k) := by
  funext k
  unfold rowSlice
  rw [in0_4_eq]
  exact (A.row768 _ _ _).trans (A.cat_row2 _ _ _ _ k _ (by show 256 * 2 + k.val = 512 + k.val; omega))

namespace A

/-- The 8-by-8 identity as the program builds it, one word: the row coordinate plus zero compared with the column coordinate. -/
theorem eye_word : ∀ a h : Fin 8,
    IntOp.cmpi .eq (IntOp.addi (BitVec.ofNat 32 a.val) 0#32) (BitVec.ofNat 32 h.val) = if a = h then 1#1 else 0#1 := by
  decide

/-- The 8-by-8 identity as the program builds it, read at (a, h). -/
theorem eye_entry (a h : Fin 8) :
    uitofp (F := Ideal) .f32 (cmpi .eq (addi (iotaInDim S8x8 32 0) (broadcastInDim S8x8 ![] bcast_S_S8x8 (constantI S_ 32 0#32))) (iotaInDim S8x8 32 1)) (ix2 a h)
      = if a = h then (1 : EReal) else 0 := by
  show (((IntOp.cmpi .eq (IntOp.addi (BitVec.ofNat 32 a.val) 0#32) (BitVec.ofNat 32 h.val)).toNat : ℝ) : EReal) = _
  rw [eye_word a h]
  by_cases e : a = h
  · rw [if_pos e, if_pos e]; simp
  · rw [if_neg e, if_neg e]; simp

/-- The identity's entries repeated along a new middle axis of 32 and the first two axes merged: row 32 a + b of the
    result is row a of the identity. -/
theorem rep_entry {α : Type} (x : S8x8.Idx → α) (j : Fin 256) (h : Fin 8) :
    shapeCast S256x8 (broadcastInDim S8x32x8 ![0, 2] bcast_S8x8_S8x32x8_0_2 x) shapeCasts_S8x32x8_S256x8 (ix2 j h) = x (ix2 (hd j) h) := by
  have hj := j.isLt
  refine (shapeCast_apply _ shapeCasts_S8x32x8_S256x8 (ix2 j h) (ix3 (hd j) (⟨j.val % 32, Nat.mod_lt _ (by decide)⟩ : Fin 32) h) ?_).trans ?_
  · rw [Shape.rowMajor_val_three, Shape.rowMajor_val_two]
    show ((j.val / 32) * 32 + j.val % 32) * 8 + h.val = j.val * 8 + h.val
    omega
  · refine broadcastInDim_apply _ bcast_S8x8_S8x32x8_0_2 x _ (ix2 (hd j) h) ?_
    intro a
    match a with
    | ⟨0, _⟩ => rfl
    | ⟨1, _⟩ => rfl

/-- The transpose of a 256-by-8 matrix at (h, j). -/
theorem tr_entry {α : Type} (x : S256x8.Idx → α) (h : Fin 8) (j : Fin 256) :
    transpose S8x256 [1, 0] x transposes_S256x8_S8x256_1_0 (ix2 h j) = x (ix2 j h) := by
  refine transpose_apply [1, 0] x transposes_S256x8_S8x256_1_0 (ix2 h j) (ix2 j h) ?_
  intro b
  match b with
  | ⟨0, _⟩ => rfl
  | ⟨1, _⟩ => rfl

end A

theorem v20_eq : StableHlo.after hostOps0 (Hand.W0 m c) (Proc.devRef .tc main_v20)
    = fun i => shapeCast S256x8 (broadcastInDim S8x32x8 ![0, 2] bcast_S8x8_S8x32x8_0_2
        (uitofp (F := Ideal) .f32 (cmpi .eq (addi (iotaInDim S8x8 32 0) (broadcastInDim S8x8 ![] bcast_S_S8x8 (constantI S_ 32 0#32))) (iotaInDim S8x8 32 1))))
        shapeCasts_S8x32x8_S256x8 i := by
  after_results_simp
  rfl

theorem S_entry (j : Fin 256) (h : Fin 8) : W1 m c (Proc.devRef .tc main_v20) (ix2 j h) = if hd j = h then (1 : EReal) else 0 := by
  show StableHlo.after hostOps0 (Hand.W0 m c) (Proc.devRef .tc main_v20) (ix2 j h) = _
  rw [v20_eq]
  exact (A.rep_entry _ j h).trans (A.eye_entry (hd j) h)

theorem v21_eq : StableHlo.after hostOps0 (Hand.W0 m c) (Proc.devRef .tc main_v21)
    = transpose S8x256 [1, 0] (StableHlo.after hostOps0 (Hand.W0 m c) (Proc.devRef .tc main_v20)) transposes_S256x8_S8x256_1_0 := by
  after_results_simp

theorem ST_entry (h : Fin 8) (j : Fin 256) : W1 m c (Proc.devRef .tc main_v21) (ix2 h j) = if hd j = h then (1 : EReal) else 0 := by
  show StableHlo.after hostOps0 (Hand.W0 m c) (Proc.devRef .tc main_v21) (ix2 h j) = _
  rw [v21_eq]
  exact (A.tr_entry _ h j).trans (S_entry m c j h)

end Cert.KernelIdeal.Val.H

end
-- ==== Proof.HostA2.lean ====
/-
  What the third stretch of host operations leaves for the output stage, at the extended reals: the per-edge rows (their
  change of float format is the identity) summed into a zero 20000-by-256 matrix at the rows the first column of edge
  indices names. The index column is the one the first host stretch cut out of the edge list, broadcast to a column; no
  stage in between writes it. The summation itself is kept as one operation.
-/
import proofs.«175260_j20066087207295_2_alg».proof.Proof.FoldI
import proofs.«175260_j20066087207295_2_alg».proof.Proof.Gen.KernelIdeal.Regions
import proofs.«175260_j20066087207295_2_alg».proof.Proof.Spec
import proofs.«175260_j20066087207295_2_alg».proof.Proof.LibCat
import Idealize.ShloMosaic.Lib.Pipeline.Value
import Idealize.ShloMosaic.Lib.ValueLayout

set_option maxRecDepth 16384

noncomputable section

namespace Cert.KernelIdeal.Val.H

open Cert.KernelIdeal Cert.KernelIdeal.Gen Cert.KernelIdeal.Hand Cert.Hyb Idealize.ShloMosaic Idealize.ShloMosaic.ValueIdx
open Idealize.ShloMosaic.TcCoe Idealize.SL.Sem

variable (m : (ℓ : Loc nD τ sig) → Buf (Elt Ideal) ℓ) (c : Dev nD)

namespace A

/-- What the third host stretch leaves in the broadcast index column, from any contents W it starts at. -/
theorem v55_of (W : Valuation τ sig (Elt Ideal)) :
    StableHlo.after hostOps2 W (Proc.devRef .tc main_v55)
      = broadcastInDim S240000x1 ![0] bcast_S240000_S240000x1_0 (W (Proc.devRef .tc main_v1)) := by
  after_results_simp

/-- What the third host stretch leaves in the scatter-add's result, from any contents W it starts at: the scatter-add of the
    per-edge rows (the change of float format is the identity) into the zero matrix at the broadcast row indices. -/
theorem v56_of (W : Valuation τ sig (Elt Ideal)) :
    StableHlo.after hostOps2 W (Proc.devRef .tc main_v56)
      = Host.scatterAdd scatter_S20000x256_S240000x1_S240000x256_1_0_0_1 (F := Ideal) (φ := .f32)
          (broadcastInDim S20000x256 ![] bcast_S_S20000x256 (constant (F := Ideal) S_ .f32 0x00000000#32))
          (StableHlo.after hostOps2 W (Proc.devRef .tc main_v55))
          (W (Proc.devRef .tc main_v52)) := by
  rw [v55_of]
  after_results_simp
  rfl

end A

theorem in2_1 : Hand.V5 m c (Pipeline.arrRef spec2 1)
    = Host.scatterAdd scatter_S20000x256_S240000x1_S240000x256_1_0_0_1 (F := Ideal) (φ := .f32)
        (broadcastInDim S20000x256 ![] bcast_S_S20000x256 (constant (F := Ideal) S_ .f32 0x00000000#32))
        (W5 m c (Proc.devRef .tc main_v55)) (W4 m c (Proc.devRef .tc main_v52)) :=
  A.v56_of (W4 m c)

theorem v1_W4 : W4 m c (Proc.devRef .tc main_v1) = W1 m c (Proc.devRef .tc main_v1) := by
  rw [W4_of_ne m c main_v1 (by decide)]
  show StableHlo.after hostOps1 (W2 m c) (Proc.devRef .tc main_v1) = _
  rw [StableHlo.after_of_writes_sub hostOps1 _ hostOps1_writes (by decide)]
  exact W2_of_ne m c main_v1 (by decide)

theorem v55_entry : W5 m c (Proc.devRef .tc main_v55)
    = broadcastInDim S240000x1 ![0] bcast_S240000_S240000x1_0 (W1 m c (Proc.devRef .tc main_v1)) := by
  show StableHlo.after hostOps2 (W4 m c) (Proc.devRef .tc main_v55) = _
  rw [A.v55_of, v1_W4]

end Cert.KernelIdeal.Val.H

end
-- ==== Proof.HostA.lean ====
/-
  The contents the host operations leave for the three stages: the first stretch's results and the third stretch's
  aggregate, gathered under one name.
-/
import proofs.«175260_j20066087207295_2_alg».proof.Proof.HostA0
import proofs.«175260_j20066087207295_2_alg».proof.Proof.HostA2
-- ==== Proof.KernelVal.lean ====
/-
  The kernel's result as the specification's function of the launch arguments, over the extended reals: the contents the
  output stage leaves in the result array are the output map of the features and of the scatter-sum, into the row nodes,
  of every edge's message; the edge stage's array is the message of the gathered node-stage rows; the node stage's four
  arrays are the normalised rows and their three linear maps. Each step replaces one argument of a folded specification
  function by an equal one; none of those functions is ever opened.
-/
import proofs.«175260_j20066087207295_2_alg».proof.Proof.Spec
import proofs.«175260_j20066087207295_2_alg».proof.Proof.FoldI
import proofs.«175260_j20066087207295_2_alg».proof.Proof.Value0
import proofs.«175260_j20066087207295_2_alg».proof.Proof.Value1
import proofs.«175260_j20066087207295_2_alg».proof.Proof.Value2
import proofs.«175260_j20066087207295_2_alg».proof.Proof.HostA
import proofs.«175260_j20066087207295_2_alg».proof.Proof.HostB

set_option maxRecDepth 16384

noncomputable section

namespace Cert.KernelIdeal.Val

open Cert.KernelIdeal Cert.KernelIdeal.Gen Cert.KernelIdeal.Hand Cert.Hyb Cert.Lib.RowIndex Idealize.ShloMosaic Idealize.ShloMosaic.ValueIdx
open Idealize.ShloMosaic.TcCoe

namespace KV

/-! ## Equal arguments give equal values: one congruence per specification function, so that no step opens one -/

theorem layerNorm_congr {n : Nat} {x x' : Mat n 256} {lw lw' lb lb' : Fin 256 → EReal} (hx : x = x') (hw : lw = lw') (hb : lb = lb') :
    layerNorm x lw lb = layerNorm x' lw' lb' := by subst hx hw hb; rfl

theorem lin_congr {a k n : Nat} {X X' : Mat a k} {W W' : Mat k n} {b b' : Fin n → EReal} (hX : X = X') (hW : W = W') (hb : b = b') :
    lin X W b = lin X' W' b' := by subst hX hW hb; rfl

theorem gath_congr {X X' : Mat 20000 256} (hX : X = X') (idx : IdxCol) : gath X idx = gath X' idx := by subst hX; rfl

theorem wphys_congr {n : Nat} {rbf rbf' : Mat n 64} {w1 w1' : Mat 64 256} {b1 b1' : Fin 256 → EReal} {w2 w2' : Mat 256 256}
    {b2 b2' : Fin 256 → EReal} {cut cut' : Fin n → EReal} (h0 : rbf = rbf') (h1 : w1 = w1') (h2 : b1 = b1') (h3 : w2 = w2')
    (h4 : b2 = b2') (h5 : cut = cut') : wphys rbf w1 b1 w2 b2 cut = wphys rbf' w1' b1' w2' b2' cut' := by
  subst h0 h1 h2 h3 h4 h5; rfl

theorem scores_congr {n : Nat} {q q' k k' : Mat n 256} {cut cut' : Fin n → EReal} (hq : q = q') (hk : k = k') (hc : cut = cut') :
    scores q k cut = scores q' k' cut' := by subst hq hk hc; rfl

theorem combined_congr {n : Nat} {xnc xnc' vc vc' wp wp' : Mat n 256} {s s' : Mat n 8} {g g' : EReal} (h0 : xnc = xnc') (h1 : vc = vc')
    (h2 : wp = wp') (h3 : s = s') (h4 : g = g') : combined xnc vc wp s g = combined xnc' vc' wp' s' g' := by
  subst h0 h1 h2 h3 h4; rfl

theorem outF_congr {n : Nat} {x x' aggr aggr' : Mat n 256} {wo wo' : Mat 256 256} {bo bo' : Fin 256 → EReal} (h0 : x = x') (h1 : aggr = aggr')
    (h2 : wo = wo') (h3 : bo = bo') : outF x aggr wo bo = outF x' aggr' wo' bo' := by subst h0 h1 h2 h3; rfl

/-! ## What the chain takes for granted, each statement written once: the three regions' values -/

set_option maxHeartbeats 1000000 in
def Final0_5 : Prop := ∀ (V : (c : Dev nD) → (b : Ref sig .tc) → Buf (Elt Ideal) ((c : Thread nD τ).loc b)) (c : Dev nD),
    @Eq (Mat 20000 256) ((dat0 (F := Ideal) V c).arrAt 5 cfg0.N) (layerNorm (V c (Pipeline.arrRef spec0 0)) (fun k : Fin 256 => V c (Pipeline.arrRef spec0 1) (ix2 (0 : Fin 1) k)) (fun k : Fin 256 => V c (Pipeline.arrRef spec0 2) (ix2 (0 : Fin 1) k)))

set_option maxHeartbeats 1000000 in
def Final0_6 : Prop := ∀ (V : (c : Dev nD) → (b : Ref sig .tc) → Buf (Elt Ideal) ((c : Thread nD τ).loc b)) (c : Dev nD),
    @Eq (Mat 20000 256) ((dat0 (F := Ideal) V c).arrAt 6 cfg0.N)
      (lin (layerNorm (V c (Pipeline.arrRef spec0 0)) (fun k : Fin 256 => V c (Pipeline.arrRef spec0 1) (ix2 (0 : Fin 1) k)) (fun k : Fin 256 => V c (Pipeline.arrRef spec0 2) (ix2 (0 : Fin 1) k))) (colSlice (V c (Pipeline.arrRef spec0 3)) 0) (rowSlice (fun k : Fin 768 => V c (Pipeline.arrRef spec0 4) (ix2 (0 : Fin 1) k)) 0))

set_option maxHeartbeats 1000000 in
def Final0_7 : Prop := ∀ (V : (c : Dev nD) → (b : Ref sig .tc) → Buf (Elt Ideal) ((c : Thread nD τ).loc b)) (c : Dev nD),
    @Eq (Mat 20000 256) ((dat0 (F := Ideal) V c).arrAt 7 cfg0.N)
      (lin (layerNorm (V c (Pipeline.arrRef spec0 0)) (fun k : Fin 256 => V c (Pipeline.arrRef spec0 1) (ix2 (0 : Fin 1) k)) (fun k : Fin 256 => V c (Pipeline.arrRef spec0 2) (ix2 (0 : Fin 1) k))) (colSlice (V c (Pipeline.arrRef spec0 3)) 1) (rowSlice (fun k : Fin 768 => V c (Pipeline.arrRef spec0 4) (ix2 (0 : Fin 1) k)) 1))

set_option maxHeartbeats 1000000 in
def Final0_8 : Prop := ∀ (V : (c : Dev nD) → (b : Ref sig .tc) → Buf (Elt Ideal) ((c : Thread nD τ).loc b)) (c : Dev nD),
    @Eq (Mat 20000 256) ((dat0 (F := Ideal) V c).arrAt 8 cfg0.N)
      (lin (layerNorm (V c (Pipeline.arrRef spec0 0)) (fun k : Fin 256 => V c (Pipeline.arrRef spec0 1) (ix2 (0 : Fin 1) k)) (fun k : Fin 256 => V c (Pipeline.arrRef spec0 2) (ix2 (0 : Fin 1) k))) (colSlice (V c (Pipeline.arrRef spec0 3)) 2) (rowSlice (fun k : Fin 768 => V c (Pipeline.arrRef spec0 4) (ix2 (0 : Fin 1) k)) 2))

set_option maxHeartbeats 1000000 in
def Final1_13 : Prop := ∀ (V : (c : Dev nD) → (b : Ref sig .tc) → Buf (Elt Ideal) ((c : Thread nD τ).loc b)) (c : Dev nD)
      (hscale : ∀ x : EReal, x * Named.named (F := Ideal) Cert.KernelIdeal.κ "inv_sqrt_hd" (φ := .f32) 0x3E3504F3#32 = Ideal.div x (lit 0x40B504F3#32))
      (hS : ∀ (j : Fin 256) (h : Fin 8), V c (Pipeline.arrRef spec1 11) (ix2 j h) = if hd j = h then (1 : EReal) else 0)
      (hST : ∀ (h : Fin 8) (j : Fin 256), V c (Pipeline.arrRef spec1 12) (ix2 h j) = if hd j = h then (1 : EReal) else 0),
    @Eq (Mat 240000 256) ((dat1 (F := Ideal) V c).arrAt 13 cfg1.N)
      (combined (V c (Pipeline.arrRef spec1 2)) (V c (Pipeline.arrRef spec1 5))
        (wphys (V c (Pipeline.arrRef spec1 0)) (V c (Pipeline.arrRef spec1 6)) (fun k : Fin 256 => V c (Pipeline.arrRef spec1 7) (ix2 (0 : Fin 1) k)) (V c (Pipeline.arrRef spec1 8)) (fun k : Fin 256 => V c (Pipeline.arrRef spec1 9) (ix2 (0 : Fin 1) k)) (fun e : Fin 240000 => V c (Pipeline.arrRef spec1 1) (ix2 e (0 : Fin 1))))
        (scores (V c (Pipeline.arrRef spec1 3)) (V c (Pipeline.arrRef spec1 4)) (fun e : Fin 240000 => V c (Pipeline.arrRef spec1 1) (ix2 e (0 : Fin 1))))
        (V c (Pipeline.arrRef spec1 10) (ix2 (0 : Fin 1) (0 : Fin 1))))

set_option maxHeartbeats 1000000 in
def Final2_4 : Prop := ∀ (V : (c : Dev nD) → (b : Ref sig .tc) → Buf (Elt Ideal) ((c : Thread nD τ).loc b)) (c : Dev nD),
    @Eq (Mat 20000 256) ((dat2 (F := Ideal) V c).arrAt 4 cfg2.N)
      (outF (V c (Pipeline.arrRef spec2 0)) (V c (Pipeline.arrRef spec2 1)) (V c (Pipeline.arrRef spec2 2)) (fun k : Fin 256 => V c (Pipeline.arrRef spec2 3) (ix2 (0 : Fin 1) k)))

end KV

variable (m : (ℓ : Loc nD τ sig) → Buf (Elt Ideal) ℓ) (c : Dev nD)

set_option quotPrecheck false in
/-- Argument k of @main as core c holds it at launch. -/
local notation "A⟨" b "⟩" => m ((c : Thread nD τ).loc b)

-- the two columns of index words the second host stretch cuts out of the edge-index argument
variable (kRowI kColI : IVec S2x240000 32 → IdxCol)

namespace KV

/-! ## and the host stretches' values, at a launch memory and a core -/

def In0_0 : Prop := Hand.V1 m c (Pipeline.arrRef spec0 0) = A⟨main_arg0⟩

def In0_1 : Prop := ∀ k : Fin 256, Hand.V1 m c (Pipeline.arrRef spec0 1) (ix2 (0 : Fin 1) k) = A⟨main_arg8⟩ (ix1 k)

def In0_2 : Prop := ∀ k : Fin 256, Hand.V1 m c (Pipeline.arrRef spec0 2) (ix2 (0 : Fin 1) k) = A⟨main_arg9⟩ (ix1 k)

def In0_3_0 : Prop := @Eq (Mat 256 256) (colSlice (Hand.V1 m c (Pipeline.arrRef spec0 3)) 0) A⟨main_arg10⟩

def In0_3_1 : Prop := @Eq (Mat 256 256) (colSlice (Hand.V1 m c (Pipeline.arrRef spec0 3)) 1) A⟨main_arg12⟩

def In0_3_2 : Prop := @Eq (Mat 256 256) (colSlice (Hand.V1 m c (Pipeline.arrRef spec0 3)) 2) A⟨main_arg14⟩

def In0_4_0 : Prop := rowSlice (fun k : Fin 768 => Hand.V1 m c (Pipeline.arrRef spec0 4) (ix2 (0 : Fin 1) k)) 0 = fun k => A⟨main_arg11⟩ (ix1 k)

def In0_4_1 : Prop := rowSlice (fun k : Fin 768 => Hand.V1 m c (Pipeline.arrRef spec0 4) (ix2 (0 : Fin 1) k)) 1 = fun k => A⟨main_arg13⟩ (ix1 k)

def In0_4_2 : Prop := rowSlice (fun k : Fin 768 => Hand.V1 m c (Pipeline.arrRef spec0 4) (ix2 (0 : Fin 1) k)) 2 = fun k => A⟨main_arg15⟩ (ix1 k)

def S_entry : Prop := ∀ (j : Fin 256) (h : Fin 8), W1 m c (Proc.devRef .tc main_v20) (ix2 j h) = if hd j = h then (1 : EReal) else 0

def ST_entry : Prop := ∀ (h : Fin 8) (j : Fin 256), W1 m c (Proc.devRef .tc main_v21) (ix2 h j) = if hd j = h then (1 : EReal) else 0

def V6_entry : Prop := ∀ k : Fin 256, W1 m c (Proc.devRef .tc main_v6) (ix2 (0 : Fin 1) k) = A⟨main_arg17⟩ (ix1 k)

def V7_entry : Prop := ∀ k : Fin 256, W1 m c (Proc.devRef .tc main_v7) (ix2 (0 : Fin 1) k) = A⟨main_arg5⟩ (ix1 k)

def V8_entry : Prop := ∀ k : Fin 256, W1 m c (Proc.devRef .tc main_v8) (ix2 (0 : Fin 1) k) = A⟨main_arg7⟩ (ix1 k)

def V9_entry : Prop := W1 m c (Proc.devRef .tc main_v9) (ix2 (0 : Fin 1) (0 : Fin 1)) = A⟨main_arg18⟩ (ix1 (0 : Fin 1))

def In1_0 : Prop := Hand.V3 m c (Pipeline.arrRef spec1 0) = A⟨main_arg2⟩

def In1_1 : Prop := ∀ e : Fin 240000, Hand.V3 m c (Pipeline.arrRef spec1 1) (ix2 e (0 : Fin 1)) = A⟨main_arg3⟩ (ix1 e)

def In1_2 : Prop := @Eq (Mat 240000 256) (Hand.V3 m c (Pipeline.arrRef spec1 2)) (gath (W2 m c (Proc.devRef .tc main_v22_0)) (kColI A⟨main_arg1⟩))

def In1_3 : Prop := @Eq (Mat 240000 256) (Hand.V3 m c (Pipeline.arrRef spec1 3)) (gath (W2 m c (Proc.devRef .tc main_v22_1)) (kRowI A⟨main_arg1⟩))

def In1_4 : Prop := @Eq (Mat 240000 256) (Hand.V3 m c (Pipeline.arrRef spec1 4)) (gath (W2 m c (Proc.devRef .tc main_v22_2)) (kColI A⟨main_arg1⟩))

def In1_5 : Prop := @Eq (Mat 240000 256) (Hand.V3 m c (Pipeline.arrRef spec1 5)) (gath (W2 m c (Proc.devRef .tc main_v22_3)) (kColI A⟨main_arg1⟩))

def In1_6 : Prop := Hand.V3 m c (Pipeline.arrRef spec1 6) = A⟨main_arg4⟩

def In1_7 : Prop := Hand.V3 m c (Pipeline.arrRef spec1 7) = W1 m c (Proc.devRef .tc main_v7)

def In1_8 : Prop := Hand.V3 m c (Pipeline.arrRef spec1 8) = A⟨main_arg6⟩

def In1_9 : Prop := Hand.V3 m c (Pipeline.arrRef spec1 9) = W1 m c (Proc.devRef .tc main_v8)

def In1_10 : Prop := Hand.V3 m c (Pipeline.arrRef spec1 10) = W1 m c (Proc.devRef .tc main_v9)

def In1_11 : Prop := Hand.V3 m c (Pipeline.arrRef spec1 11) = W1 m c (Proc.devRef .tc main_v20)

def In1_12 : Prop := Hand.V3 m c (Pipeline.arrRef spec1 12) = W1 m c (Proc.devRef .tc main_v21)

def In2_0 : Prop := Hand.V5 m c (Pipeline.arrRef spec2 0) = A⟨main_arg0⟩

def In2_1 : Prop := Hand.V5 m c (Pipeline.arrRef spec2 1) = Host.scatterAdd scatter_S20000x256_S240000x1_S240000x256_1_0_0_1 (F := Ideal) (φ := .f32) (broadcastInDim S20000x256 ![] bcast_S_S20000x256 (constant (F := Ideal) S_ .f32 0x00000000#32))
      (W5 m c (Proc.devRef .tc main_v55)) (W4 m c (Proc.devRef .tc main_v52))

def V55_entry : Prop := W5 m c (Proc.devRef .tc main_v55) = broadcastInDim S240000x1 ![0] bcast_S240000_S240000x1_0 (W1 m c (Proc.devRef .tc main_v1))

def In2_2 : Prop := Hand.V5 m c (Pipeline.arrRef spec2 2) = A⟨main_arg16⟩

def In2_3 : Prop := Hand.V5 m c (Pipeline.arrRef spec2 3) = W1 m c (Proc.devRef .tc main_v6)

end KV

namespace KV

/-! ## The edge messages are the specification's, by its definition -/

/-- The specification's message function is the combination of the gathered normalised, value, query and key rows with
    the perceptron weights and the scores: its definition, with the normalised rows written out at each use. -/
theorem messages_eq (x : Mat 20000 256) (rowI colI : IdxCol) (rbf : Mat 240000 64) (cut : Fin 240000 → EReal)
    (w1 : Mat 64 256) (b1 : Fin 256 → EReal) (w2 : Mat 256 256) (b2 lw lb : Fin 256 → EReal)
    (wq : Mat 256 256) (bq : Fin 256 → EReal) (wk : Mat 256 256) (bk : Fin 256 → EReal)
    (wv : Mat 256 256) (bv : Fin 256 → EReal) (g : EReal) :
    messages x rowI colI rbf cut w1 b1 w2 b2 lw lb wq bq wk bk wv bv g =
      combined (gath (layerNorm x lw lb) colI) (gath (lin (layerNorm x lw lb) wv bv) colI) (wphys rbf w1 b1 w2 b2 cut)
        (scores (gath (lin (layerNorm x lw lb) wq bq) rowI) (gath (lin (layerNorm x lw lb) wk bk) colI) cut) g := rfl

/-! ## The node stage's four arrays at region 0's exit -/

/-- The first result array holds the normalised rows of the features. -/
theorem xn_eq (hFinal0_5 : KV.Final0_5) (hIn0_0 : KV.In0_0 m c) (hIn0_1 : KV.In0_1 m c) (hIn0_2 : KV.In0_2 m c) :
    @Eq (Mat 20000 256) (W2 m c (Proc.devRef .tc main_v22_0)) (layerNorm A⟨main_arg0⟩ (fun k : Fin 256 => A⟨main_arg8⟩ (ix1 k)) (fun k : Fin 256 => A⟨main_arg9⟩ (ix1 k))) :=
  Eq.trans (Eq.trans (W2_arr m c 5) (hFinal0_5 (Hand.V1 m) c)) (layerNorm_congr hIn0_0 (funext hIn0_1) (funext hIn0_2))

/-- Result array 1 holds the query rows: the normalised rows mapped by slice 0 of the fused weights and bias. -/
theorem lin0_eq (hFinal0_6 : KV.Final0_6) (hIn0_0 : KV.In0_0 m c) (hIn0_1 : KV.In0_1 m c) (hIn0_2 : KV.In0_2 m c) (hIn0_3_0 : KV.In0_3_0 m c) (hIn0_4_0 : KV.In0_4_0 m c) :
    @Eq (Mat 20000 256) (W2 m c (Proc.devRef .tc main_v22_1)) (lin (layerNorm A⟨main_arg0⟩ (fun k : Fin 256 => A⟨main_arg8⟩ (ix1 k)) (fun k : Fin 256 => A⟨main_arg9⟩ (ix1 k))) A⟨main_arg10⟩ (fun k : Fin 256 => A⟨main_arg11⟩ (ix1 k))) :=
  Eq.trans (Eq.trans (W2_arr m c 6) (hFinal0_6 (Hand.V1 m) c))
    (lin_congr (layerNorm_congr hIn0_0 (funext hIn0_1) (funext hIn0_2)) hIn0_3_0 hIn0_4_0)

/-- Result array 2 holds the key rows: the normalised rows mapped by slice 1 of the fused weights and bias. -/
theorem lin1_eq (hFinal0_7 : KV.Final0_7) (hIn0_0 : KV.In0_0 m c) (hIn0_1 : KV.In0_1 m c) (hIn0_2 : KV.In0_2 m c) (hIn0_3_1 : KV.In0_3_1 m c) (hIn0_4_1 : KV.In0_4_1 m c) :
    @Eq (Mat 20000 256) (W2 m c (Proc.devRef .tc main_v22_2)) (lin (layerNorm A⟨main_arg0⟩ (fun k : Fin 256 => A⟨main_arg8⟩ (ix1 k)) (fun k : Fin 256 => A⟨main_arg9⟩ (ix1 k))) A⟨main_arg12⟩ (fun k : Fin 256 => A⟨main_arg13⟩ (ix1 k))) :=
  Eq.trans (Eq.trans (W2_arr m c 7) (hFinal0_7 (Hand.V1 m) c))
    (lin_congr (layerNorm_congr hIn0_0 (funext hIn0_1) (funext hIn0_2)) hIn0_3_1 hIn0_4_1)

/-- Result array 3 holds the value rows: the normalised rows mapped by slice 2 of the fused weights and bias. -/
theorem lin2_eq (hFinal0_8 : KV.Final0_8) (hIn0_0 : KV.In0_0 m c) (hIn0_1 : KV.In0_1 m c) (hIn0_2 : KV.In0_2 m c) (hIn0_3_2 : KV.In0_3_2 m c) (hIn0_4_2 : KV.In0_4_2 m c) :
    @Eq (Mat 20000 256) (W2 m c (Proc.devRef .tc main_v22_3)) (lin (layerNorm A⟨main_arg0⟩ (fun k : Fin 256 => A⟨main_arg8⟩ (ix1 k)) (fun k : Fin 256 => A⟨main_arg9⟩ (ix1 k))) A⟨main_arg14⟩ (fun k : Fin 256 => A⟨main_arg15⟩ (ix1 k))) :=
  Eq.trans (Eq.trans (W2_arr m c 8) (hFinal0_8 (Hand.V1 m) c))
    (lin_congr (layerNorm_congr hIn0_0 (funext hIn0_1) (funext hIn0_2)) hIn0_3_2 hIn0_4_2)

/-! ## The edge stage's array at region 1's exit -/

set_option maxHeartbeats 1000000 in
/-- The edge stage's result array holds every edge's message: its thirteen inputs are the arguments, the reshaped rows and
    the gathered rows of the node stage's four arrays; the head-indicator blocks are what the edge stage's value needs. -/
theorem msg_eq (hFinal0_5 : KV.Final0_5) (hFinal0_6 : KV.Final0_6) (hFinal0_7 : KV.Final0_7) (hFinal0_8 : KV.Final0_8) (hFinal1_13 : KV.Final1_13) (hIn0_0 : KV.In0_0 m c) (hIn0_1 : KV.In0_1 m c) (hIn0_2 : KV.In0_2 m c) (hIn0_3_0 : KV.In0_3_0 m c) (hIn0_3_1 : KV.In0_3_1 m c) (hIn0_3_2 : KV.In0_3_2 m c) (hIn0_4_0 : KV.In0_4_0 m c) (hIn0_4_1 : KV.In0_4_1 m c) (hIn0_4_2 : KV.In0_4_2 m c) (hS_entry : KV.S_entry m c) (hST_entry : KV.ST_entry m c) (hV7_entry : KV.V7_entry m c) (hV8_entry : KV.V8_entry m c) (hV9_entry : KV.V9_entry m c) (hIn1_0 : KV.In1_0 m c) (hIn1_1 : KV.In1_1 m c) (hIn1_2 : KV.In1_2 m c kColI) (hIn1_3 : KV.In1_3 m c kRowI) (hIn1_4 : KV.In1_4 m c kColI) (hIn1_5 : KV.In1_5 m c kColI) (hIn1_6 : KV.In1_6 m c) (hIn1_7 : KV.In1_7 m c) (hIn1_8 : KV.In1_8 m c) (hIn1_9 : KV.In1_9 m c) (hIn1_10 : KV.In1_10 m c) (hIn1_11 : KV.In1_11 m c) (hIn1_12 : KV.In1_12 m c)
    (hscale : ∀ x : EReal, x * Named.named (F := Ideal) Cert.KernelIdeal.κ "inv_sqrt_hd" (φ := .f32) 0x3E3504F3#32 = Ideal.div x (lit 0x40B504F3#32)) :
    @Eq (Mat 240000 256) (W4 m c (Proc.devRef .tc main_v52)) (messages A⟨main_arg0⟩ (kRowI A⟨main_arg1⟩) (kColI A⟨main_arg1⟩) A⟨main_arg2⟩ (fun e => A⟨main_arg3⟩ (ix1 e)) A⟨main_arg4⟩ (fun k : Fin 256 => A⟨main_arg5⟩ (ix1 k)) A⟨main_arg6⟩ (fun k : Fin 256 => A⟨main_arg7⟩ (ix1 k)) (fun k : Fin 256 => A⟨main_arg8⟩ (ix1 k)) (fun k : Fin 256 => A⟨main_arg9⟩ (ix1 k)) A⟨main_arg10⟩ (fun k : Fin 256 => A⟨main_arg11⟩ (ix1 k)) A⟨main_arg12⟩ (fun k : Fin 256 => A⟨main_arg13⟩ (ix1 k)) A⟨main_arg14⟩ (fun k : Fin 256 => A⟨main_arg15⟩ (ix1 k)) (A⟨main_arg18⟩ (ix1 (0 : Fin 1)))) :=
  Eq.trans
    (Eq.trans (Eq.trans (W4_arr m c 13)
        (hFinal1_13 (Hand.V3 m) c hscale
          (fun j h => Eq.trans (congrFun hIn1_11 (ix2 j h)) (hS_entry j h))
          (fun h j => Eq.trans (congrFun hIn1_12 (ix2 h j)) (hST_entry h j))))
      (combined_congr
        (Eq.trans hIn1_2 (gath_congr (xn_eq m c hFinal0_5 hIn0_0 hIn0_1 hIn0_2) _))
        (Eq.trans hIn1_5 (gath_congr (lin2_eq m c hFinal0_8 hIn0_0 hIn0_1 hIn0_2 hIn0_3_2 hIn0_4_2) _))
        (wphys_congr hIn1_0 hIn1_6 (funext fun k => Eq.trans (congrFun hIn1_7 (ix2 (0 : Fin 1) k)) (hV7_entry k)) hIn1_8
          (funext fun k => Eq.trans (congrFun hIn1_9 (ix2 (0 : Fin 1) k)) (hV8_entry k)) (funext hIn1_1))
        (scores_congr (Eq.trans hIn1_3 (gath_congr (lin0_eq m c hFinal0_6 hIn0_0 hIn0_1 hIn0_2 hIn0_3_0 hIn0_4_0) _)) (Eq.trans hIn1_4 (gath_congr (lin1_eq m c hFinal0_7 hIn0_0 hIn0_1 hIn0_2 hIn0_3_1 hIn0_4_1) _)) (funext hIn1_1))
        (Eq.trans (congrFun hIn1_10 (ix2 (0 : Fin 1) (0 : Fin 1))) hV9_entry)))
    (messages_eq _ _ _ _ _ _ _ _ _ _ _ _ _ _ _ _ _ _).symm

/-! ## The output stage's array at region 2's exit -/

set_option maxHeartbeats 1000000 in
/-- The result array holds the output map of the features and of the scatter-sum of the edge messages. -/
theorem chain (hFinal0_5 : KV.Final0_5) (hFinal0_6 : KV.Final0_6) (hFinal0_7 : KV.Final0_7) (hFinal0_8 : KV.Final0_8) (hFinal1_13 : KV.Final1_13) (hIn0_0 : KV.In0_0 m c) (hIn0_1 : KV.In0_1 m c) (hIn0_2 : KV.In0_2 m c) (hIn0_3_0 : KV.In0_3_0 m c) (hIn0_3_1 : KV.In0_3_1 m c) (hIn0_3_2 : KV.In0_3_2 m c) (hIn0_4_0 : KV.In0_4_0 m c) (hIn0_4_1 : KV.In0_4_1 m c) (hIn0_4_2 : KV.In0_4_2 m c) (hS_entry : KV.S_entry m c) (hST_entry : KV.ST_entry m c) (hV7_entry : KV.V7_entry m c) (hV8_entry : KV.V8_entry m c) (hV9_entry : KV.V9_entry m c) (hIn1_0 : KV.In1_0 m c) (hIn1_1 : KV.In1_1 m c) (hIn1_2 : KV.In1_2 m c kColI) (hIn1_3 : KV.In1_3 m c kRowI) (hIn1_4 : KV.In1_4 m c kColI) (hIn1_5 : KV.In1_5 m c kColI) (hIn1_6 : KV.In1_6 m c) (hIn1_7 : KV.In1_7 m c) (hIn1_8 : KV.In1_8 m c) (hIn1_9 : KV.In1_9 m c) (hIn1_10 : KV.In1_10 m c) (hIn1_11 : KV.In1_11 m c) (hIn1_12 : KV.In1_12 m c) (hFinal2_4 : KV.Final2_4) (hV6_entry : KV.V6_entry m c) (hIn2_0 : KV.In2_0 m c) (hIn2_1 : KV.In2_1 m c) (hV55_entry : KV.V55_entry m c) (hIn2_2 : KV.In2_2 m c) (hIn2_3 : KV.In2_3 m c)
    (hscale : ∀ x : EReal, x * Named.named (F := Ideal) Cert.KernelIdeal.κ "inv_sqrt_hd" (φ := .f32) 0x3E3504F3#32 = Ideal.div x (lit 0x40B504F3#32)) :
    @Eq (Mat 20000 256) (W6 m c (Proc.devRef .tc main_v57))
      (outF A⟨main_arg0⟩
        (Host.scatterAdd scatter_S20000x256_S240000x1_S240000x256_1_0_0_1 (F := Ideal) (φ := .f32) (broadcastInDim S20000x256 ![] bcast_S_S20000x256 (constant (F := Ideal) S_ .f32 0x00000000#32))
          (broadcastInDim S240000x1 ![0] bcast_S240000_S240000x1_0 (W1 m c (Proc.devRef .tc main_v1)))
          (messages A⟨main_arg0⟩ (kRowI A⟨main_arg1⟩) (kColI A⟨main_arg1⟩) A⟨main_arg2⟩ (fun e => A⟨main_arg3⟩ (ix1 e)) A⟨main_arg4⟩ (fun k : Fin 256 => A⟨main_arg5⟩ (ix1 k)) A⟨main_arg6⟩ (fun k : Fin 256 => A⟨main_arg7⟩ (ix1 k)) (fun k : Fin 256 => A⟨main_arg8⟩ (ix1 k)) (fun k : Fin 256 => A⟨main_arg9⟩ (ix1 k)) A⟨main_arg10⟩ (fun k : Fin 256 => A⟨main_arg11⟩ (ix1 k)) A⟨main_arg12⟩ (fun k : Fin 256 => A⟨main_arg13⟩ (ix1 k)) A⟨main_arg14⟩ (fun k : Fin 256 => A⟨main_arg15⟩ (ix1 k)) (A⟨main_arg18⟩ (ix1 (0 : Fin 1)))))
        A⟨main_arg16⟩ (fun k : Fin 256 => A⟨main_arg17⟩ (ix1 k))) :=
  Eq.trans (Eq.trans (W6_arr m c 4) (hFinal2_4 (Hand.V5 m) c))
    (outF_congr hIn2_0
      (Eq.trans hIn2_1 (congrArg₂ (Host.scatterAdd scatter_S20000x256_S240000x1_S240000x256_1_0_0_1 (F := Ideal) (φ := .f32) (broadcastInDim S20000x256 ![] bcast_S_S20000x256 (constant (F := Ideal) S_ .f32 0x00000000#32))) hV55_entry
        (msg_eq m c kRowI kColI hFinal0_5 hFinal0_6 hFinal0_7 hFinal0_8 hFinal1_13 hIn0_0 hIn0_1 hIn0_2 hIn0_3_0 hIn0_3_1 hIn0_3_2 hIn0_4_0 hIn0_4_1 hIn0_4_2 hS_entry hST_entry hV7_entry hV8_entry hV9_entry hIn1_0 hIn1_1 hIn1_2 hIn1_3 hIn1_4 hIn1_5 hIn1_6 hIn1_7 hIn1_8 hIn1_9 hIn1_10 hIn1_11 hIn1_12 hscale)))
      hIn2_2 (funext fun k => Eq.trans (congrFun hIn2_3 (ix2 (0 : Fin 1) k)) (hV6_entry k)))

end KV

/-! ## The kernel's result -/

set_option maxHeartbeats 1000000 in
/-- The contents of the result array when @main returns, on core c from the launch memory m: the specification's output map
    of the features and of the scatter-sum, into the row nodes, of the specification's edge messages of the arguments. The one
    hypothesis says that multiplying by the named scaling constant is dividing by the constant the specification divides by. -/
theorem kernel_result (hscale : ∀ x : EReal, x * Named.named (F := Ideal) Cert.KernelIdeal.κ "inv_sqrt_hd" (φ := .f32) 0x3E3504F3#32 = Ideal.div x (lit 0x40B504F3#32)) :
    @Eq (Mat 20000 256) (W6 m c (Proc.devRef .tc main_v57))
      (outF A⟨main_arg0⟩
        (Host.scatterAdd scatter_S20000x256_S240000x1_S240000x256_1_0_0_1 (F := Ideal) (φ := .f32) (broadcastInDim S20000x256 ![] bcast_S_S20000x256 (constant (F := Ideal) S_ .f32 0x00000000#32))
          (broadcastInDim S240000x1 ![0] bcast_S240000_S240000x1_0 (W1 m c (Proc.devRef .tc main_v1)))
          (messages A⟨main_arg0⟩ (H.kRowI A⟨main_arg1⟩) (H.kColI A⟨main_arg1⟩) A⟨main_arg2⟩ (fun e => A⟨main_arg3⟩ (ix1 e)) A⟨main_arg4⟩ (fun k : Fin 256 => A⟨main_arg5⟩ (ix1 k)) A⟨main_arg6⟩ (fun k : Fin 256 => A⟨main_arg7⟩ (ix1 k)) (fun k : Fin 256 => A⟨main_arg8⟩ (ix1 k)) (fun k : Fin 256 => A⟨main_arg9⟩ (ix1 k)) A⟨main_arg10⟩ (fun k : Fin 256 => A⟨main_arg11⟩ (ix1 k)) A⟨main_arg12⟩ (fun k : Fin 256 => A⟨main_arg13⟩ (ix1 k)) A⟨main_arg14⟩ (fun k : Fin 256 => A⟨main_arg15⟩ (ix1 k)) (A⟨main_arg18⟩ (ix1 (0 : Fin 1)))))
        A⟨main_arg16⟩ (fun k : Fin 256 => A⟨main_arg17⟩ (ix1 k))) :=
  KV.chain m c H.kRowI H.kColI final0_5 final0_6 final0_7 final0_8 final1_13 (H.in0_0 m c) (H.in0_1 m c) (H.in0_2 m c) (H.in0_3_0 m c) (H.in0_3_1 m c) (H.in0_3_2 m c) (H.in0_4_0 m c) (H.in0_4_1 m c) (H.in0_4_2 m c) (H.S_entry m c) (H.ST_entry m c) (H.v7_entry m c) (H.v8_entry m c) (H.v9_entry m c) (H.in1_0 m c) (H.in1_1 m c) (H.in1_2 m c) (H.in1_3 m c) (H.in1_4 m c) (H.in1_5 m c) (H.in1_6 m c) (H.in1_7 m c) (H.in1_8 m c) (H.in1_9 m c) (H.in1_10 m c) (H.in1_11 m c) (H.in1_12 m c) final2_4 (H.v6_entry m c) (H.in2_0 m c) (H.in2_1 m c) (H.v55_entry m c) (H.in2_2 m c) (H.in2_3 m c) hscale

end Cert.KernelIdeal.Val

end
-- ==== Proof.Cross.lean ====
/-
  The two programs print the same host operations on the edge-index argument and the same scatter-add, each with its own
  copy of the shape names and side conditions. Here the two spellings are identified: the raw row-index column, the zero
  array the scatter-add starts from, the scatter record, and the two normalised index columns. The shapes are the same
  literal shapes and the side conditions are proofs of the same propositions, so each identification is by computation.
-/
import proofs.«175260_j20066087207295_2_alg».proof.Proof.FoldI
import proofs.«175260_j20066087207295_2_alg».proof.Proof.HostB
import proofs.«175260_j20066087207295_2_alg».proof.Proof.Gen.KernelIdeal.Regions
import proofs.«175260_j20066087207295_2_alg».proof.Proof.Gen.ReferenceIdeal.Read
import proofs.«175260_j20066087207295_2_alg».proof.Proof.Spec

noncomputable section

namespace Cert.Proof.Cross

open Idealize.ShloMosaic Idealize.ShloMosaic.TcCoe Idealize.SL.Sem

/-- The raw row-index column: the kernel program's flattened row 0 of the edge-index argument, laid out as a column,
    is the reference program's. -/
theorem rowRaw_eq (m : (ℓ : Loc Cert.KernelIdeal.nD Cert.KernelIdeal.τ Cert.KernelIdeal.sig) → Buf (Elt Ideal) ℓ)
    (c : Dev Cert.KernelIdeal.nD) :
    broadcastInDim Cert.KernelIdeal.S240000x1 ![0] Cert.KernelIdeal.Gen.bcast_S240000_S240000x1_0
        (Cert.KernelIdeal.Hand.W1 m c (Proc.devRef .tc Cert.KernelIdeal.main_v1))
      = Cert.ReferenceIdeal.Read.val_main_v111 (F := Ideal)
          (m ((c : Thread Cert.KernelIdeal.nD Cert.KernelIdeal.τ).loc Cert.KernelIdeal.main_arg1)) := by
  have h : Cert.KernelIdeal.Hand.W1 m c (Proc.devRef .tc Cert.KernelIdeal.main_v1)
      = Cert.KernelIdeal.Val.H.B.flat0
          (m ((c : Thread Cert.KernelIdeal.nD Cert.KernelIdeal.τ).loc Cert.KernelIdeal.main_arg1)) :=
    Cert.KernelIdeal.Val.H.B.v1_term (Cert.KernelIdeal.Hand.W0 m c)
  rw [h]
  rfl

/-- The zero array the scatter-add starts from. -/
theorem zeros_eq :
    Cert.ReferenceIdeal.Read.val_main_v110 (F := Ideal)
      = broadcastInDim Cert.KernelIdeal.S20000x256 ![] Cert.KernelIdeal.Gen.bcast_S_S20000x256
          (constant (F := Ideal) Cert.KernelIdeal.S_ .f32 0x00000000#32) := rfl

/-- The two programs' scatter records have the same fields. -/
theorem scatter_eq (z : Cert.Hyb.Mat 20000 256) (ix : Cert.Hyb.IdxCol) (u : Cert.Hyb.Mat 240000 256) :
    Host.scatterAdd (F := Ideal) (φ := .f32) Cert.ReferenceIdeal.scatter_S20000x256_S240000x1_S240000x256_1_0_0_1 z ix u
      = Host.scatterAdd (F := Ideal) (φ := .f32) Cert.KernelIdeal.scatter_S20000x256_S240000x1_S240000x256_1_0_0_1 z ix u := rfl

/-- The normalised row-index column of the reference program is the kernel program's. -/
theorem rowI_eq (a1 : IVec Cert.KernelIdeal.S2x240000 32) :
    Cert.ReferenceIdeal.Read.val_main_v68 (F := Ideal) a1 = Cert.KernelIdeal.Val.H.kRowI a1 := rfl

/-- The normalised col-index column likewise. -/
theorem colI_eq (a1 : IVec Cert.KernelIdeal.S2x240000 32) :
    Cert.ReferenceIdeal.Read.val_main_v45 (F := Ideal) a1 = Cert.KernelIdeal.Val.H.kColI a1 := rfl

end Cert.Proof.Cross

end
-- ==== Proof.Final.lean ====
/-
  The two result terms and their agreement.

  The kernel's result array at the last boundary and the reference's composed term are each the same function of their
  launch memory's argument arrays: the input plus a linear map of the aggregate, the aggregate one scatter-add of the
  edge messages into their row nodes from zero, the messages the specification's function of the arguments and of the two
  columns of index words cut out of the edge-index argument. On memories agreeing on the arguments the two programs'
  zeros, index columns and scatter-add records are the same, so the two results are one value.
-/
import proofs.«175260_j20066087207295_2_alg».proof.Proof.Claims
import proofs.«175260_j20066087207295_2_alg».proof.Proof.HostB
import proofs.«175260_j20066087207295_2_alg».proof.Proof.RefFinal
import proofs.«175260_j20066087207295_2_alg».proof.Proof.KernelVal
import proofs.«175260_j20066087207295_2_alg».proof.Proof.Cross

set_option maxRecDepth 16384

noncomputable section

namespace Cert.Proof.Final

open Idealize.ShloMosaic Idealize.ShloMosaic.TcCoe Idealize.ShloMosaic.ValueIdx Idealize.SL.Sem Cert.Hyb

/-- A 256-entry row as a function of its column. -/
abbrev lwf (v : (⟨(⟨1, ![256]⟩ : Shape), .f32⟩ : BufTy).Contents (Elt Ideal)) : Fin 256 → EReal := fun k => v (ix1 k)

/-! ## The two result terms -/

/-- The kernel's result as a function of the argument arrays and of the vector of row-index words the first host stretch
    leaves: the input plus the linear map of the scatter-add, from zero, of the edge messages at the row-index column. -/
def GKof (a0 : (⟨Cert.KernelIdeal.S20000x256, .f32⟩ : BufTy).Contents (Elt Ideal)) (a1 : (⟨Cert.KernelIdeal.S2x240000, .i32⟩ : BufTy).Contents (Elt Ideal)) (a2 : (⟨Cert.KernelIdeal.S240000x64, .f32⟩ : BufTy).Contents (Elt Ideal)) (a3 : (⟨Cert.KernelIdeal.S240000, .f32⟩ : BufTy).Contents (Elt Ideal)) (a4 : (⟨Cert.KernelIdeal.S64x256, .f32⟩ : BufTy).Contents (Elt Ideal)) (a5 : (⟨Cert.KernelIdeal.S256, .f32⟩ : BufTy).Contents (Elt Ideal)) (a6 : (⟨Cert.KernelIdeal.S256x256, .f32⟩ : BufTy).Contents (Elt Ideal)) (a7 : (⟨Cert.KernelIdeal.S256, .f32⟩ : BufTy).Contents (Elt Ideal)) (a8 : (⟨Cert.KernelIdeal.S256, .f32⟩ : BufTy).Contents (Elt Ideal)) (a9 : (⟨Cert.KernelIdeal.S256, .f32⟩ : BufTy).Contents (Elt Ideal)) (a10 : (⟨Cert.KernelIdeal.S256x256, .f32⟩ : BufTy).Contents (Elt Ideal)) (a11 : (⟨Cert.KernelIdeal.S256, .f32⟩ : BufTy).Contents (Elt Ideal)) (a12 : (⟨Cert.KernelIdeal.S256x256, .f32⟩ : BufTy).Contents (Elt Ideal)) (a13 : (⟨Cert.KernelIdeal.S256, .f32⟩ : BufTy).Contents (Elt Ideal)) (a14 : (⟨Cert.KernelIdeal.S256x256, .f32⟩ : BufTy).Contents (Elt Ideal)) (a15 : (⟨Cert.KernelIdeal.S256, .f32⟩ : BufTy).Contents (Elt Ideal)) (a16 : (⟨Cert.KernelIdeal.S256x256, .f32⟩ : BufTy).Contents (Elt Ideal)) (a17 : (⟨Cert.KernelIdeal.S256, .f32⟩ : BufTy).Contents (Elt Ideal)) (a18 : (⟨Cert.KernelIdeal.S1, .f32⟩ : BufTy).Contents (Elt Ideal)) (v1 : IVec Cert.KernelIdeal.S240000 32) : Mat 20000 256 :=
  outF a0
    (Host.scatterAdd Cert.KernelIdeal.scatter_S20000x256_S240000x1_S240000x256_1_0_0_1 (F := Ideal) (φ := .f32) (broadcastInDim Cert.KernelIdeal.S20000x256 ![] Cert.KernelIdeal.Gen.bcast_S_S20000x256 (constant (F := Ideal) Cert.KernelIdeal.S_ .f32 0x00000000#32))
      (broadcastInDim Cert.KernelIdeal.S240000x1 ![0] Cert.KernelIdeal.Gen.bcast_S240000_S240000x1_0 v1)
      (messages a0 (Cert.KernelIdeal.Val.H.kRowI a1) (Cert.KernelIdeal.Val.H.kColI a1) a2 (fun e : Fin 240000 => a3 (ix1 e)) a4 (lwf a5) a6 (lwf a7) (lwf a8) (lwf a9) a10 (lwf a11) a12 (lwf a13) a14 (lwf a15) (a18 (ix1 (0 : Fin 1)))))
    a16 (lwf a17)

/-- The reference's result as a function of the argument arrays: the same shape, over the reference's own zeros, index
    columns and scatter-add record. -/
def GRof (x0 : (⟨Cert.ReferenceIdeal.S20000x256, .f32⟩ : BufTy).Contents (Elt Ideal)) (x1 : (⟨Cert.ReferenceIdeal.S2x240000, .i32⟩ : BufTy).Contents (Elt Ideal)) (x2 : (⟨Cert.ReferenceIdeal.S240000x64, .f32⟩ : BufTy).Contents (Elt Ideal)) (x3 : (⟨Cert.ReferenceIdeal.S240000, .f32⟩ : BufTy).Contents (Elt Ideal)) (x4 : (⟨Cert.ReferenceIdeal.S64x256, .f32⟩ : BufTy).Contents (Elt Ideal)) (x5 : (⟨Cert.ReferenceIdeal.S256, .f32⟩ : BufTy).Contents (Elt Ideal)) (x6 : (⟨Cert.ReferenceIdeal.S256x256, .f32⟩ : BufTy).Contents (Elt Ideal)) (x7 : (⟨Cert.ReferenceIdeal.S256, .f32⟩ : BufTy).Contents (Elt Ideal)) (x8 : (⟨Cert.ReferenceIdeal.S256, .f32⟩ : BufTy).Contents (Elt Ideal)) (x9 : (⟨Cert.ReferenceIdeal.S256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S256x256, .f32⟩ : BufTy).Contents (Elt Ideal)) (x13 : (⟨Cert.ReferenceIdeal.S256, .f32⟩ : BufTy).Contents (Elt Ideal)) (x14 : (⟨Cert.ReferenceIdeal.S256x256, .f32⟩ : BufTy).Contents (Elt Ideal)) (x15 : (⟨Cert.ReferenceIdeal.S256, .f32⟩ : BufTy).Contents (Elt Ideal)) (x16 : (⟨Cert.ReferenceIdeal.S256x256, .f32⟩ : BufTy).Contents (Elt Ideal)) (x17 : (⟨Cert.ReferenceIdeal.S256, .f32⟩ : BufTy).Contents (Elt Ideal)) (x18 : (⟨Cert.ReferenceIdeal.S1, .f32⟩ : BufTy).Contents (Elt Ideal)) : Mat 20000 256 :=
  outF x0
    (Host.scatterAdd Cert.ReferenceIdeal.scatter_S20000x256_S240000x1_S240000x256_1_0_0_1 (F := Ideal) (φ := .f32) (Cert.ReferenceIdeal.Read.val_main_v110 (F := Ideal))
      (Cert.ReferenceIdeal.Read.val_main_v111 (F := Ideal) x1)
      (messages x0 (Cert.ReferenceIdeal.Read.val_main_v68 (F := Ideal) x1) (Cert.ReferenceIdeal.Read.val_main_v45 (F := Ideal) x1) x2 (fun e : Fin 240000 => x3 (ix1 e)) x4 (lwf x5) x6 (lwf x7) (lwf x8) (lwf x9) x10 (lwf x11) x12 (lwf x13) x14 (lwf x15) (x18 (ix1 (0 : Fin 1)))))
    x16 (lwf x17)

/-- What the kernel's result array holds at the last boundary, from the launch memory. -/
def GK (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v57) :=
  GKof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
    (Cert.KernelIdeal.Hand.W1 m c (Proc.devRef .tc Cert.KernelIdeal.main_v1))

/-- The reference's composed result term, from the launch memory. -/
def GR (m' : (ℓ : Loc Cert.ReferenceIdeal.nD Cert.ReferenceIdeal.τ Cert.ReferenceIdeal.sig) → Buf (Elt Ideal) ℓ) (c : Dev Cert.ReferenceIdeal.nD) :
    Buf (Elt Ideal) ((c.tc : Thread Cert.ReferenceIdeal.nD Cert.ReferenceIdeal.τ).loc Cert.ReferenceIdeal.main_v117) :=
  GRof (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))

/-! ## Each program's result is its term -/

/-- The reference's composed term of the arguments is the specification's function of them. -/
theorem hR (m' : (ℓ : Loc Cert.ReferenceIdeal.nD Cert.ReferenceIdeal.τ Cert.ReferenceIdeal.sig) → Buf (Elt Ideal) ℓ) (c : Dev Cert.ReferenceIdeal.nD) : Cert.ReferenceIdeal.Value.res_main_v117 m' c = GR m' c :=
  (Cert.ReferenceIdeal.Read.val_main_v117_eq m' c).trans (Cert.ReferenceIdeal.RefVal.ref_result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)))

/-- The kernel's result array at the last boundary is its term. -/
theorem hK (m : (ℓ : Loc Cert.KernelIdeal.nD Cert.KernelIdeal.τ Cert.KernelIdeal.sig) → Buf (Elt Ideal) ℓ) (c : Dev Cert.KernelIdeal.nD) :
    Cert.KernelIdeal.Hand.W6 m c (Proc.devRef .tc Cert.KernelIdeal.main_v57) = GK m c :=
  Cert.KernelIdeal.Val.kernel_result m c Claims.hscale

/-! ## The two terms agree -/

/-- On the same argument arrays the reference's term is the kernel's, given that the kernel's row-index column is the
    reference's. -/
theorem of_eq (a0 : (⟨Cert.KernelIdeal.S20000x256, .f32⟩ : BufTy).Contents (Elt Ideal)) (a1 : (⟨Cert.KernelIdeal.S2x240000, .i32⟩ : BufTy).Contents (Elt Ideal)) (a2 : (⟨Cert.KernelIdeal.S240000x64, .f32⟩ : BufTy).Contents (Elt Ideal)) (a3 : (⟨Cert.KernelIdeal.S240000, .f32⟩ : BufTy).Contents (Elt Ideal)) (a4 : (⟨Cert.KernelIdeal.S64x256, .f32⟩ : BufTy).Contents (Elt Ideal)) (a5 : (⟨Cert.KernelIdeal.S256, .f32⟩ : BufTy).Contents (Elt Ideal)) (a6 : (⟨Cert.KernelIdeal.S256x256, .f32⟩ : BufTy).Contents (Elt Ideal)) (a7 : (⟨Cert.KernelIdeal.S256, .f32⟩ : BufTy).Contents (Elt Ideal)) (a8 : (⟨Cert.KernelIdeal.S256, .f32⟩ : BufTy).Contents (Elt Ideal)) (a9 : (⟨Cert.KernelIdeal.S256, .f32⟩ : BufTy).Contents (Elt Ideal)) (a10 : (⟨Cert.KernelIdeal.S256x256, .f32⟩ : BufTy).Contents (Elt Ideal)) (a11 : (⟨Cert.KernelIdeal.S256, .f32⟩ : BufTy).Contents (Elt Ideal)) (a12 : (⟨Cert.KernelIdeal.S256x256, .f32⟩ : BufTy).Contents (Elt Ideal)) (a13 : (⟨Cert.KernelIdeal.S256, .f32⟩ : BufTy).Contents (Elt Ideal)) (a14 : (⟨Cert.KernelIdeal.S256x256, .f32⟩ : BufTy).Contents (Elt Ideal)) (a15 : (⟨Cert.KernelIdeal.S256, .f32⟩ : BufTy).Contents (Elt Ideal)) (a16 : (⟨Cert.KernelIdeal.S256x256, .f32⟩ : BufTy).Contents (Elt Ideal)) (a17 : (⟨Cert.KernelIdeal.S256, .f32⟩ : BufTy).Contents (Elt Ideal)) (a18 : (⟨Cert.KernelIdeal.S1, .f32⟩ : BufTy).Contents (Elt Ideal)) (v1 : IVec Cert.KernelIdeal.S240000 32)
    (hrow : (broadcastInDim Cert.KernelIdeal.S240000x1 ![0] Cert.KernelIdeal.Gen.bcast_S240000_S240000x1_0 v1) = Cert.ReferenceIdeal.Read.val_main_v111 (F := Ideal) a1) :
    GRof a0 a1 a2 a3 a4 a5 a6 a7 a8 a9 a10 a11 a12 a13 a14 a15 a16 a17 a18 = GKof a0 a1 a2 a3 a4 a5 a6 a7 a8 a9 a10 a11 a12 a13 a14 a15 a16 a17 a18 v1 := by
  unfold GRof GKof
  rw [Cross.zeros_eq, Cross.rowI_eq, Cross.colI_eq, ← hrow, Cross.scatter_eq]

/-- From memories agreeing on the arguments the two result terms are one value. -/
theorem hG (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) (h : Claims.Agree m m' c) : GR m' c = GK m c := by
  obtain ⟨h0, h1, h2, h3, h4, h5, h6, h7, h8, h9, h10, h11, h12, h13, h14, h15, h16, h17, h18⟩ := h
  unfold GR GK
  rw [h0, h1, h2, h3, h4, h5, h6, h7, h8, h9, h10, h11, h12, h13, h14, h15, h16, h17, h18]
  exact of_eq _ _ _ _ _ _ _ _ _ _ _ _ _ _ _ _ _ _ _ _ (Cross.rowRaw_eq m c)

end Cert.Proof.Final

end
-- ==== Proof.lean ====
/-
  The certificate's claim. The kernel as printed, its idealization and the idealized reference each run from any launch
  memory whose inputs are finite: every weakly fair execution terminates without fault and leaves the argument arrays as
  they were. The idealization differs from the printed kernel in one named constant, which at the ideal instance is the
  rational its table gives it. And at the ideal instance, from memories agreeing on the arguments, the kernel's result
  array and the reference's end equal as extended reals, element by element. The claim is assembled from the three
  frames, the one named constant, and the equality of the two programs' result terms as one function of the argument arrays.
-/
import proofs.«175260_j20066087207295_2_alg».proof.Defs
import proofs.«175260_j20066087207295_2_alg».proof.Proof.Gen.Kernel
import proofs.«175260_j20066087207295_2_alg».proof.Proof.Gen.Kernel.Skeleton
import proofs.«175260_j20066087207295_2_alg».proof.Proof.Gen.Kernel.Launch
import proofs.«175260_j20066087207295_2_alg».proof.Proof.Gen.Kernel.Regions
import proofs.«175260_j20066087207295_2_alg».proof.Proof.Gen.Kernel.Points
import proofs.«175260_j20066087207295_2_alg».proof.Proof.Gen.KernelIdeal
import proofs.«175260_j20066087207295_2_alg».proof.Proof.Gen.KernelIdeal.Skeleton
import proofs.«175260_j20066087207295_2_alg».proof.Proof.Gen.KernelIdeal.Launch
import proofs.«175260_j20066087207295_2_alg».proof.Proof.Gen.KernelIdeal.Regions
import proofs.«175260_j20066087207295_2_alg».proof.Proof.Gen.KernelIdeal.Points
import proofs.«175260_j20066087207295_2_alg».proof.Proof.Gen.ReferenceIdeal
import proofs.«175260_j20066087207295_2_alg».proof.Proof.Gen.Pre_finite_inputs
import proofs.«175260_j20066087207295_2_alg».proof.Proof.Gen.ReferenceIdeal.Read
import Idealize.ShloMosaic.Adequacy
import Idealize.ShloMosaic.Init
import proofs.«175260_j20066087207295_2_alg».proof.Proof.Claims
import proofs.«175260_j20066087207295_2_alg».proof.Proof.Final

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Claims.frame_k, Claims.frame_ki, Claims.frame_ri, Claims.preserves, Claims.algebraic Final.GK Final.GR Final.hK Final.hR Final.hG⟩

end Cert.Proof

end
